-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x9577 : Shape := ⟨2, ![1024, 9577]⟩
abbrev S800000 : Shape := ⟨1, ![800000]⟩
abbrev S100000 : Shape := ⟨1, ![100000]⟩
abbrev S9577x2048 : Shape := ⟨2, ![9577, 2048]⟩
abbrev S2048 : Shape := ⟨1, ![2048]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1x128 : Shape := ⟨2, ![1, 128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S_ : Shape := ⟨0, ![]⟩

class Facts : Prop where
  bcast_S_S1024x9577 : S_.BroadcastsInDim S1024x9577 (![] : Fin 0 → Fin S1024x9577.rank)
  reducesTo_S1024x9577_S_d0_1 : S1024x9577.ReducesTo [0, 1] S_
  h_S_ : 0 < S_.numel
  bcast_S_S9577x2048 : S_.BroadcastsInDim S9577x2048 (![] : Fin 0 → Fin S9577x2048.rank)
  reducesTo_S9577x2048_S_d0_1 : S9577x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg15 : FVec F S512 .f32) (main_v117 : IVec S_ 1) (main_v118 : FVec F S512 .f32) : IVec S_ 1 :=
  let main_v119 : IVec S512 1 := cmpf .oge main_arg15 main_v118
  let main_c_47 : IVec S_ 1 := constantI S_ 1 1#1
  let main_v120 : IVec S_ 1 := (fun x v => Host.reduce IntOp.andi x v reducesTo_S512_S_d0 h_S_) main_v119 main_c_47
  let main_v121 : IVec S_ 1 := andi main_v117 main_v120
  main_v121

def fn_part6 {F : FTy → Type} [FloatOps F] (main_arg9 : FVec F S2048 .f32) (main_arg15 : FVec F S512 .f32) (main_arg24 : FVec F S256x1 .f32) (main_arg25 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x1 .f32 := Host.absf main_arg24
  let main_cst_40 : FVec F S_ .f32 := constant S_ .f32 0x7F800000#32
  let main_v105 : FVec F S256x1 .f32 := broadcastInDim S256x1 ![] bcast_S_S256x1 main_cst_40
  let main_v106 : IVec S256x1 1 := cmpf .olt main_v104 main_v105
  let main_c_41 : IVec S_ 1 := constantI S_ 1 1#1
  let main_v107 : IVec S_ 1 := (fun x v => Host.reduce IntOp.andi x v reducesTo_S256x1_S_d0_1 h_S_) main_v106 main_c_41
  let main_v108 : IVec S_ 1 := andi main_v103 main_v107
  let main_v109 : FVec F S1 .f32 := Host.absf main_arg25
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_cst_44 : FVec F S_ .f32 := constant S_ .f32 0x00000000#32
  let main_v114 : FVec F S2048 .f32 := broadcastInDim S2048 ![] bcast_S_S2048 main_cst_44
  let main_v115 : IVec S2048 1 := cmpf .oge main_arg9 main_v114
  let main_c_45 : IVec S_ 1 := constantI S_ 1 1#1
  let main_v116 : IVec S_ 1 := (fun x v => Host.reduce IntOp.andi x v reducesTo_S2048_S_d0 h_S_) main_v115 main_c_45
  let main_v117 : IVec S_ 1 := andi main_v113 main_v116
  let main_cst_46 : FVec F S_ .f32 := constant S_ .f32 0x00000000#32
  let main_v118 : FVec F S512 .f32 := broadcastInDim S512 ![] bcast_S_S512 main_cst_46
  fn_part7 (F := F) main_arg15 main_v117 main_v118

def fn_part5 {F : FTy → Type} [FloatOps F] (main_arg9 : FVec F S2048 .f32) (main_arg15 : FVec F S512 .f32) (main_arg21 : FVec F S256 .f32) (main_arg22 : FVec F S256x128 .f32) (main_arg23 : FVec F S128 .f32) (main_arg24 : FVec F S256x1 .f32) (main_arg25 : FVec F S1 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S256 .f32 := Host.absf main_arg21
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg22
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg9 main_arg15 main_arg24 main_arg25 main_v98 main_v101 main_c_39

def fn_part4 {F : FTy → Type} [FloatOps F] (main_arg9 : FVec F S2048 .f32) (main_arg15 : FVec F S512 .f32) (main_arg17 : FVec F S128 .f32) (main_arg18 : FVec F S1x128 .f32) (main_arg19 : FVec F S128 .f32) (main_arg20 : FVec F S128x256 .f32) (main_arg21 : FVec F S256 .f32) (main_arg22 : FVec F S256x128 .f32) (main_arg23 : FVec F S128 .f32) (main_arg24 : FVec F S256x1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S1x128 .f32 := Host.absf main_arg18
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x256 .f32 := Host.absf main_arg20
  let main_cst_32 : FVec F S_ .f32 := constant S_ .f32 0x7F800000#32
  fn_part5 (F := F) main_arg9 main_arg15 main_arg21 main_arg22 main_arg23 main_arg24 main_arg25 main_v83 main_v84 main_cst_32

def fn_part3 {F : FTy → Type} [FloatOps F] (main_arg9 : FVec F S2048 .f32) (main_arg14 : FVec F S512 .f32) (main_arg15 : FVec F S512 .f32) (main_arg16 : FVec F S512x128 .f32) (main_arg17 : FVec F S128 .f32) (main_arg18 : FVec F S1x128 .f32) (main_arg19 : FVec F S128 .f32) (main_arg20 : FVec F S128x256 .f32) (main_arg21 : FVec F S256 .f32) (main_arg22 : FVec F S256x128 .f32) (main_arg23 : FVec F S128 .f32) (main_arg24 : FVec F S256x1 .f32) (main_arg25 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg16
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg9 main_arg15 main_arg17 main_arg18 main_arg19 main_arg20 main_arg21 main_arg22 main_arg23 main_arg24 main_arg25 main_v63 main_v67

def fn_part2 {F : FTy → Type} [FloatOps F] (main_arg9 : FVec F S2048 .f32) (main_arg10 : FVec F S2048x512 .f32) (main_arg11 : FVec F S512 .f32) (main_arg12 : FVec F S512 .f32) (main_arg13 : FVec F S512 .f32) (main_arg14 : FVec F S512 .f32) (main_arg15 : FVec F S512 .f32) (main_arg16 : FVec F S512x128 .f32) (main_arg17 : FVec F S128 .f32) (main_arg18 : FVec F S1x128 .f32) (main_arg19 : FVec F S128 .f32) (main_arg20 : FVec F S128x256 .f32) (main_arg21 : FVec F S256 .f32) (main_arg22 : FVec F S256x128 .f32) (main_arg23 : FVec F S128 .f32) (main_arg24 : FVec F S256x1 .f32) (main_arg25 : FVec F S1 .f32) (main_v33 : IVec S_ 1) : IVec S_ 1 :=
  let main_v34 : FVec F S2048x512 .f32 := Host.absf main_arg10
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512 .f32 := Host.absf main_arg11
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg12
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg13
  let main_cst_18 : FVec F S_ .f32 := constant S_ .f32 0x7F800000#32
  let main_v50 : FVec F S512 .f32 := broadcastInDim S512 ![] bcast_S_S512 main_cst_18
  fn_part3 (F := F) main_arg9 main_arg14 main_arg15 main_arg16 main_arg17 main_arg18 main_arg19 main_arg20 main_arg21 main_arg22 main_arg23 main_arg24 main_arg25 main_v48 main_v49 main_v50

def fn_part1 {F : FTy → Type} [FloatOps F] (main_arg7 : FVec F S2048 .f32) (main_arg8 : FVec F S2048 .f32) (main_arg9 : FVec F S2048 .f32) (main_arg10 : FVec F S2048x512 .f32) (main_arg11 : FVec F S512 .f32) (main_arg12 : FVec F S512 .f32) (main_arg13 : FVec F S512 .f32) (main_arg14 : FVec F S512 .f32) (main_arg15 : FVec F S512 .f32) (main_arg16 : FVec F S512x128 .f32) (main_arg17 : FVec F S128 .f32) (main_arg18 : FVec F S1x128 .f32) (main_arg19 : FVec F S128 .f32) (main_arg20 : FVec F S128x256 .f32) (main_arg21 : FVec F S256 .f32) (main_arg22 : FVec F S256x128 .f32) (main_arg23 : FVec F S128 .f32) (main_arg24 : FVec F S256x1 .f32) (main_arg25 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg7
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg8
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg9
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S1024x9577 .f32) (main_arg1 : IVec S800000 32) (main_arg2 : IVec S800000 32) (main_arg3 : IVec S100000 32) (main_arg4 : FVec F S9577x2048 .f32) (main_arg5 : FVec F S2048 .f32) (main_arg6 : FVec F S2048 .f32) (main_arg7 : FVec F S2048 .f32) (main_arg8 : FVec F S2048 .f32) (main_arg9 : FVec F S2048 .f32) (main_arg10 : FVec F S2048x512 .f32) (main_arg11 : FVec F S512 .f32) (main_arg12 : FVec F S512 .f32) (main_arg13 : FVec F S512 .f32) (main_arg14 : FVec F S512 .f32) (main_arg15 : FVec F S512 .f32) (main_arg16 : FVec F S512x128 .f32) (main_arg17 : FVec F S128 .f32) (main_arg18 : FVec F S1x128 .f32) (main_arg19 : FVec F S128 .f32) (main_arg20 : FVec F S128x256 .f32) (main_arg21 : FVec F S256 .f32) (main_arg22 : FVec F S256x128 .f32) (main_arg23 : FVec F S128 .f32) (main_arg24 : FVec F S256x1 .f32) (main_arg25 : FVec F S1 .f32) : IVec S_ 1 :=
  let main_v0 : FVec F S1024x9577 .f32 := Host.absf main_arg0
  let main_cst : FVec F S_ .f32 := constant S_ .f32 0x7F800000#32
  let main_v1 : FVec F S1024x9577 .f32 := broadcastInDim S1024x9577 ![] bcast_S_S1024x9577 main_cst
  let main_v2 : IVec S1024x9577 1 := cmpf .olt main_v0 main_v1
  let main_c : IVec S_ 1 := constantI S_ 1 1#1
  let main_v3 : IVec S_ 1 := (fun x v => Host.reduce IntOp.andi x v reducesTo_S1024x9577_S_d0_1 h_S_) main_v2 main_c
  let main_v4 : FVec F S9577x2048 .f32 := Host.absf main_arg4
  let main_cst_0 : FVec F S_ .f32 := constant S_ .f32 0x7F800000#32
  let main_v5 : FVec F S9577x2048 .f32 := broadcastInDim S9577x2048 ![] bcast_S_S9577x2048 main_cst_0
  let main_v6 : IVec S9577x2048 1 := cmpf .olt main_v4 main_v5
  let main_c_1 : IVec S_ 1 := constantI S_ 1 1#1
  let main_v7 : IVec S_ 1 := (fun x v => Host.reduce IntOp.andi x v reducesTo_S9577x2048_S_d0_1 h_S_) main_v6 main_c_1
  let main_v8 : IVec S_ 1 := andi main_v3 main_v7
  let main_v9 : FVec F S2048 .f32 := Host.absf main_arg5
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S1024x9577 : Shape := ⟨2, ![1024, 9577]⟩
abbrev S800000 : Shape := ⟨1, ![800000]⟩
abbrev S100000 : Shape := ⟨1, ![100000]⟩
abbrev S9577x2048 : Shape := ⟨2, ![9577, 2048]⟩
abbrev S2048 : Shape := ⟨1, ![2048]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1x128 : Shape := ⟨2, ![1, 128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S_ : Shape := ⟨0, ![]⟩
abbrev S1x2048 : Shape := ⟨2, ![1, 2048]⟩
abbrev S1x512 : Shape := ⟨2, ![1, 512]⟩
abbrev S1024x9600 : Shape := ⟨2, ![1024, 9600]⟩
abbrev S9600x2048 : Shape := ⟨2, ![9600, 2048]⟩
abbrev S1024x2048 : Shape := ⟨2, ![1024, 2048]⟩
abbrev S1024x1920 : Shape := ⟨2, ![1024, 1920]⟩
abbrev S1920x1024 : Shape := ⟨2, ![1920, 1024]⟩
abbrev S1x1024 : Shape := ⟨2, ![1, 1024]⟩
abbrev S1024x1024 : Shape := ⟨2, ![1024, 1024]⟩
abbrev S1024x512 : Shape := ⟨2, ![1024, 512]⟩
abbrev S1024x128 : Shape := ⟨2, ![1024, 128]⟩
abbrev S800000x1 : Shape := ⟨2, ![800000, 1]⟩
abbrev S100000x1 : Shape := ⟨2, ![100000, 1]⟩
abbrev S100000x128 : Shape := ⟨2, ![100000, 128]⟩
abbrev S5000x1 : Shape := ⟨2, ![5000, 1]⟩
abbrev S5000x128 : Shape := ⟨2, ![5000, 128]⟩
abbrev S800000x128 : Shape := ⟨2, ![800000, 128]⟩
abbrev S1x256 : Shape := ⟨2, ![1, 256]⟩
abbrev S100000x256 : Shape := ⟨2, ![100000, 256]⟩
abbrev S5000x256 : Shape := ⟨2, ![5000, 256]⟩
abbrev S800000x256 : Shape := ⟨2, ![800000, 256]⟩
abbrev S1024 : Shape := ⟨1, ![1024]⟩
abbrev S1024x1 : Shape := ⟨2, ![1024, 1]⟩
abbrev S1024x256 : Shape := ⟨2, ![1024, 256]⟩
abbrev S1x1 : Shape := ⟨2, ![1, 1]⟩

abbrev nBuf : Space → Nat
  | .hbm => 197
  | .vmem => 42
  | .smem => 0
  | _ => 0

abbrev hbmTy0_0 (i : Nat) : BufTy := match i % 128 with
  | 0 => ⟨S1024x9577, .f32⟩
  | 1 => ⟨S800000, .i32⟩
  | 2 => ⟨S800000, .i32⟩
  | 3 => ⟨S100000, .i32⟩
  | 4 => ⟨S9577x2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048x512, .f32⟩
  | 11 => ⟨S512, .f32⟩
  | 12 => ⟨S512, .f32⟩
  | 13 => ⟨S512, .f32⟩
  | 14 => ⟨S512, .f32⟩
  | 15 => ⟨S512, .f32⟩
  | 16 => ⟨S512x128, .f32⟩
  | 17 => ⟨S128, .f32⟩
  | 18 => ⟨S1x128, .f32⟩
  | 19 => ⟨S128, .f32⟩
  | 20 => ⟨S128x256, .f32⟩
  | 21 => ⟨S256, .f32⟩
  | 22 => ⟨S256x128, .f32⟩
  | 23 => ⟨S128, .f32⟩
  | 24 => ⟨S256x1, .f32⟩
  | 25 => ⟨S1, .f32⟩
  | 26 => ⟨S_, .f32⟩
  | 27 => ⟨S2048, .f32⟩
  | 28 => ⟨S2048, .f32⟩
  | 29 => ⟨S2048, .f32⟩
  | 30 => ⟨S2048, .f32⟩
  | 31 => ⟨S1x2048, .f32⟩
  | 32 => ⟨S9577x2048, .f32⟩
  | 33 => ⟨S9577x2048, .f32⟩
  | 34 => ⟨S2048, .f32⟩
  | 35 => ⟨S2048, .f32⟩
  | 36 => ⟨S2048, .f32⟩
  | 37 => ⟨S_, .f32⟩
  | 38 => ⟨S512, .f32⟩
  | 39 => ⟨S512, .f32⟩
  | 40 => ⟨S512, .f32⟩
  | 41 => ⟨S512, .f32⟩
  | 42 => ⟨S1x512, .f32⟩
  | 43 => ⟨S2048x512, .f32⟩
  | 44 => ⟨S2048x512, .f32⟩
  | 45 => ⟨S512, .f32⟩
  | 46 => ⟨S512, .f32⟩
  | 47 => ⟨S512, .f32⟩
  | 48 => ⟨S_, .i32⟩
  | 49 => ⟨S_, .f32⟩
  | 50 => ⟨S1024x9600, .f32⟩
  | 51 => ⟨S_, .i32⟩
  | 52 => ⟨S_, .f32⟩
  | 53 => ⟨S9600x2048, .f32⟩
  | 54 => ⟨S1024x9600, .bf16⟩
  | 55 => ⟨S9600x2048, .bf16⟩
  | 56 => ⟨S1x2048, .f32⟩
  | 57 => ⟨S1024x2048, .bf16⟩
  | 58 => ⟨S2048x512, .bf16⟩
  | 59 => ⟨S1x512, .f32⟩
  | 60 => ⟨S1024x512, .bf16⟩
  | 61 => ⟨S512x128, .bf16⟩
  | 62 => ⟨S1x128, .f32⟩
  | 63 => ⟨S1024x128, .f32⟩
  | 64 => ⟨S_, .f32⟩
  | 65 => ⟨S800000, .f32⟩
  | 66 => ⟨S_, .f32⟩
  | 67 => ⟨S100000, .f32⟩
  | 68 => ⟨S800000x1, .i32⟩
  | 69 => ⟨S100000, .f32⟩
  | 70 => ⟨S100000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x1, .f32⟩
  | 80 => ⟨S_, .f32⟩
  | 81 => ⟨S100000x1, .f32⟩
  | 82 => ⟨S800000x1, .i32⟩
  | 83 => ⟨S100000x1, .f32⟩
  | 84 => ⟨S_, .f32⟩
  | 85 => ⟨S800000, .f32⟩
  | 86 => ⟨S_, .f32⟩
  | 87 => ⟨S100000, .f32⟩
  | 88 => ⟨S800000x1, .i32⟩
  | 89 => ⟨S100000, .f32⟩
  | 90 => ⟨S_, .f32⟩
  | 91 => ⟨S100000, .f32⟩
  | 92 => ⟨S100000, .i1⟩
  | 93 => ⟨S100000x1, .i1⟩
  | 94 => ⟨S_, .f32⟩
  | 95 => ⟨S100000, .f32⟩
  | 96 => ⟨S100000, .f32⟩
  | 97 => ⟨S100000x1, .f32⟩
  | 98 => ⟨S100000x1, .f32⟩
  | 99 => ⟨S100000x1, .f32⟩
  | 100 => ⟨S1x128, .bf16⟩
  | 101 => ⟨S100000x1, .bf16⟩
  | 102 => ⟨S1x128, .f32⟩
  | 103 => ⟨S100000x128, .bf16⟩
  | 104 => ⟨S100000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S100000x128, .f32⟩
  | 116 => ⟨S800000x1, .i32⟩
  | 117 => ⟨S100000x128, .f32⟩
  | 118 => ⟨S_, .f32⟩
  | 119 => ⟨S800000, .f32⟩
  | 120 => ⟨S_, .f32⟩
  | 121 => ⟨S100000, .f32⟩
  | 122 => ⟨S800000x1, .i32⟩
  | 123 => ⟨S100000, .f32⟩
  | 124 => ⟨S_, .f32⟩
  | 125 => ⟨S100000, .f32⟩
  | 126 => ⟨S100000, .i1⟩
  | 127 => ⟨S100000x1, .i1⟩
  | _ => ⟨S1024x9577, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x128, .f32⟩
  | 5 => ⟨S100000x128, .f32⟩
  | 6 => ⟨S100000x128, .i1⟩
  | 7 => ⟨S100000x128, .f32⟩
  | 8 => ⟨S128x256, .bf16⟩
  | 9 => ⟨S100000x128, .bf16⟩
  | 10 => ⟨S1x256, .f32⟩
  | 11 => ⟨S100000x256, .bf16⟩
  | 12 => ⟨S100000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .f32⟩
  | 23 => ⟨S100000x256, .f32⟩
  | 24 => ⟨S800000x1, .i32⟩
  | 25 => ⟨S100000x256, .f32⟩
  | 26 => ⟨S_, .f32⟩
  | 27 => ⟨S800000, .f32⟩
  | 28 => ⟨S_, .f32⟩
  | 29 => ⟨S100000, .f32⟩
  | 30 => ⟨S800000x1, .i32⟩
  | 31 => ⟨S100000, .f32⟩
  | 32 => ⟨S_, .f32⟩
  | 33 => ⟨S100000, .f32⟩
  | 34 => ⟨S100000, .i1⟩
  | 35 => ⟨S100000x1, .i1⟩
  | 36 => ⟨S_, .f32⟩
  | 37 => ⟨S100000, .f32⟩
  | 38 => ⟨S100000, .f32⟩
  | 39 => ⟨S100000x1, .f32⟩
  | 40 => ⟨S100000x256, .f32⟩
  | 41 => ⟨S100000x256, .f32⟩
  | 42 => ⟨S100000x256, .i1⟩
  | 43 => ⟨S100000x256, .f32⟩
  | 44 => ⟨S256x128, .bf16⟩
  | 45 => ⟨S100000x256, .bf16⟩
  | 46 => ⟨S1x128, .f32⟩
  | 47 => ⟨S100000x128, .f32⟩
  | 48 => ⟨S_, .f32⟩
  | 49 => ⟨S1024x128, .f32⟩
  | 50 => ⟨S100000x1, .i32⟩
  | 51 => ⟨S1024x128, .f32⟩
  | 52 => ⟨S_, .f32⟩
  | 53 => ⟨S100000, .f32⟩
  | 54 => ⟨S_, .f32⟩
  | 55 => ⟨S1024, .f32⟩
  | 56 => ⟨S100000x1, .i32⟩
  | 57 => ⟨S1024, .f32⟩
  | 58 => ⟨S_, .f32⟩
  | 59 => ⟨S1024, .f32⟩
  | 60 => ⟨S1024, .f32⟩
  | 61 => ⟨S1024x1, .f32⟩
  | 62 => ⟨S1024x128, .f32⟩
  | 63 => ⟨S1024x128, .f32⟩
  | 64 => ⟨S1024x256, .f32⟩
  | 65 => ⟨S1024x1, .f32⟩
  | 66 => ⟨S1x1, .f32⟩
  | 67 => ⟨S1024x1, .f32⟩
  | 68 => ⟨S1024x1, .f32⟩
  | _ => ⟨S1024x9577, .f32⟩

abbrev hbmTy (i : Nat) : BufTy := match i / 128 with
  | 0 => hbmTy0_0 i
  | 1 => hbmTy0_1 i
  | _ => ⟨S1024x9577, .f32⟩

abbrev bufTy : (tb : Table) → Fin (tcTables nBuf tb) → BufTy
  | .hbm, ⟨i, _⟩ => hbmTy i
  | .local _ .vmem, ⟨0, _⟩ => ⟨S1024x1920, .bf16⟩
  | .local _ .vmem, ⟨1, _⟩ => ⟨S1024x1920, .bf16⟩
  | .local _ .vmem, ⟨2, _⟩ => ⟨S1920x1024, .bf16⟩
  | .local _ .vmem, ⟨3, _⟩ => ⟨S1920x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | .local _ .vmem, ⟨14, _⟩ => ⟨S1024x512, .bf16⟩
  | .local _ .vmem, ⟨15, _⟩ => ⟨S1024x512, .f32⟩
  | .local _ .vmem, ⟨16, _⟩ => ⟨S1024x512, .bf16⟩
  | .local _ .vmem, ⟨17, _⟩ => ⟨S512x128, .bf16⟩
  | .local _ .vmem, ⟨18, _⟩ => ⟨S1x128, .f32⟩
  | .local _ .vmem, ⟨19, _⟩ => ⟨S1024x128, .f32⟩
  | .local _ .vmem, ⟨20, _⟩ => ⟨S1024x128, .f32⟩
  | .local _ .vmem, ⟨21, _⟩ => ⟨S5000x1, .bf16⟩
  | .local _ .vmem, ⟨22, _⟩ => ⟨S5000x1, .bf16⟩
  | .local _ .vmem, ⟨23, _⟩ => ⟨S1x128, .bf16⟩
  | .local _ .vmem, ⟨24, _⟩ => ⟨S1x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .bf16⟩
  | .local _ .vmem, ⟨29, _⟩ => ⟨S5000x128, .bf16⟩
  | .local _ .vmem, ⟨30, _⟩ => ⟨S128x256, .bf16⟩
  | .local _ .vmem, ⟨31, _⟩ => ⟨S1x256, .f32⟩
  | .local _ .vmem, ⟨32, _⟩ => ⟨S5000x256, .bf16⟩
  | .local _ .vmem, ⟨33, _⟩ => ⟨S5000x256, .bf16⟩
  | .local _ .vmem, ⟨34, _⟩ => ⟨S5000x256, .f32⟩
  | .local _ .vmem, ⟨35, _⟩ => ⟨S5000x256, .bf16⟩
  | .local _ .vmem, ⟨36, _⟩ => ⟨S5000x256, .bf16⟩
  | .local _ .vmem, ⟨37, _⟩ => ⟨S256x128, .bf16⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S1024x9577, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c : Ref sig .tc := ⟨.hbm, 48, rfl⟩
abbrev main_call0_v0 : Ref sig .tc := ⟨.hbm, 49, rfl⟩
abbrev main_v20 : Ref sig .tc := ⟨.hbm, 50, rfl⟩
abbrev main_c_1 : Ref sig .tc := ⟨.hbm, 51, rfl⟩
abbrev main_call1_v0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_cst_3 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_4 : Ref sig .tc := ⟨.hbm, 71, rfl⟩
abbrev main_v37 : Ref sig .tc := ⟨.hbm, 72, rfl⟩
abbrev main_v38 : Ref sig .tc := ⟨.hbm, 73, rfl⟩
abbrev main_c_5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_6 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_10 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_c_12 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_13 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_14 : Ref sig .tc := ⟨.hbm, 118, rfl⟩
abbrev main_v74 : Ref sig .tc := ⟨.hbm, 119, rfl⟩
abbrev main_cst_15 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_16 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_17 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_call3_v0 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_18 : Ref sig .tc := ⟨.hbm, 141, rfl⟩
abbrev main_v92 : Ref sig .tc := ⟨.hbm, 142, rfl⟩
abbrev main_v93 : Ref sig .tc := ⟨.hbm, 143, rfl⟩
abbrev main_c_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_20 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_21 : Ref sig .tc := ⟨.hbm, 154, rfl⟩
abbrev main_v102 : Ref sig .tc := ⟨.hbm, 155, rfl⟩
abbrev main_cst_22 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_23 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_24 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_call4_v0 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_25 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_26 : Ref sig .tc := ⟨.hbm, 180, rfl⟩
abbrev main_v122 : Ref sig .tc := ⟨.hbm, 181, rfl⟩
abbrev main_cst_27 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_28 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 1, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S1024x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S1024x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, false]

abbrev grid3 : Pipeline.Grid := ⟨3, ![20, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S5000x1 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![20, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S128x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S5000x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![20, 1, 1], ![false, false, false]⟩

def k5_cond2 (i : grid5.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S5000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S256x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S9577x2048_0_1 : S1x2048.BroadcastsInDim S9577x2048 (![0, 1] : Fin 2 → Fin S9577x2048.rank)
  bcast_S_S512 : S_.BroadcastsInDim S512 (![] : Fin 0 → Fin S512.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  pads_S1024x9577_S1024x9600_000_0230 : S1024x9577.Pads (![0, 0] : Fin 2 → Nat) ![0, 23] ![0, 0] S1024x9600
  h_S_ : 0 < S_.numel
  pads_S9577x2048_S9600x2048_0230_000 : S9577x2048.Pads (![0, 0] : Fin 2 → Nat) ![23, 0] ![0, 0] S9600x2048
  bitsLt_bf16_f32 : FTy.bits .bf16 < FTy.bits .f32
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1920_S1024x1920_0_0 : ∀ a, (![0, 0] : Fin 2 → Nat) a + S1024x1920.size a ≤ S1024x1920.size a
  h_S1024x1920 : 0 < S1024x1920.numel
  shapeCasts_S1024x1920_S1024x1920 : S1024x1920.ShapeCasts S1024x1920
  inb_S1920x1024_S1920x1024_0_0 : ∀ a, (![0, 0] : Fin 2 → Nat) a + S1920x1024.size a ≤ S1920x1024.size a
  h_S1920x1024 : 0 < S1920x1024.numel
  shapeCasts_S1920x1024_S1920x1024 : S1920x1024.ShapeCasts S1920x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  packedbf16_S5000x256_S5000x256_0_0 : (Rect.unit (s := S5000x256) ![0, 0] S5000x256.size inb_S5000x256_S5000x256_0_0).PackedRows (EltTy.packing .bf16)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x1920_S1920x1024_S1024x1024_1_0_0_1_n_n_wf : DotDims.WF S1024x1920 S1920x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  scatter_S100000_S800000x1_S800000_n_0_0_1_wf : ScatterDims.WF S100000 S800000x1 S800000 [] [0] [0] 1
  gather_S100000x1_S800000x1_S800000x1_1_0_n_n_0_1_11_wf : GatherDims.WF S100000x1 S800000x1 S800000x1 [1] [0] [] [0] [] 1 ![1, 1]
  scatter_S100000x1_S800000x1_S800000x1_1_0_0_1_wf : ScatterDims.WF S100000x1 S800000x1 S800000x1 [1] [0] [0] 1
  dot_S5000x1_S1x128_S5000x128_1_0_0_1_n_n_wf : DotDims.WF S5000x1 S1x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x256_S5000x256_1_0_0_1_n_n_wf : DotDims.WF S5000x128 S128x256 S5000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x128_S5000x128_1_0_0_1_n_n_wf : DotDims.WF S5000x256 S256x128 S5000x128 [1] [0] [0] [1] [] []
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1920.size a ≤ S1024x9600.size a
  hwx0_0 : ∀ i : grid0.Coords, EltTy.bits .bf16 = 32 ∨ (Rect.block (s := S1024x9600) S1024x1920.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1920x1024.size a ≤ S9600x2048.size a
  hwx0_1 : ∀ i : grid0.Coords, EltTy.bits .bf16 = 32 ∨ (Rect.block (s := S9600x2048) S1920x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x2048.size a
  hwx0_3 : ∀ i : grid0.Coords, EltTy.bits .bf16 = 32 ∨ (Rect.block (s := S1024x2048) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x2048.size a
  hwx1_0 : ∀ i : grid1.Coords, EltTy.bits .bf16 = 32 ∨ (Rect.block (s := S1024x2048) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x512.size a
  hwx1_1 : ∀ i : grid1.Coords, EltTy.bits .bf16 = 32 ∨ (Rect.block (s := S2048x512) S1024x512.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .bf16 = 32 ∨ (Rect.block (s := S1024x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S1024x512.size a
  hwx2_0 : ∀ i : grid2.Coords, EltTy.bits .bf16 = 32 ∨ (Rect.block (s := S1024x512) S1024x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .bf16 = 32 ∨ (Rect.block (s := S512x128) S512x128.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S1024x128.size a
  hwx2_3 : ∀ i : grid2.Coords, EltTy.bits .f32 = 32 ∨ (Rect.block (s := S1024x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .bf16 = 32 ∨ (Rect.block (s := S100000x1) S5000x1.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .bf16 = 32 ∨ (Rect.block (s := S1x128) S1x128.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .bf16 = 32 ∨ (Rect.block (s := S100000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .bf16 = 32 ∨ (Rect.block (s := S100000x128) S5000x128.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .bf16 = 32 ∨ (Rect.block (s := S128x256) S128x256.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S100000x256.size a
  hwx4_3 : ∀ i : grid4.Coords, EltTy.bits .bf16 = 32 ∨ (Rect.block (s := S100000x256) S5000x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S100000x256.size a
  hwx5_0 : ∀ i : grid5.Coords, EltTy.bits .bf16 = 32 ∨ (Rect.block (s := S100000x256) S5000x256.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .bf16 = 32 ∨ (Rect.block (s := S256x128) S256x128.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def dot_S1024x1920_S1920x1024_S1024x1024_1_0_0_1_n_n : DotDims S1024x1920 S1920x1024 S1024x1024 where
  lhsContracting := [1]
  rhsContracting := [0]
  lhsNonContracting := [0]
  rhsNonContracting := [1]
  lhsBatch := []
  rhsBatch := []
  wf := dot_S1024x1920_S1920x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v22) S1024x1920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1920x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v25) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1024x512.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v28) S1024x512.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v29) S512x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1024x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v60) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S128x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x256.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v116) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S256x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x128.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S1024x9577 : Shape := ⟨2, ![1024, 9577]⟩
abbrev S800000 : Shape := ⟨1, ![800000]⟩
abbrev S100000 : Shape := ⟨1, ![100000]⟩
abbrev S9577x2048 : Shape := ⟨2, ![9577, 2048]⟩
abbrev S2048 : Shape := ⟨1, ![2048]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1x128 : Shape := ⟨2, ![1, 128]⟩
abbrev S128x256 : Shape := ⟨2, ![128, 256]⟩
abbrev S256 : Shape := ⟨1, ![256]⟩
abbrev S256x128 : Shape := ⟨2, ![256, 128]⟩
abbrev S256x1 : Shape := ⟨2, ![256, 1]⟩
abbrev S1 : Shape := ⟨1, ![1]⟩
abbrev S1024x2048 : Shape := ⟨2, ![1024, 2048]⟩
abbrev S1x2048 : Shape := ⟨2, ![1, 2048]⟩
abbrev S_ : Shape := ⟨0, ![]⟩
abbrev S1024x512 : Shape := ⟨2, ![1024, 512]⟩
abbrev S1x512 : Shape := ⟨2, ![1, 512]⟩
abbrev S1024x128 : Shape := ⟨2, ![1024, 128]⟩
abbrev S800000x1 : Shape := ⟨2, ![800000, 1]⟩
abbrev S100000x1 : Shape := ⟨2, ![100000, 1]⟩
abbrev S100000x128 : Shape := ⟨2, ![100000, 128]⟩
abbrev S800000x128 : Shape := ⟨2, ![800000, 128]⟩
abbrev S100000x256 : Shape := ⟨2, ![100000, 256]⟩
abbrev S1x256 : Shape := ⟨2, ![1, 256]⟩
abbrev S800000x256 : Shape := ⟨2, ![800000, 256]⟩
abbrev S1024 : Shape := ⟨1, ![1024]⟩
abbrev S1024x1 : Shape := ⟨2, ![1024, 1]⟩
abbrev S1024x256 : Shape := ⟨2, ![1024, 256]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S1024x9577, .f32⟩
  | 1 => ⟨S800000, .i32⟩
  | 2 => ⟨S800000, .i32⟩
  | 3 => ⟨S100000, .i32⟩
  | 4 => ⟨S9577x2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048x512, .f32⟩
  | 11 => ⟨S512, .f32⟩
  | 12 => ⟨S512, .f32⟩
  | 13 => ⟨S512, .f32⟩
  | 14 => ⟨S512, .f32⟩
  | 15 => ⟨S512, .f32⟩
  | 16 => ⟨S512x128, .f32⟩
  | 17 => ⟨S128, .f32⟩
  | 18 => ⟨S1x128, .f32⟩
  | 19 => ⟨S128, .f32⟩
  | 20 => ⟨S128x256, .f32⟩
  | 21 => ⟨S256, .f32⟩
  | 22 => ⟨S256x128, .f32⟩
  | 23 => ⟨S128, .f32⟩
  | 24 => ⟨S256x1, .f32⟩
  | 25 => ⟨S1, .f32⟩
  | 26 => ⟨S1024x2048, .f32⟩
  | 27 => ⟨S1x2048, .f32⟩
  | 28 => ⟨S1024x2048, .f32⟩
  | 29 => ⟨S1024x2048, .f32⟩
  | 30 => ⟨S1x2048, .f32⟩
  | 31 => ⟨S1024x2048, .f32⟩
  | 32 => ⟨S1024x2048, .f32⟩
  | 33 => ⟨S_, .f32⟩
  | 34 => ⟨S2048, .f32⟩
  | 35 => ⟨S2048, .f32⟩
  | 36 => ⟨S2048, .f32⟩
  | 37 => ⟨S1x2048, .f32⟩
  | 38 => ⟨S1024x2048, .f32⟩
  | 39 => ⟨S1024x2048, .f32⟩
  | 40 => ⟨S1x2048, .f32⟩
  | 41 => ⟨S1024x2048, .f32⟩
  | 42 => ⟨S1024x2048, .f32⟩
  | 43 => ⟨S1x2048, .f32⟩
  | 44 => ⟨S1024x2048, .f32⟩
  | 45 => ⟨S1024x2048, .f32⟩
  | 46 => ⟨S_, .f32⟩
  | 47 => ⟨S1024x2048, .f32⟩
  | 48 => ⟨S1024x2048, .f32⟩
  | 49 => ⟨S1024x512, .f32⟩
  | 50 => ⟨S1x512, .f32⟩
  | 51 => ⟨S1024x512, .f32⟩
  | 52 => ⟨S1024x512, .f32⟩
  | 53 => ⟨S1x512, .f32⟩
  | 54 => ⟨S1024x512, .f32⟩
  | 55 => ⟨S1024x512, .f32⟩
  | 56 => ⟨S_, .f32⟩
  | 57 => ⟨S512, .f32⟩
  | 58 => ⟨S512, .f32⟩
  | 59 => ⟨S512, .f32⟩
  | 60 => ⟨S1x512, .f32⟩
  | 61 => ⟨S1024x512, .f32⟩
  | 62 => ⟨S1024x512, .f32⟩
  | 63 => ⟨S1x512, .f32⟩
  | 64 => ⟨S1024x512, .f32⟩
  | 65 => ⟨S1024x512, .f32⟩
  | 66 => ⟨S1x512, .f32⟩
  | 67 => ⟨S1024x512, .f32⟩
  | 68 => ⟨S1024x512, .f32⟩
  | 69 => ⟨S_, .f32⟩
  | 70 => ⟨S1024x512, .f32⟩
  | 71 => ⟨S1024x512, .f32⟩
  | 72 => ⟨S1024x128, .f32⟩
  | 73 => ⟨S1x128, .f32⟩
  | 74 => ⟨S1024x128, .f32⟩
  | 75 => ⟨S1024x128, .f32⟩
  | 76 => ⟨S_, .f32⟩
  | 77 => ⟨S800000, .f32⟩
  | 78 => ⟨S_, .f32⟩
  | 79 => ⟨S100000, .f32⟩
  | 80 => ⟨S800000x1, .i32⟩
  | 81 => ⟨S100000, .f32⟩
  | 82 => ⟨S100000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x1, .f32⟩
  | 92 => ⟨S_, .f32⟩
  | 93 => ⟨S100000x1, .f32⟩
  | 94 => ⟨S800000x1, .i32⟩
  | 95 => ⟨S100000x1, .f32⟩
  | 96 => ⟨S_, .f32⟩
  | 97 => ⟨S800000, .f32⟩
  | 98 => ⟨S_, .f32⟩
  | 99 => ⟨S100000, .f32⟩
  | 100 => ⟨S800000x1, .i32⟩
  | 101 => ⟨S100000, .f32⟩
  | 102 => ⟨S_, .f32⟩
  | 103 => ⟨S100000, .f32⟩
  | 104 => ⟨S100000, .i1⟩
  | 105 => ⟨S100000x1, .i1⟩
  | 106 => ⟨S_, .f32⟩
  | 107 => ⟨S100000, .f32⟩
  | 108 => ⟨S100000, .f32⟩
  | 109 => ⟨S100000x1, .f32⟩
  | 110 => ⟨S100000x1, .f32⟩
  | 111 => ⟨S100000x1, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S1024x9577, .f32⟩

abbrev hbmTy0_1 (i : Nat) : BufTy := match i % 128 with
  | 0 => ⟨S_, .f32⟩
  | 1 => ⟨S100000x128, .f32⟩
  | 2 => ⟨S800000x1, .i32⟩
  | 3 => ⟨S100000x128, .f32⟩
  | 4 => ⟨S_, .f32⟩
  | 5 => ⟨S800000, .f32⟩
  | 6 => ⟨S_, .f32⟩
  | 7 => ⟨S100000, .f32⟩
  | 8 => ⟨S800000x1, .i32⟩
  | 9 => ⟨S100000, .f32⟩
  | 10 => ⟨S_, .f32⟩
  | 11 => ⟨S100000, .f32⟩
  | 12 => ⟨S100000, .i1⟩
  | 13 => ⟨S100000x1, .i1⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .i1⟩
  | 21 => ⟨S100000x128, .f32⟩
  | 22 => ⟨S100000x256, .f32⟩
  | 23 => ⟨S1x256, .f32⟩
  | 24 => ⟨S100000x256, .f32⟩
  | 25 => ⟨S100000x256, .f32⟩
  | 26 => ⟨S_, .f32⟩
  | 27 => ⟨S100000x256, .f32⟩
  | 28 => ⟨S100000x256, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x256, .f32⟩
  | 38 => ⟨S_, .f32⟩
  | 39 => ⟨S100000x256, .f32⟩
  | 40 => ⟨S800000x1, .i32⟩
  | 41 => ⟨S100000x256, .f32⟩
  | 42 => ⟨S_, .f32⟩
  | 43 => ⟨S800000, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .i1⟩
  | 51 => ⟨S100000x1, .i1⟩
  | 52 => ⟨S_, .f32⟩
  | 53 => ⟨S100000, .f32⟩
  | 54 => ⟨S100000, .f32⟩
  | 55 => ⟨S100000x1, .f32⟩
  | 56 => ⟨S100000x256, .f32⟩
  | 57 => ⟨S100000x256, .f32⟩
  | 58 => ⟨S100000x256, .i1⟩
  | 59 => ⟨S100000x256, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S1024x128, .f32⟩
  | 69 => ⟨S100000x1, .i32⟩
  | 70 => ⟨S1024x128, .f32⟩
  | 71 => ⟨S_, .f32⟩
  | 72 => ⟨S100000, .f32⟩
  | 73 => ⟨S_, .f32⟩
  | 74 => ⟨S1024, .f32⟩
  | 75 => ⟨S100000x1, .i32⟩
  | 76 => ⟨S1024, .f32⟩
  | 77 => ⟨S_, .f32⟩
  | 78 => ⟨S1024, .f32⟩
  | 79 => ⟨S1024, .f32⟩
  | 80 => ⟨S1024x1, .f32⟩
  | 81 => ⟨S1024x128, .f32⟩
  | 82 => ⟨S1024x128, .f32⟩
  | 83 => ⟨S1024x256, .f32⟩
  | 84 => ⟨S1024x1, .f32⟩
  | 85 => ⟨S1x1, .f32⟩
  | 86 => ⟨S1024x1, .f32⟩
  | 87 => ⟨S1024x1, .f32⟩
  | _ => ⟨S1024x9577, .f32⟩

abbrev hbmTy (i : Nat) : BufTy := match i / 128 with
  | 0 => hbmTy0_0 i
  | 1 => hbmTy0_1 i
  | _ => ⟨S1024x9577, .f32⟩

abbrev bufTy : (tb : Table) → Fin (tcTables nBuf tb) → BufTy
  | .hbm, ⟨i, _⟩ => hbmTy i
  | _, _ => ⟨S1024x9577, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call1_cst : Ref sig .tc := ⟨.hbm, 69, rfl⟩
abbrev main_call1_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_1 : Ref sig .tc := ⟨.hbm, 76, rfl⟩
abbrev main_v44 : Ref sig .tc := ⟨.hbm, 77, rfl⟩
abbrev main_cst_2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c : Ref sig .tc := ⟨.hbm, 83, rfl⟩
abbrev main_v49 : Ref sig .tc := ⟨.hbm, 84, rfl⟩
abbrev main_v50 : Ref sig .tc := ⟨.hbm, 85, rfl⟩
abbrev main_c_3 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_4 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_5 : Ref sig .tc := ⟨.hbm, 96, rfl⟩
abbrev main_v59 : Ref sig .tc := ⟨.hbm, 97, rfl⟩
abbrev main_cst_6 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_7 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_8 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call3_cst : Ref sig .tc := ⟨.hbm, 116, rfl⟩
abbrev main_call3_v0 : Ref sig .tc := ⟨.hbm, 117, rfl⟩
abbrev main_v75 : Ref sig .tc := ⟨.hbm, 118, rfl⟩
abbrev main_c_9 : Ref sig .tc := ⟨.hbm, 119, rfl⟩
abbrev main_v76 : Ref sig .tc := ⟨.hbm, 120, rfl⟩
abbrev main_v77 : Ref sig .tc := ⟨.hbm, 121, rfl⟩
abbrev main_c_10 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_11 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_12 : Ref sig .tc := ⟨.hbm, 132, rfl⟩
abbrev main_v86 : Ref sig .tc := ⟨.hbm, 133, rfl⟩
abbrev main_cst_13 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_14 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_15 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call4_v0 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_call5_cst : Ref sig .tc := ⟨.hbm, 154, rfl⟩
abbrev main_call5_v0 : Ref sig .tc := ⟨.hbm, 155, rfl⟩
abbrev main_v103 : Ref sig .tc := ⟨.hbm, 156, rfl⟩
abbrev main_c_16 : Ref sig .tc := ⟨.hbm, 157, rfl⟩
abbrev main_v104 : Ref sig .tc := ⟨.hbm, 158, rfl⟩
abbrev main_v105 : Ref sig .tc := ⟨.hbm, 159, rfl⟩
abbrev main_c_17 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_18 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_19 : Ref sig .tc := ⟨.hbm, 170, rfl⟩
abbrev main_v114 : Ref sig .tc := ⟨.hbm, 171, rfl⟩
abbrev main_cst_20 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_21 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_22 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_call6_v0 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_call7_cst : Ref sig .tc := ⟨.hbm, 192, rfl⟩
abbrev main_call7_v0 : Ref sig .tc := ⟨.hbm, 193, rfl⟩
abbrev main_v131 : Ref sig .tc := ⟨.hbm, 194, rfl⟩
abbrev main_cst_23 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_24 : Ref sig .tc := ⟨.hbm, 199, rfl⟩
abbrev main_v135 : Ref sig .tc := ⟨.hbm, 200, rfl⟩
abbrev main_cst_25 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_26 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S2048 : S_.BroadcastsInDim S2048 (![] : Fin 0 → Fin S2048.rank)
  bcast_S_S1024x2048 : S_.BroadcastsInDim S1024x2048 (![] : Fin 0 → Fin S1024x2048.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S512 : S_.BroadcastsInDim S512 (![] : Fin 0 → Fin S512.rank)
  bcast_S_S1024x512 : S_.BroadcastsInDim S1024x512 (![] : Fin 0 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x128_S1024x256_d1 : Shape.Concatenates [S1024x128, S1024x128] S1024x256 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x9577_S9577x2048_S1024x2048_1_0_0_1_n_n_wf : DotDims.WF S1024x9577 S9577x2048 S1024x2048 [1] [0] [0] [1] [] []
  dot_S1024x2048_S2048x512_S1024x512_1_0_0_1_n_n_wf : DotDims.WF S1024x2048 S2048x512 S1024x512 [1] [0] [0] [1] [] []
  dot_S1024x512_S512x128_S1024x128_1_0_0_1_n_n_wf : DotDims.WF S1024x512 S512x128 S1024x128 [1] [0] [0] [1] [] []
  scatter_S100000_S800000x1_S800000_n_0_0_1_wf : ScatterDims.WF S100000 S800000x1 S800000 [] [0] [0] 1
  gather_S100000x1_S800000x1_S800000x1_1_0_n_n_0_1_11_wf : GatherDims.WF S100000x1 S800000x1 S800000x1 [1] [0] [] [0] [] 1 ![1, 1]
  scatter_S100000x1_S800000x1_S800000x1_1_0_0_1_wf : ScatterDims.WF S100000x1 S800000x1 S800000x1 [1] [0] [0] 1
  dot_S100000x1_S1x128_S100000x128_1_0_0_1_n_n_wf : DotDims.WF S100000x1 S1x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x256_S256x1_S1024x1_1_0_0_1_n_n_wf : DotDims.WF S1024x256 S256x1 S1024x1 [1] [0] [0] [1] [] []

variable [Facts₀]

def dot_S1024x9577_S9577x2048_S1024x2048_1_0_0_1_n_n : DotDims S1024x9577 S9577x2048 S1024x2048 where
  lhsContracting := [1]
  rhsContracting := [0]
  lhsNonContracting := [0]
  rhsNonContracting := [1]
  lhsBatch := []
  rhsBatch := []
  wf := dot_S1024x9577_S9577x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x1_S800000x1_S800000x1_1_0_n_n_0_1_11 : GatherDims S100000x1 S800000x1 S800000x1 where
  offsetDims := [1]
  collapsedSliceDims := [0]
  operandBatchingDims := []
  startIndicesBatchingDims := []
  startIndexMap := [0]
  indexVectorDim := 1
  sliceSizes := ![1, 1]
  wf := gather_S100000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.R0.lean ====
/-
  Region 0 of @main (the tiled product "x · w + bias row" over a grid whose last axis runs over the 5 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 4` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's two branch conditions, in closed form over the grid -/

/-- "This is the first block of the contracted axis": the condition of the first `scf.if`. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- "This is the last block of the contracted axis": the condition of the second `scf.if`. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0 : View sig .tc .vmem S1024x1024 .bf16 := (Memref.whole cc0_stg3_0 : Memref sig .tc .vmem S1024x1024 .bf16).view
abbrev ms0_0 (t : Fin cfg0.N) : Memref sig .tc .vmem S1024x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
abbrev VS0 : View sig .tc .vmem S1024x1024 .f32 := scM0.view

/-- The region's invariant before its first point: the accumulator owned at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.R0RunA.lean ====
/-
  Region 0, the body at a point that is the first block of the contracted axis and not the last: the body's run on whole staging memrefs, as a triple whose
  postcondition names the pieces that the stores leave in the accumulator.  The inputs'
  buffers come back as they were; the output block, idle here, is handed back untouched.
-/
import proofs.«157756_j25125558682089_1_alg».proof.Proof.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R0RunB.lean ====
/-
  Region 0, the body at a point that is neither the first nor the last block of the contracted axis: the body's run on whole staging memrefs, as a triple whose
  postcondition names the pieces that the stores leave in the accumulator.  The inputs'
  buffers come back as they were; the output block, idle here, is handed back untouched.
-/
import proofs.«157756_j25125558682089_1_alg».proof.Proof.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R0RunC.lean ====
/-
  Region 0, the body at a point that is the last block of the contracted axis and not the first: the body's run on whole staging memrefs, as a triple whose
  postcondition names the pieces that the stores leave in the accumulator and in the output block.  The inputs'
  buffers come back as they were.
-/
import proofs.«157756_j25125558682089_1_alg».proof.Proof.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R0Dat.lean ====
/-
  Region 0: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R0RunA
import proofs.«157756_j25125558682089_1_alg».proof.Proof.R0RunB
import proofs.«157756_j25125558682089_1_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves in the output block: its pieces read back (none here: a placeholder nothing consults, the window being idle). -/
def out0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) : Vec F S1024x1024 .bf16 :=
  VO0.read (Elt F) (VO0.writes (Elt F) VO0.junk (kernelRun0_A c i arg3 harg3 arg4 harg4 arg5 harg5 arg6 harg6 arg7 harg7 hc0 hc1 x0 x1 x2).1)

/-- The run's pieces for the accumulator tile it, so they cover it. -/
theorem scover0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the run leaves in the accumulator: its pieces read back. -/
def sout0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

/-- What the run leaves in the output block: its pieces read back (none here: a placeholder nothing consults, the window being idle). -/
def out0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) : Vec F S1024x1024 .bf16 :=
  VO0.read (Elt F) (VO0.writes (Elt F) VO0.junk (kernelRun0_B c i arg3 harg3 arg4 harg4 arg5 harg5 arg6 harg6 arg7 harg7 hc0 hc1 x0 x1 x2 xs0).1)

/-- The run's pieces for the accumulator tile it, so they cover it. -/
theorem scover0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What the run leaves in the accumulator: its pieces read back. -/
def sout0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).2.1)

/-- At such a point the run's pieces for the output block tile it, so they cover it. -/
theorem cover0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What the run leaves in the output block: its pieces read back. -/
def out0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs0).1)

/-- The run's pieces for the accumulator tile it, so they cover it. -/
theorem scover0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What the run leaves in the accumulator: its pieces read back. -/
def sout0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

section Region
variable (V : (c : Dev nD) → (b : Ref sig .tc) → Buf (Elt F) ((c : Thread nD τ).loc b))

/-! ## What the output block and the accumulator hold after each point -/

/-- The accumulation, by recursion on the position `n` of the point: the pair (output block, accumulator). -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 5 = 0 then
      if h1 : (n + 1) % 5 = 4 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 5 = 4 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_C (c : Dev nD) (t : Fin cfg0.N) (h0 : ¬t.val % 5 = 0) (h1 : t.val % 5 = 4) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 5 = 0) (h1 : ¬t.val % 5 = 4) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point the plain one; afterwards the accumulator at what
    the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨HS0, HR⟩, Hg⟩
  isplitl [HS0 HR]
  · isplitl [HS0]
    · iexists _; iexact HS0
    iexact HR
  iexact Hg

end Region

end Cert.KernelIdeal.Hand

end
-- ==== Proof.R1.lean ====
/-
  Region 1 of @main (the tiled product "x · w + bias row" over a grid whose last axis runs over the 2 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 1` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's two branch conditions, in closed form over the grid -/

/-- "This is the first block of the contracted axis": the condition of the first `scf.if`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last block of the contracted axis": the condition of the second `scf.if`. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1 : View sig .tc .vmem S1024x512 .bf16 := (Memref.whole cc1_stg3_0 : Memref sig .tc .vmem S1024x512 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x512 .f32 := Memref.whole cc1_scratch0
abbrev VS1 : View sig .tc .vmem S1024x512 .f32 := scM1.view

/-- The region's invariant before its first point: the accumulator owned at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.R1RunA.lean ====
/-
  Region 1, the body at a point that is the first block of the contracted axis and not the last: the body's run on whole staging memrefs, as a triple whose
  postcondition names the pieces that the stores leave in the accumulator.  The inputs'
  buffers come back as they were; the output block, idle here, is handed back untouched.
-/
import proofs.«157756_j25125558682089_1_alg».proof.Proof.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R1RunC.lean ====
/-
  Region 1, the body at a point that is the last block of the contracted axis and not the first: the body's run on whole staging memrefs, as a triple whose
  postcondition names the pieces that the stores leave in the accumulator and in the output block.  The inputs'
  buffers come back as they were.
-/
import proofs.«157756_j25125558682089_1_alg».proof.Proof.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R1Dat.lean ====
/-
  Region 1: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R1RunA
import proofs.«157756_j25125558682089_1_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves in the output block: its pieces read back (none here: a placeholder nothing consults, the window being idle). -/
def out1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) : Vec F S1024x512 .bf16 :=
  VO1.read (Elt F) (VO1.writes (Elt F) VO1.junk (kernelRun1_A c i arg3 harg3 arg4 harg4 arg5 harg5 arg6 harg6 arg7 harg7 hc0 hc1 x0 x1 x2).1)

/-- The run's pieces for the accumulator tile it, so they cover it. -/
theorem scover1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) (y : S1024x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x512.size (by sl_kernel_rfl) y

/-- What the run leaves in the accumulator: its pieces read back. -/
def sout1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) : Vec F S1024x512 .f32 :=
  VS1.read (Elt F) (VS1.writes (Elt F) VS1.junk (kernelRun1_A c i arg3 harg3 arg4 harg4 arg5 harg5 arg6 harg6 arg7 harg7 hc0 hc1 x0 x1 x2).2.1)

/-- At such a point the run's pieces for the output block tile it, so they cover it. -/
theorem cover1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y

/-- What the run leaves in the output block: its pieces read back. -/
def out1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .bf16 :=
  VO1.read (Elt F) (VO1.writes (Elt F) VO1.junk (kernelRun1_C c i arg3 harg3 arg4 harg4 arg5 harg5 arg6 harg6 arg7 harg7 hc0 hc1 x0 x1 x2 xs0).1)

/-- The run's pieces for the accumulator tile it, so they cover it. -/
theorem scover1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y

/-- What the run leaves in the accumulator: its pieces read back. -/
def sout1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 hc0 hc1 x0 x1 x2 xs0).2.1)

section Region
variable (V : (c : Dev nD) → (b : Ref sig .tc) → Buf (Elt F) ((c : Thread nD τ).loc b))

/-! ## What the output block and the accumulator hold after each point -/

/-- The accumulation, by recursion on the position `n` of the point: the pair (output block, accumulator). -/
def outsAt1 (c : Dev nD) : (n : ℕ) → n < cfg1.N → Vec F S1024x512 .bf16 × Vec F S1024x512 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

theorem outsAt1_A (c : Dev nD) (t : Fin cfg1.N) (h0 : t.val % 2 = 0) (h1 : ¬t.val % 2 = 1) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_C (c : Dev nD) (t : Fin cfg1.N) (h0 : ¬t.val % 2 = 0) (h1 : t.val % 2 = 1) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what
    the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2 := lt_of_lt_of_eq t.isLt (show cfg1.N = 2 from N_1)
  by_cases h0 : t.val % 2 = 0
  · have h1 : ¬t.val % 2 = 1 := by omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have h1 : t.val % 2 = 1 := by omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2 := N_1; omega), PhiA1_eq]
  iintro ⟨⟨HS0, HR⟩, Hg⟩
  isplitl [HS0 HR]
  · isplitl [HS0]
    · iexists _; iexact HS0
    iexact HR
  iexact Hg

end Region

end Cert.KernelIdeal.Hand

end
-- ==== Proof.R2.lean ====
/-
  Region 2 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The body's two branch conditions, in closed form over the grid -/

/-- "This is the first block of the contracted axis": the condition of the first `scf.if`. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 1 = 0 :=
  (by decide +kernel : ∀ t : Fin grid2.N, cond2_0 (grid2.coords t) ↔ t.val % 1 = 0)
/-- "This is the last block of the contracted axis": the condition of the second `scf.if`. -/
abbrev cond2_1 (i : grid2.Coords) : Prop := k2_cond2 i = 1#1
theorem hcond2_1 : ∀ t : Fin cfg2.N, cond2_1 (grid2.coords t) ↔ t.val % 1 = 0 :=
  (by decide +kernel : ∀ t : Fin grid2.N, cond2_1 (grid2.coords t) ↔ t.val % 1 = 0)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last block the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last block the output window is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2 : View sig .tc .vmem S1024x128 .f32 := (Memref.whole cc2_stg3_0 : Memref sig .tc .vmem S1024x128 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x128 .f32 := Memref.whole cc2_scratch0
abbrev VS2 : View sig .tc .vmem S1024x128 .f32 := scM2.view

/-- The region's invariant before its first point: the accumulator owned at some contents, the other scoped buffers
    unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.R2RunD.lean ====
/-
  Region 2, the body at a point that is the only block of the contracted axis: the body's run on whole staging memrefs, as a triple whose
  postcondition names the pieces that the stores leave in the accumulator and in the output block.  The inputs'
  buffers come back as they were.
-/
import proofs.«157756_j25125558682089_1_alg».proof.Proof.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R2Dat.lean ====
/-
  Region 2: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R2RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) (y : S1024x128.Idx) :
    ∃ pc ∈ (kernelRun2_D c i arg3 harg3 arg4 harg4 arg5 harg5 arg6 harg6 arg7 harg7 hc0 hc1 x0 x1 x2).1, y ∈ pc.1.set :=
  View.cover_of_tiledL (kernelRun2_D c i arg3 harg3 arg4 harg4 arg5 harg5 arg6 harg6 arg7 harg7 hc0 hc1 x0 x1 x2).1 S1024x128.size (by sl_kernel_rfl) y

/-- What the run leaves in the output block: its pieces read back. -/
def out2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) : Vec F S1024x128 .f32 :=
  VO2.read (Elt F) (VO2.writes (Elt F) VO2.junk (kernelRun2_D c i arg3 harg3 arg4 harg4 arg5 harg5 arg6 harg6 arg7 harg7 hc0 hc1 x0 x1 x2).1)

/-- The run's pieces for the accumulator tile it, so they cover it. -/
theorem scover2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) (y : S1024x128.Idx) :
    ∃ pc ∈ (kernelRun2_D c i arg3 harg3 arg4 harg4 arg5 harg5 arg6 harg6 arg7 harg7 hc0 hc1 x0 x1 x2).2.1, y ∈ pc.1.set :=
  View.cover_of_tiledL (kernelRun2_D c i arg3 harg3 arg4 harg4 arg5 harg5 arg6 harg6 arg7 harg7 hc0 hc1 x0 x1 x2).2.1 S1024x128.size (by sl_kernel_rfl) y

/-- What the run leaves in the accumulator: its pieces read back. -/
def sout2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) : Vec F S1024x128 .f32 :=
  VS2.read (Elt F) (VS2.writes (Elt F) VS2.junk (kernelRun2_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt2 (c : Dev nD) (n : ℕ) (hn : n < cfg2.N) : Vec F S1024x128 .f32 × Vec F S1024x128 .f32 :=
  (out2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) ((hcond2_0 ⟨n, hn⟩).mpr (Nat.mod_one _)) ((hcond2_1 ⟨n, hn⟩).mpr (Nat.mod_one _)) (iblk2 V c 0 ⟨n, hn⟩) (iblk2 V c 1 ⟨n, hn⟩) (iblk2 V c 2 ⟨n, hn⟩), sout2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) ((hcond2_0 ⟨n, hn⟩).mpr (Nat.mod_one _)) ((hcond2_1 ⟨n, hn⟩).mpr (Nat.mod_one _)) (iblk2 V c 0 ⟨n, hn⟩) (iblk2 V c 1 ⟨n, hn⟩) (iblk2 V c 2 ⟨n, hn⟩))

/-- The region's invariant before position `n`: before the first point the plain one; afterwards the accumulator at what
    the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 1 := lt_of_lt_of_eq t.isLt (show cfg2.N = 1 from N_2)
  have h0 : t.val % 1 = 0 := Nat.mod_one _
  have h1 : t.val % 1 = 0 := Nat.mod_one _
  · have hd : True := trivial
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      unfold outsAt2
      unfold out2_D sout2_D; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_D c (grid2.coords t) _ _ _ _ _ _ _ _ _ _ ((hcond2_0 t).mpr h0) ((hcond2_1 t).mpr h1) (iblk2 V c 0 t) (iblk2 V c 1 t) (iblk2 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_D c _ _ _ _ _ _ _ _ _ _ _ _ _ _ _ _)
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_D c (grid2.coords t) _ _ _ _ _ _ _ _ _ _ ((hcond2_0 t).mpr h0) ((hcond2_1 t).mpr h1) (iblk2 V c 0 t) (iblk2 V c 1 t) (iblk2 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_D c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 1 := N_2; omega), PhiA2_eq]
  iintro ⟨⟨HS0, HR⟩, Hg⟩
  isplitl [HS0 HR]
  · isplitl [HS0]
    · iexists _; iexact HS0
    iexact HR
  iexact Hg

end Region

end Cert.KernelIdeal.Hand

end
-- ==== Proof.R3.lean ====
/-
  Region 3 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's two branch conditions, in closed form over the grid -/

/-- "This is the first block of the contracted axis": the condition of the first `scf.if`. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 1 = 0 :=
  (by decide +kernel : ∀ t : Fin grid3.N, cond3_0 (grid3.coords t) ↔ t.val % 1 = 0)
/-- "This is the last block of the contracted axis": the condition of the second `scf.if`. -/
abbrev cond3_1 (i : grid3.Coords) : Prop := k3_cond2 i = 1#1
theorem hcond3_1 : ∀ t : Fin cfg3.N, cond3_1 (grid3.coords t) ↔ t.val % 1 = 0 :=
  (by decide +kernel : ∀ t : Fin grid3.N, cond3_1 (grid3.coords t) ↔ t.val % 1 = 0)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last block the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last block the output window is live. -/
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3 : View sig .tc .vmem S5000x128 .bf16 := (Memref.whole cc3_stg3_0 : Memref sig .tc .vmem S5000x128 .bf16).view
abbrev ms3_0 (t : Fin cfg3.N) : Memref sig .tc .vmem S5000x1 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x128 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S5000x128 .f32 := Memref.whole cc3_scratch0
abbrev VS3 : View sig .tc .vmem S5000x128 .f32 := scM3.view

/-- The region's invariant before its first point: the accumulator owned at some contents, the other scoped buffers
    unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.R3RunD.lean ====
/-
  Region 3, the body at a point that is the only block of the contracted axis: the body's run on whole staging memrefs, as a triple whose
  postcondition names the pieces that the stores leave in the accumulator and in the output block.  The inputs'
  buffers come back as they were.
-/
import proofs.«157756_j25125558682089_1_alg».proof.Proof.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) :
    Σ' (L3 : List (View.Piece (Elt F) S5000x128 .bf16)), { LS0 : List (View.Piece (Elt F) S5000x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R3Dat.lean ====
/-
  Region 3: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R3RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) (y : S5000x128.Idx) :
    ∃ pc ∈ (kernelRun3_D c i arg3 harg3 arg4 harg4 arg5 harg5 arg6 harg6 arg7 harg7 hc0 hc1 x0 x1 x2).1, y ∈ pc.1.set :=
  View.cover_of_tiledL (kernelRun3_D c i arg3 harg3 arg4 harg4 arg5 harg5 arg6 harg6 arg7 harg7 hc0 hc1 x0 x1 x2).1 S5000x128.size (by sl_kernel_rfl) y

/-- What the run leaves in the output block: its pieces read back. -/
def out3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) : Vec F S5000x128 .bf16 :=
  VO3.read (Elt F) (VO3.writes (Elt F) VO3.junk (kernelRun3_D c i arg3 harg3 arg4 harg4 arg5 harg5 arg6 harg6 arg7 harg7 hc0 hc1 x0 x1 x2).1)

/-- The run's pieces for the accumulator tile it, so they cover it. -/
theorem scover3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) (y : S5000x128.Idx) :
    ∃ pc ∈ (kernelRun3_D c i arg3 harg3 arg4 harg4 arg5 harg5 arg6 harg6 arg7 harg7 hc0 hc1 x0 x1 x2).2.1, y ∈ pc.1.set :=
  View.cover_of_tiledL (kernelRun3_D c i arg3 harg3 arg4 harg4 arg5 harg5 arg6 harg6 arg7 harg7 hc0 hc1 x0 x1 x2).2.1 S5000x128.size (by sl_kernel_rfl) y

/-- What the run leaves in the accumulator: its pieces read back. -/
def sout3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) : Vec F S5000x128 .f32 :=
  VS3.read (Elt F) (VS3.writes (Elt F) VS3.junk (kernelRun3_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt3 (c : Dev nD) (n : ℕ) (hn : n < cfg3.N) : Vec F S5000x128 .bf16 × Vec F S5000x128 .f32 :=
  (out3_D c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) ((hcond3_0 ⟨n, hn⟩).mpr (Nat.mod_one _)) ((hcond3_1 ⟨n, hn⟩).mpr (Nat.mod_one _)) (iblk3 V c 0 ⟨n, hn⟩) (iblk3 V c 1 ⟨n, hn⟩) (iblk3 V c 2 ⟨n, hn⟩), sout3_D c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) ((hcond3_0 ⟨n, hn⟩).mpr (Nat.mod_one _)) ((hcond3_1 ⟨n, hn⟩).mpr (Nat.mod_one _)) (iblk3 V c 0 ⟨n, hn⟩) (iblk3 V c 1 ⟨n, hn⟩) (iblk3 V c 2 ⟨n, hn⟩))

/-- The region's invariant before position `n`: before the first point the plain one; afterwards the accumulator at what
    the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt3`'s first component; the invariant `PhiS3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  have h0 : t.val % 1 = 0 := Nat.mod_one _
  have h1 : t.val % 1 = 0 := Nat.mod_one _
  · have hd : True := trivial
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      unfold outsAt3
      unfold out3_D sout3_D; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_D c (grid3.coords t) _ _ _ _ _ _ _ _ _ _ ((hcond3_0 t).mpr h0) ((hcond3_1 t).mpr h1) (iblk3 V c 0 t) (iblk3 V c 1 t) (iblk3 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_D c _ _ _ _ _ _ _ _ _ _ _ _ _ _ _ _)
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_D c (grid3.coords t) _ _ _ _ _ _ _ _ _ _ ((hcond3_0 t).mpr h0) ((hcond3_1 t).mpr h1) (iblk3 V c 0 t) (iblk3 V c 1 t) (iblk3 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_D c _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the plain one back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 20 := N_3; omega), PhiA3_eq]
  iintro ⟨⟨HS0, HR⟩, Hg⟩
  isplitl [HS0 HR]
  · isplitl [HS0]
    · iexists _; iexact HS0
    iexact HR
  iexact Hg

end Region

end Cert.KernelIdeal.Hand

end
-- ==== Proof.R4.lean ====
/-
  Region 4 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's two branch conditions, in closed form over the grid -/

/-- "This is the first block of the contracted axis": the condition of the first `scf.if`. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 1 = 0 :=
  (by decide +kernel : ∀ t : Fin grid4.N, cond4_0 (grid4.coords t) ↔ t.val % 1 = 0)
/-- "This is the last block of the contracted axis": the condition of the second `scf.if`. -/
abbrev cond4_1 (i : grid4.Coords) : Prop := k4_cond2 i = 1#1
theorem hcond4_1 : ∀ t : Fin cfg4.N, cond4_1 (grid4.coords t) ↔ t.val % 1 = 0 :=
  (by decide +kernel : ∀ t : Fin grid4.N, cond4_1 (grid4.coords t) ↔ t.val % 1 = 0)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last block the output window is idle and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last block the output window is live. -/
theorem liveAt4_3 : ∀ t : Fin cfg4.N, cond4_1 (grid4.coords t) → cfg4.idle 3 (grid4.coords t) = false := by decide +kernel

/-! ## The memrefs the body is called with -/

/-- One staging buffer of the output window, through which its contents are stated. -/
abbrev VO4 : View sig .tc .vmem S5000x256 .bf16 := (Memref.whole cc4_stg3_0 : Memref sig .tc .vmem S5000x256 .bf16).view
abbrev ms4_0 (t : Fin cfg4.N) : Memref sig .tc .vmem S5000x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x256 .bf16 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4 : Memref sig .tc .vmem S5000x256 .f32 := Memref.whole cc4_scratch0
abbrev VS4 : View sig .tc .vmem S5000x256 .f32 := scM4.view

/-- The region's invariant before its first point: the accumulator owned at some contents, the other scoped buffers
    unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.KernelIdeal.Hand

end
-- ==== Proof.R4RunD.lean ====
/-
  Region 4, the body at a point that is the only block of the contracted axis: the body's run on whole staging memrefs, as a triple whose
  postcondition names the pieces that the stores leave in the accumulator and in the output block.  The inputs'
  buffers come back as they were.
-/
import proofs.«157756_j25125558682089_1_alg».proof.Proof.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) :
    Σ' (L3 : List (View.Piece (Elt F) S5000x256 .bf16)), { LS0 : List (View.Piece (Elt F) S5000x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R4Dat.lean ====
/-
  Region 4: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R4RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) (y : S5000x256.Idx) :
    ∃ pc ∈ (kernelRun4_D c i arg3 harg3 arg4 harg4 arg5 harg5 arg6 harg6 arg7 harg7 hc0 hc1 x0 x1 x2).1, y ∈ pc.1.set :=
  View.cover_of_tiledL (kernelRun4_D c i arg3 harg3 arg4 harg4 arg5 harg5 arg6 harg6 arg7 harg7 hc0 hc1 x0 x1 x2).1 S5000x256.size (by sl_kernel_rfl) y

/-- What the run leaves in the output block: its pieces read back. -/
def out4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) : Vec F S5000x256 .bf16 :=
  VO4.read (Elt F) (VO4.writes (Elt F) VO4.junk (kernelRun4_D c i arg3 harg3 arg4 harg4 arg5 harg5 arg6 harg6 arg7 harg7 hc0 hc1 x0 x1 x2).1)

/-- The run's pieces for the accumulator tile it, so they cover it. -/
theorem scover4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) (y : S5000x256.Idx) :
    ∃ pc ∈ (kernelRun4_D c i arg3 harg3 arg4 harg4 arg5 harg5 arg6 harg6 arg7 harg7 hc0 hc1 x0 x1 x2).2.1, y ∈ pc.1.set :=
  View.cover_of_tiledL (kernelRun4_D c i arg3 harg3 arg4 harg4 arg5 harg5 arg6 harg6 arg7 harg7 hc0 hc1 x0 x1 x2).2.1 S5000x256.size (by sl_kernel_rfl) y

/-- What the run leaves in the accumulator: its pieces read back. -/
def sout4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) : Vec F S5000x256 .f32 :=
  VS4.read (Elt F) (VS4.writes (Elt F) VS4.junk (kernelRun4_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt4 (c : Dev nD) (n : ℕ) (hn : n < cfg4.N) : Vec F S5000x256 .bf16 × Vec F S5000x256 .f32 :=
  (out4_D c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4 (Memref.isWhole_whole _) ((hcond4_0 ⟨n, hn⟩).mpr (Nat.mod_one _)) ((hcond4_1 ⟨n, hn⟩).mpr (Nat.mod_one _)) (iblk4 V c 0 ⟨n, hn⟩) (iblk4 V c 1 ⟨n, hn⟩) (iblk4 V c 2 ⟨n, hn⟩), sout4_D c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4 (Memref.isWhole_whole _) ((hcond4_0 ⟨n, hn⟩).mpr (Nat.mod_one _)) ((hcond4_1 ⟨n, hn⟩).mpr (Nat.mod_one _)) (iblk4 V c 0 ⟨n, hn⟩) (iblk4 V c 1 ⟨n, hn⟩) (iblk4 V c 2 ⟨n, hn⟩))

/-- The region's invariant before position `n`: before the first point the plain one; afterwards the accumulator at what
    the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt4`'s first component; the invariant `PhiS4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  have h0 : t.val % 1 = 0 := Nat.mod_one _
  have h1 : t.val % 1 = 0 := Nat.mod_one _
  · have hd : True := trivial
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      unfold outsAt4
      unfold out4_D sout4_D; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_D c (grid4.coords t) _ _ _ _ _ _ _ _ _ _ ((hcond4_0 t).mpr h0) ((hcond4_1 t).mpr h1) (iblk4 V c 0 t) (iblk4 V c 1 t) (iblk4 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_D c _ _ _ _ _ _ _ _ _ _ _ _ _ _ _ _)
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_D c (grid4.coords t) _ _ _ _ _ _ _ _ _ _ ((hcond4_0 t).mpr h0) ((hcond4_1 t).mpr h1) (iblk4 V c 0 t) (iblk4 V c 1 t) (iblk4 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_D c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the plain one back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨⟨HS0, HR⟩, Hg⟩
  isplitl [HS0 HR]
  · isplitl [HS0]
    · iexists _; iexact HS0
    iexact HR
  iexact Hg

end Region

end Cert.KernelIdeal.Hand

end
-- ==== Proof.R5.lean ====
/-
  Region 5 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.KernelIdeal.Launch
import proofs.«157756_j25125558682089_1_alg».proof.Proof.Gen.KernelIdeal.Skeleton
import proofs.«157756_j25125558682089_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end Region

/-! ## The body's two branch conditions, in closed form over the grid -/

/-- "This is the first block of the contracted axis": the condition of the first `scf.if`. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 1 = 0 :=
  (by decide +kernel : ∀ t : Fin grid5.N, cond5_0 (grid5.coords t) ↔ t.val % 1 = 0)
/-- "This is the last block of the contracted axis": the condition of the second `scf.if`. -/
abbrev cond5_1 (i : grid5.Coords) : Prop := k5_cond2 i = 1#1
theorem hcond5_1 : ∀ t : Fin cfg5.N, cond5_1 (grid5.coords t) ↔ t.val % 1 = 0 :=
  (by decide +kernel : ∀ t : Fin grid5.N, cond5_1 (grid5.coords t) ↔ t.val % 1 = 0)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last block the output window is idle and not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At the last block the output window is live. -/
theorem liveAt5_3 : ∀ t : Fin cfg5.N, cond5_1 (grid5.coords t) → cfg5.idle 3 (grid5.coords t) = false := by decide +kernel

/-! ## The memrefs the body is called with -/

/-- One staging buffer of the output window, through which its contents are stated. -/
abbrev VO5 : View sig .tc .vmem S5000x128 .f32 := (Memref.whole cc5_stg3_0 : Memref sig .tc .vmem S5000x128 .f32).view
abbrev ms5_0 (t : Fin cfg5.N) : Memref sig .tc .vmem S5000x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x128 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5 : Memref sig .tc .vmem S5000x128 .f32 := Memref.whole cc5_scratch0
abbrev VS5 : View sig .tc .vmem S5000x128 .f32 := scM5.view

/-- The region's invariant before its first point: the accumulator owned at some contents, the other scoped buffers
    unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.KernelIdeal.Hand

end
-- ==== Proof.R5RunD.lean ====
/-
  Region 5, the body at a point that is the only block of the contracted axis: the body's run on whole staging memrefs, as a triple whose
  postcondition names the pieces that the stores leave in the accumulator and in the output block.  The inputs'
  buffers come back as they were.
-/
import proofs.«157756_j25125558682089_1_alg».proof.Proof.R5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) :
    Σ' (L3 : List (View.Piece (Elt F) S5000x128 .f32)), { LS0 : List (View.Piece (Elt F) S5000x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__linear_kernel i arg3 harg3 arg4 harg4 arg5 harg5 arg6 harg6 arg7 harg7) K } := by
  refine ⟨?_, ?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R5Dat.lean ====
/-
  Region 5: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.R5RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) (y : S5000x128.Idx) :
    ∃ pc ∈ (kernelRun5_D c i arg3 harg3 arg4 harg4 arg5 harg5 arg6 harg6 arg7 harg7 hc0 hc1 x0 x1 x2).1, y ∈ pc.1.set :=
  View.cover_of_tiledL (kernelRun5_D c i arg3 harg3 arg4 harg4 arg5 harg5 arg6 harg6 arg7 harg7 hc0 hc1 x0 x1 x2).1 S5000x128.size (by sl_kernel_rfl) y

/-- What the run leaves in the output block: its pieces read back. -/
def out5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) : Vec F S5000x128 .f32 :=
  VO5.read (Elt F) (VO5.writes (Elt F) VO5.junk (kernelRun5_D c i arg3 harg3 arg4 harg4 arg5 harg5 arg6 harg6 arg7 harg7 hc0 hc1 x0 x1 x2).1)

/-- The run's pieces for the accumulator tile it, so they cover it. -/
theorem scover5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) (y : S5000x128.Idx) :
    ∃ pc ∈ (kernelRun5_D c i arg3 harg3 arg4 harg4 arg5 harg5 arg6 harg6 arg7 harg7 hc0 hc1 x0 x1 x2).2.1, y ∈ pc.1.set :=
  View.cover_of_tiledL (kernelRun5_D c i arg3 harg3 arg4 harg4 arg5 harg5 arg6 harg6 arg7 harg7 hc0 hc1 x0 x1 x2).2.1 S5000x128.size (by sl_kernel_rfl) y

/-- What the run leaves in the accumulator: its pieces read back. -/
def sout5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) : Vec F S5000x128 .f32 :=
  VS5.read (Elt F) (VS5.writes (Elt F) VS5.junk (kernelRun5_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt5 (c : Dev nD) (n : ℕ) (hn : n < cfg5.N) : Vec F S5000x128 .f32 × Vec F S5000x128 .f32 :=
  (out5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr (Nat.mod_one _)) ((hcond5_1 ⟨n, hn⟩).mpr (Nat.mod_one _)) (iblk5 V c 0 ⟨n, hn⟩) (iblk5 V c 1 ⟨n, hn⟩) (iblk5 V c 2 ⟨n, hn⟩), sout5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr (Nat.mod_one _)) ((hcond5_1 ⟨n, hn⟩).mpr (Nat.mod_one _)) (iblk5 V c 0 ⟨n, hn⟩) (iblk5 V c 1 ⟨n, hn⟩) (iblk5 V c 2 ⟨n, hn⟩))

/-- The region's invariant before position `n`: before the first point the plain one; afterwards the accumulator at what
    the point before left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt5`'s first component; the invariant `PhiS5`; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  have h0 : t.val % 1 = 0 := Nat.mod_one _
  have h1 : t.val % 1 = 0 := Nat.mod_one _
  · have hd : True := trivial
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t ((hcond5_1 t).mpr h1)], after5_3]
      unfold outsAt5
      unfold out5_D sout5_D; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_D c (grid5.coords t) _ _ _ _ _ _ _ _ _ _ ((hcond5_0 t).mpr h0) ((hcond5_1 t).mpr h1) (iblk5 V c 0 t) (iblk5 V c 1 t) (iblk5 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_D c _ _ _ _ _ _ _ _ _ _ _ _ _ _ _ _)
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_D c (grid5.coords t) _ _ _ _ _ _ _ _ _ _ ((hcond5_0 t).mpr h0) ((hcond5_1 t).mpr h1) (iblk5 V c 0 t) (iblk5 V c 1 t) (iblk5 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_D c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the plain one back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 20 := N_5; omega), PhiA5_eq]
  iintro ⟨⟨HS0, HR⟩, Hg⟩
  isplitl [HS0 HR]
  · isplitl [HS0]
    · iexists _; iexact HS0
    iexact HR
  iexact Hg

end Region

end Cert.KernelIdeal.Hand

end
-- ==== Proof.Regs.lean ====
/-
  The six regions of @main as segments of its run, and the run.

  Between two items of @main a core holds every unscoped buffer whole at known contents; beside them it carries only its
  generator register (at some state) and the fact that it owes nothing.  A region is entered from such a state: its
  windows' arrays are split out of the unscoped buffers, the register goes into the region's invariant, and at the
  exit the arrays come back at what the pipeline's write-backs left — the three inputs as entered, the output array at
  the blocks the body stored — and everything else as entered.  The contents each region leaves in its output array
  are defined stage by stage (`o0` … `o5`), each from the buffer contents the region is entered with, which depend on
  the earlier regions' outputs only.
-/
import proofs.«157756_j25125558682089_1_alg».proof.Proof.R0Dat
import proofs.«157756_j25125558682089_1_alg».proof.Proof.R1Dat
import proofs.«157756_j25125558682089_1_alg».proof.Proof.R2Dat
import proofs.«157756_j25125558682089_1_alg».proof.Proof.R3Dat
import proofs.«157756_j25125558682089_1_alg».proof.Proof.R4Dat
import proofs.«157756_j25125558682089_1_alg».proof.Proof.R5Dat
import proofs.«157756_j25125558682089_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What rides beside the buffers through every item: the generator register at some state, and nothing owed. -/
abbrev R (c : Dev nD) : sProp 𝕄 := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

/-! ## The regions' outputs, stage by stage -/

/-- The buffer contents region 0 is entered with, read at the TensorCore's references. -/
abbrev Vin0 : (c : Dev nD) → (b : Ref sig .tc) → Buf (Elt F) ((c : Thread nD τ).loc b) := fun c b => V5 m c b
/-- What region 0 leaves in its output array `main_v25`: the write-backs of its 10 points folded over the entry contents. -/
def o0 (c : Dev nD) : Buf (Elt F) ((c : Thread nD τ).loc main_v25) := (dat0 (Vin0 m) c).arrAt 3 cfg0.N
/-- The buffer contents after region 0. -/
abbrev W6 (c : Dev nD) : Valuation τ sig (Elt F) := Function.update (V5 m c) main_v25 (o0 m c)
/-- The regions' outputs known so far, as the family the generated host side is stated over. -/
def outs6 : Outs (F := F) := fun J r c =>
  W6 m c r

/-- The buffer contents region 1 is entered with, read at the TensorCore's references. -/
abbrev Vin1 : (c : Dev nD) → (b : Ref sig .tc) → Buf (Elt F) ((c : Thread nD τ).loc b) := fun c b => V7 m (outs6 m) c b
/-- What region 1 leaves in its output array `main_v28`: the write-backs of its 2 points folded over the entry contents. -/
def o1 (c : Dev nD) : Buf (Elt F) ((c : Thread nD τ).loc main_v28) := (dat1 (Vin1 m) c).arrAt 3 cfg1.N
/-- The buffer contents after region 1. -/
abbrev W8 (c : Dev nD) : Valuation τ sig (Elt F) := Function.update (V7 m (outs6 m) c) main_v28 (o1 m c)
/-- The regions' outputs known so far, as the family the generated host side is stated over. -/
def outs8 : Outs (F := F) := fun J r c =>
  if J = 6 then W6 m c r else W8 m c r

/-- The buffer contents region 2 is entered with, read at the TensorCore's references. -/
abbrev Vin2 : (c : Dev nD) → (b : Ref sig .tc) → Buf (Elt F) ((c : Thread nD τ).loc b) := fun c b => V9 m (outs8 m) c b
/-- What region 2 leaves in its output array `main_v31`: the write-backs of its 1 points folded over the entry contents. -/
def o2 (c : Dev nD) : Buf (Elt F) ((c : Thread nD τ).loc main_v31) := (dat2 (Vin2 m) c).arrAt 3 cfg2.N
/-- The buffer contents after region 2. -/
abbrev W10 (c : Dev nD) : Valuation τ sig (Elt F) := Function.update (V9 m (outs8 m) c) main_v31 (o2 m c)
/-- The regions' outputs known so far, as the family the generated host side is stated over. -/
def outs10 : Outs (F := F) := fun J r c =>
  if J = 6 then W6 m c r else if J = 8 then W8 m c r else W10 m c r

/-- The buffer contents region 3 is entered with, read at the TensorCore's references. -/
abbrev Vin3 : (c : Dev nD) → (b : Ref sig .tc) → Buf (Elt F) ((c : Thread nD τ).loc b) := fun c b => V13 m (outs10 m) c b
/-- What region 3 leaves in its output array `main_v62`: the write-backs of its 20 points folded over the entry contents. -/
def o3 (c : Dev nD) : Buf (Elt F) ((c : Thread nD τ).loc main_v62) := (dat3 (Vin3 m) c).arrAt 3 cfg3.N
/-- The buffer contents after region 3. -/
abbrev W14 (c : Dev nD) : Valuation τ sig (Elt F) := Function.update (V13 m (outs10 m) c) main_v62 (o3 m c)
/-- The regions' outputs known so far, as the family the generated host side is stated over. -/
def outs14 : Outs (F := F) := fun J r c =>
  if J = 6 then W6 m c r else if J = 8 then W8 m c r else if J = 10 then W10 m c r else W14 m c r

/-- The buffer contents region 4 is entered with, read at the TensorCore's references. -/
abbrev Vin4 : (c : Dev nD) → (b : Ref sig .tc) → Buf (Elt F) ((c : Thread nD τ).loc b) := fun c b => V17 m (outs14 m) c b
/-- What region 4 leaves in its output array `main_v90`: the write-backs of its 20 points folded over the entry contents. -/
def o4 (c : Dev nD) : Buf (Elt F) ((c : Thread nD τ).loc main_v90) := (dat4 (Vin4 m) c).arrAt 3 cfg4.N
/-- The buffer contents after region 4. -/
abbrev W18 (c : Dev nD) : Valuation τ sig (Elt F) := Function.update (V17 m (outs14 m) c) main_v90 (o4 m c)
/-- The regions' outputs known so far, as the family the generated host side is stated over. -/
def outs18 : Outs (F := F) := fun J r c =>
  if J = 6 then W6 m c r else if J = 8 then W8 m c r else if J = 10 then W10 m c r else if J = 14 then W14 m c r else W18 m c r

/-- The buffer contents region 5 is entered with, read at the TensorCore's references. -/
abbrev Vin5 : (c : Dev nD) → (b : Ref sig .tc) → Buf (Elt F) ((c : Thread nD τ).loc b) := fun c b => V21 m (outs18 m) c b
/-- What region 5 leaves in its output array `main_v118`: the write-backs of its 20 points folded over the entry contents. -/
def o5 (c : Dev nD) : Buf (Elt F) ((c : Thread nD τ).loc main_v118) := (dat5 (Vin5 m) c).arrAt 3 cfg5.N
/-- The buffer contents after region 5. -/
abbrev W22 (c : Dev nD) : Valuation τ sig (Elt F) := Function.update (V21 m (outs18 m) c) main_v118 (o5 m c)
/-- The regions' outputs known so far, as the family the generated host side is stated over. -/
def outs22 : Outs (F := F) := fun J r c =>
  if J = 6 then W6 m c r else if J = 8 then W8 m c r else if J = 10 then W10 m c r else if J = 14 then W14 m c r else if J = 18 then W18 m c r else W22 m c r

/-- The family of every region's output. -/
abbrev outsF : Outs (F := F) := outs22 m

/-! ## The buffer contents depend on the regions' outputs only through the six output arrays -/

section Congr
variable (o o' : Outs (F := F)) (c : Dev nD)
theorem V6_congr (h6 : o 6 main_v25 c = o' 6 main_v25 c) : V6 m o c = V6 m o' c := by
  show Function.update (V5 m c) main_v25 (o 6 main_v25 c) = Function.update (V5 m c) main_v25 (o' 6 main_v25 c)
  rw [h6]
theorem V7_congr (h6 : o 6 main_v25 c = o' 6 main_v25 c) : V7 m o c = V7 m o' c := by
  show StableHlo.after hostOps1 (V6 m o c) = StableHlo.after hostOps1 (V6 m o' c)
  rw [V6_congr m o o' c h6]
theorem V8_congr (h6 : o 6 main_v25 c = o' 6 main_v25 c) (h8 : o 8 main_v28 c = o' 8 main_v28 c) : V8 m o c = V8 m o' c := by
  show Function.update (V7 m o c) main_v28 (o 8 main_v28 c) = Function.update (V7 m o' c) main_v28 (o' 8 main_v28 c)
  rw [V7_congr m o o' c h6, h8]
theorem V9_congr (h6 : o 6 main_v25 c = o' 6 main_v25 c) (h8 : o 8 main_v28 c = o' 8 main_v28 c) : V9 m o c = V9 m o' c := by
  show StableHlo.after hostOps2 (V8 m o c) = StableHlo.after hostOps2 (V8 m o' c)
  rw [V8_congr m o o' c h6 h8]
theorem V10_congr (h6 : o 6 main_v25 c = o' 6 main_v25 c) (h8 : o 8 main_v28 c = o' 8 main_v28 c) (h10 : o 10 main_v31 c = o' 10 main_v31 c) : V10 m o c = V10 m o' c := by
  show Function.update (V9 m o c) main_v31 (o 10 main_v31 c) = Function.update (V9 m o' c) main_v31 (o' 10 main_v31 c)
  rw [V9_congr m o o' c h6 h8, h10]
theorem V11_congr (h6 : o 6 main_v25 c = o' 6 main_v25 c) (h8 : o 8 main_v28 c = o' 8 main_v28 c) (h10 : o 10 main_v31 c = o' 10 main_v31 c) : V11 m o c = V11 m o' c := by
  show StableHlo.after hostOps3 (V10 m o c) = StableHlo.after hostOps3 (V10 m o' c)
  rw [V10_congr m o o' c h6 h8 h10]
theorem V12_congr (h6 : o 6 main_v25 c = o' 6 main_v25 c) (h8 : o 8 main_v28 c = o' 8 main_v28 c) (h10 : o 10 main_v31 c = o' 10 main_v31 c) : V12 m o c = V12 m o' c := by
  show StableHlo.after hostOps3_1 (V11 m o c) = StableHlo.after hostOps3_1 (V11 m o' c)
  rw [V11_congr m o o' c h6 h8 h10]
theorem V13_congr (h6 : o 6 main_v25 c = o' 6 main_v25 c) (h8 : o 8 main_v28 c = o' 8 main_v28 c) (h10 : o 10 main_v31 c = o' 10 main_v31 c) : V13 m o c = V13 m o' c := by
  show StableHlo.after hostOps3_2 (V12 m o c) = StableHlo.after hostOps3_2 (V12 m o' c)
  rw [V12_congr m o o' c h6 h8 h10]
theorem V14_congr (h6 : o 6 main_v25 c = o' 6 main_v25 c) (h8 : o 8 main_v28 c = o' 8 main_v28 c) (h10 : o 10 main_v31 c = o' 10 main_v31 c) (h14 : o 14 main_v62 c = o' 14 main_v62 c) : V14 m o c = V14 m o' c := by
  show Function.update (V13 m o c) main_v62 (o 14 main_v62 c) = Function.update (V13 m o' c) main_v62 (o' 14 main_v62 c)
  rw [V13_congr m o o' c h6 h8 h10, h14]
theorem V15_congr (h6 : o 6 main_v25 c = o' 6 main_v25 c) (h8 : o 8 main_v28 c = o' 8 main_v28 c) (h10 : o 10 main_v31 c = o' 10 main_v31 c) (h14 : o 14 main_v62 c = o' 14 main_v62 c) : V15 m o c = V15 m o' c := by
  show StableHlo.after hostOps4 (V14 m o c) = StableHlo.after hostOps4 (V14 m o' c)
  rw [V14_congr m o o' c h6 h8 h10 h14]
theorem V16_congr (h6 : o 6 main_v25 c = o' 6 main_v25 c) (h8 : o 8 main_v28 c = o' 8 main_v28 c) (h10 : o 10 main_v31 c = o' 10 main_v31 c) (h14 : o 14 main_v62 c = o' 14 main_v62 c) : V16 m o c = V16 m o' c := by
  show StableHlo.after hostOps4_1 (V15 m o c) = StableHlo.after hostOps4_1 (V15 m o' c)
  rw [V15_congr m o o' c h6 h8 h10 h14]
theorem V17_congr (h6 : o 6 main_v25 c = o' 6 main_v25 c) (h8 : o 8 main_v28 c = o' 8 main_v28 c) (h10 : o 10 main_v31 c = o' 10 main_v31 c) (h14 : o 14 main_v62 c = o' 14 main_v62 c) : V17 m o c = V17 m o' c := by
  show StableHlo.after hostOps4_2 (V16 m o c) = StableHlo.after hostOps4_2 (V16 m o' c)
  rw [V16_congr m o o' c h6 h8 h10 h14]
theorem V18_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V18 m o c = V18 m o' c := by
  show Function.update (V17 m o c) main_v90 (o 18 main_v90 c) = Function.update (V17 m o' c) main_v90 (o' 18 main_v90 c)
  rw [V17_congr m o o' c h6 h8 h10 h14, h18]
theorem V19_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V19 m o c = V19 m o' c := by
  show StableHlo.after hostOps5 (V18 m o c) = StableHlo.after hostOps5 (V18 m o' c)
  rw [V18_congr m o o' c h6 h8 h10 h14 h18]
theorem V20_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V20 m o c = V20 m o' c := by
  show StableHlo.after hostOps5_1 (V19 m o c) = StableHlo.after hostOps5_1 (V19 m o' c)
  rw [V19_congr m o o' c h6 h8 h10 h14 h18]
theorem V21_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V21 m o c = V21 m o' c := by
  show StableHlo.after hostOps5_2 (V20 m o c) = StableHlo.after hostOps5_2 (V20 m o' c)
  rw [V20_congr m o o' c h6 h8 h10 h14 h18]
theorem V22_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) (h22 : o 22 main_v118 c = o' 22 main_v118 c) : V22 m o c = V22 m o' c := by
  show Function.update (V21 m o c) main_v118 (o 22 main_v118 c) = Function.update (V21 m o' c) main_v118 (o' 22 main_v118 c)
  rw [V21_congr m o o' c h6 h8 h10 h14 h18, h22]
theorem V23_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) (h22 : o 22 main_v118 c = o' 22 main_v118 c) : V23 m o c = V23 m o' c := by
  show StableHlo.after hostOps6 (V22 m o c) = StableHlo.after hostOps6 (V22 m o' c)
  rw [V22_congr m o o' c h6 h8 h10 h14 h18 h22]
end Congr

/-! ## The staged families agree where they are read -/
theorem outs6_at6 (c : Dev nD) (r : Ref sig .tc) : outs6 m 6 r c = W6 m c r := by
  unfold outs6; simp only [if_true, if_false, ite_true, ite_false, reduceIte]
theorem outs8_at6 (c : Dev nD) (r : Ref sig .tc) : outs8 m 6 r c = W6 m c r := by
  unfold outs8; simp only [if_true, if_false, ite_true, ite_false, reduceIte]
theorem outs10_at6 (c : Dev nD) (r : Ref sig .tc) : outs10 m 6 r c = W6 m c r := by
  unfold outs10; simp only [if_true, if_false, ite_true, ite_false, reduceIte]
theorem outs14_at6 (c : Dev nD) (r : Ref sig .tc) : outs14 m 6 r c = W6 m c r := by
  unfold outs14; simp only [if_true, if_false, ite_true, ite_false, reduceIte]
theorem outs18_at6 (c : Dev nD) (r : Ref sig .tc) : outs18 m 6 r c = W6 m c r := by
  unfold outs18; simp only [if_true, if_false, ite_true, ite_false, reduceIte]
theorem outs22_at6 (c : Dev nD) (r : Ref sig .tc) : outs22 m 6 r c = W6 m c r := by
  unfold outs22; simp only [if_true, if_false, ite_true, ite_false, reduceIte]
theorem outs8_at8 (c : Dev nD) (r : Ref sig .tc) : outs8 m 8 r c = W8 m c r := by
  unfold outs8; simp only [show ¬((8 : ℕ) = 6) from by decide, if_true, if_false, ite_true, ite_false, reduceIte]
theorem outs10_at8 (c : Dev nD) (r : Ref sig .tc) : outs10 m 8 r c = W8 m c r := by
  unfold outs10; simp only [show ¬((8 : ℕ) = 6) from by decide, if_true, if_false, ite_true, ite_false, reduceIte]
theorem outs14_at8 (c : Dev nD) (r : Ref sig .tc) : outs14 m 8 r c = W8 m c r := by
  unfold outs14; simp only [show ¬((8 : ℕ) = 6) from by decide, if_true, if_false, ite_true, ite_false, reduceIte]
theorem outs18_at8 (c : Dev nD) (r : Ref sig .tc) : outs18 m 8 r c = W8 m c r := by
  unfold outs18; simp only [show ¬((8 : ℕ) = 6) from by decide, if_true, if_false, ite_true, ite_false, reduceIte]
theorem outs22_at8 (c : Dev nD) (r : Ref sig .tc) : outs22 m 8 r c = W8 m c r := by
  unfold outs22; simp only [show ¬((8 : ℕ) = 6) from by decide, if_true, if_false, ite_true, ite_false, reduceIte]
theorem outs10_at10 (c : Dev nD) (r : Ref sig .tc) : outs10 m 10 r c = W10 m c r := by
  unfold outs10; simp only [show ¬((10 : ℕ) = 6) from by decide, show ¬((10 : ℕ) = 8) from by decide, if_true, if_false, ite_true, ite_false, reduceIte]
theorem outs14_at10 (c : Dev nD) (r : Ref sig .tc) : outs14 m 10 r c = W10 m c r := by
  unfold outs14; simp only [show ¬((10 : ℕ) = 6) from by decide, show ¬((10 : ℕ) = 8) from by decide, if_true, if_false, ite_true, ite_false, reduceIte]
theorem outs18_at10 (c : Dev nD) (r : Ref sig .tc) : outs18 m 10 r c = W10 m c r := by
  unfold outs18; simp only [show ¬((10 : ℕ) = 6) from by decide, show ¬((10 : ℕ) = 8) from by decide, if_true, if_false, ite_true, ite_false, reduceIte]
theorem outs22_at10 (c : Dev nD) (r : Ref sig .tc) : outs22 m 10 r c = W10 m c r := by
  unfold outs22; simp only [show ¬((10 : ℕ) = 6) from by decide, show ¬((10 : ℕ) = 8) from by decide, if_true, if_false, ite_true, ite_false, reduceIte]
theorem outs14_at14 (c : Dev nD) (r : Ref sig .tc) : outs14 m 14 r c = W14 m c r := by
  unfold outs14; simp only [show ¬((14 : ℕ) = 6) from by decide, show ¬((14 : ℕ) = 8) from by decide, show ¬((14 : ℕ) = 10) from by decide, if_true, if_false, ite_true, ite_false, reduceIte]
theorem outs18_at14 (c : Dev nD) (r : Ref sig .tc) : outs18 m 14 r c = W14 m c r := by
  unfold outs18; simp only [show ¬((14 : ℕ) = 6) from by decide, show ¬((14 : ℕ) = 8) from by decide, show ¬((14 : ℕ) = 10) from by decide, if_true, if_false, ite_true, ite_false, reduceIte]
theorem outs22_at14 (c : Dev nD) (r : Ref sig .tc) : outs22 m 14 r c = W14 m c r := by
  unfold outs22; simp only [show ¬((14 : ℕ) = 6) from by decide, show ¬((14 : ℕ) = 8) from by decide, show ¬((14 : ℕ) = 10) from by decide, if_true, if_false, ite_true, ite_false, reduceIte]
theorem outs18_at18 (c : Dev nD) (r : Ref sig .tc) : outs18 m 18 r c = W18 m c r := by
  unfold outs18; simp only [show ¬((18 : ℕ) = 6) from by decide, show ¬((18 : ℕ) = 8) from by decide, show ¬((18 : ℕ) = 10) from by decide, show ¬((18 : ℕ) = 14) from by decide, if_true, if_false, ite_true, ite_false, reduceIte]
theorem outs22_at18 (c : Dev nD) (r : Ref sig .tc) : outs22 m 18 r c = W18 m c r := by
  unfold outs22; simp only [show ¬((18 : ℕ) = 6) from by decide, show ¬((18 : ℕ) = 8) from by decide, show ¬((18 : ℕ) = 10) from by decide, show ¬((18 : ℕ) = 14) from by decide, if_true, if_false, ite_true, ite_false, reduceIte]
theorem outs22_at22 (c : Dev nD) (r : Ref sig .tc) : outs22 m 22 r c = W22 m c r := by
  unfold outs22; simp only [show ¬((22 : ℕ) = 6) from by decide, show ¬((22 : ℕ) = 8) from by decide, show ¬((22 : ℕ) = 10) from by decide, show ¬((22 : ℕ) = 14) from by decide, show ¬((22 : ℕ) = 18) from by decide, if_true, if_false, ite_true, ite_false, reduceIte]
theorem outsF_6 (c : Dev nD) : outsF m 6 main_v25 c = o0 m c :=
  (outs22_at6 m c main_v25).trans (Function.update_self (f := V5 m c) (Proc.devRef .tc main_v25) (o0 m c))
theorem outsF_8 (c : Dev nD) : outsF m 8 main_v28 c = o1 m c :=
  (outs22_at8 m c main_v28).trans (Function.update_self (f := V7 m (outs6 m) c) (Proc.devRef .tc main_v28) (o1 m c))
theorem outsF_10 (c : Dev nD) : outsF m 10 main_v31 c = o2 m c :=
  (outs22_at10 m c main_v31).trans (Function.update_self (f := V9 m (outs8 m) c) (Proc.devRef .tc main_v31) (o2 m c))
theorem outsF_14 (c : Dev nD) : outsF m 14 main_v62 c = o3 m c :=
  (outs22_at14 m c main_v62).trans (Function.update_self (f := V13 m (outs10 m) c) (Proc.devRef .tc main_v62) (o3 m c))
theorem outsF_18 (c : Dev nD) : outsF m 18 main_v90 c = o4 m c :=
  (outs22_at18 m c main_v90).trans (Function.update_self (f := V17 m (outs14 m) c) (Proc.devRef .tc main_v90) (o4 m c))
theorem outsF_22 (c : Dev nD) : outsF m 22 main_v118 c = o5 m c :=
  (outs22_at22 m c main_v118).trans (Function.update_self (f := V21 m (outs18 m) c) (Proc.devRef .tc main_v118) (o5 m c))
theorem V7_stage (c : Dev nD) : V7 m (outsF m) c = V7 m (outs6 m) c :=
  V7_congr m (outsF m) (outs6 m) c ((outs22_at6 m c main_v25).trans (outs6_at6 m c main_v25).symm)
theorem V9_stage (c : Dev nD) : V9 m (outsF m) c = V9 m (outs8 m) c :=
  V9_congr m (outsF m) (outs8 m) c ((outs22_at6 m c main_v25).trans (outs8_at6 m c main_v25).symm) ((outs22_at8 m c main_v28).trans (outs8_at8 m c main_v28).symm)
theorem V13_stage (c : Dev nD) : V13 m (outsF m) c = V13 m (outs10 m) c :=
  V13_congr m (outsF m) (outs10 m) c ((outs22_at6 m c main_v25).trans (outs10_at6 m c main_v25).symm) ((outs22_at8 m c main_v28).trans (outs10_at8 m c main_v28).symm) ((outs22_at10 m c main_v31).trans (outs10_at10 m c main_v31).symm)
theorem V17_stage (c : Dev nD) : V17 m (outsF m) c = V17 m (outs14 m) c :=
  V17_congr m (outsF m) (outs14 m) c ((outs22_at6 m c main_v25).trans (outs14_at6 m c main_v25).symm) ((outs22_at8 m c main_v28).trans (outs14_at8 m c main_v28).symm) ((outs22_at10 m c main_v31).trans (outs14_at10 m c main_v31).symm) ((outs22_at14 m c main_v62).trans (outs14_at14 m c main_v62).symm)
theorem V21_stage (c : Dev nD) : V21 m (outsF m) c = V21 m (outs18 m) c :=
  V21_congr m (outsF m) (outs18 m) c ((outs22_at6 m c main_v25).trans (outs18_at6 m c main_v25).symm) ((outs22_at8 m c main_v28).trans (outs18_at8 m c main_v28).symm) ((outs22_at10 m c main_v31).trans (outs18_at10 m c main_v31).symm) ((outs22_at14 m c main_v62).trans (outs18_at14 m c main_v62).symm) ((outs22_at18 m c main_v90).trans (outs18_at18 m c main_v90).symm)
theorem V6_stage (c : Dev nD) : V6 m (outsF m) c = W6 m c := by
  show Function.update (V5 m c) main_v25 (outsF m 6 main_v25 c) = Function.update (V5 m c) main_v25 (o0 m c)
  rw [outsF_6 m c]
theorem V8_stage (c : Dev nD) : V8 m (outsF m) c = W8 m c := by
  show Function.update (V7 m (outsF m) c) main_v28 (outsF m 8 main_v28 c) = Function.update (V7 m (outs6 m) c) main_v28 (o1 m c)
  rw [V7_stage m c, outsF_8 m c]
theorem V10_stage (c : Dev nD) : V10 m (outsF m) c = W10 m c := by
  show Function.update (V9 m (outsF m) c) main_v31 (outsF m 10 main_v31 c) = Function.update (V9 m (outs8 m) c) main_v31 (o2 m c)
  rw [V9_stage m c, outsF_10 m c]
theorem V14_stage (c : Dev nD) : V14 m (outsF m) c = W14 m c := by
  show Function.update (V13 m (outsF m) c) main_v62 (outsF m 14 main_v62 c) = Function.update (V13 m (outs10 m) c) main_v62 (o3 m c)
  rw [V13_stage m c, outsF_14 m c]
theorem V18_stage (c : Dev nD) : V18 m (outsF m) c = W18 m c := by
  show Function.update (V17 m (outsF m) c) main_v90 (outsF m 18 main_v90 c) = Function.update (V17 m (outs14 m) c) main_v90 (o4 m c)
  rw [V17_stage m c, outsF_18 m c]
theorem V22_stage (c : Dev nD) : V22 m (outsF m) c = W22 m c := by
  show Function.update (V21 m (outsF m) c) main_v118 (outsF m 22 main_v118 c) = Function.update (V21 m (outs18 m) c) main_v118 (o5 m c)
  rw [V21_stage m c, outsF_22 m c]

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- At region 0's exit each of its arrays holds what the pipeline leaves: the inputs what they held, the output `o0`. -/
theorem hF0 (c : Dev nD) (w : Fin cfg0.W) : (dat0 (Vin0 m) c).arrAt w cfg0.N = (fun b : Ref sig .tc => W6 m c b) (Pipeline.arrRef spec0 w) := by
  match w with
  | ⟨0, _⟩ => exact ((dat0 (Vin0 m) c).arrAt_in 0 rfl _).trans (A_eq0 (Vin0 m) c 0)
  | ⟨1, _⟩ => exact ((dat0 (Vin0 m) c).arrAt_in 1 rfl _).trans (A_eq0 (Vin0 m) c 1)
  | ⟨2, _⟩ => exact ((dat0 (Vin0 m) c).arrAt_in 2 rfl _).trans (A_eq0 (Vin0 m) c 2)
  | ⟨3, _⟩ => exact (Function.update_self (f := V5 m c) (Proc.devRef .tc main_v25) (o0 m c)).symm
theorem hrest0 (c : Dev nD) : ∀ b : Ref sig .tc, b ∉ Finset.univ.image (Pipeline.arrRef spec0) → (fun b : Ref sig .tc => W6 m c b) b = Vin0 m c b :=
  fun b hb => Function.update_of_ne (fun e => hb (Finset.mem_image.mpr ⟨3, Finset.mem_univ _, (Proc.devRef_injective _ e).symm⟩)) _ _

set_option backward.isDefEq.respectTransparency.types false in
/-- Region 0 over the thread state: entered from every unscoped buffer at the entry contents, left with the output
    array at `o0` and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the inputs what they held, the output `o1`. -/
theorem hF1 (c : Dev nD) (w : Fin cfg1.W) : (dat1 (Vin1 m) c).arrAt w cfg1.N = (fun b : Ref sig .tc => W8 m c b) (Pipeline.arrRef spec1 w) := by
  match w with
  | ⟨0, _⟩ => exact ((dat1 (Vin1 m) c).arrAt_in 0 rfl _).trans (A_eq1 (Vin1 m) c 0)
  | ⟨1, _⟩ => exact ((dat1 (Vin1 m) c).arrAt_in 1 rfl _).trans (A_eq1 (Vin1 m) c 1)
  | ⟨2, _⟩ => exact ((dat1 (Vin1 m) c).arrAt_in 2 rfl _).trans (A_eq1 (Vin1 m) c 2)
  | ⟨3, _⟩ => exact (Function.update_self (f := V7 m (outs6 m) c) (Proc.devRef .tc main_v28) (o1 m c)).symm
theorem hrest1 (c : Dev nD) : ∀ b : Ref sig .tc, b ∉ Finset.univ.image (Pipeline.arrRef spec1) → (fun b : Ref sig .tc => W8 m c b) b = Vin1 m c b :=
  fun b hb => Function.update_of_ne (fun e => hb (Finset.mem_image.mpr ⟨3, Finset.mem_univ _, (Proc.devRef_injective _ e).symm⟩)) _ _

set_option backward.isDefEq.respectTransparency.types false in
/-- Region 1 over the thread state: entered from every unscoped buffer at the entry contents, left with the output
    array at `o1` and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V7 m (outs6 m) c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the inputs what they held, the output `o2`. -/
theorem hF2 (c : Dev nD) (w : Fin cfg2.W) : (dat2 (Vin2 m) c).arrAt w cfg2.N = (fun b : Ref sig .tc => W10 m c b) (Pipeline.arrRef spec2 w) := by
  match w with
  | ⟨0, _⟩ => exact ((dat2 (Vin2 m) c).arrAt_in 0 rfl _).trans (A_eq2 (Vin2 m) c 0)
  | ⟨1, _⟩ => exact ((dat2 (Vin2 m) c).arrAt_in 1 rfl _).trans (A_eq2 (Vin2 m) c 1)
  | ⟨2, _⟩ => exact ((dat2 (Vin2 m) c).arrAt_in 2 rfl _).trans (A_eq2 (Vin2 m) c 2)
  | ⟨3, _⟩ => exact (Function.update_self (f := V9 m (outs8 m) c) (Proc.devRef .tc main_v31) (o2 m c)).symm
theorem hrest2 (c : Dev nD) : ∀ b : Ref sig .tc, b ∉ Finset.univ.image (Pipeline.arrRef spec2) → (fun b : Ref sig .tc => W10 m c b) b = Vin2 m c b :=
  fun b hb => Function.update_of_ne (fun e => hb (Finset.mem_image.mpr ⟨3, Finset.mem_univ _, (Proc.devRef_injective _ e).symm⟩)) _ _

set_option backward.isDefEq.respectTransparency.types false in
/-- Region 2 over the thread state: entered from every unscoped buffer at the entry contents, left with the output
    array at `o2` and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (V9 m (outs8 m) c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b : Ref sig .tc => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: the inputs what they held, the output `o3`. -/
theorem hF3 (c : Dev nD) (w : Fin cfg3.W) : (dat3 (Vin3 m) c).arrAt w cfg3.N = (fun b : Ref sig .tc => W14 m c b) (Pipeline.arrRef spec3 w) := by
  match w with
  | ⟨0, _⟩ => exact ((dat3 (Vin3 m) c).arrAt_in 0 rfl _).trans (A_eq3 (Vin3 m) c 0)
  | ⟨1, _⟩ => exact ((dat3 (Vin3 m) c).arrAt_in 1 rfl _).trans (A_eq3 (Vin3 m) c 1)
  | ⟨2, _⟩ => exact ((dat3 (Vin3 m) c).arrAt_in 2 rfl _).trans (A_eq3 (Vin3 m) c 2)
  | ⟨3, _⟩ => exact (Function.update_self (f := V13 m (outs10 m) c) (Proc.devRef .tc main_v62) (o3 m c)).symm
theorem hrest3 (c : Dev nD) : ∀ b : Ref sig .tc, b ∉ Finset.univ.image (Pipeline.arrRef spec3) → (fun b : Ref sig .tc => W14 m c b) b = Vin3 m c b :=
  fun b hb => Function.update_of_ne (fun e => hb (Finset.mem_image.mpr ⟨3, Finset.mem_univ _, (Proc.devRef_injective _ e).symm⟩)) _ _

set_option backward.isDefEq.respectTransparency.types false in
/-- Region 3 over the thread state: entered from every unscoped buffer at the entry contents, left with the output
    array at `o3` and every other buffer as entered. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (V13 m (outs10 m) c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m) c)
    unfold Pipeline.ΦA
    iintro ⟨Hp, -, Hr⟩
    isplitl [Hr]; · iexact Hr
    iexact Hp
  hout c := by
    rw [Pipeline.ownSems0_none]
    refine BIBase.Entails.trans (hout3 (Vin3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b : Ref sig .tc => W14 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the inputs what they held, the output `o4`. -/
theorem hF4 (c : Dev nD) (w : Fin cfg4.W) : (dat4 (Vin4 m) c).arrAt w cfg4.N = (fun b : Ref sig .tc => W18 m c b) (Pipeline.arrRef spec4 w) := by
  match w with
  | ⟨0, _⟩ => exact ((dat4 (Vin4 m) c).arrAt_in 0 rfl _).trans (A_eq4 (Vin4 m) c 0)
  | ⟨1, _⟩ => exact ((dat4 (Vin4 m) c).arrAt_in 1 rfl _).trans (A_eq4 (Vin4 m) c 1)
  | ⟨2, _⟩ => exact ((dat4 (Vin4 m) c).arrAt_in 2 rfl _).trans (A_eq4 (Vin4 m) c 2)
  | ⟨3, _⟩ => exact (Function.update_self (f := V17 m (outs14 m) c) (Proc.devRef .tc main_v90) (o4 m c)).symm
theorem hrest4 (c : Dev nD) : ∀ b : Ref sig .tc, b ∉ Finset.univ.image (Pipeline.arrRef spec4) → (fun b : Ref sig .tc => W18 m c b) b = Vin4 m c b :=
  fun b hb => Function.update_of_ne (fun e => hb (Finset.mem_image.mpr ⟨3, Finset.mem_univ _, (Proc.devRef_injective _ e).symm⟩)) _ _

set_option backward.isDefEq.respectTransparency.types false in
/-- Region 4 over the thread state: entered from every unscoped buffer at the entry contents, left with the output
    array at `o4` and every other buffer as entered. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (V17 m (outs14 m) c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vin4 m) c)
    unfold Pipeline.ΦA
    iintro ⟨Hp, -, Hr⟩
    isplitl [Hr]; · iexact Hr
    iexact Hp
  hout c := by
    rw [Pipeline.ownSems0_none]
    refine BIBase.Entails.trans (hout4 (Vin4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b : Ref sig .tc => W18 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- At region 5's exit each of its arrays holds what the pipeline leaves: the inputs what they held, the output `o5`. -/
theorem hF5 (c : Dev nD) (w : Fin cfg5.W) : (dat5 (Vin5 m) c).arrAt w cfg5.N = (fun b : Ref sig .tc => W22 m c b) (Pipeline.arrRef spec5 w) := by
  match w with
  | ⟨0, _⟩ => exact ((dat5 (Vin5 m) c).arrAt_in 0 rfl _).trans (A_eq5 (Vin5 m) c 0)
  | ⟨1, _⟩ => exact ((dat5 (Vin5 m) c).arrAt_in 1 rfl _).trans (A_eq5 (Vin5 m) c 1)
  | ⟨2, _⟩ => exact ((dat5 (Vin5 m) c).arrAt_in 2 rfl _).trans (A_eq5 (Vin5 m) c 2)
  | ⟨3, _⟩ => exact (Function.update_self (f := V21 m (outs18 m) c) (Proc.devRef .tc main_v118) (o5 m c)).symm
theorem hrest5 (c : Dev nD) : ∀ b : Ref sig .tc, b ∉ Finset.univ.image (Pipeline.arrRef spec5) → (fun b : Ref sig .tc => W22 m c b) b = Vin5 m c b :=
  fun b hb => Function.update_of_ne (fun e => hb (Finset.mem_image.mpr ⟨3, Finset.mem_univ _, (Proc.devRef_injective _ e).symm⟩)) _ _

set_option backward.isDefEq.respectTransparency.types false in
/-- Region 5 over the thread state: entered from every unscoped buffer at the entry contents, left with the output
    array at `o5` and every other buffer as entered. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (V21 m (outs18 m) c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vin5 m) c)
    unfold Pipeline.ΦA
    iintro ⟨Hp, -, Hr⟩
    isplitl [Hr]; · iexact Hr
    iexact Hp
  hout c := by
    rw [Pipeline.ownSems0_none]
    refine BIBase.Entails.trans (hout5 (Vin5 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (fun b : Ref sig .tc => W22 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
set_option maxHeartbeats 4000000 in
/-- From any memory with zero counters every weakly fair execution of @main terminates, and in its final state every
    unscoped buffer holds what the host stretches and the regions leave in it, `V23` at the regions' outputs `outsF`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V23 m (outsF m) c b) := by
  refine Pipeline.θ_run_regions_kit_dev (pcfgs (F := F)) adm (pdats m) () cellOf_inj emb₁ defs₀ 𝒱₀ L lv m ρ main
    (segs m (outsF m) 𝒱₀ L lv (fun _ => R) () (pdats m) (reg0 m) (reg1 m) (reg2 m) (reg3 m) (reg4 m) (reg5 m))
    (fun c Q => by
      rewrite [main_chain c, Pipeline.Seg.run_eq_chain,
        show (segs m (outsF m) 𝒱₀ L lv (fun _ => R) () (pdats m) (reg0 m) (reg1 m) (reg2 m) (reg3 m) (reg4 m) (reg5 m) c).map Pipeline.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3, StableHlo.seq hostOps3_1, StableHlo.seq hostOps3_2,
          Prog.lift (.customCall (Pipeline.entry 3) ()),
          StableHlo.seq hostOps4, StableHlo.seq hostOps4_1, StableHlo.seq hostOps4_2,
          Prog.lift (.customCall (Pipeline.entry 4) ()),
          StableHlo.seq hostOps5, StableHlo.seq hostOps5_1, StableHlo.seq hostOps5_2,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V23 m (outsF m) c))
    (hch := fun c => ⟨.rfl,
      .rfl,
      .rfl,
      .rfl,
      .rfl,
      .rfl,
      Entails.of_eq (show (iprop(StableHlo.held (c : Thread nD τ) (Pipeline.ucRefs τ sig) (W6 m c) ∗ R c) : sProp 𝕄) = iprop(StableHlo.held (c : Thread nD τ) (Pipeline.ucRefs τ sig) (V6 m (outsF m) c) ∗ R c) from by rw [V6_stage]),
      Entails.of_eq (show (iprop(StableHlo.held (c : Thread nD τ) (Pipeline.ucRefs τ sig) (V7 m (outsF m) c) ∗ R c) : sProp 𝕄) = iprop(StableHlo.held (c : Thread nD τ) (Pipeline.ucRefs τ sig) (V7 m (outs6 m) c) ∗ R c) from by rw [V7_stage]),
      Entails.of_eq (show (iprop(StableHlo.held (c : Thread nD τ) (Pipeline.ucRefs τ sig) (W8 m c) ∗ R c) : sProp 𝕄) = iprop(StableHlo.held (c : Thread nD τ) (Pipeline.ucRefs τ sig) (V8 m (outsF m) c) ∗ R c) from by rw [V8_stage]),
      Entails.of_eq (show (iprop(StableHlo.held (c : Thread nD τ) (Pipeline.ucRefs τ sig) (V9 m (outsF m) c) ∗ R c) : sProp 𝕄) = iprop(StableHlo.held (c : Thread nD τ) (Pipeline.ucRefs τ sig) (V9 m (outs8 m) c) ∗ R c) from by rw [V9_stage]),
      Entails.of_eq (show (iprop(StableHlo.held (c : Thread nD τ) (Pipeline.ucRefs τ sig) (W10 m c) ∗ R c) : sProp 𝕄) = iprop(StableHlo.held (c : Thread nD τ) (Pipeline.ucRefs τ sig) (V10 m (outsF m) c) ∗ R c) from by rw [V10_stage]),
      .rfl,
      .rfl,
      Entails.of_eq (show (iprop(StableHlo.held (c : Thread nD τ) (Pipeline.ucRefs τ sig) (V13 m (outsF m) c) ∗ R c) : sProp 𝕄) = iprop(StableHlo.held (c : Thread nD τ) (Pipeline.ucRefs τ sig) (V13 m (outs10 m) c) ∗ R c) from by rw [V13_stage]),
      Entails.of_eq (show (iprop(StableHlo.held (c : Thread nD τ) (Pipeline.ucRefs τ sig) (W14 m c) ∗ R c) : sProp 𝕄) = iprop(StableHlo.held (c : Thread nD τ) (Pipeline.ucRefs τ sig) (V14 m (outsF m) c) ∗ R c) from by rw [V14_stage]),
      .rfl,
      .rfl,
      Entails.of_eq (show (iprop(StableHlo.held (c : Thread nD τ) (Pipeline.ucRefs τ sig) (V17 m (outsF m) c) ∗ R c) : sProp 𝕄) = iprop(StableHlo.held (c : Thread nD τ) (Pipeline.ucRefs τ sig) (V17 m (outs14 m) c) ∗ R c) from by rw [V17_stage]),
      Entails.of_eq (show (iprop(StableHlo.held (c : Thread nD τ) (Pipeline.ucRefs τ sig) (W18 m c) ∗ R c) : sProp 𝕄) = iprop(StableHlo.held (c : Thread nD τ) (Pipeline.ucRefs τ sig) (V18 m (outsF m) c) ∗ R c) from by rw [V18_stage]),
      .rfl,
      .rfl,
      Entails.of_eq (show (iprop(StableHlo.held (c : Thread nD τ) (Pipeline.ucRefs τ sig) (V21 m (outsF m) c) ∗ R c) : sProp 𝕄) = iprop(StableHlo.held (c : Thread nD τ) (Pipeline.ucRefs τ sig) (V21 m (outs18 m) c) ∗ R c) from by rw [V21_stage]),
      Entails.of_eq (show (iprop(StableHlo.held (c : Thread nD τ) (Pipeline.ucRefs τ sig) (W22 m c) ∗ R c) : sProp 𝕄) = iprop(StableHlo.held (c : Thread nD τ) (Pipeline.ucRefs τ sig) (V22 m (outsF m) c) ∗ R c) from by rw [V22_stage]),
      sep_mono .rfl (by iintro ⟨-, HO⟩; iexact HO)⟩)
    (hinit := ?_)
    (QY := fun c s => ∀ b ∈ Pipeline.ucRefs τ sig, s.mem (((c : Thread nD τ)).1, b) = V23 m (outsF m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V23 m (outsF m) c) s')
    isplitl [Hh] <;> iassumption

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c _ (mem_uc main_arg0 (by decide))).trans (V23_main_arg0 m (outsF m) c),
    (h c _ (mem_uc main_arg1 (by decide))).trans (V23_main_arg1 m (outsF m) c),
    (h c _ (mem_uc main_arg2 (by decide))).trans (V23_main_arg2 m (outsF m) c),
    (h c _ (mem_uc main_arg3 (by decide))).trans (V23_main_arg3 m (outsF m) c),
    (h c _ (mem_uc main_arg4 (by decide))).trans (V23_main_arg4 m (outsF m) c),
    (h c _ (mem_uc main_arg5 (by decide))).trans (V23_main_arg5 m (outsF m) c),
    (h c _ (mem_uc main_arg6 (by decide))).trans (V23_main_arg6 m (outsF m) c),
    (h c _ (mem_uc main_arg7 (by decide))).trans (V23_main_arg7 m (outsF m) c),
    (h c _ (mem_uc main_arg8 (by decide))).trans (V23_main_arg8 m (outsF m) c),
    (h c _ (mem_uc main_arg9 (by decide))).trans (V23_main_arg9 m (outsF m) c),
    (h c _ (mem_uc main_arg10 (by decide))).trans (V23_main_arg10 m (outsF m) c),
    (h c _ (mem_uc main_arg11 (by decide))).trans (V23_main_arg11 m (outsF m) c),
    (h c _ (mem_uc main_arg12 (by decide))).trans (V23_main_arg12 m (outsF m) c),
    (h c _ (mem_uc main_arg13 (by decide))).trans (V23_main_arg13 m (outsF m) c),
    (h c _ (mem_uc main_arg14 (by decide))).trans (V23_main_arg14 m (outsF m) c),
    (h c _ (mem_uc main_arg15 (by decide))).trans (V23_main_arg15 m (outsF m) c),
    (h c _ (mem_uc main_arg16 (by decide))).trans (V23_main_arg16 m (outsF m) c),
    (h c _ (mem_uc main_arg17 (by decide))).trans (V23_main_arg17 m (outsF m) c),
    (h c _ (mem_uc main_arg18 (by decide))).trans (V23_main_arg18 m (outsF m) c),
    (h c _ (mem_uc main_arg19 (by decide))).trans (V23_main_arg19 m (outsF m) c),
    (h c _ (mem_uc main_arg20 (by decide))).trans (V23_main_arg20 m (outsF m) c),
    (h c _ (mem_uc main_arg21 (by decide))).trans (V23_main_arg21 m (outsF m) c),
    (h c _ (mem_uc main_arg22 (by decide))).trans (V23_main_arg22 m (outsF m) c),
    (h c _ (mem_uc main_arg23 (by decide))).trans (V23_main_arg23 m (outsF m) c),
    (h c _ (mem_uc main_arg24 (by decide))).trans (V23_main_arg24 m (outsF m) c),
    (h c _ (mem_uc main_arg25 (by decide))).trans (V23_main_arg25 m (outsF m) c)⟩) (run_all m ρ)

/-- The run with the result named: the result buffer ends at `V23`'s contents, and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v135) = V23 m (outsF m) c main_v135
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨h c _ (mem_uc main_v135 (by decide)),
    (h c _ (mem_uc main_arg0 (by decide))).trans (V23_main_arg0 m (outsF m) c),
    (h c _ (mem_uc main_arg1 (by decide))).trans (V23_main_arg1 m (outsF m) c),
    (h c _ (mem_uc main_arg2 (by decide))).trans (V23_main_arg2 m (outsF m) c),
    (h c _ (mem_uc main_arg3 (by decide))).trans (V23_main_arg3 m (outsF m) c),
    (h c _ (mem_uc main_arg4 (by decide))).trans (V23_main_arg4 m (outsF m) c),
    (h c _ (mem_uc main_arg5 (by decide))).trans (V23_main_arg5 m (outsF m) c),
    (h c _ (mem_uc main_arg6 (by decide))).trans (V23_main_arg6 m (outsF m) c),
    (h c _ (mem_uc main_arg7 (by decide))).trans (V23_main_arg7 m (outsF m) c),
    (h c _ (mem_uc main_arg8 (by decide))).trans (V23_main_arg8 m (outsF m) c),
    (h c _ (mem_uc main_arg9 (by decide))).trans (V23_main_arg9 m (outsF m) c),
    (h c _ (mem_uc main_arg10 (by decide))).trans (V23_main_arg10 m (outsF m) c),
    (h c _ (mem_uc main_arg11 (by decide))).trans (V23_main_arg11 m (outsF m) c),
    (h c _ (mem_uc main_arg12 (by decide))).trans (V23_main_arg12 m (outsF m) c),
    (h c _ (mem_uc main_arg13 (by decide))).trans (V23_main_arg13 m (outsF m) c),
    (h c _ (mem_uc main_arg14 (by decide))).trans (V23_main_arg14 m (outsF m) c),
    (h c _ (mem_uc main_arg15 (by decide))).trans (V23_main_arg15 m (outsF m) c),
    (h c _ (mem_uc main_arg16 (by decide))).trans (V23_main_arg16 m (outsF m) c),
    (h c _ (mem_uc main_arg17 (by decide))).trans (V23_main_arg17 m (outsF m) c),
    (h c _ (mem_uc main_arg18 (by decide))).trans (V23_main_arg18 m (outsF m) c),
    (h c _ (mem_uc main_arg19 (by decide))).trans (V23_main_arg19 m (outsF m) c),
    (h c _ (mem_uc main_arg20 (by decide))).trans (V23_main_arg20 m (outsF m) c),
    (h c _ (mem_uc main_arg21 (by decide))).trans (V23_main_arg21 m (outsF m) c),
    (h c _ (mem_uc main_arg22 (by decide))).trans (V23_main_arg22 m (outsF m) c),
    (h c _ (mem_uc main_arg23 (by decide))).trans (V23_main_arg23 m (outsF m) c),
    (h c _ (mem_uc main_arg24 (by decide))).trans (V23_main_arg24 m (outsF m) c),
    (h c _ (mem_uc main_arg25 (by decide))).trans (V23_main_arg25 m (outsF m) c)⟩) (run_all m ρ)

end Cert.KernelIdeal.Hand

end
-- ==== Proof.BR0.lean ====
/-
  Region 0 of @main (the tiled product "x · w + bias row" over a grid whose last axis runs over the 5 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 4` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's two branch conditions, in closed form over the grid -/

/-- "This is the first block of the contracted axis": the condition of the first `scf.if`. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- "This is the last block of the contracted axis": the condition of the second `scf.if`. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last block the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0 : View sig .tc .vmem S1024x1024 .bf16 := (Memref.whole cc0_stg3_0 : Memref sig .tc .vmem S1024x1024 .bf16).view
abbrev ms0_0 (t : Fin cfg0.N) : Memref sig .tc .vmem S1024x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1920x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
abbrev VS0 : View sig .tc .vmem S1024x1024 .f32 := scM0.view

/-- The region's invariant before its first point: the accumulator owned at some contents, the other scoped buffers
    unopened, the generator register at some state. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.BR0RunA.lean ====
/-
  Region 0, the body at a point that is the first block of the contracted axis and not the last: the body's run on whole staging memrefs, as a triple whose
  postcondition names the pieces that the stores leave in the accumulator.  The inputs'
  buffers come back as they were; the output block, idle here, is handed back untouched.
-/
import proofs.«157756_j25125558682089_1_alg».proof.Proof.BR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BR0RunB.lean ====
/-
  Region 0, the body at a point that is neither the first nor the last block of the contracted axis: the body's run on whole staging memrefs, as a triple whose
  postcondition names the pieces that the stores leave in the accumulator.  The inputs'
  buffers come back as they were; the output block, idle here, is handed back untouched.
-/
import proofs.«157756_j25125558682089_1_alg».proof.Proof.BR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BR0RunC.lean ====
/-
  Region 0, the body at a point that is the last block of the contracted axis and not the first: the body's run on whole staging memrefs, as a triple whose
  postcondition names the pieces that the stores leave in the accumulator and in the output block.  The inputs'
  buffers come back as they were.
-/
import proofs.«157756_j25125558682089_1_alg».proof.Proof.BR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR0Dat.lean ====
/-
  Region 0: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR0RunA
import proofs.«157756_j25125558682089_1_alg».proof.Proof.BR0RunB
import proofs.«157756_j25125558682089_1_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves in the output block: its pieces read back (none here: a placeholder nothing consults, the window being idle). -/
def out0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) : Vec F S1024x1024 .bf16 :=
  VO0.read (Elt F) (VO0.writes (Elt F) VO0.junk (kernelRun0_A c i arg3 harg3 arg4 harg4 arg5 harg5 arg6 harg6 arg7 harg7 hc0 hc1 x0 x1 x2).1)

/-- The run's pieces for the accumulator tile it, so they cover it. -/
theorem scover0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What the run leaves in the accumulator: its pieces read back. -/
def sout0_A (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) : Vec F S1024x1024 .f32 :=
  VS0.read (Elt F) (VS0.writes (Elt F) VS0.junk (kernelRun0_A c i arg3 harg3 arg4 harg4 arg5 harg5 arg6 harg6 arg7 harg7 hc0 hc1 x0 x1 x2).2.1)

/-- What the run leaves in the output block: its pieces read back (none here: a placeholder nothing consults, the window being idle). -/
def out0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) : Vec F S1024x1024 .bf16 :=
  VO0.read (Elt F) (VO0.writes (Elt F) VO0.junk (kernelRun0_B c i arg3 harg3 arg4 harg4 arg5 harg5 arg6 harg6 arg7 harg7 hc0 hc1 x0 x1 x2 xs0).1)

/-- The run's pieces for the accumulator tile it, so they cover it. -/
theorem scover0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What the run leaves in the accumulator: its pieces read back. -/
def sout0_B (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) : Vec F S1024x1024 .f32 :=
  VS0.read (Elt F) (VS0.writes (Elt F) VS0.junk (kernelRun0_B c i arg3 harg3 arg4 harg4 arg5 harg5 arg6 harg6 arg7 harg7 hc0 hc1 x0 x1 x2 xs0).2.1)

/-- At such a point the run's pieces for the output block tile it, so they cover it. -/
theorem cover0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What the run leaves in the output block: its pieces read back. -/
def out0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) : Vec F S1024x1024 .bf16 :=
  VO0.read (Elt F) (VO0.writes (Elt F) VO0.junk (kernelRun0_C c i arg3 harg3 arg4 harg4 arg5 harg5 arg6 harg6 arg7 harg7 hc0 hc1 x0 x1 x2 xs0).1)

/-- The run's pieces for the accumulator tile it, so they cover it. -/
theorem scover0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What the run leaves in the accumulator: its pieces read back. -/
def sout0_C (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) : Vec F S1024x1024 .f32 :=
  VS0.read (Elt F) (VS0.writes (Elt F) VS0.junk (kernelRun0_C c i arg3 harg3 arg4 harg4 arg5 harg5 arg6 harg6 arg7 harg7 hc0 hc1 x0 x1 x2 xs0).2.1)

section Region
variable (V : (c : Dev nD) → (b : Ref sig .tc) → Buf (Elt F) ((c : Thread nD τ).loc b))

/-! ## What the output block and the accumulator hold after each point -/

/-- The accumulation, by recursion on the position `n` of the point: the pair (output block, accumulator). -/
def outsAt0 (c : Dev nD) : (n : ℕ) → n < cfg0.N → Vec F S1024x1024 .bf16 × Vec F S1024x1024 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 5 = 0 then
      if h1 : (n + 1) % 5 = 4 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 5 = 4 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (out0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_C (c : Dev nD) (t : Fin cfg0.N) (h0 : ¬t.val % 5 = 0) (h1 : t.val % 5 = 4) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem outsAt0_B (c : Dev nD) (t : Fin cfg0.N) (h0 : ¬t.val % 5 = 0) (h1 : ¬t.val % 5 = 4) :
    outsAt0 V c t.val t.isLt = (out0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first point the plain one; afterwards the accumulator at what
    the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt0`'s first component; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C c _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨HS0, HR⟩, Hg⟩
  isplitl [HS0 HR]
  · isplitl [HS0]
    · iexists _; iexact HS0
    iexact HR
  iexact Hg

end Region

end Cert.Kernel.Hand

end
-- ==== Proof.BR1.lean ====
/-
  Region 1 of @main (the tiled product "x · w + bias row" over a grid whose last axis runs over the 2 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 1` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's two branch conditions, in closed form over the grid -/

/-- "This is the first block of the contracted axis": the condition of the first `scf.if`. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "This is the last block of the contracted axis": the condition of the second `scf.if`. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block the output window is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1 : View sig .tc .vmem S1024x512 .bf16 := (Memref.whole cc1_stg3_0 : Memref sig .tc .vmem S1024x512 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S1024x512 .f32 := Memref.whole cc1_scratch0
abbrev VS1 : View sig .tc .vmem S1024x512 .f32 := scM1.view

/-- The region's invariant before its first point: the accumulator owned at some contents, the other scoped buffers
    unopened, the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.BR1RunA.lean ====
/-
  Region 1, the body at a point that is the first block of the contracted axis and not the last: the body's run on whole staging memrefs, as a triple whose
  postcondition names the pieces that the stores leave in the accumulator.  The inputs'
  buffers come back as they were; the output block, idle here, is handed back untouched.
-/
import proofs.«157756_j25125558682089_1_alg».proof.Proof.BR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.BR1RunC.lean ====
/-
  Region 1, the body at a point that is the last block of the contracted axis and not the first: the body's run on whole staging memrefs, as a triple whose
  postcondition names the pieces that the stores leave in the accumulator and in the output block.  The inputs'
  buffers come back as they were.
-/
import proofs.«157756_j25125558682089_1_alg».proof.Proof.BR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR1Dat.lean ====
/-
  Region 1: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR1RunA
import proofs.«157756_j25125558682089_1_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves in the output block: its pieces read back (none here: a placeholder nothing consults, the window being idle). -/
def out1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) : Vec F S1024x512 .bf16 :=
  VO1.read (Elt F) (VO1.writes (Elt F) VO1.junk (kernelRun1_A c i arg3 harg3 arg4 harg4 arg5 harg5 arg6 harg6 arg7 harg7 hc0 hc1 x0 x1 x2).1)

/-- The run's pieces for the accumulator tile it, so they cover it. -/
theorem scover1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) (y : S1024x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x512.size (by sl_kernel_rfl) y

/-- What the run leaves in the accumulator: its pieces read back. -/
def sout1_A (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) : Vec F S1024x512 .f32 :=
  VS1.read (Elt F) (VS1.writes (Elt F) VS1.junk (kernelRun1_A c i arg3 harg3 arg4 harg4 arg5 harg5 arg6 harg6 arg7 harg7 hc0 hc1 x0 x1 x2).2.1)

/-- At such a point the run's pieces for the output block tile it, so they cover it. -/
theorem cover1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x512.size (by sl_kernel_rfl) y

/-- What the run leaves in the output block: its pieces read back. -/
def out1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .bf16 :=
  VO1.read (Elt F) (VO1.writes (Elt F) VO1.junk (kernelRun1_C c i arg3 harg3 arg4 harg4 arg5 harg5 arg6 harg6 arg7 harg7 hc0 hc1 x0 x1 x2 xs0).1)

/-- The run's pieces for the accumulator tile it, so they cover it. -/
theorem scover1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x512.size (by sl_kernel_rfl) y

/-- What the run leaves in the accumulator: its pieces read back. -/
def sout1_C (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .f32 :=
  VS1.read (Elt F) (VS1.writes (Elt F) VS1.junk (kernelRun1_C c i arg3 harg3 arg4 harg4 arg5 harg5 arg6 harg6 arg7 harg7 hc0 hc1 x0 x1 x2 xs0).2.1)

section Region
variable (V : (c : Dev nD) → (b : Ref sig .tc) → Buf (Elt F) ((c : Thread nD τ).loc b))

/-! ## What the output block and the accumulator hold after each point -/

/-- The accumulation, by recursion on the position `n` of the point: the pair (output block, accumulator). -/
def outsAt1 (c : Dev nD) : (n : ℕ) → n < cfg1.N → Vec F S1024x512 .bf16 × Vec F S1024x512 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

theorem outsAt1_A (c : Dev nD) (t : Fin cfg1.N) (h0 : t.val % 2 = 0) (h1 : ¬t.val % 2 = 1) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_C (c : Dev nD) (t : Fin cfg1.N) (h0 : ¬t.val % 2 = 0) (h1 : t.val % 2 = 1) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one; afterwards the accumulator at what
    the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 2 := lt_of_lt_of_eq t.isLt (show cfg1.N = 2 from N_1)
  by_cases h0 : t.val % 2 = 0
  · have h1 : ¬t.val % 2 = 1 := by omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have h1 : t.val % 2 = 1 := by omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2 := N_1; omega), PhiA1_eq]
  iintro ⟨⟨HS0, HR⟩, Hg⟩
  isplitl [HS0 HR]
  · isplitl [HS0]
    · iexists _; iexact HS0
    iexact HR
  iexact Hg

end Region

end Cert.Kernel.Hand

end
-- ==== Proof.BR2.lean ====
/-
  Region 2 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The body's two branch conditions, in closed form over the grid -/

/-- "This is the first block of the contracted axis": the condition of the first `scf.if`. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 1 = 0 :=
  (by decide +kernel : ∀ t : Fin grid2.N, cond2_0 (grid2.coords t) ↔ t.val % 1 = 0)
/-- "This is the last block of the contracted axis": the condition of the second `scf.if`. -/
abbrev cond2_1 (i : grid2.Coords) : Prop := k2_cond2 i = 1#1
theorem hcond2_1 : ∀ t : Fin cfg2.N, cond2_1 (grid2.coords t) ↔ t.val % 1 = 0 :=
  (by decide +kernel : ∀ t : Fin grid2.N, cond2_1 (grid2.coords t) ↔ t.val % 1 = 0)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last block the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last block the output window is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2 : View sig .tc .vmem S1024x128 .f32 := (Memref.whole cc2_stg3_0 : Memref sig .tc .vmem S1024x128 .f32).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x128 .f32 := Memref.whole cc2_scratch0
abbrev VS2 : View sig .tc .vmem S1024x128 .f32 := scM2.view

/-- The region's invariant before its first point: the accumulator owned at some contents, the other scoped buffers
    unopened, the generator register at some state. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.BR2RunD.lean ====
/-
  Region 2, the body at a point that is the only block of the contracted axis: the body's run on whole staging memrefs, as a triple whose
  postcondition names the pieces that the stores leave in the accumulator and in the output block.  The inputs'
  buffers come back as they were.
-/
import proofs.«157756_j25125558682089_1_alg».proof.Proof.BR2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR2Dat.lean ====
/-
  Region 2: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR2RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) (y : S1024x128.Idx) :
    ∃ pc ∈ (kernelRun2_D c i arg3 harg3 arg4 harg4 arg5 harg5 arg6 harg6 arg7 harg7 hc0 hc1 x0 x1 x2).1, y ∈ pc.1.set :=
  View.cover_of_tiledL (kernelRun2_D c i arg3 harg3 arg4 harg4 arg5 harg5 arg6 harg6 arg7 harg7 hc0 hc1 x0 x1 x2).1 S1024x128.size (by sl_kernel_rfl) y

/-- What the run leaves in the output block: its pieces read back. -/
def out2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) : Vec F S1024x128 .f32 :=
  VO2.read (Elt F) (VO2.writes (Elt F) VO2.junk (kernelRun2_D c i arg3 harg3 arg4 harg4 arg5 harg5 arg6 harg6 arg7 harg7 hc0 hc1 x0 x1 x2).1)

/-- The run's pieces for the accumulator tile it, so they cover it. -/
theorem scover2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) (y : S1024x128.Idx) :
    ∃ pc ∈ (kernelRun2_D c i arg3 harg3 arg4 harg4 arg5 harg5 arg6 harg6 arg7 harg7 hc0 hc1 x0 x1 x2).2.1, y ∈ pc.1.set :=
  View.cover_of_tiledL (kernelRun2_D c i arg3 harg3 arg4 harg4 arg5 harg5 arg6 harg6 arg7 harg7 hc0 hc1 x0 x1 x2).2.1 S1024x128.size (by sl_kernel_rfl) y

/-- What the run leaves in the accumulator: its pieces read back. -/
def sout2_D (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) : Vec F S1024x128 .f32 :=
  VS2.read (Elt F) (VS2.writes (Elt F) VS2.junk (kernelRun2_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt2 (c : Dev nD) (n : ℕ) (hn : n < cfg2.N) : Vec F S1024x128 .f32 × Vec F S1024x128 .f32 :=
  (out2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) ((hcond2_0 ⟨n, hn⟩).mpr (Nat.mod_one _)) ((hcond2_1 ⟨n, hn⟩).mpr (Nat.mod_one _)) (iblk2 V c 0 ⟨n, hn⟩) (iblk2 V c 1 ⟨n, hn⟩) (iblk2 V c 2 ⟨n, hn⟩), sout2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) ((hcond2_0 ⟨n, hn⟩).mpr (Nat.mod_one _)) ((hcond2_1 ⟨n, hn⟩).mpr (Nat.mod_one _)) (iblk2 V c 0 ⟨n, hn⟩) (iblk2 V c 1 ⟨n, hn⟩) (iblk2 V c 2 ⟨n, hn⟩))

/-- The region's invariant before position `n`: before the first point the plain one; afterwards the accumulator at what
    the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt2`'s first component; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 1 := lt_of_lt_of_eq t.isLt (show cfg2.N = 1 from N_2)
  have h0 : t.val % 1 = 0 := Nat.mod_one _
  have h1 : t.val % 1 = 0 := Nat.mod_one _
  · have hd : True := trivial
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      unfold outsAt2
      unfold out2_D sout2_D; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_D c (grid2.coords t) _ _ _ _ _ _ _ _ _ _ ((hcond2_0 t).mpr h0) ((hcond2_1 t).mpr h1) (iblk2 V c 0 t) (iblk2 V c 1 t) (iblk2 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_D c _ _ _ _ _ _ _ _ _ _ _ _ _ _ _ _)
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_D c (grid2.coords t) _ _ _ _ _ _ _ _ _ _ ((hcond2_0 t).mpr h0) ((hcond2_1 t).mpr h1) (iblk2 V c 0 t) (iblk2 V c 1 t) (iblk2 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_D c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 1 := N_2; omega), PhiA2_eq]
  iintro ⟨⟨HS0, HR⟩, Hg⟩
  isplitl [HS0 HR]
  · isplitl [HS0]
    · iexists _; iexact HS0
    iexact HR
  iexact Hg

end Region

end Cert.Kernel.Hand

end
-- ==== Proof.BR3.lean ====
/-
  Region 3 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's two branch conditions, in closed form over the grid -/

/-- "This is the first block of the contracted axis": the condition of the first `scf.if`. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 1 = 0 :=
  (by decide +kernel : ∀ t : Fin grid3.N, cond3_0 (grid3.coords t) ↔ t.val % 1 = 0)
/-- "This is the last block of the contracted axis": the condition of the second `scf.if`. -/
abbrev cond3_1 (i : grid3.Coords) : Prop := k3_cond2 i = 1#1
theorem hcond3_1 : ∀ t : Fin cfg3.N, cond3_1 (grid3.coords t) ↔ t.val % 1 = 0 :=
  (by decide +kernel : ∀ t : Fin grid3.N, cond3_1 (grid3.coords t) ↔ t.val % 1 = 0)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last block the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At the last block the output window is live. -/
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3 : View sig .tc .vmem S5000x128 .bf16 := (Memref.whole cc3_stg3_0 : Memref sig .tc .vmem S5000x128 .bf16).view
abbrev ms3_0 (t : Fin cfg3.N) : Memref sig .tc .vmem S5000x1 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x128 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S5000x128 .f32 := Memref.whole cc3_scratch0
abbrev VS3 : View sig .tc .vmem S5000x128 .f32 := scM3.view

/-- The region's invariant before its first point: the accumulator owned at some contents, the other scoped buffers
    unopened, the generator register at some state. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.BR3RunD.lean ====
/-
  Region 3, the body at a point that is the only block of the contracted axis: the body's run on whole staging memrefs, as a triple whose
  postcondition names the pieces that the stores leave in the accumulator and in the output block.  The inputs'
  buffers come back as they were.
-/
import proofs.«157756_j25125558682089_1_alg».proof.Proof.BR3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) :
    Σ' (L3 : List (View.Piece (Elt F) S5000x128 .bf16)), { LS0 : List (View.Piece (Elt F) S5000x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR3Dat.lean ====
/-
  Region 3: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR3RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) (y : S5000x128.Idx) :
    ∃ pc ∈ (kernelRun3_D c i arg3 harg3 arg4 harg4 arg5 harg5 arg6 harg6 arg7 harg7 hc0 hc1 x0 x1 x2).1, y ∈ pc.1.set :=
  View.cover_of_tiledL (kernelRun3_D c i arg3 harg3 arg4 harg4 arg5 harg5 arg6 harg6 arg7 harg7 hc0 hc1 x0 x1 x2).1 S5000x128.size (by sl_kernel_rfl) y

/-- What the run leaves in the output block: its pieces read back. -/
def out3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) : Vec F S5000x128 .bf16 :=
  VO3.read (Elt F) (VO3.writes (Elt F) VO3.junk (kernelRun3_D c i arg3 harg3 arg4 harg4 arg5 harg5 arg6 harg6 arg7 harg7 hc0 hc1 x0 x1 x2).1)

/-- The run's pieces for the accumulator tile it, so they cover it. -/
theorem scover3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) (y : S5000x128.Idx) :
    ∃ pc ∈ (kernelRun3_D c i arg3 harg3 arg4 harg4 arg5 harg5 arg6 harg6 arg7 harg7 hc0 hc1 x0 x1 x2).2.1, y ∈ pc.1.set :=
  View.cover_of_tiledL (kernelRun3_D c i arg3 harg3 arg4 harg4 arg5 harg5 arg6 harg6 arg7 harg7 hc0 hc1 x0 x1 x2).2.1 S5000x128.size (by sl_kernel_rfl) y

/-- What the run leaves in the accumulator: its pieces read back. -/
def sout3_D (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) : Vec F S5000x128 .f32 :=
  VS3.read (Elt F) (VS3.writes (Elt F) VS3.junk (kernelRun3_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt3 (c : Dev nD) (n : ℕ) (hn : n < cfg3.N) : Vec F S5000x128 .bf16 × Vec F S5000x128 .f32 :=
  (out3_D c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) ((hcond3_0 ⟨n, hn⟩).mpr (Nat.mod_one _)) ((hcond3_1 ⟨n, hn⟩).mpr (Nat.mod_one _)) (iblk3 V c 0 ⟨n, hn⟩) (iblk3 V c 1 ⟨n, hn⟩) (iblk3 V c 2 ⟨n, hn⟩), sout3_D c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3 (Memref.isWhole_whole _) ((hcond3_0 ⟨n, hn⟩).mpr (Nat.mod_one _)) ((hcond3_1 ⟨n, hn⟩).mpr (Nat.mod_one _)) (iblk3 V c 0 ⟨n, hn⟩) (iblk3 V c 1 ⟨n, hn⟩) (iblk3 V c 2 ⟨n, hn⟩))

/-- The region's invariant before position `n`: before the first point the plain one; afterwards the accumulator at what
    the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt3`'s first component; the invariant `PhiS3`; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  have h0 : t.val % 1 = 0 := Nat.mod_one _
  have h1 : t.val % 1 = 0 := Nat.mod_one _
  · have hd : True := trivial
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      unfold outsAt3
      unfold out3_D sout3_D; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_D c (grid3.coords t) _ _ _ _ _ _ _ _ _ _ ((hcond3_0 t).mpr h0) ((hcond3_1 t).mpr h1) (iblk3 V c 0 t) (iblk3 V c 1 t) (iblk3 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_D c _ _ _ _ _ _ _ _ _ _ _ _ _ _ _ _)
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_D c (grid3.coords t) _ _ _ _ _ _ _ _ _ _ ((hcond3_0 t).mpr h0) ((hcond3_1 t).mpr h1) (iblk3 V c 0 t) (iblk3 V c 1 t) (iblk3 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_D c _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the plain one back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 20 := N_3; omega), PhiA3_eq]
  iintro ⟨⟨HS0, HR⟩, Hg⟩
  isplitl [HS0 HR]
  · isplitl [HS0]
    · iexists _; iexact HS0
    iexact HR
  iexact Hg

end Region

end Cert.Kernel.Hand

end
-- ==== Proof.BR4.lean ====
/-
  Region 4 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's two branch conditions, in closed form over the grid -/

/-- "This is the first block of the contracted axis": the condition of the first `scf.if`. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 1 = 0 :=
  (by decide +kernel : ∀ t : Fin grid4.N, cond4_0 (grid4.coords t) ↔ t.val % 1 = 0)
/-- "This is the last block of the contracted axis": the condition of the second `scf.if`. -/
abbrev cond4_1 (i : grid4.Coords) : Prop := k4_cond2 i = 1#1
theorem hcond4_1 : ∀ t : Fin cfg4.N, cond4_1 (grid4.coords t) ↔ t.val % 1 = 0 :=
  (by decide +kernel : ∀ t : Fin grid4.N, cond4_1 (grid4.coords t) ↔ t.val % 1 = 0)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last block the output window is idle and not written back. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last block the output window is live. -/
theorem liveAt4_3 : ∀ t : Fin cfg4.N, cond4_1 (grid4.coords t) → cfg4.idle 3 (grid4.coords t) = false := by decide +kernel

/-! ## The memrefs the body is called with -/

/-- One staging buffer of the output window, through which its contents are stated. -/
abbrev VO4 : View sig .tc .vmem S5000x256 .bf16 := (Memref.whole cc4_stg3_0 : Memref sig .tc .vmem S5000x256 .bf16).view
abbrev ms4_0 (t : Fin cfg4.N) : Memref sig .tc .vmem S5000x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x256 .bf16 := win4_3.stage (cfg4.slots t 3)
abbrev hs4_3 (t : Fin cfg4.N) : (ms4_3 t).IsWhole := hstage4_3 ((cfg4.slots t 3).cast nbuf4_3)
/-- The accumulator: a whole scoped buffer of the kernel's own, passed beside the windows. -/
abbrev scM4 : Memref sig .tc .vmem S5000x256 .f32 := Memref.whole cc4_scratch0
abbrev VS4 : View sig .tc .vmem S5000x256 .f32 := scM4.view

/-- The region's invariant before its first point: the accumulator owned at some contents, the other scoped buffers
    unopened, the generator register at some state. -/
theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.Kernel.Hand

end
-- ==== Proof.BR4RunD.lean ====
/-
  Region 4, the body at a point that is the only block of the contracted axis: the body's run on whole staging memrefs, as a triple whose
  postcondition names the pieces that the stores leave in the accumulator and in the output block.  The inputs'
  buffers come back as they were.
-/
import proofs.«157756_j25125558682089_1_alg».proof.Proof.BR4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) :
    Σ' (L3 : List (View.Piece (Elt F) S5000x256 .bf16)), { LS0 : List (View.Piece (Elt F) S5000x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR4Dat.lean ====
/-
  Region 4: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR4RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) (y : S5000x256.Idx) :
    ∃ pc ∈ (kernelRun4_D c i arg3 harg3 arg4 harg4 arg5 harg5 arg6 harg6 arg7 harg7 hc0 hc1 x0 x1 x2).1, y ∈ pc.1.set :=
  View.cover_of_tiledL (kernelRun4_D c i arg3 harg3 arg4 harg4 arg5 harg5 arg6 harg6 arg7 harg7 hc0 hc1 x0 x1 x2).1 S5000x256.size (by sl_kernel_rfl) y

/-- What the run leaves in the output block: its pieces read back. -/
def out4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) : Vec F S5000x256 .bf16 :=
  VO4.read (Elt F) (VO4.writes (Elt F) VO4.junk (kernelRun4_D c i arg3 harg3 arg4 harg4 arg5 harg5 arg6 harg6 arg7 harg7 hc0 hc1 x0 x1 x2).1)

/-- The run's pieces for the accumulator tile it, so they cover it. -/
theorem scover4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) (y : S5000x256.Idx) :
    ∃ pc ∈ (kernelRun4_D c i arg3 harg3 arg4 harg4 arg5 harg5 arg6 harg6 arg7 harg7 hc0 hc1 x0 x1 x2).2.1, y ∈ pc.1.set :=
  View.cover_of_tiledL (kernelRun4_D c i arg3 harg3 arg4 harg4 arg5 harg5 arg6 harg6 arg7 harg7 hc0 hc1 x0 x1 x2).2.1 S5000x256.size (by sl_kernel_rfl) y

/-- What the run leaves in the accumulator: its pieces read back. -/
def sout4_D (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) : Vec F S5000x256 .f32 :=
  VS4.read (Elt F) (VS4.writes (Elt F) VS4.junk (kernelRun4_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt4 (c : Dev nD) (n : ℕ) (hn : n < cfg4.N) : Vec F S5000x256 .bf16 × Vec F S5000x256 .f32 :=
  (out4_D c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4 (Memref.isWhole_whole _) ((hcond4_0 ⟨n, hn⟩).mpr (Nat.mod_one _)) ((hcond4_1 ⟨n, hn⟩).mpr (Nat.mod_one _)) (iblk4 V c 0 ⟨n, hn⟩) (iblk4 V c 1 ⟨n, hn⟩) (iblk4 V c 2 ⟨n, hn⟩), sout4_D c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4 (Memref.isWhole_whole _) ((hcond4_0 ⟨n, hn⟩).mpr (Nat.mod_one _)) ((hcond4_1 ⟨n, hn⟩).mpr (Nat.mod_one _)) (iblk4 V c 0 ⟨n, hn⟩) (iblk4 V c 1 ⟨n, hn⟩) (iblk4 V c 2 ⟨n, hn⟩))

/-- The region's invariant before position `n`: before the first point the plain one; afterwards the accumulator at what
    the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt4`'s first component; the invariant `PhiS4`; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  have h0 : t.val % 1 = 0 := Nat.mod_one _
  have h1 : t.val % 1 = 0 := Nat.mod_one _
  · have hd : True := trivial
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t ((hcond4_1 t).mpr h1)], after4_3]
      unfold outsAt4
      unfold out4_D sout4_D; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩⟩
        iapply ((kernelRun4_D c (grid4.coords t) _ _ _ _ _ _ _ _ _ _ ((hcond4_0 t).mpr h0) ((hcond4_1 t).mpr h1) (iblk4 V c 0 t) (iblk4 V c 1 t) (iblk4 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_D c _ _ _ _ _ _ _ _ _ _ _ _ _ _ _ _)
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩⟩
        iapply ((kernelRun4_D c (grid4.coords t) _ _ _ _ _ _ _ _ _ _ ((hcond4_0 t).mpr h0) ((hcond4_1 t).mpr h1) (iblk4 V c 0 t) (iblk4 V c 1 t) (iblk4 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_D c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the plain one back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨⟨HS0, HR⟩, Hg⟩
  isplitl [HS0 HR]
  · isplitl [HS0]
    · iexists _; iexact HS0
    iexact HR
  iexact Hg

end Region

end Cert.Kernel.Hand

end
-- ==== Proof.BR5.lean ====
/-
  Region 5 of @main (the tiled product "x · w + bias row" over a grid whose last axis runs over the 1 blocks of the
  contracted axis): what the body's runs share.  The region is stated at a PARAMETER `V`, the contents of core `c`'s
  buffers when the region is entered.  A window's block at a grid point is the corresponding rectangle of its array;
  an input's staging buffer holds that block at every point, whether the pipeline fetched it there or the block index
  did not move.  The body branches on the position `k` along the last grid axis: at `k = 0` it clears the accumulator
  (a scratch buffer the kernel keeps between points), at every point it adds the product of the two input blocks
  into it, and at `k = 0` it adds the bias row, applies the epilogue and stores the output block, which is idle
  (neither stored nor written back) at the other points.
-/
import proofs.«157756_j25125558682089_1_alg».proof.Proof.Gen.Kernel.Launch
import proofs.«157756_j25125558682089_1_alg».proof.Proof.Gen.Kernel.Skeleton
import proofs.«157756_j25125558682089_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`: the rectangle of its array (as the region finds it) that the index map selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

end Region

/-! ## The body's two branch conditions, in closed form over the grid -/

/-- "This is the first block of the contracted axis": the condition of the first `scf.if`. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 1 = 0 :=
  (by decide +kernel : ∀ t : Fin grid5.N, cond5_0 (grid5.coords t) ↔ t.val % 1 = 0)
/-- "This is the last block of the contracted axis": the condition of the second `scf.if`. -/
abbrev cond5_1 (i : grid5.Coords) : Prop := k5_cond2 i = 1#1
theorem hcond5_1 : ∀ t : Fin cfg5.N, cond5_1 (grid5.coords t) ↔ t.val % 1 = 0 :=
  (by decide +kernel : ∀ t : Fin grid5.N, cond5_1 (grid5.coords t) ↔ t.val % 1 = 0)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- Away from the last block the output window is idle and not written back. -/
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
/-- At the last block the output window is live. -/
theorem liveAt5_3 : ∀ t : Fin cfg5.N, cond5_1 (grid5.coords t) → cfg5.idle 3 (grid5.coords t) = false := by decide +kernel

/-! ## The memrefs the body is called with -/

/-- One staging buffer of the output window, through which its contents are stated. -/
abbrev VO5 : View sig .tc .vmem S5000x128 .f32 := (Memref.whole cc5_stg3_0 : Memref sig .tc .vmem S5000x128 .f32).view
abbrev ms5_0 (t : Fin cfg5.N) : Memref sig .tc .vmem S5000x256 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x128 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5 : Memref sig .tc .vmem S5000x128 .f32 := Memref.whole cc5_scratch0
abbrev VS5 : View sig .tc .vmem S5000x128 .f32 := scM5.view

/-- The region's invariant before its first point: the accumulator owned at some contents, the other scoped buffers
    unopened, the generator register at some state. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

end Cert.Kernel.Hand

end
-- ==== Proof.BR5RunD.lean ====
/-
  Region 5, the body at a point that is the only block of the contracted axis: the body's run on whole staging memrefs, as a triple whose
  postcondition names the pieces that the stores leave in the accumulator and in the output block.  The inputs'
  buffers come back as they were.
-/
import proofs.«157756_j25125558682089_1_alg».proof.Proof.BR5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at such a point. -/
noncomputable def kernelRun5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) :
    Σ' (L3 : List (View.Piece (Elt F) S5000x128 .f32)), { LS0 : List (View.Piece (Elt F) S5000x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__linear_kernel i arg3 harg3 arg4 harg4 arg5 harg5 arg6 harg6 arg7 harg7) K } := by
  refine ⟨?_, ?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.BR5Dat.lean ====
/-
  Region 5: what the accumulator and the output block hold after each grid point, the region's proof data, and the
  body obligation.  After a point that is the first block of the contracted axis the accumulator holds what the run from
  any contents leaves; after any other point, what the run leaves from the contents the point before left.  The output
  block is written at the last block only.  The invariant before the first point is the region's plain one (every scoped
  buffer at some contents); before any later point it names the accumulator's contents.
-/
import proofs.«157756_j25125558682089_1_alg».proof.Proof.BR5RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At such a point the run's pieces for the output block tile it, so they cover it. -/
theorem cover5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) (y : S5000x128.Idx) :
    ∃ pc ∈ (kernelRun5_D c i arg3 harg3 arg4 harg4 arg5 harg5 arg6 harg6 arg7 harg7 hc0 hc1 x0 x1 x2).1, y ∈ pc.1.set :=
  View.cover_of_tiledL (kernelRun5_D c i arg3 harg3 arg4 harg4 arg5 harg5 arg6 harg6 arg7 harg7 hc0 hc1 x0 x1 x2).1 S5000x128.size (by sl_kernel_rfl) y

/-- What the run leaves in the output block: its pieces read back. -/
def out5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) : Vec F S5000x128 .f32 :=
  VO5.read (Elt F) (VO5.writes (Elt F) VO5.junk (kernelRun5_D c i arg3 harg3 arg4 harg4 arg5 harg5 arg6 harg6 arg7 harg7 hc0 hc1 x0 x1 x2).1)

/-- The run's pieces for the accumulator tile it, so they cover it. -/
theorem scover5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) (y : S5000x128.Idx) :
    ∃ pc ∈ (kernelRun5_D c i arg3 harg3 arg4 harg4 arg5 harg5 arg6 harg6 arg7 harg7 hc0 hc1 x0 x1 x2).2.1, y ∈ pc.1.set :=
  View.cover_of_tiledL (kernelRun5_D c i arg3 harg3 arg4 harg4 arg5 harg5 arg6 harg6 arg7 harg7 hc0 hc1 x0 x1 x2).2.1 S5000x128.size (by sl_kernel_rfl) y

/-- What the run leaves in the accumulator: its pieces read back. -/
def sout5_D (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) : Vec F S5000x128 .f32 :=
  VS5.read (Elt F) (VS5.writes (Elt F) VS5.junk (kernelRun5_D c i arg3 harg3 arg4 harg4 arg5 harg5 arg6 harg6 arg7 harg7 hc0 hc1 x0 x1 x2).2.1)

section Region
variable (V : (c : Dev nD) → (b : Ref sig .tc) → Buf (Elt F) ((c : Thread nD τ).loc b))

/-! ## What the output block and the accumulator hold after each point -/

/-- Every point is both the first and the last block of the contracted axis: the pair (output block, accumulator). -/
def outsAt5 (c : Dev nD) (n : ℕ) (hn : n < cfg5.N) : Vec F S5000x128 .f32 × Vec F S5000x128 .f32 :=
  (out5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr (Nat.mod_one _)) ((hcond5_1 ⟨n, hn⟩).mpr (Nat.mod_one _)) (iblk5 V c 0 ⟨n, hn⟩) (iblk5 V c 1 ⟨n, hn⟩) (iblk5 V c 2 ⟨n, hn⟩), sout5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr (Nat.mod_one _)) ((hcond5_1 ⟨n, hn⟩).mpr (Nat.mod_one _)) (iblk5 V c 0 ⟨n, hn⟩) (iblk5 V c 1 ⟨n, hn⟩) (iblk5 V c 2 ⟨n, hn⟩))

/-- The region's invariant before position `n`: before the first point the plain one; afterwards the accumulator at what
    the point before left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The region's proof data on core `c`: the arrays as the region finds them; after the body at a point each input's
    buffer at its block and the output's at `outsAt5`'s first component; the invariant `PhiS5`; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the closed forms say which case the point is in; the inputs' memrefs hold their blocks; the
    invariant hands the body the accumulator (at what the point before left, or at anything before the first point) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  have h0 : t.val % 1 = 0 := Nat.mod_one _
  have h1 : t.val % 1 = 0 := Nat.mod_one _
  · have hd : True := trivial
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t ((hcond5_1 t).mpr h1)], after5_3]
      unfold outsAt5
      unfold out5_D sout5_D; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun5_D c (grid5.coords t) _ _ _ _ _ _ _ _ _ _ ((hcond5_0 t).mpr h0) ((hcond5_1 t).mpr h1) (iblk5 V c 0 t) (iblk5 V c 1 t) (iblk5 V c 2 t)).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_D c _ _ _ _ _ _ _ _ _ _ _ _ _ _ _ _)
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun5_D c (grid5.coords t) _ _ _ _ _ _ _ _ _ _ ((hcond5_0 t).mpr h0) ((hcond5_1 t).mpr h1) (iblk5 V c 0 t) (iblk5 V c 1 t) (iblk5 V c 2 t)).2.2 Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_D c _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover5_D c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the plain one back: the accumulator's contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 20 := N_5; omega), PhiA5_eq]
  iintro ⟨⟨HS0, HR⟩, Hg⟩
  isplitl [HS0 HR]
  · isplitl [HS0]
    · iexists _; iexact HS0
    iexact HR
  iexact Hg

end Region

end Cert.Kernel.Hand

end
-- ==== Proof.BRegs.lean ====
/-
  The six regions of @main as segments of its run, and the run.

  Between two items of @main a core holds every unscoped buffer whole at known contents; beside them it carries only its
  generator register (at some state) and the fact that it owes nothing.  A region is entered from such a state: its
  windows' arrays are split out of the unscoped buffers, the register goes into the region's invariant, and at the
  exit the arrays come back at what the pipeline's write-backs left — the three inputs as entered, the output array at
  the blocks the body stored — and everything else as entered.  The contents each region leaves in its output array
  are defined stage by stage (`o0` … `o5`), each from the buffer contents the region is entered with, which depend on
  the earlier regions' outputs only.
-/
import proofs.«157756_j25125558682089_1_alg».proof.Proof.BR0Dat
import proofs.«157756_j25125558682089_1_alg».proof.Proof.BR1Dat
import proofs.«157756_j25125558682089_1_alg».proof.Proof.BR2Dat
import proofs.«157756_j25125558682089_1_alg».proof.Proof.BR3Dat
import proofs.«157756_j25125558682089_1_alg».proof.Proof.BR4Dat
import proofs.«157756_j25125558682089_1_alg».proof.Proof.BR5Dat
import proofs.«157756_j25125558682089_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What rides beside the buffers through every item: the generator register at some state, and nothing owed. -/
abbrev R (c : Dev nD) : sProp 𝕄 := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0

/-! ## The regions' outputs, stage by stage -/

/-- The buffer contents region 0 is entered with, read at the TensorCore's references. -/
abbrev Vin0 : (c : Dev nD) → (b : Ref sig .tc) → Buf (Elt F) ((c : Thread nD τ).loc b) := fun c b => V5 m c b
/-- What region 0 leaves in its output array `main_v25`: the write-backs of its 10 points folded over the entry contents. -/
def o0 (c : Dev nD) : Buf (Elt F) ((c : Thread nD τ).loc main_v25) := (dat0 (Vin0 m) c).arrAt 3 cfg0.N
/-- The buffer contents after region 0. -/
abbrev W6 (c : Dev nD) : Valuation τ sig (Elt F) := Function.update (V5 m c) main_v25 (o0 m c)
/-- The regions' outputs known so far, as the family the generated host side is stated over. -/
def outs6 : Outs (F := F) := fun J r c =>
  W6 m c r

/-- The buffer contents region 1 is entered with, read at the TensorCore's references. -/
abbrev Vin1 : (c : Dev nD) → (b : Ref sig .tc) → Buf (Elt F) ((c : Thread nD τ).loc b) := fun c b => V7 m (outs6 m) c b
/-- What region 1 leaves in its output array `main_v28`: the write-backs of its 2 points folded over the entry contents. -/
def o1 (c : Dev nD) : Buf (Elt F) ((c : Thread nD τ).loc main_v28) := (dat1 (Vin1 m) c).arrAt 3 cfg1.N
/-- The buffer contents after region 1. -/
abbrev W8 (c : Dev nD) : Valuation τ sig (Elt F) := Function.update (V7 m (outs6 m) c) main_v28 (o1 m c)
/-- The regions' outputs known so far, as the family the generated host side is stated over. -/
def outs8 : Outs (F := F) := fun J r c =>
  if J = 6 then W6 m c r else W8 m c r

/-- The buffer contents region 2 is entered with, read at the TensorCore's references. -/
abbrev Vin2 : (c : Dev nD) → (b : Ref sig .tc) → Buf (Elt F) ((c : Thread nD τ).loc b) := fun c b => V9 m (outs8 m) c b
/-- What region 2 leaves in its output array `main_v31`: the write-backs of its 1 points folded over the entry contents. -/
def o2 (c : Dev nD) : Buf (Elt F) ((c : Thread nD τ).loc main_v31) := (dat2 (Vin2 m) c).arrAt 3 cfg2.N
/-- The buffer contents after region 2. -/
abbrev W10 (c : Dev nD) : Valuation τ sig (Elt F) := Function.update (V9 m (outs8 m) c) main_v31 (o2 m c)
/-- The regions' outputs known so far, as the family the generated host side is stated over. -/
def outs10 : Outs (F := F) := fun J r c =>
  if J = 6 then W6 m c r else if J = 8 then W8 m c r else W10 m c r

/-- The buffer contents region 3 is entered with, read at the TensorCore's references. -/
abbrev Vin3 : (c : Dev nD) → (b : Ref sig .tc) → Buf (Elt F) ((c : Thread nD τ).loc b) := fun c b => V13 m (outs10 m) c b
/-- What region 3 leaves in its output array `main_v62`: the write-backs of its 20 points folded over the entry contents. -/
def o3 (c : Dev nD) : Buf (Elt F) ((c : Thread nD τ).loc main_v62) := (dat3 (Vin3 m) c).arrAt 3 cfg3.N
/-- The buffer contents after region 3. -/
abbrev W14 (c : Dev nD) : Valuation τ sig (Elt F) := Function.update (V13 m (outs10 m) c) main_v62 (o3 m c)
/-- The regions' outputs known so far, as the family the generated host side is stated over. -/
def outs14 : Outs (F := F) := fun J r c =>
  if J = 6 then W6 m c r else if J = 8 then W8 m c r else if J = 10 then W10 m c r else W14 m c r

/-- The buffer contents region 4 is entered with, read at the TensorCore's references. -/
abbrev Vin4 : (c : Dev nD) → (b : Ref sig .tc) → Buf (Elt F) ((c : Thread nD τ).loc b) := fun c b => V17 m (outs14 m) c b
/-- What region 4 leaves in its output array `main_v90`: the write-backs of its 20 points folded over the entry contents. -/
def o4 (c : Dev nD) : Buf (Elt F) ((c : Thread nD τ).loc main_v90) := (dat4 (Vin4 m) c).arrAt 3 cfg4.N
/-- The buffer contents after region 4. -/
abbrev W18 (c : Dev nD) : Valuation τ sig (Elt F) := Function.update (V17 m (outs14 m) c) main_v90 (o4 m c)
/-- The regions' outputs known so far, as the family the generated host side is stated over. -/
def outs18 : Outs (F := F) := fun J r c =>
  if J = 6 then W6 m c r else if J = 8 then W8 m c r else if J = 10 then W10 m c r else if J = 14 then W14 m c r else W18 m c r

/-- The buffer contents region 5 is entered with, read at the TensorCore's references. -/
abbrev Vin5 : (c : Dev nD) → (b : Ref sig .tc) → Buf (Elt F) ((c : Thread nD τ).loc b) := fun c b => V21 m (outs18 m) c b
/-- What region 5 leaves in its output array `main_v118`: the write-backs of its 20 points folded over the entry contents. -/
def o5 (c : Dev nD) : Buf (Elt F) ((c : Thread nD τ).loc main_v118) := (dat5 (Vin5 m) c).arrAt 3 cfg5.N
/-- The buffer contents after region 5. -/
abbrev W22 (c : Dev nD) : Valuation τ sig (Elt F) := Function.update (V21 m (outs18 m) c) main_v118 (o5 m c)
/-- The regions' outputs known so far, as the family the generated host side is stated over. -/
def outs22 : Outs (F := F) := fun J r c =>
  if J = 6 then W6 m c r else if J = 8 then W8 m c r else if J = 10 then W10 m c r else if J = 14 then W14 m c r else if J = 18 then W18 m c r else W22 m c r

/-- The family of every region's output. -/
abbrev outsF : Outs (F := F) := outs22 m

/-! ## The buffer contents depend on the regions' outputs only through the six output arrays -/

section Congr
variable (o o' : Outs (F := F)) (c : Dev nD)
theorem V6_congr (h6 : o 6 main_v25 c = o' 6 main_v25 c) : V6 m o c = V6 m o' c := by
  show Function.update (V5 m c) main_v25 (o 6 main_v25 c) = Function.update (V5 m c) main_v25 (o' 6 main_v25 c)
  rw [h6]
theorem V7_congr (h6 : o 6 main_v25 c = o' 6 main_v25 c) : V7 m o c = V7 m o' c := by
  show StableHlo.after hostOps1 (V6 m o c) = StableHlo.after hostOps1 (V6 m o' c)
  rw [V6_congr m o o' c h6]
theorem V8_congr (h6 : o 6 main_v25 c = o' 6 main_v25 c) (h8 : o 8 main_v28 c = o' 8 main_v28 c) : V8 m o c = V8 m o' c := by
  show Function.update (V7 m o c) main_v28 (o 8 main_v28 c) = Function.update (V7 m o' c) main_v28 (o' 8 main_v28 c)
  rw [V7_congr m o o' c h6, h8]
theorem V9_congr (h6 : o 6 main_v25 c = o' 6 main_v25 c) (h8 : o 8 main_v28 c = o' 8 main_v28 c) : V9 m o c = V9 m o' c := by
  show StableHlo.after hostOps2 (V8 m o c) = StableHlo.after hostOps2 (V8 m o' c)
  rw [V8_congr m o o' c h6 h8]
theorem V10_congr (h6 : o 6 main_v25 c = o' 6 main_v25 c) (h8 : o 8 main_v28 c = o' 8 main_v28 c) (h10 : o 10 main_v31 c = o' 10 main_v31 c) : V10 m o c = V10 m o' c := by
  show Function.update (V9 m o c) main_v31 (o 10 main_v31 c) = Function.update (V9 m o' c) main_v31 (o' 10 main_v31 c)
  rw [V9_congr m o o' c h6 h8, h10]
theorem V11_congr (h6 : o 6 main_v25 c = o' 6 main_v25 c) (h8 : o 8 main_v28 c = o' 8 main_v28 c) (h10 : o 10 main_v31 c = o' 10 main_v31 c) : V11 m o c = V11 m o' c := by
  show StableHlo.after hostOps3 (V10 m o c) = StableHlo.after hostOps3 (V10 m o' c)
  rw [V10_congr m o o' c h6 h8 h10]
theorem V12_congr (h6 : o 6 main_v25 c = o' 6 main_v25 c) (h8 : o 8 main_v28 c = o' 8 main_v28 c) (h10 : o 10 main_v31 c = o' 10 main_v31 c) : V12 m o c = V12 m o' c := by
  show StableHlo.after hostOps3_1 (V11 m o c) = StableHlo.after hostOps3_1 (V11 m o' c)
  rw [V11_congr m o o' c h6 h8 h10]
theorem V13_congr (h6 : o 6 main_v25 c = o' 6 main_v25 c) (h8 : o 8 main_v28 c = o' 8 main_v28 c) (h10 : o 10 main_v31 c = o' 10 main_v31 c) : V13 m o c = V13 m o' c := by
  show StableHlo.after hostOps3_2 (V12 m o c) = StableHlo.after hostOps3_2 (V12 m o' c)
  rw [V12_congr m o o' c h6 h8 h10]
theorem V14_congr (h6 : o 6 main_v25 c = o' 6 main_v25 c) (h8 : o 8 main_v28 c = o' 8 main_v28 c) (h10 : o 10 main_v31 c = o' 10 main_v31 c) (h14 : o 14 main_v62 c = o' 14 main_v62 c) : V14 m o c = V14 m o' c := by
  show Function.update (V13 m o c) main_v62 (o 14 main_v62 c) = Function.update (V13 m o' c) main_v62 (o' 14 main_v62 c)
  rw [V13_congr m o o' c h6 h8 h10, h14]
theorem V15_congr (h6 : o 6 main_v25 c = o' 6 main_v25 c) (h8 : o 8 main_v28 c = o' 8 main_v28 c) (h10 : o 10 main_v31 c = o' 10 main_v31 c) (h14 : o 14 main_v62 c = o' 14 main_v62 c) : V15 m o c = V15 m o' c := by
  show StableHlo.after hostOps4 (V14 m o c) = StableHlo.after hostOps4 (V14 m o' c)
  rw [V14_congr m o o' c h6 h8 h10 h14]
theorem V16_congr (h6 : o 6 main_v25 c = o' 6 main_v25 c) (h8 : o 8 main_v28 c = o' 8 main_v28 c) (h10 : o 10 main_v31 c = o' 10 main_v31 c) (h14 : o 14 main_v62 c = o' 14 main_v62 c) : V16 m o c = V16 m o' c := by
  show StableHlo.after hostOps4_1 (V15 m o c) = StableHlo.after hostOps4_1 (V15 m o' c)
  rw [V15_congr m o o' c h6 h8 h10 h14]
theorem V17_congr (h6 : o 6 main_v25 c = o' 6 main_v25 c) (h8 : o 8 main_v28 c = o' 8 main_v28 c) (h10 : o 10 main_v31 c = o' 10 main_v31 c) (h14 : o 14 main_v62 c = o' 14 main_v62 c) : V17 m o c = V17 m o' c := by
  show StableHlo.after hostOps4_2 (V16 m o c) = StableHlo.after hostOps4_2 (V16 m o' c)
  rw [V16_congr m o o' c h6 h8 h10 h14]
theorem V18_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V18 m o c = V18 m o' c := by
  show Function.update (V17 m o c) main_v90 (o 18 main_v90 c) = Function.update (V17 m o' c) main_v90 (o' 18 main_v90 c)
  rw [V17_congr m o o' c h6 h8 h10 h14, h18]
theorem V19_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V19 m o c = V19 m o' c := by
  show StableHlo.after hostOps5 (V18 m o c) = StableHlo.after hostOps5 (V18 m o' c)
  rw [V18_congr m o o' c h6 h8 h10 h14 h18]
theorem V20_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V20 m o c = V20 m o' c := by
  show StableHlo.after hostOps5_1 (V19 m o c) = StableHlo.after hostOps5_1 (V19 m o' c)
  rw [V19_congr m o o' c h6 h8 h10 h14 h18]
theorem V21_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) : V21 m o c = V21 m o' c := by
  show StableHlo.after hostOps5_2 (V20 m o c) = StableHlo.after hostOps5_2 (V20 m o' c)
  rw [V20_congr m o o' c h6 h8 h10 h14 h18]
theorem V22_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) (h22 : o 22 main_v118 c = o' 22 main_v118 c) : V22 m o c = V22 m o' c := by
  show Function.update (V21 m o c) main_v118 (o 22 main_v118 c) = Function.update (V21 m o' c) main_v118 (o' 22 main_v118 c)
  rw [V21_congr m o o' c h6 h8 h10 h14 h18, h22]
theorem V23_congr (h6 : o 6 main_v25 c = o' 6 main_v25 c) (h8 : o 8 main_v28 c = o' 8 main_v28 c) (h10 : o 10 main_v31 c = o' 10 main_v31 c) (h14 : o 14 main_v62 c = o' 14 main_v62 c) (h18 : o 18 main_v90 c = o' 18 main_v90 c) (h22 : o 22 main_v118 c = o' 22 main_v118 c) : V23 m o c = V23 m o' c := by
  show StableHlo.after hostOps6 (V22 m o c) = StableHlo.after hostOps6 (V22 m o' c)
  rw [V22_congr m o o' c h6 h8 h10 h14 h18 h22]
end Congr

/-! ## The staged families agree where they are read -/
theorem outs6_at6 (c : Dev nD) (r : Ref sig .tc) : outs6 m 6 r c = W6 m c r := by
  unfold outs6; simp only [if_true, if_false, ite_true, ite_false, reduceIte]
theorem outs8_at6 (c : Dev nD) (r : Ref sig .tc) : outs8 m 6 r c = W6 m c r := by
  unfold outs8; simp only [if_true, if_false, ite_true, ite_false, reduceIte]
theorem outs10_at6 (c : Dev nD) (r : Ref sig .tc) : outs10 m 6 r c = W6 m c r := by
  unfold outs10; simp only [if_true, if_false, ite_true, ite_false, reduceIte]
theorem outs14_at6 (c : Dev nD) (r : Ref sig .tc) : outs14 m 6 r c = W6 m c r := by
  unfold outs14; simp only [if_true, if_false, ite_true, ite_false, reduceIte]
theorem outs18_at6 (c : Dev nD) (r : Ref sig .tc) : outs18 m 6 r c = W6 m c r := by
  unfold outs18; simp only [if_true, if_false, ite_true, ite_false, reduceIte]
theorem outs22_at6 (c : Dev nD) (r : Ref sig .tc) : outs22 m 6 r c = W6 m c r := by
  unfold outs22; simp only [if_true, if_false, ite_true, ite_false, reduceIte]
theorem outs8_at8 (c : Dev nD) (r : Ref sig .tc) : outs8 m 8 r c = W8 m c r := by
  unfold outs8; simp only [show ¬((8 : ℕ) = 6) from by decide, if_true, if_false, ite_true, ite_false, reduceIte]
theorem outs10_at8 (c : Dev nD) (r : Ref sig .tc) : outs10 m 8 r c = W8 m c r := by
  unfold outs10; simp only [show ¬((8 : ℕ) = 6) from by decide, if_true, if_false, ite_true, ite_false, reduceIte]
theorem outs14_at8 (c : Dev nD) (r : Ref sig .tc) : outs14 m 8 r c = W8 m c r := by
  unfold outs14; simp only [show ¬((8 : ℕ) = 6) from by decide, if_true, if_false, ite_true, ite_false, reduceIte]
theorem outs18_at8 (c : Dev nD) (r : Ref sig .tc) : outs18 m 8 r c = W8 m c r := by
  unfold outs18; simp only [show ¬((8 : ℕ) = 6) from by decide, if_true, if_false, ite_true, ite_false, reduceIte]
theorem outs22_at8 (c : Dev nD) (r : Ref sig .tc) : outs22 m 8 r c = W8 m c r := by
  unfold outs22; simp only [show ¬((8 : ℕ) = 6) from by decide, if_true, if_false, ite_true, ite_false, reduceIte]
theorem outs10_at10 (c : Dev nD) (r : Ref sig .tc) : outs10 m 10 r c = W10 m c r := by
  unfold outs10; simp only [show ¬((10 : ℕ) = 6) from by decide, show ¬((10 : ℕ) = 8) from by decide, if_true, if_false, ite_true, ite_false, reduceIte]
theorem outs14_at10 (c : Dev nD) (r : Ref sig .tc) : outs14 m 10 r c = W10 m c r := by
  unfold outs14; simp only [show ¬((10 : ℕ) = 6) from by decide, show ¬((10 : ℕ) = 8) from by decide, if_true, if_false, ite_true, ite_false, reduceIte]
theorem outs18_at10 (c : Dev nD) (r : Ref sig .tc) : outs18 m 10 r c = W10 m c r := by
  unfold outs18; simp only [show ¬((10 : ℕ) = 6) from by decide, show ¬((10 : ℕ) = 8) from by decide, if_true, if_false, ite_true, ite_false, reduceIte]
theorem outs22_at10 (c : Dev nD) (r : Ref sig .tc) : outs22 m 10 r c = W10 m c r := by
  unfold outs22; simp only [show ¬((10 : ℕ) = 6) from by decide, show ¬((10 : ℕ) = 8) from by decide, if_true, if_false, ite_true, ite_false, reduceIte]
theorem outs14_at14 (c : Dev nD) (r : Ref sig .tc) : outs14 m 14 r c = W14 m c r := by
  unfold outs14; simp only [show ¬((14 : ℕ) = 6) from by decide, show ¬((14 : ℕ) = 8) from by decide, show ¬((14 : ℕ) = 10) from by decide, if_true, if_false, ite_true, ite_false, reduceIte]
theorem outs18_at14 (c : Dev nD) (r : Ref sig .tc) : outs18 m 14 r c = W14 m c r := by
  unfold outs18; simp only [show ¬((14 : ℕ) = 6) from by decide, show ¬((14 : ℕ) = 8) from by decide, show ¬((14 : ℕ) = 10) from by decide, if_true, if_false, ite_true, ite_false, reduceIte]
theorem outs22_at14 (c : Dev nD) (r : Ref sig .tc) : outs22 m 14 r c = W14 m c r := by
  unfold outs22; simp only [show ¬((14 : ℕ) = 6) from by decide, show ¬((14 : ℕ) = 8) from by decide, show ¬((14 : ℕ) = 10) from by decide, if_true, if_false, ite_true, ite_false, reduceIte]
theorem outs18_at18 (c : Dev nD) (r : Ref sig .tc) : outs18 m 18 r c = W18 m c r := by
  unfold outs18; simp only [show ¬((18 : ℕ) = 6) from by decide, show ¬((18 : ℕ) = 8) from by decide, show ¬((18 : ℕ) = 10) from by decide, show ¬((18 : ℕ) = 14) from by decide, if_true, if_false, ite_true, ite_false, reduceIte]
theorem outs22_at18 (c : Dev nD) (r : Ref sig .tc) : outs22 m 18 r c = W18 m c r := by
  unfold outs22; simp only [show ¬((18 : ℕ) = 6) from by decide, show ¬((18 : ℕ) = 8) from by decide, show ¬((18 : ℕ) = 10) from by decide, show ¬((18 : ℕ) = 14) from by decide, if_true, if_false, ite_true, ite_false, reduceIte]
theorem outs22_at22 (c : Dev nD) (r : Ref sig .tc) : outs22 m 22 r c = W22 m c r := by
  unfold outs22; simp only [show ¬((22 : ℕ) = 6) from by decide, show ¬((22 : ℕ) = 8) from by decide, show ¬((22 : ℕ) = 10) from by decide, show ¬((22 : ℕ) = 14) from by decide, show ¬((22 : ℕ) = 18) from by decide, if_true, if_false, ite_true, ite_false, reduceIte]
theorem outsF_6 (c : Dev nD) : outsF m 6 main_v25 c = o0 m c :=
  (outs22_at6 m c main_v25).trans (Function.update_self (f := V5 m c) (Proc.devRef .tc main_v25) (o0 m c))
theorem outsF_8 (c : Dev nD) : outsF m 8 main_v28 c = o1 m c :=
  (outs22_at8 m c main_v28).trans (Function.update_self (f := V7 m (outs6 m) c) (Proc.devRef .tc main_v28) (o1 m c))
theorem outsF_10 (c : Dev nD) : outsF m 10 main_v31 c = o2 m c :=
  (outs22_at10 m c main_v31).trans (Function.update_self (f := V9 m (outs8 m) c) (Proc.devRef .tc main_v31) (o2 m c))
theorem outsF_14 (c : Dev nD) : outsF m 14 main_v62 c = o3 m c :=
  (outs22_at14 m c main_v62).trans (Function.update_self (f := V13 m (outs10 m) c) (Proc.devRef .tc main_v62) (o3 m c))
theorem outsF_18 (c : Dev nD) : outsF m 18 main_v90 c = o4 m c :=
  (outs22_at18 m c main_v90).trans (Function.update_self (f := V17 m (outs14 m) c) (Proc.devRef .tc main_v90) (o4 m c))
theorem outsF_22 (c : Dev nD) : outsF m 22 main_v118 c = o5 m c :=
  (outs22_at22 m c main_v118).trans (Function.update_self (f := V21 m (outs18 m) c) (Proc.devRef .tc main_v118) (o5 m c))
theorem V7_stage (c : Dev nD) : V7 m (outsF m) c = V7 m (outs6 m) c :=
  V7_congr m (outsF m) (outs6 m) c ((outs22_at6 m c main_v25).trans (outs6_at6 m c main_v25).symm)
theorem V9_stage (c : Dev nD) : V9 m (outsF m) c = V9 m (outs8 m) c :=
  V9_congr m (outsF m) (outs8 m) c ((outs22_at6 m c main_v25).trans (outs8_at6 m c main_v25).symm) ((outs22_at8 m c main_v28).trans (outs8_at8 m c main_v28).symm)
theorem V13_stage (c : Dev nD) : V13 m (outsF m) c = V13 m (outs10 m) c :=
  V13_congr m (outsF m) (outs10 m) c ((outs22_at6 m c main_v25).trans (outs10_at6 m c main_v25).symm) ((outs22_at8 m c main_v28).trans (outs10_at8 m c main_v28).symm) ((outs22_at10 m c main_v31).trans (outs10_at10 m c main_v31).symm)
theorem V17_stage (c : Dev nD) : V17 m (outsF m) c = V17 m (outs14 m) c :=
  V17_congr m (outsF m) (outs14 m) c ((outs22_at6 m c main_v25).trans (outs14_at6 m c main_v25).symm) ((outs22_at8 m c main_v28).trans (outs14_at8 m c main_v28).symm) ((outs22_at10 m c main_v31).trans (outs14_at10 m c main_v31).symm) ((outs22_at14 m c main_v62).trans (outs14_at14 m c main_v62).symm)
theorem V21_stage (c : Dev nD) : V21 m (outsF m) c = V21 m (outs18 m) c :=
  V21_congr m (outsF m) (outs18 m) c ((outs22_at6 m c main_v25).trans (outs18_at6 m c main_v25).symm) ((outs22_at8 m c main_v28).trans (outs18_at8 m c main_v28).symm) ((outs22_at10 m c main_v31).trans (outs18_at10 m c main_v31).symm) ((outs22_at14 m c main_v62).trans (outs18_at14 m c main_v62).symm) ((outs22_at18 m c main_v90).trans (outs18_at18 m c main_v90).symm)
theorem V6_stage (c : Dev nD) : V6 m (outsF m) c = W6 m c := by
  show Function.update (V5 m c) main_v25 (outsF m 6 main_v25 c) = Function.update (V5 m c) main_v25 (o0 m c)
  rw [outsF_6 m c]
theorem V8_stage (c : Dev nD) : V8 m (outsF m) c = W8 m c := by
  show Function.update (V7 m (outsF m) c) main_v28 (outsF m 8 main_v28 c) = Function.update (V7 m (outs6 m) c) main_v28 (o1 m c)
  rw [V7_stage m c, outsF_8 m c]
theorem V10_stage (c : Dev nD) : V10 m (outsF m) c = W10 m c := by
  show Function.update (V9 m (outsF m) c) main_v31 (outsF m 10 main_v31 c) = Function.update (V9 m (outs8 m) c) main_v31 (o2 m c)
  rw [V9_stage m c, outsF_10 m c]
theorem V14_stage (c : Dev nD) : V14 m (outsF m) c = W14 m c := by
  show Function.update (V13 m (outsF m) c) main_v62 (outsF m 14 main_v62 c) = Function.update (V13 m (outs10 m) c) main_v62 (o3 m c)
  rw [V13_stage m c, outsF_14 m c]
theorem V18_stage (c : Dev nD) : V18 m (outsF m) c = W18 m c := by
  show Function.update (V17 m (outsF m) c) main_v90 (outsF m 18 main_v90 c) = Function.update (V17 m (outs14 m) c) main_v90 (o4 m c)
  rw [V17_stage m c, outsF_18 m c]
theorem V22_stage (c : Dev nD) : V22 m (outsF m) c = W22 m c := by
  show Function.update (V21 m (outsF m) c) main_v118 (outsF m 22 main_v118 c) = Function.update (V21 m (outs18 m) c) main_v118 (o5 m c)
  rw [V21_stage m c, outsF_22 m c]

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- At region 0's exit each of its arrays holds what the pipeline leaves: the inputs what they held, the output `o0`. -/
theorem hF0 (c : Dev nD) (w : Fin cfg0.W) : (dat0 (Vin0 m) c).arrAt w cfg0.N = (fun b : Ref sig .tc => W6 m c b) (Pipeline.arrRef spec0 w) := by
  match w with
  | ⟨0, _⟩ => exact ((dat0 (Vin0 m) c).arrAt_in 0 rfl _).trans (A_eq0 (Vin0 m) c 0)
  | ⟨1, _⟩ => exact ((dat0 (Vin0 m) c).arrAt_in 1 rfl _).trans (A_eq0 (Vin0 m) c 1)
  | ⟨2, _⟩ => exact ((dat0 (Vin0 m) c).arrAt_in 2 rfl _).trans (A_eq0 (Vin0 m) c 2)
  | ⟨3, _⟩ => exact (Function.update_self (f := V5 m c) (Proc.devRef .tc main_v25) (o0 m c)).symm
theorem hrest0 (c : Dev nD) : ∀ b : Ref sig .tc, b ∉ Finset.univ.image (Pipeline.arrRef spec0) → (fun b : Ref sig .tc => W6 m c b) b = Vin0 m c b :=
  fun b hb => Function.update_of_ne (fun e => hb (Finset.mem_image.mpr ⟨3, Finset.mem_univ _, (Proc.devRef_injective _ e).symm⟩)) _ _

set_option backward.isDefEq.respectTransparency.types false in
/-- Region 0 over the thread state: entered from every unscoped buffer at the entry contents, left with the output
    array at `o0` and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => W6 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the inputs what they held, the output `o1`. -/
theorem hF1 (c : Dev nD) (w : Fin cfg1.W) : (dat1 (Vin1 m) c).arrAt w cfg1.N = (fun b : Ref sig .tc => W8 m c b) (Pipeline.arrRef spec1 w) := by
  match w with
  | ⟨0, _⟩ => exact ((dat1 (Vin1 m) c).arrAt_in 0 rfl _).trans (A_eq1 (Vin1 m) c 0)
  | ⟨1, _⟩ => exact ((dat1 (Vin1 m) c).arrAt_in 1 rfl _).trans (A_eq1 (Vin1 m) c 1)
  | ⟨2, _⟩ => exact ((dat1 (Vin1 m) c).arrAt_in 2 rfl _).trans (A_eq1 (Vin1 m) c 2)
  | ⟨3, _⟩ => exact (Function.update_self (f := V7 m (outs6 m) c) (Proc.devRef .tc main_v28) (o1 m c)).symm
theorem hrest1 (c : Dev nD) : ∀ b : Ref sig .tc, b ∉ Finset.univ.image (Pipeline.arrRef spec1) → (fun b : Ref sig .tc => W8 m c b) b = Vin1 m c b :=
  fun b hb => Function.update_of_ne (fun e => hb (Finset.mem_image.mpr ⟨3, Finset.mem_univ _, (Proc.devRef_injective _ e).symm⟩)) _ _

set_option backward.isDefEq.respectTransparency.types false in
/-- Region 1 over the thread state: entered from every unscoped buffer at the entry contents, left with the output
    array at `o1` and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V7 m (outs6 m) c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => W8 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the inputs what they held, the output `o2`. -/
theorem hF2 (c : Dev nD) (w : Fin cfg2.W) : (dat2 (Vin2 m) c).arrAt w cfg2.N = (fun b : Ref sig .tc => W10 m c b) (Pipeline.arrRef spec2 w) := by
  match w with
  | ⟨0, _⟩ => exact ((dat2 (Vin2 m) c).arrAt_in 0 rfl _).trans (A_eq2 (Vin2 m) c 0)
  | ⟨1, _⟩ => exact ((dat2 (Vin2 m) c).arrAt_in 1 rfl _).trans (A_eq2 (Vin2 m) c 1)
  | ⟨2, _⟩ => exact ((dat2 (Vin2 m) c).arrAt_in 2 rfl _).trans (A_eq2 (Vin2 m) c 2)
  | ⟨3, _⟩ => exact (Function.update_self (f := V9 m (outs8 m) c) (Proc.devRef .tc main_v31) (o2 m c)).symm
theorem hrest2 (c : Dev nD) : ∀ b : Ref sig .tc, b ∉ Finset.univ.image (Pipeline.arrRef spec2) → (fun b : Ref sig .tc => W10 m c b) b = Vin2 m c b :=
  fun b hb => Function.update_of_ne (fun e => hb (Finset.mem_image.mpr ⟨3, Finset.mem_univ _, (Proc.devRef_injective _ e).symm⟩)) _ _

set_option backward.isDefEq.respectTransparency.types false in
/-- Region 2 over the thread state: entered from every unscoped buffer at the entry contents, left with the output
    array at `o2` and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (V9 m (outs8 m) c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b : Ref sig .tc => W10 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At region 3's exit each of its arrays holds what the pipeline leaves: the inputs what they held, the output `o3`. -/
theorem hF3 (c : Dev nD) (w : Fin cfg3.W) : (dat3 (Vin3 m) c).arrAt w cfg3.N = (fun b : Ref sig .tc => W14 m c b) (Pipeline.arrRef spec3 w) := by
  match w with
  | ⟨0, _⟩ => exact ((dat3 (Vin3 m) c).arrAt_in 0 rfl _).trans (A_eq3 (Vin3 m) c 0)
  | ⟨1, _⟩ => exact ((dat3 (Vin3 m) c).arrAt_in 1 rfl _).trans (A_eq3 (Vin3 m) c 1)
  | ⟨2, _⟩ => exact ((dat3 (Vin3 m) c).arrAt_in 2 rfl _).trans (A_eq3 (Vin3 m) c 2)
  | ⟨3, _⟩ => exact (Function.update_self (f := V13 m (outs10 m) c) (Proc.devRef .tc main_v62) (o3 m c)).symm
theorem hrest3 (c : Dev nD) : ∀ b : Ref sig .tc, b ∉ Finset.univ.image (Pipeline.arrRef spec3) → (fun b : Ref sig .tc => W14 m c b) b = Vin3 m c b :=
  fun b hb => Function.update_of_ne (fun e => hb (Finset.mem_image.mpr ⟨3, Finset.mem_univ _, (Proc.devRef_injective _ e).symm⟩)) _ _

set_option backward.isDefEq.respectTransparency.types false in
/-- Region 3 over the thread state: entered from every unscoped buffer at the entry contents, left with the output
    array at `o3` and every other buffer as entered. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (V13 m (outs10 m) c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m) c)
    unfold Pipeline.ΦA
    iintro ⟨Hp, -, Hr⟩
    isplitl [Hr]; · iexact Hr
    iexact Hp
  hout c := by
    rw [Pipeline.ownSems0_none]
    refine BIBase.Entails.trans (hout3 (Vin3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b : Ref sig .tc => W14 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the inputs what they held, the output `o4`. -/
theorem hF4 (c : Dev nD) (w : Fin cfg4.W) : (dat4 (Vin4 m) c).arrAt w cfg4.N = (fun b : Ref sig .tc => W18 m c b) (Pipeline.arrRef spec4 w) := by
  match w with
  | ⟨0, _⟩ => exact ((dat4 (Vin4 m) c).arrAt_in 0 rfl _).trans (A_eq4 (Vin4 m) c 0)
  | ⟨1, _⟩ => exact ((dat4 (Vin4 m) c).arrAt_in 1 rfl _).trans (A_eq4 (Vin4 m) c 1)
  | ⟨2, _⟩ => exact ((dat4 (Vin4 m) c).arrAt_in 2 rfl _).trans (A_eq4 (Vin4 m) c 2)
  | ⟨3, _⟩ => exact (Function.update_self (f := V17 m (outs14 m) c) (Proc.devRef .tc main_v90) (o4 m c)).symm
theorem hrest4 (c : Dev nD) : ∀ b : Ref sig .tc, b ∉ Finset.univ.image (Pipeline.arrRef spec4) → (fun b : Ref sig .tc => W18 m c b) b = Vin4 m c b :=
  fun b hb => Function.update_of_ne (fun e => hb (Finset.mem_image.mpr ⟨3, Finset.mem_univ _, (Proc.devRef_injective _ e).symm⟩)) _ _

set_option backward.isDefEq.respectTransparency.types false in
/-- Region 4 over the thread state: entered from every unscoped buffer at the entry contents, left with the output
    array at `o4` and every other buffer as entered. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (V17 m (outs14 m) c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Vin4 m) c)
    unfold Pipeline.ΦA
    iintro ⟨Hp, -, Hr⟩
    isplitl [Hr]; · iexact Hr
    iexact Hp
  hout c := by
    rw [Pipeline.ownSems0_none]
    refine BIBase.Entails.trans (hout4 (Vin4 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b : Ref sig .tc => W18 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 5 -/

/-- At region 5's exit each of its arrays holds what the pipeline leaves: the inputs what they held, the output `o5`. -/
theorem hF5 (c : Dev nD) (w : Fin cfg5.W) : (dat5 (Vin5 m) c).arrAt w cfg5.N = (fun b : Ref sig .tc => W22 m c b) (Pipeline.arrRef spec5 w) := by
  match w with
  | ⟨0, _⟩ => exact ((dat5 (Vin5 m) c).arrAt_in 0 rfl _).trans (A_eq5 (Vin5 m) c 0)
  | ⟨1, _⟩ => exact ((dat5 (Vin5 m) c).arrAt_in 1 rfl _).trans (A_eq5 (Vin5 m) c 1)
  | ⟨2, _⟩ => exact ((dat5 (Vin5 m) c).arrAt_in 2 rfl _).trans (A_eq5 (Vin5 m) c 2)
  | ⟨3, _⟩ => exact (Function.update_self (f := V21 m (outs18 m) c) (Proc.devRef .tc main_v118) (o5 m c)).symm
theorem hrest5 (c : Dev nD) : ∀ b : Ref sig .tc, b ∉ Finset.univ.image (Pipeline.arrRef spec5) → (fun b : Ref sig .tc => W22 m c b) b = Vin5 m c b :=
  fun b hb => Function.update_of_ne (fun e => hb (Finset.mem_image.mpr ⟨3, Finset.mem_univ _, (Proc.devRef_injective _ e).symm⟩)) _ _

set_option backward.isDefEq.respectTransparency.types false in
/-- Region 5 over the thread state: entered from every unscoped buffer at the entry contents, left with the output
    array at `o5` and every other buffer as entered. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (V21 m (outs18 m) c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Vin5 m) c)
    unfold Pipeline.ΦA
    iintro ⟨Hp, -, Hr⟩
    isplitl [Hr]; · iexact Hr
    iexact Hp
  hout c := by
    rw [Pipeline.ownSems0_none]
    refine BIBase.Entails.trans (hout5 (Vin5 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (fun b : Ref sig .tc => W22 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
set_option maxHeartbeats 4000000 in
/-- From any memory with zero counters every weakly fair execution of @main terminates, and in its final state every
    unscoped buffer holds what the host stretches and the regions leave in it, `V23` at the regions' outputs `outsF`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V23 m (outsF m) c b) := by
  refine Pipeline.θ_run_regions_kit_dev (pcfgs (F := F)) adm (pdats m) () cellOf_inj emb₁ defs₀ 𝒱₀ L lv m ρ main
    (segs m (outsF m) 𝒱₀ L lv (fun _ => R) () (pdats m) (reg0 m) (reg1 m) (reg2 m) (reg3 m) (reg4 m) (reg5 m))
    (fun c Q => by
      rewrite [main_chain c, Pipeline.Seg.run_eq_chain,
        show (segs m (outsF m) 𝒱₀ L lv (fun _ => R) () (pdats m) (reg0 m) (reg1 m) (reg2 m) (reg3 m) (reg4 m) (reg5 m) c).map Pipeline.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3, StableHlo.seq hostOps3_1, StableHlo.seq hostOps3_2,
          Prog.lift (.customCall (Pipeline.entry 3) ()),
          StableHlo.seq hostOps4, StableHlo.seq hostOps4_1, StableHlo.seq hostOps4_2,
          Prog.lift (.customCall (Pipeline.entry 4) ()),
          StableHlo.seq hostOps5, StableHlo.seq hostOps5_1, StableHlo.seq hostOps5_2,
          Prog.lift (.customCall (Pipeline.entry 5) ()),
          StableHlo.seq hostOps6 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V23 m (outsF m) c))
    (hch := fun c => ⟨.rfl,
      .rfl,
      .rfl,
      .rfl,
      .rfl,
      .rfl,
      Entails.of_eq (show (iprop(StableHlo.held (c : Thread nD τ) (Pipeline.ucRefs τ sig) (W6 m c) ∗ R c) : sProp 𝕄) = iprop(StableHlo.held (c : Thread nD τ) (Pipeline.ucRefs τ sig) (V6 m (outsF m) c) ∗ R c) from by rw [V6_stage]),
      Entails.of_eq (show (iprop(StableHlo.held (c : Thread nD τ) (Pipeline.ucRefs τ sig) (V7 m (outsF m) c) ∗ R c) : sProp 𝕄) = iprop(StableHlo.held (c : Thread nD τ) (Pipeline.ucRefs τ sig) (V7 m (outs6 m) c) ∗ R c) from by rw [V7_stage]),
      Entails.of_eq (show (iprop(StableHlo.held (c : Thread nD τ) (Pipeline.ucRefs τ sig) (W8 m c) ∗ R c) : sProp 𝕄) = iprop(StableHlo.held (c : Thread nD τ) (Pipeline.ucRefs τ sig) (V8 m (outsF m) c) ∗ R c) from by rw [V8_stage]),
      Entails.of_eq (show (iprop(StableHlo.held (c : Thread nD τ) (Pipeline.ucRefs τ sig) (V9 m (outsF m) c) ∗ R c) : sProp 𝕄) = iprop(StableHlo.held (c : Thread nD τ) (Pipeline.ucRefs τ sig) (V9 m (outs8 m) c) ∗ R c) from by rw [V9_stage]),
      Entails.of_eq (show (iprop(StableHlo.held (c : Thread nD τ) (Pipeline.ucRefs τ sig) (W10 m c) ∗ R c) : sProp 𝕄) = iprop(StableHlo.held (c : Thread nD τ) (Pipeline.ucRefs τ sig) (V10 m (outsF m) c) ∗ R c) from by rw [V10_stage]),
      .rfl,
      .rfl,
      Entails.of_eq (show (iprop(StableHlo.held (c : Thread nD τ) (Pipeline.ucRefs τ sig) (V13 m (outsF m) c) ∗ R c) : sProp 𝕄) = iprop(StableHlo.held (c : Thread nD τ) (Pipeline.ucRefs τ sig) (V13 m (outs10 m) c) ∗ R c) from by rw [V13_stage]),
      Entails.of_eq (show (iprop(StableHlo.held (c : Thread nD τ) (Pipeline.ucRefs τ sig) (W14 m c) ∗ R c) : sProp 𝕄) = iprop(StableHlo.held (c : Thread nD τ) (Pipeline.ucRefs τ sig) (V14 m (outsF m) c) ∗ R c) from by rw [V14_stage]),
      .rfl,
      .rfl,
      Entails.of_eq (show (iprop(StableHlo.held (c : Thread nD τ) (Pipeline.ucRefs τ sig) (V17 m (outsF m) c) ∗ R c) : sProp 𝕄) = iprop(StableHlo.held (c : Thread nD τ) (Pipeline.ucRefs τ sig) (V17 m (outs14 m) c) ∗ R c) from by rw [V17_stage]),
      Entails.of_eq (show (iprop(StableHlo.held (c : Thread nD τ) (Pipeline.ucRefs τ sig) (W18 m c) ∗ R c) : sProp 𝕄) = iprop(StableHlo.held (c : Thread nD τ) (Pipeline.ucRefs τ sig) (V18 m (outsF m) c) ∗ R c) from by rw [V18_stage]),
      .rfl,
      .rfl,
      Entails.of_eq (show (iprop(StableHlo.held (c : Thread nD τ) (Pipeline.ucRefs τ sig) (V21 m (outsF m) c) ∗ R c) : sProp 𝕄) = iprop(StableHlo.held (c : Thread nD τ) (Pipeline.ucRefs τ sig) (V21 m (outs18 m) c) ∗ R c) from by rw [V21_stage]),
      Entails.of_eq (show (iprop(StableHlo.held (c : Thread nD τ) (Pipeline.ucRefs τ sig) (W22 m c) ∗ R c) : sProp 𝕄) = iprop(StableHlo.held (c : Thread nD τ) (Pipeline.ucRefs τ sig) (V22 m (outsF m) c) ∗ R c) from by rw [V22_stage]),
      sep_mono .rfl (by iintro ⟨-, HO⟩; iexact HO)⟩)
    (hinit := ?_)
    (QY := fun c s => ∀ b ∈ Pipeline.ucRefs τ sig, s.mem (((c : Thread nD τ)).1, b) = V23 m (outsF m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V23 m (outsF m) c) s')
    isplitl [Hh] <;> iassumption

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c _ (mem_uc main_arg0 (by decide))).trans (V23_main_arg0 m (outsF m) c),
    (h c _ (mem_uc main_arg1 (by decide))).trans (V23_main_arg1 m (outsF m) c),
    (h c _ (mem_uc main_arg2 (by decide))).trans (V23_main_arg2 m (outsF m) c),
    (h c _ (mem_uc main_arg3 (by decide))).trans (V23_main_arg3 m (outsF m) c),
    (h c _ (mem_uc main_arg4 (by decide))).trans (V23_main_arg4 m (outsF m) c),
    (h c _ (mem_uc main_arg5 (by decide))).trans (V23_main_arg5 m (outsF m) c),
    (h c _ (mem_uc main_arg6 (by decide))).trans (V23_main_arg6 m (outsF m) c),
    (h c _ (mem_uc main_arg7 (by decide))).trans (V23_main_arg7 m (outsF m) c),
    (h c _ (mem_uc main_arg8 (by decide))).trans (V23_main_arg8 m (outsF m) c),
    (h c _ (mem_uc main_arg9 (by decide))).trans (V23_main_arg9 m (outsF m) c),
    (h c _ (mem_uc main_arg10 (by decide))).trans (V23_main_arg10 m (outsF m) c),
    (h c _ (mem_uc main_arg11 (by decide))).trans (V23_main_arg11 m (outsF m) c),
    (h c _ (mem_uc main_arg12 (by decide))).trans (V23_main_arg12 m (outsF m) c),
    (h c _ (mem_uc main_arg13 (by decide))).trans (V23_main_arg13 m (outsF m) c),
    (h c _ (mem_uc main_arg14 (by decide))).trans (V23_main_arg14 m (outsF m) c),
    (h c _ (mem_uc main_arg15 (by decide))).trans (V23_main_arg15 m (outsF m) c),
    (h c _ (mem_uc main_arg16 (by decide))).trans (V23_main_arg16 m (outsF m) c),
    (h c _ (mem_uc main_arg17 (by decide))).trans (V23_main_arg17 m (outsF m) c),
    (h c _ (mem_uc main_arg18 (by decide))).trans (V23_main_arg18 m (outsF m) c),
    (h c _ (mem_uc main_arg19 (by decide))).trans (V23_main_arg19 m (outsF m) c),
    (h c _ (mem_uc main_arg20 (by decide))).trans (V23_main_arg20 m (outsF m) c),
    (h c _ (mem_uc main_arg21 (by decide))).trans (V23_main_arg21 m (outsF m) c),
    (h c _ (mem_uc main_arg22 (by decide))).trans (V23_main_arg22 m (outsF m) c),
    (h c _ (mem_uc main_arg23 (by decide))).trans (V23_main_arg23 m (outsF m) c),
    (h c _ (mem_uc main_arg24 (by decide))).trans (V23_main_arg24 m (outsF m) c),
    (h c _ (mem_uc main_arg25 (by decide))).trans (V23_main_arg25 m (outsF m) c)⟩) (run_all m ρ)

/-- The run with the result named: the result buffer ends at `V23`'s contents, and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v135) = V23 m (outsF m) c main_v135
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨h c _ (mem_uc main_v135 (by decide)),
    (h c _ (mem_uc main_arg0 (by decide))).trans (V23_main_arg0 m (outsF m) c),
    (h c _ (mem_uc main_arg1 (by decide))).trans (V23_main_arg1 m (outsF m) c),
    (h c _ (mem_uc main_arg2 (by decide))).trans (V23_main_arg2 m (outsF m) c),
    (h c _ (mem_uc main_arg3 (by decide))).trans (V23_main_arg3 m (outsF m) c),
    (h c _ (mem_uc main_arg4 (by decide))).trans (V23_main_arg4 m (outsF m) c),
    (h c _ (mem_uc main_arg5 (by decide))).trans (V23_main_arg5 m (outsF m) c),
    (h c _ (mem_uc main_arg6 (by decide))).trans (V23_main_arg6 m (outsF m) c),
    (h c _ (mem_uc main_arg7 (by decide))).trans (V23_main_arg7 m (outsF m) c),
    (h c _ (mem_uc main_arg8 (by decide))).trans (V23_main_arg8 m (outsF m) c),
    (h c _ (mem_uc main_arg9 (by decide))).trans (V23_main_arg9 m (outsF m) c),
    (h c _ (mem_uc main_arg10 (by decide))).trans (V23_main_arg10 m (outsF m) c),
    (h c _ (mem_uc main_arg11 (by decide))).trans (V23_main_arg11 m (outsF m) c),
    (h c _ (mem_uc main_arg12 (by decide))).trans (V23_main_arg12 m (outsF m) c),
    (h c _ (mem_uc main_arg13 (by decide))).trans (V23_main_arg13 m (outsF m) c),
    (h c _ (mem_uc main_arg14 (by decide))).trans (V23_main_arg14 m (outsF m) c),
    (h c _ (mem_uc main_arg15 (by decide))).trans (V23_main_arg15 m (outsF m) c),
    (h c _ (mem_uc main_arg16 (by decide))).trans (V23_main_arg16 m (outsF m) c),
    (h c _ (mem_uc main_arg17 (by decide))).trans (V23_main_arg17 m (outsF m) c),
    (h c _ (mem_uc main_arg18 (by decide))).trans (V23_main_arg18 m (outsF m) c),
    (h c _ (mem_uc main_arg19 (by decide))).trans (V23_main_arg19 m (outsF m) c),
    (h c _ (mem_uc main_arg20 (by decide))).trans (V23_main_arg20 m (outsF m) c),
    (h c _ (mem_uc main_arg21 (by decide))).trans (V23_main_arg21 m (outsF m) c),
    (h c _ (mem_uc main_arg22 (by decide))).trans (V23_main_arg22 m (outsF m) c),
    (h c _ (mem_uc main_arg23 (by decide))).trans (V23_main_arg23 m (outsF m) c),
    (h c _ (mem_uc main_arg24 (by decide))).trans (V23_main_arg24 m (outsF m) c),
    (h c _ (mem_uc main_arg25 (by decide))).trans (V23_main_arg25 m (outsF m) c)⟩) (run_all m ρ)

end Cert.Kernel.Hand

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.RegionPayloads.lean ====
import proofs.«157756_j25125558682089_1_alg».proof.Proof.Gen.KernelIdeal.Skeleton
import proofs.«157756_j25125558682089_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

/-!
# The three values each tiled "x · w + bias" step stores, read at an index

Each of the six tiled steps works on a block of `M` rows: an `M × N` accumulator, an `M × L` block of the left
operand and an `L × N` block of the right operand.  It stores three values:

* the cleared accumulator, which is `0` at every index;
* the updated accumulator, which at `(r, c)` is the old accumulator plus `∑ k, x (r, k) · w (k, c)`
  (a product into the zero accumulator is the product rows by columns, and reshaping an array to its own
  shape changes nothing);
* the finished block, which at `(r, c)` is the accumulator plus the bias of column `c` (the bias is a single
  row, repeated down the rows), followed where the step has one by the maximum with zero.  On the extended
  reals a change of float format is the identity, so a final narrowing changes nothing.

The block shapes `(M, L, N)` are: step 0: (1024, 1920, 1024); step 1: (1024, 1024, 512); step 2: (1024, 512, 128);
step 3: (5000, 1, 128); step 4: (5000, 128, 256); step 5: (5000, 256, 128).  Steps 0, 1, 3, 4 and 5 end in the
maximum with zero; step 2 does not.
-/

noncomputable section

namespace Cert.Payloads

open Idealize.ShloMosaic Idealize.ShloMosaic.ValueIdx Idealize.ShloMosaic.PlainProduct
open Cert.KernelIdeal Cert.KernelIdeal.Gen
open scoped BigOperators

/-! ## Step 0: blocks of shape (1024, 1920, 1024) -/

/-- The cleared accumulator is zero everywhere. -/
theorem pay1_0 (r : Fin 1024) (c : Fin 1024) : (k0_pay1 (F := Ideal)) (ix2 r c) = 0 := by
  unfold k0_pay1
  rw [shapeCast_self]
  exact Ideal.ofBits_zero_f32

/-- The updated accumulator: the old one plus the product rows by columns. -/
theorem pay2_0 (s : Vec Ideal S1024x1024 .f32) (x : Vec Ideal S1024x1920 .bf16) (w : Vec Ideal S1920x1024 .bf16)
    (r : Fin 1024) (c : Fin 1024) :
    k0_pay2 s x w (ix2 r c) = s (ix2 r c) + ∑ k : Fin 1920, x (ix2 r k) * w (ix2 k c) := by
  unfold k0_pay2
  rw [shapeCast_self, shapeCast_self, shapeCast_self, addf_apply]
  exact congrArg (fun t => s (ix2 r c) + t)
    (congrFun (matmul_zero_plain (M := 1024) (K := 1920) (N := 1024) none x w) (ix2 r c))

/-- The finished block: accumulator plus the column's bias, then the maximum with zero. -/
theorem pay3_0 (a : Vec Ideal S1024x1024 .f32) (b : Vec Ideal S1x1024 .f32) (r : Fin 1024) (c : Fin 1024) :
    k0_pay3 a b (ix2 r c) = max (a (ix2 r c) + b (ix2 0 c)) (Ideal.ofBits .f32 0x00000000#32) := by
  unfold k0_pay3
  rw [shapeCast_self, truncf_apply, maximumf_apply, addf_apply, broadcastTo_1b_ab_apply]
  rfl

/-! ## Step 1: blocks of shape (1024, 1024, 512) -/

/-- The cleared accumulator is zero everywhere. -/
theorem pay1_1 (r : Fin 1024) (c : Fin 512) : (k1_pay1 (F := Ideal)) (ix2 r c) = 0 := by
  unfold k1_pay1
  rw [shapeCast_self]
  exact Ideal.ofBits_zero_f32

/-- The updated accumulator: the old one plus the product rows by columns. -/
theorem pay2_1 (s : Vec Ideal S1024x512 .f32) (x : Vec Ideal S1024x1024 .bf16) (w : Vec Ideal S1024x512 .bf16)
    (r : Fin 1024) (c : Fin 512) :
    k1_pay2 s x w (ix2 r c) = s (ix2 r c) + ∑ k : Fin 1024, x (ix2 r k) * w (ix2 k c) := by
  unfold k1_pay2
  rw [shapeCast_self, shapeCast_self, shapeCast_self, addf_apply]
  exact congrArg (fun t => s (ix2 r c) + t)
    (congrFun (matmul_zero_plain (M := 1024) (K := 1024) (N := 512) none x w) (ix2 r c))

/-- The finished block: accumulator plus the column's bias, then the maximum with zero. -/
theorem pay3_1 (a : Vec Ideal S1024x512 .f32) (b : Vec Ideal S1x512 .f32) (r : Fin 1024) (c : Fin 512) :
    k1_pay3 a b (ix2 r c) = max (a (ix2 r c) + b (ix2 0 c)) (Ideal.ofBits .f32 0x00000000#32) := by
  unfold k1_pay3
  rw [shapeCast_self, truncf_apply, maximumf_apply, addf_apply, broadcastTo_1b_ab_apply]
  rfl

/-! ## Step 2: blocks of shape (1024, 512, 128) -/

/-- The cleared accumulator is zero everywhere. -/
theorem pay1_2 (r : Fin 1024) (c : Fin 128) : (k2_pay1 (F := Ideal)) (ix2 r c) = 0 := by
  unfold k2_pay1
  rw [shapeCast_self]
  exact Ideal.ofBits_zero_f32

/-- The updated accumulator: the old one plus the product rows by columns. -/
theorem pay2_2 (s : Vec Ideal S1024x128 .f32) (x : Vec Ideal S1024x512 .bf16) (w : Vec Ideal S512x128 .bf16)
    (r : Fin 1024) (c : Fin 128) :
    k2_pay2 s x w (ix2 r c) = s (ix2 r c) + ∑ k : Fin 512, x (ix2 r k) * w (ix2 k c) := by
  unfold k2_pay2
  rw [shapeCast_self, shapeCast_self, shapeCast_self, addf_apply]
  exact congrArg (fun t => s (ix2 r c) + t)
    (congrFun (matmul_zero_plain (M := 1024) (K := 512) (N := 128) none x w) (ix2 r c))

/-- The finished block: accumulator plus the column's bias. -/
theorem pay3_2 (a : Vec Ideal S1024x128 .f32) (b : Vec Ideal S1x128 .f32) (r : Fin 1024) (c : Fin 128) :
    k2_pay3 a b (ix2 r c) = a (ix2 r c) + b (ix2 0 c) := by
  unfold k2_pay3
  rw [shapeCast_self, addf_apply, broadcastTo_1b_ab_apply]

/-! ## Step 3: blocks of shape (5000, 1, 128) -/

/-- The cleared accumulator is zero everywhere. -/
theorem pay1_3 (r : Fin 5000) (c : Fin 128) : (k3_pay1 (F := Ideal)) (ix2 r c) = 0 := by
  unfold k3_pay1
  rw [shapeCast_self]
  exact Ideal.ofBits_zero_f32

/-- The updated accumulator: the old one plus the product rows by columns. -/
theorem pay2_3 (s : Vec Ideal S5000x128 .f32) (x : Vec Ideal S5000x1 .bf16) (w : Vec Ideal S1x128 .bf16)
    (r : Fin 5000) (c : Fin 128) :
    k3_pay2 s x w (ix2 r c) = s (ix2 r c) + ∑ k : Fin 1, x (ix2 r k) * w (ix2 k c) := by
  unfold k3_pay2
  rw [shapeCast_self, shapeCast_self, shapeCast_self, addf_apply]
  exact congrArg (fun t => s (ix2 r c) + t)
    (congrFun (matmul_zero_plain (M := 5000) (K := 1) (N := 128) none x w) (ix2 r c))

/-- The finished block: accumulator plus the column's bias, then the maximum with zero. -/
theorem pay3_3 (a : Vec Ideal S5000x128 .f32) (b : Vec Ideal S1x128 .f32) (r : Fin 5000) (c : Fin 128) :
    k3_pay3 a b (ix2 r c) = max (a (ix2 r c) + b (ix2 0 c)) (Ideal.ofBits .f32 0x00000000#32) := by
  unfold k3_pay3
  rw [shapeCast_self, truncf_apply, maximumf_apply, addf_apply, broadcastTo_1b_ab_apply]
  rfl

/-! ## Step 4: blocks of shape (5000, 128, 256) -/

/-- The cleared accumulator is zero everywhere. -/
theorem pay1_4 (r : Fin 5000) (c : Fin 256) : (k4_pay1 (F := Ideal)) (ix2 r c) = 0 := by
  unfold k4_pay1
  rw [shapeCast_self]
  exact Ideal.ofBits_zero_f32

/-- The updated accumulator: the old one plus the product rows by columns. -/
theorem pay2_4 (s : Vec Ideal S5000x256 .f32) (x : Vec Ideal S5000x128 .bf16) (w : Vec Ideal S128x256 .bf16)
    (r : Fin 5000) (c : Fin 256) :
    k4_pay2 s x w (ix2 r c) = s (ix2 r c) + ∑ k : Fin 128, x (ix2 r k) * w (ix2 k c) := by
  unfold k4_pay2
  rw [shapeCast_self, shapeCast_self, shapeCast_self, addf_apply]
  exact congrArg (fun t => s (ix2 r c) + t)
    (congrFun (matmul_zero_plain (M := 5000) (K := 128) (N := 256) none x w) (ix2 r c))

/-- The finished block: accumulator plus the column's bias, then the maximum with zero. -/
theorem pay3_4 (a : Vec Ideal S5000x256 .f32) (b : Vec Ideal S1x256 .f32) (r : Fin 5000) (c : Fin 256) :
    k4_pay3 a b (ix2 r c) = max (a (ix2 r c) + b (ix2 0 c)) (Ideal.ofBits .f32 0x00000000#32) := by
  unfold k4_pay3
  rw [shapeCast_self, truncf_apply, maximumf_apply, addf_apply, broadcastTo_1b_ab_apply]
  rfl

/-! ## Step 5: blocks of shape (5000, 256, 128) -/

/-- The cleared accumulator is zero everywhere. -/
theorem pay1_5 (r : Fin 5000) (c : Fin 128) : (k5_pay1 (F := Ideal)) (ix2 r c) = 0 := by
  unfold k5_pay1
  rw [shapeCast_self]
  exact Ideal.ofBits_zero_f32

/-- The updated accumulator: the old one plus the product rows by columns. -/
theorem pay2_5 (s : Vec Ideal S5000x128 .f32) (x : Vec Ideal S5000x256 .bf16) (w : Vec Ideal S256x128 .bf16)
    (r : Fin 5000) (c : Fin 128) :
    k5_pay2 s x w (ix2 r c) = s (ix2 r c) + ∑ k : Fin 256, x (ix2 r k) * w (ix2 k c) := by
  unfold k5_pay2
  rw [shapeCast_self, shapeCast_self, shapeCast_self, addf_apply]
  exact congrArg (fun t => s (ix2 r c) + t)
    (congrFun (matmul_zero_plain (M := 5000) (K := 256) (N := 128) none x w) (ix2 r c))

/-- The finished block: accumulator plus the column's bias, then the maximum with zero. -/
theorem pay3_5 (a : Vec Ideal S5000x128 .f32) (b : Vec Ideal S1x128 .f32) (r : Fin 5000) (c : Fin 128) :
    k5_pay3 a b (ix2 r c) = max (a (ix2 r c) + b (ix2 0 c)) (Ideal.ofBits .f32 0x00000000#32) := by
  unfold k5_pay3
  rw [shapeCast_self, maximumf_apply, addf_apply, broadcastTo_1b_ab_apply]
  rfl

end Cert.Payloads

end
-- ==== Proof.Spec.lean ====
/-
  The one map every kernel region of this program computes, as a function of whole arrays of extended reals.

  For an `M × K` array `x`, a `K × N` array `w` and a bias row `b` (shape `1 × N`), `lin x w b` is the `M × N` array
  whose entry `(r, c)` is `∑ k, x (r, k) · w (k, c) + b (0, c)`, and `linRelu x w b` is its positive part, entry by
  entry: `max (∑ k, x (r, k) · w (k, c) + b (0, c)) 0`. On the extended reals a change of float format is the identity,
  so the element types of the operands and of the result play no role: they are parameters.
-/
import Idealize.ShloMosaic.Lib.ValueIdx
import Idealize.ShloMosaic.PureOps.Ideal.Laws
import proofs.«157756_j25125558682089_1_alg».proof.Proof.LibPlainProduct

noncomputable section

open scoped BigOperators

namespace Cert.Spec

open Idealize.ShloMosaic Idealize.ShloMosaic.ValueIdx Idealize.ShloMosaic.PlainProduct

variable {φ₁ φ₂ φ₃ : FTy} {M K N : Nat}

/-- Rows by columns plus the bias row: entry `(r, c)` is `∑ k, x (r, k) · w (k, c) + b (0, c)`. -/
def lin (x : FVec Ideal ⟨2, ![M, K]⟩ φ₁) (w : FVec Ideal ⟨2, ![K, N]⟩ φ₂) (b : FVec Ideal ⟨2, ![1, N]⟩ .f32) :
    FVec Ideal ⟨2, ![M, N]⟩ φ₃ :=
  fun i => rowsByCols x w i + b (ix2 (n0 := 1) (n1 := N) (0 : Fin 1) (i 1))

/-- The positive part of `lin`, entry by entry. -/
def linRelu (x : FVec Ideal ⟨2, ![M, K]⟩ φ₁) (w : FVec Ideal ⟨2, ![K, N]⟩ φ₂) (b : FVec Ideal ⟨2, ![1, N]⟩ .f32) :
    FVec Ideal ⟨2, ![M, N]⟩ φ₃ :=
  fun i => max (rowsByCols x w i + b (ix2 (n0 := 1) (n1 := N) (0 : Fin 1) (i 1))) (Ideal.ofBits .f32 0x00000000#32)

theorem lin_apply (x : FVec Ideal ⟨2, ![M, K]⟩ φ₁) (w : FVec Ideal ⟨2, ![K, N]⟩ φ₂) (b : FVec Ideal ⟨2, ![1, N]⟩ .f32)
    (i : (⟨2, ![M, N]⟩ : Shape).Idx) :
    (lin x w b : FVec Ideal ⟨2, ![M, N]⟩ φ₃) i
      = (∑ k : Fin K, x (ix2 (n0 := M) (n1 := K) (i 0) k) * w (ix2 (n0 := K) (n1 := N) k (i 1)))
        + b (ix2 (n0 := 1) (n1 := N) (0 : Fin 1) (i 1)) := rfl

theorem linRelu_apply (x : FVec Ideal ⟨2, ![M, K]⟩ φ₁) (w : FVec Ideal ⟨2, ![K, N]⟩ φ₂) (b : FVec Ideal ⟨2, ![1, N]⟩ .f32)
    (i : (⟨2, ![M, N]⟩ : Shape).Idx) :
    (linRelu x w b : FVec Ideal ⟨2, ![M, N]⟩ φ₃) i
      = max ((∑ k : Fin K, x (ix2 (n0 := M) (n1 := K) (i 0) k) * w (ix2 (n0 := K) (n1 := N) k (i 1)))
        + b (ix2 (n0 := 1) (n1 := N) (0 : Fin 1) (i 1))) (Ideal.ofBits .f32 0x00000000#32) := rfl

end Cert.Spec

end
-- ==== Proof.LibBlockAcc.lean ====
import Mathlib.Data.EReal.Basic
import Mathlib.Algebra.BigOperators.Fin
import Mathlib.Algebra.BigOperators.Group.Finset.Sigma
import Mathlib.Logic.Equiv.Fin.Basic

/-!
# A blocked running sum is the whole sum

A contracted axis of `P * L` positions is walked in `P` blocks of `L` positions each; position
`d` of block `k` is index `d + L * k` (the value of `finProdFinEquiv (k, d)`).  An accumulator
starts, at block `0`, from `0` plus the sum over that block, and at each later block adds the
sum over that block to what it holds.  After the last block it holds the sum over the whole
axis.

Two facts make this up.  First, by induction on the block number, the accumulator after block
`j` holds the sum of the block sums of blocks `0, …, j`.  Second, the sum over the whole axis is
the sum over blocks of the sums within blocks: the sum over a product type is an iterated sum,
and `finProdFinEquiv` is a bijection between pairs (block, position) and indices.  Only that
addition is commutative and associative with `0 + x = x` is used, so the statements hold in
any commutative additive monoid, the extended reals among them (no finiteness is needed).
-/

namespace Cert.BlockAcc

open scoped BigOperators

/-- Position `d` of block `k` is index `d + L * k`. -/
theorem tile_val {P L : ℕ} (k : Fin P) (d : Fin L) :
    (finProdFinEquiv (k, d) : Fin (P * L)).val = d.val + L * k.val := rfl

/-- The sum over the whole axis, block by block. -/
theorem sum_tiles {M : Type*} [AddCommMonoid M] {P L : ℕ} (f : Fin (P * L) → M) :
    ∑ c : Fin (P * L), f c = ∑ k : Fin P, ∑ d : Fin L, f (finProdFinEquiv (k, d)) := by
  rw [← Fintype.sum_prod_type']
  exact (Fintype.sum_equiv finProdFinEquiv (fun p => f (finProdFinEquiv p)) f (fun _ => rfl)).symm

/-- The accumulator after block `j` holds the block sums of blocks `0, …, j`. -/
theorem acc_partial {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    ∀ j (hj : j < P), a j = ∑ k ∈ Finset.univ.filter (fun k : Fin P => k.val ≤ j), g k := by
  intro j
  induction j with
  | zero =>
    intro hj
    have hset : Finset.univ.filter (fun k : Fin P => k.val ≤ 0) = {⟨0, hP⟩} := by
      ext k
      simp only [Finset.mem_filter, Finset.mem_univ, true_and, Finset.mem_singleton, Fin.ext_iff]
      omega
    rw [h0, zero_add, hset, Finset.sum_singleton]
  | succ j ih =>
    intro hj
    have hset : Finset.univ.filter (fun k : Fin P => k.val ≤ j + 1)
        = insert ⟨j + 1, hj⟩ (Finset.univ.filter (fun k : Fin P => k.val ≤ j)) := by
      ext k
      simp only [Finset.mem_filter, Finset.mem_univ, true_and, Finset.mem_insert, Fin.ext_iff]
      omega
    have hnot : (⟨j + 1, hj⟩ : Fin P) ∉ Finset.univ.filter (fun k : Fin P => k.val ≤ j) := by
      simp
    rw [hs j hj, ih (by omega), hset, Finset.sum_insert hnot, add_comm]

/-- After the last block the accumulator holds the sum of all block sums. -/
theorem acc_blocks {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    a (P - 1) = ∑ k : Fin P, g k := by
  rw [acc_partial hP g a h0 hs (P - 1) (by omega)]
  refine Finset.sum_congr ?_ (fun _ _ => rfl)
  ext k
  simp only [Finset.mem_filter, Finset.mem_univ, true_and, iff_true]
  have := k.isLt
  omega

/-- The accumulator law: after the last block the accumulator holds the sum over the whole axis. -/
theorem acc_eq_sum {P L : ℕ} (hP : 0 < P) (f : Fin (P * L) → EReal) (a : ℕ → EReal)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The same law in any commutative additive monoid. -/
theorem acc_eq_sum' {M : Type*} [AddCommMonoid M] {P L : ℕ} (hP : 0 < P) (f : Fin (P * L) → M) (a : ℕ → M)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The accumulator law at every index of a family: the two recursions hold at each `i`, so does
    the conclusion. -/
theorem acc_eq_sum_pointwise {ι : Type*} {P L : ℕ} (hP : 0 < P) (F : ι → Fin (P * L) → EReal)
    (A : ℕ → ι → EReal)
    (h0 : ∀ i, A 0 i = 0 + ∑ d : Fin L, F i (finProdFinEquiv ((⟨0, hP⟩ : Fin P), d)))
    (hs : ∀ i j (hj : j + 1 < P),
      A (j + 1) i = A j i + ∑ d : Fin L, F i (finProdFinEquiv ((⟨j + 1, hj⟩ : Fin P), d))) :
    ∀ i, A (P - 1) i = ∑ k : Fin (P * L), F i k :=
  fun i => acc_eq_sum hP (F i) (fun j => A j i) (h0 i) (hs i)

end Cert.BlockAcc
-- ==== Proof.R0Val.lean ====
import proofs.«157756_j25125558682089_1_alg».proof.Proof.R0Dat
import proofs.«157756_j25125558682089_1_alg».proof.Proof.RegionPayloads
import proofs.«157756_j25125558682089_1_alg».proof.Proof.Spec
import proofs.«157756_j25125558682089_1_alg».proof.Proof.LibBlockAcc
import Idealize.ShloMosaic.Lib.Pipeline.Value
import Idealize.ShloMosaic.Lib.ValueIdx

/-!
# Step 0: the array it leaves

Step 0 computes a `1024 × 2048` output from a `1024 × 9600` left operand, a `9600 × 2048` right operand and a bias
row.  Its grid has ten points: point `t` is block `t % 5` of the contracted axis (five blocks of 1920 positions) and
column block `t / 5` (two blocks of 1024 columns).

* The stores of one point, read back.  At a first block (`t % 5 = 0`) the accumulator ends at the cleared accumulator
  plus the product of the two input blocks; at any later block at what it held plus that product; at the last block
  (`t % 5 = 4`) the output block is the accumulator plus the bias row, then the maximum with zero.
* An input block read at a block index is the input array read at the array index the window's index map selects:
  position `d` of block `k` of the contracted axis is position `k · 1920 + d`, column `c` of column block `q` is column
  `q · 1024 + c`.
* So along one column block the accumulator at `(r, c)` starts at `0 +` the sum of products over block 0 and adds
  the sum over each later block; a blocked running sum is the whole sum, hence after block 4 it holds
  `∑ k, x (r, k) · w (k, q · 1024 + c)` over all 9600 positions.
* Hence what a last-block point writes back is its block of the array
  `(r, c) ↦ max (∑ k, x (r, k) · w (k, c) + b (0, c)) 0`, and since the two column blocks cover the output array, the
  array ends holding exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- A load through the whole block of what a list of stores left, whose LAST store went through the whole block,
    reads that store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- First block: the accumulator ends at the cleared accumulator plus the product of the input blocks. -/
theorem sout0_A_eq (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1920 .bf16) (x1 : Vec F S1920x1024 .bf16) (x2 : Vec F S1x1024 .f32) :
    sout0_A c i arg3 harg3 arg4 harg4 arg5 harg5 arg6 harg6 arg7 harg7 hc0 hc1 x0 x1 x2 = k0_pay2 k0_pay1 x0 x1 := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1920) hz2, View.ld_unit_zero (S := S1920x1024) hz2, View.ld_unit_zero (S := S1x1024) hz2, View.ld_unit_zero (S := S1024x1024) hz2]

/-- A middle block: the accumulator ends at what it held plus the product of the input blocks. -/
theorem sout0_B_eq (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1920 .bf16) (x1 : Vec F S1920x1024 .bf16) (x2 : Vec F S1x1024 .f32) (xs0 : Vec F S1024x1024 .f32) :
    sout0_B c i arg3 harg3 arg4 harg4 arg5 harg5 arg6 harg6 arg7 harg7 hc0 hc1 x0 x1 x2 xs0 = k0_pay2 xs0 x0 x1 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  sl_unfold_words
  rw [View.canon_unit_zero (S := S1024x1024) hz2]
  simp only [View.readAt_eq_ld, harg3.read_unread, harg4.read_unread, harg7.read_unread, View.ld_unit_zero (S := S1024x1920) hz2, View.ld_unit_zero (S := S1920x1024) hz2, View.ld_unit_zero (S := S1x1024) hz2, View.ld_unit_zero (S := S1024x1024) hz2]

/-- The last block: the same for the accumulator. -/
theorem sout0_C_eq (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) :
    sout0_C c i arg3 harg3 arg4 harg4 arg5 harg5 arg6 harg6 arg7 harg7 hc0 hc1 x0 x1 x2 xs0 = k0_pay2 xs0 x0 x1 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero (S := S1024x1024) hz2]
  simp only [View.readAt_eq_ld, harg3.read_unread, harg4.read_unread, harg7.read_unread, View.ld_unit_zero (S := S1024x1920) hz2, View.ld_unit_zero (S := S1920x1024) hz2, View.ld_unit_zero (S := S1x1024) hz2, View.ld_unit_zero (S := S1024x1024) hz2]

/-- The last block: the output block is the finished block of that accumulator. -/
theorem out0_C_eq (c : Dev nD) (i : grid0.Coords) (arg3 : Memref sig .tc .vmem S1024x1920 .bf16) (harg3 : arg3.IsWhole) (arg4 : Memref sig .tc .vmem S1920x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1920 .bf16) (x1 : Vec F S1920x1024 .bf16) (x2 : Vec F S1x1024 .f32) (xs0 : Vec F S1024x1024 .f32) :
    out0_C c i arg3 harg3 arg4 harg4 arg5 harg5 arg6 harg6 arg7 harg7 hc0 hc1 x0 x1 x2 xs0 = k0_pay3 (k0_pay2 xs0 x0 x1) x2 := by
  unfold out0_C
  rw [View.read_writes_eq_canon _ _ _ (cover0_C c i arg3 harg3 arg4 harg4 arg5 harg5 arg6 harg6 arg7 harg7 hc0 hc1 x0 x1 x2 xs0)]
  unfold kernelRun0_C
  dsimp only
  sl_unfold_words
  rw [View.canon_unit_zero (S := S1024x1024) hz2, View.readCov_unit_zero (S := S1024x1024) _ hz2]
  simp only [View.readAt_eq_ld, harg3.read_unread, harg4.read_unread, harg5.read_unread, harg7.read_unread, View.ld_unit_zero (S := S1024x1920) hz2, View.ld_unit_zero (S := S1920x1024) hz2, View.ld_unit_zero (S := S1x1024) hz2, View.ld_unit_zero (S := S1024x1024) hz2]

end Pieces

section Value
variable (V : (c : Dev nD) → (b : Ref sig .tc) → Buf (Elt Ideal) ((c : Thread nD τ).loc b))

/-- The three input arrays as the step finds them, and the three input blocks at a point, at their literal types. -/
abbrev X0 (c : Dev nD) : FVec Ideal S1024x9600 .bf16 := V c (Pipeline.arrRef spec0 0)
abbrev W0 (c : Dev nD) : FVec Ideal S9600x2048 .bf16 := V c (Pipeline.arrRef spec0 1)
abbrev B0 (c : Dev nD) : FVec Ideal S1x2048 .f32 := V c (Pipeline.arrRef spec0 2)
abbrev xb0 (c : Dev nD) (t : Fin cfg0.N) : Vec Ideal S1024x1920 .bf16 := iblk0 V c 0 t
abbrev wb0 (c : Dev nD) (t : Fin cfg0.N) : Vec Ideal S1920x1024 .bf16 := iblk0 V c 1 t
abbrev bb0 (c : Dev nD) (t : Fin cfg0.N) : Vec Ideal S1x1024 .f32 := iblk0 V c 2 t

/-- The index maps over the grid: point `t` is block `t % 5` of the contracted axis and column block `t / 5`. -/
theorem idx_facts0 : ∀ t : Fin cfg0.N,
    win0_0.index t (0 : Fin 2) = 0 ∧ win0_0.index t (1 : Fin 2) = t.val % 5
    ∧ win0_1.index t (0 : Fin 2) = t.val % 5 ∧ win0_1.index t (1 : Fin 2) = t.val / 5
    ∧ win0_2.index t (0 : Fin 2) = 0 ∧ win0_2.index t (1 : Fin 2) = t.val / 5
    ∧ win0_3.index t (0 : Fin 2) = 0 ∧ win0_3.index t (1 : Fin 2) = t.val / 5 :=
  (by decide +kernel : ∀ t : Fin grid0.N, _)

/-- The left operand's block at point `t`, at `(r, d)`, is the array at `(r, (t % 5) · 1920 + d)`. -/
theorem iblk0_0_apply (c : Dev nD) (t : Fin cfg0.N) (r : Fin 1024) (d : Fin 1920) (Kk : Fin 9600)
    (hK : Kk.val = t.val % 5 * 1920 + d.val) :
    xb0 V c t (ix2 r d) = X0 V c (ix2 r Kk) := by
  obtain ⟨e0, e1, -⟩ := idx_facts0 t
  unfold xb0 X0 iblk0
  rw [View.read_apply]
  show V c (Pipeline.arrRef spec0 0) _ = V c (Pipeline.arrRef spec0 0) _
  congr 1
  funext a; apply Fin.ext
  match a with
  | ⟨0, _⟩ => show win0_0.index t (0 : Fin 2) * 1024 + 1 * r.val = r.val; rw [e0]; omega
  | ⟨1, _⟩ => show win0_0.index t (1 : Fin 2) * 1920 + 1 * d.val = Kk.val; rw [e1, hK]; omega

/-- The right operand's block at point `t`, at `(d, c)`, is the array at `((t % 5) · 1920 + d, (t / 5) · 1024 + c)`. -/
theorem iblk0_1_apply (c : Dev nD) (t : Fin cfg0.N) (d : Fin 1920) (cc : Fin 1024) (Kk : Fin 9600) (C : Fin 2048)
    (hK : Kk.val = t.val % 5 * 1920 + d.val) (hC : C.val = t.val / 5 * 1024 + cc.val) :
    wb0 V c t (ix2 d cc) = W0 V c (ix2 Kk C) := by
  obtain ⟨-, -, e0, e1, -⟩ := idx_facts0 t
  unfold wb0 W0 iblk0
  rw [View.read_apply]
  show V c (Pipeline.arrRef spec0 1) _ = V c (Pipeline.arrRef spec0 1) _
  congr 1
  funext a; apply Fin.ext
  match a with
  | ⟨0, _⟩ => show win0_1.index t (0 : Fin 2) * 1920 + 1 * d.val = Kk.val; rw [e0, hK]; omega
  | ⟨1, _⟩ => show win0_1.index t (1 : Fin 2) * 1024 + 1 * cc.val = C.val; rw [e1, hC]; omega

/-- The bias block at point `t`, at `(0, c)`, is the bias row at `(0, (t / 5) · 1024 + c)`. -/
theorem iblk0_2_apply (c : Dev nD) (t : Fin cfg0.N) (cc : Fin 1024) (C : Fin 2048)
    (hC : C.val = t.val / 5 * 1024 + cc.val) :
    bb0 V c t (ix2 (0 : Fin 1) cc) = B0 V c (ix2 (0 : Fin 1) C) := by
  obtain ⟨-, -, -, -, e0, e1, -⟩ := idx_facts0 t
  unfold bb0 B0 iblk0
  rw [View.read_apply]
  show V c (Pipeline.arrRef spec0 2) _ = V c (Pipeline.arrRef spec0 2) _
  congr 1
  funext a; apply Fin.ext
  match a with
  | ⟨0, _⟩ => show win0_2.index t (0 : Fin 2) * 1 + 1 * 0 = 0; rw [e0]
  | ⟨1, _⟩ => show win0_2.index t (1 : Fin 2) * 1024 + 1 * cc.val = C.val; rw [e1, hC]; omega

/-- The accumulator after point `n`, at `(r, c)` (zero past the grid). -/
def acc0 (c : Dev nD) (n : ℕ) (r : Fin 1024) (cc : Fin 1024) : EReal :=
  if h : n < cfg0.N then ((outsAt0 V c n h).2 : Vec Ideal S1024x1024 .f32) (ix2 r cc) else 0

/-- At a first block the accumulator is zero plus the block's sum of products. -/
theorem acc0_first (c : Dev nD) (t : Fin cfg0.N) (h0 : t.val % 5 = 0) (r : Fin 1024) (cc : Fin 1024) :
    acc0 V c t.val r cc = 0 + ∑ d : Fin 1920, xb0 V c t (ix2 r d) * wb0 V c t (ix2 d cc) := by
  unfold acc0
  rw [dif_pos t.isLt, outsAt0_A V c t h0 (by omega)]
  dsimp only
  rw [sout0_A_eq, pay2_0, pay1_0]

/-- At a later block the accumulator is what the point before left plus the block's sum of products. -/
theorem acc0_later (c : Dev nD) (t : Fin cfg0.N) (h0 : ¬t.val % 5 = 0) (r : Fin 1024) (cc : Fin 1024) :
    acc0 V c t.val r cc
      = acc0 V c (t.val - 1) r cc + ∑ d : Fin 1920, xb0 V c t (ix2 r d) * wb0 V c t (ix2 d cc) := by
  have hlt : t.val - 1 < cfg0.N := Nat.lt_of_le_of_lt (Nat.sub_le _ _) t.isLt
  unfold acc0
  rw [dif_pos t.isLt, dif_pos hlt]
  by_cases h1 : t.val % 5 = 4
  · rw [outsAt0_C V c t h0 h1]
    dsimp only
    rw [sout0_C_eq, pay2_0]
  · rw [outsAt0_B V c t h0 h1]
    dsimp only
    rw [sout0_B_eq, pay2_0]

theorem h9600 : 5 * 1920 = 9600 := by norm_num

/-- The products along the contracted axis, for row `r` and column `C`, indexed block by block. -/
def fk0 (c : Dev nD) (r : Fin 1024) (C : Fin 2048) : Fin (5 * 1920) → EReal :=
  fun kk => X0 V c (ix2 r (Fin.cast h9600 kk)) * W0 V c (ix2 (Fin.cast h9600 kk) C)

/-- The sum of products over the blocks of point `t` is the sum of `fk0` over block `t % 5`. -/
theorem blocksum0 (c : Dev nD) (q k : ℕ) (hk : k < 5) (t : Fin cfg0.N) (ht : t.val = 5 * q + k)
    (r : Fin 1024) (cc : Fin 1024) (C : Fin 2048) (hC : C.val = q * 1024 + cc.val) :
    (∑ d : Fin 1920, xb0 V c t (ix2 r d) * wb0 V c t (ix2 d cc))
      = ∑ d : Fin 1920, fk0 V c r C (finProdFinEquiv ((⟨k, hk⟩ : Fin 5), d)) := by
  refine Finset.sum_congr rfl fun d _ => ?_
  have hd := d.isLt
  have hv : (Fin.cast h9600 (finProdFinEquiv ((⟨k, hk⟩ : Fin 5), d))).val = t.val % 5 * 1920 + d.val := by
    show d.val + 1920 * k = _
    rw [ht]; omega
  rw [iblk0_0_apply V c t r d _ hv, iblk0_1_apply V c t d cc _ C hv (by rw [ht, hC]; omega)]
  rfl

/-- After the last block of column block `q` the accumulator holds the whole sum over the contracted axis. -/
theorem acc0_last (c : Dev nD) (q : ℕ) (hq : q < 2) (r : Fin 1024) (cc : Fin 1024) (C : Fin 2048)
    (hC : C.val = q * 1024 + cc.val) :
    acc0 V c (5 * q + 4) r cc = ∑ kk : Fin 9600, X0 V c (ix2 r kk) * W0 V c (ix2 kk C) := by
  have hN : cfg0.N = 10 := N_0
  have h := Cert.BlockAcc.acc_eq_sum (P := 5) (L := 1920) (by norm_num) (fk0 V c r C)
    (fun k => acc0 V c (5 * q + k) r cc)
    (by
      show acc0 V c (5 * q + 0) r cc = _
      have e := acc0_first V c ⟨5 * q, by omega⟩ (by show (5 * q) % 5 = 0; omega) r cc
      rw [blocksum0 V c q 0 (by norm_num) ⟨5 * q, by omega⟩ rfl r cc C hC] at e
      exact e)
    (fun k hk => by
      show acc0 V c (5 * q + (k + 1)) r cc = acc0 V c (5 * q + k) r cc + _
      have e := acc0_later V c ⟨5 * q + (k + 1), by omega⟩ (by show ¬(5 * q + (k + 1)) % 5 = 0; omega) r cc
      rw [blocksum0 V c q (k + 1) hk ⟨5 * q + (k + 1), by omega⟩ rfl r cc C hC] at e
      have e1 : 5 * q + (k + 1) - 1 = 5 * q + k := by omega
      rw [show (⟨5 * q + (k + 1), by omega⟩ : Fin cfg0.N).val - 1 = 5 * q + k from e1] at e
      exact e)
  show acc0 V c (5 * q + (5 - 1)) r cc = _
  rw [h]
  exact Fintype.sum_equiv (finCongr h9600) _ _ (fun _ => rfl)

/-- The array the step leaves: the product plus the bias row, then the positive part. -/
def G0 (c : Dev nD) : FVec Ideal S1024x2048 .bf16 :=
  Cert.Spec.linRelu (φ₁ := .bf16) (φ₂ := .bf16) (φ₃ := .bf16) (M := 1024) (K := 9600) (N := 2048)
    (V c (Pipeline.arrRef spec0 0)) (V c (Pipeline.arrRef spec0 1)) (V c (Pipeline.arrRef spec0 2))

/-- The finished block of a last-block point `t` at `(r, c)` is `G0` at `(r, (t / 5) · 1024 + c)`. -/
theorem blockval0 (c : Dev nD) (t : Fin cfg0.N) (ht : t.val % 5 = 4) (r : Fin 1024) (cc : Fin 1024) (C : Fin 2048)
    (hC : C.val = t.val / 5 * 1024 + cc.val) :
    ((outsAt0 V c t.val t.isLt).1 : Vec Ideal S1024x1024 .bf16) (ix2 r cc) = G0 V c (ix2 r C) := by
  have hN : cfg0.N = 10 := N_0
  have htlt : t.val < 10 := lt_of_lt_of_eq t.isLt hN
  have h0 : ¬t.val % 5 = 0 := by omega
  have hval : t.val = 5 * (t.val / 5) + 4 := by omega
  have hS : acc0 V c t.val r cc = ∑ kk : Fin 9600, X0 V c (ix2 r kk) * W0 V c (ix2 kk C) := by
    have e := acc0_last V c (t.val / 5) (by omega) r cc C hC
    rw [← hval] at e
    exact e
  unfold acc0 at hS
  rw [dif_pos t.isLt, outsAt0_C V c t h0 ht] at hS
  rw [outsAt0_C V c t h0 ht]
  dsimp only at hS ⊢
  rw [sout0_C_eq] at hS
  rw [out0_C_eq, pay3_0, hS]
  have hb := iblk0_2_apply V c t cc C hC
  unfold bb0 at hb
  rw [hb]
  unfold G0
  rw [Cert.Spec.linRelu_apply]

/-- What a last-block point writes back is its block of the array `G0`. -/
theorem flushed0_eq (c : Dev nD) (t : Fin cfg0.N) (hf : (cfg0.win 3).flush t = true) :
    (dat0 V c).flushed 3 t = ((cfg0.win 3).blk t).view.read (Elt Ideal) (G0 V c) := by
  have ht : t.val % 5 = 4 := (flush0_3 t).mp hf
  have hN : t.val < 10 := lt_of_lt_of_eq t.isLt (show cfg0.N = 10 from N_0)
  show (cfg0.win 3).cut (grid0.coords t) ((dat0 V c).after 3 t) = _
  rw [after0_3]
  refine funext fun (j : S1024x1024.Idx) => ?_
  obtain ⟨r, cc, rfl⟩ : ∃ (r : Fin 1024) (cc : Fin 1024), j = ix2 r cc := ⟨j 0, j 1, eq_ix2 j⟩
  have hr : r.val < 1024 := r.isLt
  have hcc : cc.val < 1024 := cc.isLt
  rw [View.read_apply]
  obtain ⟨-, -, -, -, -, -, e0, e1⟩ := idx_facts0 t
  have hemb : ((cfg0.win 3).blk t).view.emb (ix2 r cc)
      = (ix2 r (⟨t.val / 5 * 1024 + cc.val, by omega⟩ : Fin 2048) : S1024x2048.Idx) := by
    funext a; apply Fin.ext
    match a with
    | ⟨0, _⟩ => show win0_3.index t (0 : Fin 2) * 1024 + 1 * r.val = r.val; rw [e0]; omega
    | ⟨1, _⟩ => show win0_3.index t (1 : Fin 2) * 1024 + 1 * cc.val = t.val / 5 * 1024 + cc.val; rw [e1]; omega
  show ((outsAt0 V c t.val t.isLt).1 : Vec Ideal S1024x1024 .bf16) (ix2 r cc)
    = G0 V c (((cfg0.win 3).blk t).view.emb (ix2 r cc))
  rw [hemb]
  exact blockval0 V c t ht r cc _ rfl

/-- The blocks the last-block points write back cover the array, so the array ends at `G0`. -/
theorem arr_val0_G (c : Dev nD) : (dat0 V c).arrAt 3 cfg0.N = G0 V c :=
  (dat0 V c).arrAt_eq_of_cover 3 (G0 V c) (fun t hf => flushed0_eq V c t hf) fun i => by
    have hi0 : ((i : S1024x2048.Idx) 0).val < 1024 := ((i : S1024x2048.Idx) 0).isLt
    have hi1 : ((i : S1024x2048.Idx) 1).val < 2048 := ((i : S1024x2048.Idx) 1).isLt
    have hN : cfg0.N = 10 := N_0
    obtain ⟨t, ht⟩ : ∃ t : Fin cfg0.N, t.val = 5 * (((i : S1024x2048.Idx) 1).val / 1024) + 4 := ⟨⟨_, by omega⟩, rfl⟩
    obtain ⟨-, -, -, -, -, -, e0, e1⟩ := idx_facts0 t
    refine ⟨t, (flush0_3 t).mpr (by omega), ?_⟩
    show i ∈ ((View.whole main_v25).slice (win0_3.rect t)).set
    rw [View.set_slice_whole, Rect.mem_set_unit]
    intro a
    match a with
    | ⟨0, _⟩ =>
      show win0_3.index t (0 : Fin 2) * 1024 ≤ ((i : S1024x2048.Idx) 0).val
        ∧ ((i : S1024x2048.Idx) 0).val < win0_3.index t (0 : Fin 2) * 1024 + 1024
      rw [e0]; omega
    | ⟨1, _⟩ =>
      show win0_3.index t (1 : Fin 2) * 1024 ≤ ((i : S1024x2048.Idx) 1).val
        ∧ ((i : S1024x2048.Idx) 1).val < win0_3.index t (1 : Fin 2) * 1024 + 1024
      rw [e1]; omega

/-- The step's output array after the run: the product of its first two arrays plus the bias row, then the
    positive part, entry by entry. -/
theorem arr_val0 (c : Dev nD) :
    (dat0 V c).arrAt 3 cfg0.N
      = Cert.Spec.linRelu (φ₁ := .bf16) (φ₂ := .bf16) (φ₃ := .bf16) (M := 1024) (K := 9600) (N := 2048)
          (V c (Pipeline.arrRef spec0 0)) (V c (Pipeline.arrRef spec0 1)) (V c (Pipeline.arrRef spec0 2)) :=
  arr_val0_G V c

end Value

end Cert.KernelIdeal.Hand

end
-- ==== Proof.R1Val.lean ====
import proofs.«157756_j25125558682089_1_alg».proof.Proof.R1Dat
import proofs.«157756_j25125558682089_1_alg».proof.Proof.RegionPayloads
import proofs.«157756_j25125558682089_1_alg».proof.Proof.Spec
import Idealize.ShloMosaic.Lib.Pipeline.Value
import Idealize.ShloMosaic.Lib.ValueIdx

/-!
# Step 1: the array it leaves

Step 1 computes one `1024 × 512` output block; the contracted axis (`2048` positions) is walked in two blocks of
`1024`, one per grid point.

* The stores of one point, read back. At the first point the accumulator ends at "cleared accumulator plus the product
  of the two input blocks"; at the second at "what the first point left, plus the product of the two input blocks", and
  the output block at "that, plus the bias row, then the maximum with zero". (A store through the whole block leaves
  its payload; a load through the whole block of what such a store left reads that payload.)
* An input block read at a block index is the input array read at the array index the window's index map selects:
  column block `t` of the left operand starts at column `t · 1024`, row block `t` of the right operand at row
  `t · 1024`; the bias row and the output are single blocks.
* The sum over the `2048` positions is the sum over the first `1024` plus the sum over the last `1024`, so the output
  block the second point writes back is the array `(r, c) ↦ max (∑ k, x (r, k) · w (k, c) + b (0, c)) 0`, and that one
  block is the whole output array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- What the first point leaves in the accumulator: the cleared accumulator plus the product of the input blocks. -/
theorem sout1_A_eq (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond1_0 i) (hc1 : ¬cond1_1 i)
    (x0 : Vec F S1024x1024 .bf16) (x1 : Vec F S1024x512 .bf16) (x2 : Vec F S1x512 .f32) :
    sout1_A c i arg3 harg3 arg4 harg4 arg5 harg5 arg6 harg6 arg7 harg7 hc0 hc1 x0 x1 x2 = k1_pay2 k1_pay1 x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x512) hz2, View.readCov_unit_zero (S := S1024x512) _ hz2]
  simp only [View.readAt_eq_ld, harg3.read_unread, harg4.read_unread, View.ld_unit_zero (S := S1024x1024) hz2,
    View.ld_unit_zero (S := S1024x512) hz2]

/-- What the second point leaves in the accumulator: what it found there plus the product of the input blocks. -/
theorem sout1_C_eq (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) :
    sout1_C c i arg3 harg3 arg4 harg4 arg5 harg5 arg6 harg6 arg7 harg7 hc0 hc1 x0 x1 x2 xs0 = k1_pay2 xs0 x0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x512) hz2]
  simp only [View.readAt_eq_ld, harg3.read_unread, harg4.read_unread, harg7.read_unread,
    View.ld_unit_zero (S := S1024x1024) hz2, View.ld_unit_zero (S := S1024x512) hz2]

/-- What the second point leaves in the output block: the finished block of that accumulator. -/
theorem out1_C_eq (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond1_0 i) (hc1 : cond1_1 i)
    (x0 : Vec F S1024x1024 .bf16) (x1 : Vec F S1024x512 .bf16) (x2 : Vec F S1x512 .f32) (xs0 : Vec F S1024x512 .f32) :
    out1_C c i arg3 harg3 arg4 harg4 arg5 harg5 arg6 harg6 arg7 harg7 hc0 hc1 x0 x1 x2 xs0 = k1_pay3 (k1_pay2 xs0 x0 x1) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero (S := S1024x512) hz2, View.readCov_unit_zero (S := S1024x512) _ hz2]
  simp only [View.readAt_eq_ld, harg3.read_unread, harg4.read_unread, harg5.read_unread, harg7.read_unread,
    View.ld_unit_zero (S := S1024x1024) hz2, View.ld_unit_zero (S := S1024x512) hz2, View.ld_unit_zero (S := S1x512) hz2]

end Pieces

section Value
variable (V : (c : Dev nD) → (b : Ref sig .tc) → Buf (Elt Ideal) ((c : Thread nD τ).loc b))

/-- The index maps over the grid: the left operand's column block and the right operand's row block are the point;
    every other block index is zero. -/
theorem idx_facts1 : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The left operand's block at point `t`, at `(r, k)`, is the array at `(r, t · 1024 + k)`. -/
theorem iblk1_0_apply (c : Dev nD) (t : Fin cfg1.N) (r : Fin 1024) (k : Fin 1024) (K : Fin 2048)
    (hK : K.val = t.val * 1024 + k.val) :
    (iblk1 V c 0 t : Vec Ideal S1024x1024 .bf16) (ix2 r k)
      = (V c (Pipeline.arrRef spec1 0) : FVec Ideal S1024x2048 .bf16) (ix2 r K) := by
  obtain ⟨e0, e1, -⟩ := idx_facts1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 1024 + 1 * r.val = r.val; rw [e0]; omega
  | ⟨1, _⟩ => show win1_0.index t (1 : Fin 2) * 1024 + 1 * k.val = K.val; rw [e1, hK]; omega

/-- The right operand's block at point `t`, at `(k, c)`, is the array at `(t · 1024 + k, c)`. -/
theorem iblk1_1_apply (c : Dev nD) (t : Fin cfg1.N) (k : Fin 1024) (cc : Fin 512) (K : Fin 2048)
    (hK : K.val = t.val * 1024 + k.val) :
    (iblk1 V c 1 t : Vec Ideal S1024x512 .bf16) (ix2 k cc)
      = (V c (Pipeline.arrRef spec1 1) : FVec Ideal S2048x512 .bf16) (ix2 K cc) := by
  obtain ⟨-, -, e0, e1, -⟩ := idx_facts1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 1024 + 1 * k.val = K.val; rw [e0, hK]; omega
  | ⟨1, _⟩ => show win1_1.index t (1 : Fin 2) * 512 + 1 * cc.val = cc.val; rw [e1]; omega

/-- The bias block is the whole bias row. -/
theorem iblk1_2_apply (c : Dev nD) (t : Fin cfg1.N) (cc : Fin 512) :
    (iblk1 V c 2 t : Vec Ideal S1x512 .f32) (ix2 (0 : Fin 1) cc)
      = (V c (Pipeline.arrRef spec1 2) : FVec Ideal S1x512 .f32) (ix2 (0 : Fin 1) cc) := by
  obtain ⟨-, -, -, -, e0, e1, -⟩ := idx_facts1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * 0 = 0; rw [e0]
  | ⟨1, _⟩ => show win1_2.index t (1 : Fin 2) * 512 + 1 * cc.val = cc.val; rw [e1]; omega

/-- The left operand, the right operand and the bias row, as the step finds them. -/
abbrev X1 (c : Dev nD) : FVec Ideal S1024x2048 .bf16 := V c (Pipeline.arrRef spec1 0)
abbrev W1 (c : Dev nD) : FVec Ideal S2048x512 .bf16 := V c (Pipeline.arrRef spec1 1)
abbrev B1 (c : Dev nD) : FVec Ideal S1x512 .f32 := V c (Pipeline.arrRef spec1 2)

/-- The array the step leaves: the product plus the bias row, then the positive part. -/
def G1 (c : Dev nD) : FVec Ideal S1024x512 .bf16 :=
  Cert.Spec.linRelu (φ₁ := .bf16) (φ₂ := .bf16) (φ₃ := .bf16) (M := 1024) (K := 2048) (N := 512)
    (V c (Pipeline.arrRef spec1 0)) (V c (Pipeline.arrRef spec1 1)) (V c (Pipeline.arrRef spec1 2))

/-- After a first block of the contracted axis the accumulator holds that block's product. -/
theorem acc1_first (c : Dev nD) (t : Fin cfg1.N) (h0 : t.val % 2 = 0) :
    (outsAt1 V c t.val t.isLt).2 = k1_pay2 k1_pay1 (iblk1 V c 0 t) (iblk1 V c 1 t) := by
  rw [outsAt1_A V c t h0 (by omega)]
  dsimp only
  rw [sout1_A_eq]

/-- After a last block the output block is the finished block of the accumulator found plus that block's product. -/
theorem out1_last (c : Dev nD) (t : Fin cfg1.N) (h1 : t.val % 2 = 1) :
    (outsAt1 V c t.val t.isLt).1
      = k1_pay3 (k1_pay2 (outsAt1 V c (t.val - 1) (Nat.lt_of_le_of_lt (Nat.sub_le _ _) t.isLt)).2 (iblk1 V c 0 t) (iblk1 V c 1 t))
          (iblk1 V c 2 t) := by
  rw [outsAt1_C V c t (by omega) h1]
  dsimp only
  rw [out1_C_eq]

/-- A sum over `2048` positions is the sum over the first `1024` plus the sum over the last `1024`. -/
private theorem sum_halves (f : Fin 2048 → EReal) :
    ∑ K : Fin 2048, f K
      = (∑ k : Fin 1024, f ⟨k.val, by omega⟩) + ∑ k : Fin 1024, f ⟨1024 + k.val, by omega⟩ :=
  Fin.sum_univ_add (a := 1024) (b := 1024) f

/-- The output block the last point leaves, at `(r, c)`, is `G1` at `(r, c)`. -/
theorem blockval1 (c : Dev nD) (t : Fin cfg1.N) (h1 : t.val % 2 = 1) (r : Fin 1024) (cc : Fin 512) :
    (outsAt1 V c t.val t.isLt).1 (ix2 r cc) = G1 V c (ix2 r cc) := by
  have hN : t.val < 2 := lt_of_lt_of_eq t.isLt (show cfg1.N = 2 from N_1)
  have hp : t.val - 1 < cfg1.N := Nat.lt_of_le_of_lt (Nat.sub_le _ _) t.isLt
  have hacc : (outsAt1 V c (t.val - 1) hp).2 = k1_pay2 k1_pay1 (iblk1 V c 0 ⟨t.val - 1, hp⟩) (iblk1 V c 1 ⟨t.val - 1, hp⟩) :=
    acc1_first V c ⟨t.val - 1, hp⟩ (by show (t.val - 1) % 2 = 0; omega)
  rw [out1_last V c t h1, hacc, pay3_1, pay2_1, pay2_1, pay1_1, zero_add, iblk1_2_apply V c t cc]
  unfold G1
  rw [Cert.Spec.linRelu_apply]
  refine congrArg₂ max (congrArg₂ HAdd.hAdd ?_ rfl) rfl
  refine Eq.trans ?_ (sum_halves fun K => X1 V c (ix2 r K) * W1 V c (ix2 K cc)).symm
  refine congrArg₂ HAdd.hAdd (Finset.sum_congr rfl fun k _ => ?_) (Finset.sum_congr rfl fun k _ => ?_)
  · rw [iblk1_0_apply V c ⟨t.val - 1, hp⟩ r k ⟨k.val, by omega⟩ (by show k.val = (t.val - 1) * 1024 + k.val; omega),
      iblk1_1_apply V c ⟨t.val - 1, hp⟩ k cc ⟨k.val, by omega⟩ (by show k.val = (t.val - 1) * 1024 + k.val; omega)]
  · rw [iblk1_0_apply V c t r k ⟨1024 + k.val, by omega⟩ (by show 1024 + k.val = t.val * 1024 + k.val; omega),
      iblk1_1_apply V c t k cc ⟨1024 + k.val, by omega⟩ (by show 1024 + k.val = t.val * 1024 + k.val; omega)]

/-- What the last point writes back is its block of the array `G1`. -/
theorem flushed1_eq (c : Dev nD) (t : Fin cfg1.N) (hf : (cfg1.win 3).flush t = true) :
    (dat1 V c).flushed 3 t = ((cfg1.win 3).blk t).view.read (Elt Ideal) (G1 V c) := by
  have h1 : t.val % 2 = 1 := (flush1_3 t).mp hf
  show (cfg1.win 3).cut (grid1.coords t) ((dat1 V c).after 3 t) = _
  rw [after1_3]
  refine funext fun (j : S1024x512.Idx) => ?_
  obtain ⟨r, cc, rfl⟩ : ∃ (r : Fin 1024) (cc : Fin 512), j = ix2 r cc := ⟨j 0, j 1, eq_ix2 j⟩
  rw [View.read_apply]
  obtain ⟨-, -, -, -, -, -, e0, e1⟩ := idx_facts1 t
  have hemb : ((cfg1.win 3).blk t).view.emb (ix2 r cc) = (ix2 r cc : S1024x512.Idx) := by
    funext a; apply Fin.ext
    match a with
    | ⟨0, _⟩ => show win1_3.index t (0 : Fin 2) * 1024 + 1 * r.val = r.val; rw [e0]; omega
    | ⟨1, _⟩ => show win1_3.index t (1 : Fin 2) * 512 + 1 * cc.val = cc.val; rw [e1]; omega
  show (outsAt1 V c t.val t.isLt).1 (ix2 r cc) = G1 V c (((cfg1.win 3).blk t).view.emb (ix2 r cc))
  rw [hemb]
  exact blockval1 V c t h1 r cc

/-- The one block the last point writes back is the whole array, so the array ends at `G1`. -/
theorem arr_val1_G (c : Dev nD) : (dat1 V c).arrAt 3 cfg1.N = G1 V c :=
  (dat1 V c).arrAt_eq_of_cover 3 (G1 V c) (fun t hf => flushed1_eq V c t hf) fun i => by
    have hi0 : ((i : S1024x512.Idx) 0).val < 1024 := ((i : S1024x512.Idx) 0).isLt
    have hi1 : ((i : S1024x512.Idx) 1).val < 512 := ((i : S1024x512.Idx) 1).isLt
    have hN : cfg1.N = 2 := N_1
    obtain ⟨t, ht⟩ : ∃ t : Fin cfg1.N, t.val = 1 := ⟨⟨1, by omega⟩, rfl⟩
    obtain ⟨-, -, -, -, -, -, e0, e1⟩ := idx_facts1 t
    refine ⟨t, (flush1_3 t).mpr (by omega), ?_⟩
    show i ∈ ((View.whole main_v28).slice (win1_3.rect t)).set
    rw [View.set_slice_whole, Rect.mem_set_unit]
    intro a
    match a with
    | ⟨0, _⟩ =>
      show win1_3.index t (0 : Fin 2) * 1024 ≤ ((i : S1024x512.Idx) 0).val
        ∧ ((i : S1024x512.Idx) 0).val < win1_3.index t (0 : Fin 2) * 1024 + 1024
      rw [e0]; omega
    | ⟨1, _⟩ =>
      show win1_3.index t (1 : Fin 2) * 512 ≤ ((i : S1024x512.Idx) 1).val
        ∧ ((i : S1024x512.Idx) 1).val < win1_3.index t (1 : Fin 2) * 512 + 512
      rw [e1]; omega

/-- The step's output array after the run: the product of its first two arrays plus the bias row, then the positive part,
    entry by entry. -/
theorem arr_val1 (c : Dev nD) :
    (dat1 V c).arrAt 3 cfg1.N
      = Cert.Spec.linRelu (φ₁ := .bf16) (φ₂ := .bf16) (φ₃ := .bf16) (M := 1024) (K := 2048) (N := 512)
          (V c (Pipeline.arrRef spec1 0)) (V c (Pipeline.arrRef spec1 1)) (V c (Pipeline.arrRef spec1 2)) :=
  arr_val1_G V c

end Value

end Cert.KernelIdeal.Hand

end
-- ==== Proof.R2Val.lean ====
import proofs.«157756_j25125558682089_1_alg».proof.Proof.R2Dat
import proofs.«157756_j25125558682089_1_alg».proof.Proof.RegionPayloads
import proofs.«157756_j25125558682089_1_alg».proof.Proof.Spec
import Idealize.ShloMosaic.Lib.Pipeline.Value
import Idealize.ShloMosaic.Lib.ValueIdx

/-!
# Step 2: the array it leaves

Step 2 walks its `1024 × 128` output in 1 block of `1024` rows; the contracted axis (`512` positions) is a single
block, so every grid point both clears the accumulator and finishes its output block.

* The stores of one point, read back: the accumulator ends at "cleared accumulator plus the product of the two
  input blocks", and the output block at "that, plus the bias row".  (A store through the
  whole block leaves its payload; a load through the whole block of what such a store left reads that payload.)
* An input block read at a block index is the input array read at the array index the window's index map
  selects: row block `t` of the left operand and of the output starts at row `t · 1024`; the right operand and the bias
  row are single blocks.
* Hence what point `t` writes back is block `t` of the array `(r, c) ↦ ∑ k, x (r, k) · w (k, c) + b (0, c)`,
  and since the 1 row block cover the output array, the array ends holding exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- A load through the whole block of what a list of stores left, whose LAST store went through the whole block,
    reads that store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- What one point leaves in the accumulator: the cleared accumulator plus the product of the input blocks. -/
theorem sout2_D_eq (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) :
    sout2_D c i arg3 harg3 arg4 harg4 arg5 harg5 arg6 harg6 arg7 harg7 hc0 hc1 x0 x1 x2 = k2_pay2 k2_pay1 x0 x1 := by
  unfold sout2_D
  rw [View.read_writes_eq_canon _ _ _ (scover2_D c i arg3 harg3 arg4 harg4 arg5 harg5 arg6 harg6 arg7 harg7 hc0 hc1 x0 x1 x2)]
  unfold kernelRun2_D
  dsimp only
  sl_unfold_words
  rw [View.canon_cons_unit_zero (S := S1024x128) hz2, View.readCov_unit_zero (S := S1024x128) _ hz2]
  simp only [View.readAt_eq_ld, harg3.read_unread, harg4.read_unread, View.ld_unit_zero (S := S1024x512) hz2, View.ld_unit_zero (S := S512x128) hz2, View.ld_unit_zero (S := S1x128) hz2]

/-- What one point leaves in the output block: the finished block of that accumulator. -/
theorem out2_D_eq (c : Dev nD) (i : grid2.Coords) (arg3 : Memref sig .tc .vmem S1024x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond2_0 i) (hc1 : cond2_1 i)
    (x0 : Vec F S1024x512 .bf16) (x1 : Vec F S512x128 .bf16) (x2 : Vec F S1x128 .f32) :
    out2_D c i arg3 harg3 arg4 harg4 arg5 harg5 arg6 harg6 arg7 harg7 hc0 hc1 x0 x1 x2 = k2_pay3 (k2_pay2 k2_pay1 x0 x1) x2 := by
  unfold out2_D
  rw [View.read_writes_eq_canon _ _ _ (cover2_D c i arg3 harg3 arg4 harg4 arg5 harg5 arg6 harg6 arg7 harg7 hc0 hc1 x0 x1 x2)]
  unfold kernelRun2_D
  dsimp only
  sl_unfold_words
  rw [View.canon_unit_zero (S := S1024x128) hz2, readCov_cons_unit_zero (S := S1024x128) _ hz2, View.readCov_unit_zero (S := S1024x128) _ hz2]
  simp only [View.readAt_eq_ld, harg3.read_unread, harg4.read_unread, harg5.read_unread, View.ld_unit_zero (S := S1024x512) hz2, View.ld_unit_zero (S := S512x128) hz2, View.ld_unit_zero (S := S1x128) hz2]

end Pieces

section Value
variable (V : (c : Dev nD) → (b : Ref sig .tc) → Buf (Elt Ideal) ((c : Thread nD τ).loc b))

/-- The index maps over the grid: the left operand's and the output's row block is the point; every other block
    index is zero. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t`, at `(r, k)`, is the array at `(t · 1024 + r, k)`. -/
theorem iblk2_0_apply (c : Dev nD) (t : Fin cfg2.N) (r : Fin 1024) (k : Fin 512) (R : Fin 1024)
    (hR : R.val = t.val * 1024 + r.val) :
    (iblk2 V c 0 t : Vec Ideal S1024x512 .bf16) (ix2 r k)
      = (V c (Pipeline.arrRef spec2 0) : FVec Ideal S1024x512 .bf16) (ix2 R k) := by
  obtain ⟨e0, e1, -⟩ := idx_facts2 t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 1024 + 1 * r.val = R.val; rw [e0, hR]; omega
  | ⟨1, _⟩ => show win2_0.index t (1 : Fin 2) * 512 + 1 * k.val = k.val; rw [e1]; omega

/-- The right operand's block is the whole array. -/
theorem iblk2_1_apply (c : Dev nD) (t : Fin cfg2.N) (k : Fin 512) (cc : Fin 128) :
    (iblk2 V c 1 t : Vec Ideal S512x128 .bf16) (ix2 k cc)
      = (V c (Pipeline.arrRef spec2 1) : FVec Ideal S512x128 .bf16) (ix2 k cc) := by
  obtain ⟨-, -, e0, e1, -⟩ := idx_facts2 t
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 512 + 1 * k.val = k.val; rw [e0]; omega
  | ⟨1, _⟩ => show win2_1.index t (1 : Fin 2) * 128 + 1 * cc.val = cc.val; rw [e1]; omega

/-- The bias block is the whole bias row. -/
theorem iblk2_2_apply (c : Dev nD) (t : Fin cfg2.N) (cc : Fin 128) :
    (iblk2 V c 2 t : Vec Ideal S1x128 .f32) (ix2 (0 : Fin 1) cc)
      = (V c (Pipeline.arrRef spec2 2) : FVec Ideal S1x128 .f32) (ix2 (0 : Fin 1) cc) := by
  obtain ⟨-, -, -, -, e0, e1, -⟩ := idx_facts2 t
  unfold iblk2
  rw [View.read_apply]
  show V c (Pipeline.arrRef spec2 2) _ = V c (Pipeline.arrRef spec2 2) _
  congr 1
  funext a; apply Fin.ext
  match a with
  | ⟨0, _⟩ => show win2_2.index t (0 : Fin 2) * 1 + 1 * 0 = 0; rw [e0]
  | ⟨1, _⟩ => show win2_2.index t (1 : Fin 2) * 128 + 1 * cc.val = cc.val; rw [e1]; omega

/-- The array the step leaves: the product plus the bias row. -/
def G2 (c : Dev nD) : FVec Ideal S1024x128 .f32 :=
  Cert.Spec.lin (φ₁ := .bf16) (φ₂ := .bf16) (φ₃ := .f32) (M := 1024) (K := 512) (N := 128)
    (V c (Pipeline.arrRef spec2 0)) (V c (Pipeline.arrRef spec2 1)) (V c (Pipeline.arrRef spec2 2))

/-- The finished block of point `t` at `(r, c)` is `G2` at `(t · 1024 + r, c)`. -/
theorem blockval2 (c : Dev nD) (t : Fin cfg2.N) (r : Fin 1024) (cc : Fin 128) (R : Fin 1024)
    (hR : R.val = t.val * 1024 + r.val) :
    k2_pay3 (k2_pay2 k2_pay1 (iblk2 V c 0 t) (iblk2 V c 1 t)) (iblk2 V c 2 t) (ix2 r cc) = G2 V c (ix2 R cc) := by
  rw [pay3_2, pay2_2, pay1_2, zero_add, iblk2_2_apply V c t cc]
  unfold G2
  rw [Cert.Spec.lin_apply]
  refine congrArg₂ HAdd.hAdd (Finset.sum_congr rfl fun k _ => ?_) ?_
  · rw [iblk2_0_apply V c t r k R hR, iblk2_1_apply V c t k cc]
    try rfl
  · rfl

/-- What a point writes back is its block of the array `G2`. -/
theorem flushed2_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold outsAt2
  dsimp only
  rw [out2_D_eq]
  refine funext fun (j : S1024x128.Idx) => ?_
  obtain ⟨r, cc, rfl⟩ : ∃ (r : Fin 1024) (cc : Fin 128), j = ix2 r cc := ⟨j 0, j 1, eq_ix2 j⟩
  have hN : t.val < 1 := lt_of_lt_of_eq t.isLt (show cfg2.N = 1 from N_2)
  have hr : r.val < 1024 := r.isLt
  rw [View.read_apply]
  obtain ⟨-, -, -, -, -, -, e0, e1⟩ := idx_facts2 t
  have hemb : ((cfg2.win 3).blk t).view.emb (ix2 r cc)
      = (ix2 (⟨t.val * 1024 + r.val, by omega⟩ : Fin 1024) cc : S1024x128.Idx) := by
    funext a; apply Fin.ext
    match a with
    | ⟨0, _⟩ => show win2_3.index t (0 : Fin 2) * 1024 + 1 * r.val = t.val * 1024 + r.val; rw [e0]; omega
    | ⟨1, _⟩ => show win2_3.index t (1 : Fin 2) * 128 + 1 * cc.val = cc.val; rw [e1]; omega
  show k2_pay3 (k2_pay2 k2_pay1 (iblk2 V c 0 t) (iblk2 V c 1 t)) (iblk2 V c 2 t) (ix2 r cc)
    = G2 V c (((cfg2.win 3).blk t).view.emb (ix2 r cc))
  rw [hemb]
  exact blockval2 V c t r cc _ rfl

/-- The blocks the points write back cover the array, so the array ends at `G2`. -/
theorem arr_val2_G (c : Dev nD) : (dat2 V c).arrAt 3 cfg2.N = G2 V c :=
  (dat2 V c).arrAt_eq_of_cover 3 (G2 V c) (fun t _ => flushed2_eq V c t) fun i => by
    have hi0 : ((i : S1024x128.Idx) 0).val < 1024 := ((i : S1024x128.Idx) 0).isLt
    have hi1 : ((i : S1024x128.Idx) 1).val < 128 := ((i : S1024x128.Idx) 1).isLt
    have hN : cfg2.N = 1 := N_2
    obtain ⟨t, ht⟩ : ∃ t : Fin cfg2.N, t.val = ((i : S1024x128.Idx) 0).val / 1024 := ⟨⟨_, by omega⟩, rfl⟩
    obtain ⟨-, -, -, -, -, -, e0, e1⟩ := idx_facts2 t
    refine ⟨t, flush2_3 t, ?_⟩
    show i ∈ ((View.whole main_v31).slice (win2_3.rect t)).set
    rw [View.set_slice_whole, Rect.mem_set_unit]
    intro a
    match a with
    | ⟨0, _⟩ =>
      show win2_3.index t (0 : Fin 2) * 1024 ≤ ((i : S1024x128.Idx) 0).val
        ∧ ((i : S1024x128.Idx) 0).val < win2_3.index t (0 : Fin 2) * 1024 + 1024
      rw [e0]; omega
    | ⟨1, _⟩ =>
      show win2_3.index t (1 : Fin 2) * 128 ≤ ((i : S1024x128.Idx) 1).val
        ∧ ((i : S1024x128.Idx) 1).val < win2_3.index t (1 : Fin 2) * 128 + 128
      rw [e1]; omega

/-- The step's output array after the run: the product of its first two arrays plus the bias row,
    entry by entry. -/
theorem arr_val2 (c : Dev nD) :
    (dat2 V c).arrAt 3 cfg2.N
      = Cert.Spec.lin (φ₁ := .bf16) (φ₂ := .bf16) (φ₃ := .f32) (M := 1024) (K := 512) (N := 128)
          (V c (Pipeline.arrRef spec2 0)) (V c (Pipeline.arrRef spec2 1)) (V c (Pipeline.arrRef spec2 2)) :=
  arr_val2_G V c

end Value

end Cert.KernelIdeal.Hand

end
-- ==== Proof.R3Val.lean ====
import proofs.«157756_j25125558682089_1_alg».proof.Proof.R3Dat
import proofs.«157756_j25125558682089_1_alg».proof.Proof.RegionPayloads
import proofs.«157756_j25125558682089_1_alg».proof.Proof.Spec
import Idealize.ShloMosaic.Lib.Pipeline.Value
import Idealize.ShloMosaic.Lib.ValueIdx

/-!
# Step 3: the array it leaves

Step 3 walks its `100000 × 128` output in 20 blocks of `5000` rows; the contracted axis (`1` positions) is a single
block, so every grid point both clears the accumulator and finishes its output block.

* The stores of one point, read back: the accumulator ends at "cleared accumulator plus the product of the two
  input blocks", and the output block at "that, plus the bias row, then the maximum with zero".  (A store through the
  whole block leaves its payload; a load through the whole block of what such a store left reads that payload.)
* An input block read at a block index is the input array read at the array index the window's index map
  selects: row block `t` of the left operand and of the output starts at row `t · 5000`; the right operand and the bias
  row are single blocks.
* Hence what point `t` writes back is block `t` of the array `(r, c) ↦ max (∑ k, x (r, k) · w (k, c) + b (0, c)) 0`,
  and since the 20 row blocks cover the output array, the array ends holding exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- A load through the whole block of what a list of stores left, whose LAST store went through the whole block,
    reads that store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- What one point leaves in the accumulator: the cleared accumulator plus the product of the input blocks. -/
theorem sout3_D_eq (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) :
    sout3_D c i arg3 harg3 arg4 harg4 arg5 harg5 arg6 harg6 arg7 harg7 hc0 hc1 x0 x1 x2 = k3_pay2 k3_pay1 x0 x1 := by
  unfold sout3_D
  rw [View.read_writes_eq_canon _ _ _ (scover3_D c i arg3 harg3 arg4 harg4 arg5 harg5 arg6 harg6 arg7 harg7 hc0 hc1 x0 x1 x2)]
  unfold kernelRun3_D
  dsimp only
  sl_unfold_words
  rw [View.canon_cons_unit_zero (S := S5000x128) hz2, View.readCov_unit_zero (S := S5000x128) _ hz2]
  simp only [View.readAt_eq_ld, harg3.read_unread, harg4.read_unread, View.ld_unit_zero (S := S5000x1) hz2, View.ld_unit_zero (S := S1x128) hz2]

/-- What one point leaves in the output block: the finished block of that accumulator. -/
theorem out3_D_eq (c : Dev nD) (i : grid3.Coords) (arg3 : Memref sig .tc .vmem S5000x1 .bf16) (harg3 : arg3.IsWhole) (arg4 : Memref sig .tc .vmem S1x128 .bf16) (harg4 : arg4.IsWhole) (arg5 : Memref sig .tc .vmem S1x128 .f32) (harg5 : arg5.IsWhole) (arg6 : Memref sig .tc .vmem S5000x128 .bf16) (harg6 : arg6.IsWhole) (arg7 : Memref sig .tc .vmem S5000x128 .f32) (harg7 : arg7.IsWhole) (hc0 : cond3_0 i) (hc1 : cond3_1 i)
    (x0 : Vec F S5000x1 .bf16) (x1 : Vec F S1x128 .bf16) (x2 : Vec F S1x128 .f32) :
    out3_D c i arg3 harg3 arg4 harg4 arg5 harg5 arg6 harg6 arg7 harg7 hc0 hc1 x0 x1 x2 = k3_pay3 (k3_pay2 k3_pay1 x0 x1) x2 := by
  unfold out3_D
  rw [View.read_writes_eq_canon _ _ _ (cover3_D c i arg3 harg3 arg4 harg4 arg5 harg5 arg6 harg6 arg7 harg7 hc0 hc1 x0 x1 x2)]
  unfold kernelRun3_D
  dsimp only
  sl_unfold_words
  rw [View.canon_unit_zero (S := S5000x128) hz2, readCov_cons_unit_zero (S := S5000x128) _ hz2, View.readCov_unit_zero (S := S5000x128) _ hz2]
  simp only [View.readAt_eq_ld, harg3.read_unread, harg4.read_unread, harg5.read_unread, View.ld_unit_zero (S := S5000x1) hz2, View.ld_unit_zero (S := S1x128) hz2]

end Pieces

section Value
variable (V : (c : Dev nD) → (b : Ref sig .tc) → Buf (Elt Ideal) ((c : Thread nD τ).loc b))

/-- The index maps over the grid: the left operand's and the output's row block is the point; every other block
    index is zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The left operand's block at point `t`, at `(r, k)`, is the array at `(t · 5000 + r, k)`. -/
theorem iblk3_0_apply (c : Dev nD) (t : Fin cfg3.N) (r : Fin 5000) (k : Fin 1) (R : Fin 100000)
    (hR : R.val = t.val * 5000 + r.val) :
    (iblk3 V c 0 t : Vec Ideal S5000x1 .bf16) (ix2 r k)
      = (V c (Pipeline.arrRef spec3 0) : FVec Ideal S100000x1 .bf16) (ix2 R k) := by
  obtain ⟨e0, e1, -⟩ := idx_facts3 t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 5000 + 1 * r.val = R.val; rw [e0, hR]; omega
  | ⟨1, _⟩ => show win3_0.index t (1 : Fin 2) * 1 + 1 * k.val = k.val; rw [e1]; omega

/-- The right operand's block is the whole array. -/
theorem iblk3_1_apply (c : Dev nD) (t : Fin cfg3.N) (k : Fin 1) (cc : Fin 128) :
    (iblk3 V c 1 t : Vec Ideal S1x128 .bf16) (ix2 k cc)
      = (V c (Pipeline.arrRef spec3 1) : FVec Ideal S1x128 .bf16) (ix2 k cc) := by
  obtain ⟨-, -, e0, e1, -⟩ := idx_facts3 t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 1 + 1 * k.val = k.val; rw [e0]; omega
  | ⟨1, _⟩ => show win3_1.index t (1 : Fin 2) * 128 + 1 * cc.val = cc.val; rw [e1]; omega

/-- The bias block is the whole bias row. -/
theorem iblk3_2_apply (c : Dev nD) (t : Fin cfg3.N) (cc : Fin 128) :
    (iblk3 V c 2 t : Vec Ideal S1x128 .f32) (ix2 (0 : Fin 1) cc)
      = (V c (Pipeline.arrRef spec3 2) : FVec Ideal S1x128 .f32) (ix2 (0 : Fin 1) cc) := by
  obtain ⟨-, -, -, -, e0, e1, -⟩ := idx_facts3 t
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * 0 = 0; rw [e0]
  | ⟨1, _⟩ => show win3_2.index t (1 : Fin 2) * 128 + 1 * cc.val = cc.val; rw [e1]; omega

/-- The array the step leaves: the product plus the bias row, then the positive part. -/
def G3 (c : Dev nD) : FVec Ideal S100000x128 .bf16 :=
  Cert.Spec.linRelu (φ₁ := .bf16) (φ₂ := .bf16) (φ₃ := .bf16) (M := 100000) (K := 1) (N := 128)
    (V c (Pipeline.arrRef spec3 0)) (V c (Pipeline.arrRef spec3 1)) (V c (Pipeline.arrRef spec3 2))

/-- The finished block of point `t` at `(r, c)` is `G3` at `(t · 5000 + r, c)`. -/
theorem blockval3 (c : Dev nD) (t : Fin cfg3.N) (r : Fin 5000) (cc : Fin 128) (R : Fin 100000)
    (hR : R.val = t.val * 5000 + r.val) :
    k3_pay3 (k3_pay2 k3_pay1 (iblk3 V c 0 t) (iblk3 V c 1 t)) (iblk3 V c 2 t) (ix2 r cc) = G3 V c (ix2 R cc) := by
  rw [pay3_3, pay2_3, pay1_3, zero_add, iblk3_2_apply V c t cc]
  unfold G3
  rw [Cert.Spec.linRelu_apply]
  refine congrArg₂ max (congrArg₂ HAdd.hAdd (Finset.sum_congr rfl fun k _ => ?_) ?_) ?_
  · rw [iblk3_0_apply V c t r k R hR, iblk3_1_apply V c t k cc]
    try rfl
  · rfl
  · rfl

/-- What a point writes back is its block of the array `G3`. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold outsAt3
  dsimp only
  rw [out3_D_eq]
  refine funext fun (j : S5000x128.Idx) => ?_
  obtain ⟨r, cc, rfl⟩ : ∃ (r : Fin 5000) (cc : Fin 128), j = ix2 r cc := ⟨j 0, j 1, eq_ix2 j⟩
  have hN : t.val < 20 := lt_of_lt_of_eq t.isLt (show cfg3.N = 20 from N_3)
  have hr : r.val < 5000 := r.isLt
  rw [View.read_apply]
  obtain ⟨-, -, -, -, -, -, e0, e1⟩ := idx_facts3 t
  have hemb : ((cfg3.win 3).blk t).view.emb (ix2 r cc)
      = (ix2 (⟨t.val * 5000 + r.val, by omega⟩ : Fin 100000) cc : S100000x128.Idx) := by
    funext a; apply Fin.ext
    match a with
    | ⟨0, _⟩ => show win3_3.index t (0 : Fin 2) * 5000 + 1 * r.val = t.val * 5000 + r.val; rw [e0]; omega
    | ⟨1, _⟩ => show win3_3.index t (1 : Fin 2) * 128 + 1 * cc.val = cc.val; rw [e1]; omega
  show k3_pay3 (k3_pay2 k3_pay1 (iblk3 V c 0 t) (iblk3 V c 1 t)) (iblk3 V c 2 t) (ix2 r cc)
    = G3 V c (((cfg3.win 3).blk t).view.emb (ix2 r cc))
  rw [hemb]
  exact blockval3 V c t r cc _ rfl

/-- The blocks the points write back cover the array, so the array ends at `G3`. -/
theorem arr_val3_G (c : Dev nD) : (dat3 V c).arrAt 3 cfg3.N = G3 V c :=
  (dat3 V c).arrAt_eq_of_cover 3 (G3 V c) (fun t _ => flushed3_eq V c t) fun i => by
    have hi0 : ((i : S100000x128.Idx) 0).val < 100000 := ((i : S100000x128.Idx) 0).isLt
    have hi1 : ((i : S100000x128.Idx) 1).val < 128 := ((i : S100000x128.Idx) 1).isLt
    have hN : cfg3.N = 20 := N_3
    obtain ⟨t, ht⟩ : ∃ t : Fin cfg3.N, t.val = ((i : S100000x128.Idx) 0).val / 5000 := ⟨⟨_, by omega⟩, rfl⟩
    obtain ⟨-, -, -, -, -, -, e0, e1⟩ := idx_facts3 t
    refine ⟨t, flush3_3 t, ?_⟩
    show i ∈ ((View.whole main_v62).slice (win3_3.rect t)).set
    rw [View.set_slice_whole, Rect.mem_set_unit]
    intro a
    match a with
    | ⟨0, _⟩ =>
      show win3_3.index t (0 : Fin 2) * 5000 ≤ ((i : S100000x128.Idx) 0).val
        ∧ ((i : S100000x128.Idx) 0).val < win3_3.index t (0 : Fin 2) * 5000 + 5000
      rw [e0]; omega
    | ⟨1, _⟩ =>
      show win3_3.index t (1 : Fin 2) * 128 ≤ ((i : S100000x128.Idx) 1).val
        ∧ ((i : S100000x128.Idx) 1).val < win3_3.index t (1 : Fin 2) * 128 + 128
      rw [e1]; omega

/-- The step's output array after the run: the product of its first two arrays plus the bias row, then the positive part,
    entry by entry. -/
theorem arr_val3 (c : Dev nD) :
    (dat3 V c).arrAt 3 cfg3.N
      = Cert.Spec.linRelu (φ₁ := .bf16) (φ₂ := .bf16) (φ₃ := .bf16) (M := 100000) (K := 1) (N := 128)
          (V c (Pipeline.arrRef spec3 0)) (V c (Pipeline.arrRef spec3 1)) (V c (Pipeline.arrRef spec3 2)) :=
  arr_val3_G V c

end Value

end Cert.KernelIdeal.Hand

end
-- ==== Proof.R4Val.lean ====
import proofs.«157756_j25125558682089_1_alg».proof.Proof.R4Dat
import proofs.«157756_j25125558682089_1_alg».proof.Proof.RegionPayloads
import proofs.«157756_j25125558682089_1_alg».proof.Proof.Spec
import Idealize.ShloMosaic.Lib.Pipeline.Value
import Idealize.ShloMosaic.Lib.ValueIdx

/-!
# Step 4: the array it leaves

Step 4 walks its `100000 × 256` output in 20 blocks of `5000` rows; the contracted axis (`128` positions) is a single
block, so every grid point both clears the accumulator and finishes its output block.

* The stores of one point, read back: the accumulator ends at "cleared accumulator plus the product of the two
  input blocks", and the output block at "that, plus the bias row, then the maximum with zero".  (A store through the
  whole block leaves its payload; a load through the whole block of what such a store left reads that payload.)
* An input block read at a block index is the input array read at the array index the window's index map
  selects: row block `t` of the left operand and of the output starts at row `t · 5000`; the right operand and the bias
  row are single blocks.
* Hence what point `t` writes back is block `t` of the array `(r, c) ↦ max (∑ k, x (r, k) · w (k, c) + b (0, c)) 0`,
  and since the 20 row blocks cover the output array, the array ends holding exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- A load through the whole block of what a list of stores left, whose LAST store went through the whole block,
    reads that store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- What one point leaves in the accumulator: the cleared accumulator plus the product of the input blocks. -/
theorem sout4_D_eq (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) :
    sout4_D c i arg3 harg3 arg4 harg4 arg5 harg5 arg6 harg6 arg7 harg7 hc0 hc1 x0 x1 x2 = k4_pay2 k4_pay1 x0 x1 := by
  unfold sout4_D
  rw [View.read_writes_eq_canon _ _ _ (scover4_D c i arg3 harg3 arg4 harg4 arg5 harg5 arg6 harg6 arg7 harg7 hc0 hc1 x0 x1 x2)]
  unfold kernelRun4_D
  dsimp only
  sl_unfold_words
  rw [View.canon_cons_unit_zero (S := S5000x256) hz2, View.readCov_unit_zero (S := S5000x256) _ hz2]
  simp only [View.readAt_eq_ld, harg3.read_unread, harg4.read_unread, View.ld_unit_zero (S := S5000x128) hz2, View.ld_unit_zero (S := S128x256) hz2, View.ld_unit_zero (S := S1x256) hz2]

/-- What one point leaves in the output block: the finished block of that accumulator. -/
theorem out4_D_eq (c : Dev nD) (i : grid4.Coords) (arg3 : Memref sig .tc .vmem S5000x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S5000x256 .bf16) (harg6 : arg6.IsWhole) (arg7 : Memref sig .tc .vmem S5000x256 .f32) (harg7 : arg7.IsWhole) (hc0 : cond4_0 i) (hc1 : cond4_1 i)
    (x0 : Vec F S5000x128 .bf16) (x1 : Vec F S128x256 .bf16) (x2 : Vec F S1x256 .f32) :
    out4_D c i arg3 harg3 arg4 harg4 arg5 harg5 arg6 harg6 arg7 harg7 hc0 hc1 x0 x1 x2 = k4_pay3 (k4_pay2 k4_pay1 x0 x1) x2 := by
  unfold out4_D
  rw [View.read_writes_eq_canon _ _ _ (cover4_D c i arg3 harg3 arg4 harg4 arg5 harg5 arg6 harg6 arg7 harg7 hc0 hc1 x0 x1 x2)]
  unfold kernelRun4_D
  dsimp only
  sl_unfold_words
  rw [View.canon_unit_zero (S := S5000x256) hz2, readCov_cons_unit_zero (S := S5000x256) _ hz2, View.readCov_unit_zero (S := S5000x256) _ hz2]
  simp only [View.readAt_eq_ld, harg3.read_unread, harg4.read_unread, harg5.read_unread, View.ld_unit_zero (S := S5000x128) hz2, View.ld_unit_zero (S := S128x256) hz2, View.ld_unit_zero (S := S1x256) hz2]

end Pieces

section Value
variable (V : (c : Dev nD) → (b : Ref sig .tc) → Buf (Elt Ideal) ((c : Thread nD τ).loc b))

/-- The index maps over the grid: the left operand's and the output's row block is the point; every other block
    index is zero. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left operand's block at point `t`, at `(r, k)`, is the array at `(t · 5000 + r, k)`. -/
theorem iblk4_0_apply (c : Dev nD) (t : Fin cfg4.N) (r : Fin 5000) (k : Fin 128) (R : Fin 100000)
    (hR : R.val = t.val * 5000 + r.val) :
    (iblk4 V c 0 t : Vec Ideal S5000x128 .bf16) (ix2 r k)
      = (V c (Pipeline.arrRef spec4 0) : FVec Ideal S100000x128 .bf16) (ix2 R k) := by
  obtain ⟨e0, e1, -⟩ := idx_facts4 t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 5000 + 1 * r.val = R.val; rw [e0, hR]; omega
  | ⟨1, _⟩ => show win4_0.index t (1 : Fin 2) * 128 + 1 * k.val = k.val; rw [e1]; omega

/-- The right operand's block is the whole array. -/
theorem iblk4_1_apply (c : Dev nD) (t : Fin cfg4.N) (k : Fin 128) (cc : Fin 256) :
    (iblk4 V c 1 t : Vec Ideal S128x256 .bf16) (ix2 k cc)
      = (V c (Pipeline.arrRef spec4 1) : FVec Ideal S128x256 .bf16) (ix2 k cc) := by
  obtain ⟨-, -, e0, e1, -⟩ := idx_facts4 t
  unfold iblk4
  rw [View.read_apply]
  show V c (Pipeline.arrRef spec4 1) _ = V c (Pipeline.arrRef spec4 1) _
  congr 1
  funext a; apply Fin.ext
  match a with
  | ⟨0, _⟩ => show win4_1.index t (0 : Fin 2) * 128 + 1 * k.val = k.val; rw [e0]; omega
  | ⟨1, _⟩ => show win4_1.index t (1 : Fin 2) * 256 + 1 * cc.val = cc.val; rw [e1]; omega

/-- The bias block is the whole bias row. -/
theorem iblk4_2_apply (c : Dev nD) (t : Fin cfg4.N) (cc : Fin 256) :
    (iblk4 V c 2 t : Vec Ideal S1x256 .f32) (ix2 (0 : Fin 1) cc)
      = (V c (Pipeline.arrRef spec4 2) : FVec Ideal S1x256 .f32) (ix2 (0 : Fin 1) cc) := by
  obtain ⟨-, -, -, -, e0, e1, -⟩ := idx_facts4 t
  unfold iblk4
  rw [View.read_apply]
  show V c (Pipeline.arrRef spec4 2) _ = V c (Pipeline.arrRef spec4 2) _
  congr 1
  funext a; apply Fin.ext
  match a with
  | ⟨0, _⟩ => show win4_2.index t (0 : Fin 2) * 1 + 1 * 0 = 0; rw [e0]
  | ⟨1, _⟩ => show win4_2.index t (1 : Fin 2) * 256 + 1 * cc.val = cc.val; rw [e1]; omega

/-- The array the step leaves: the product plus the bias row, then the positive part. -/
def G4 (c : Dev nD) : FVec Ideal S100000x256 .bf16 :=
  Cert.Spec.linRelu (φ₁ := .bf16) (φ₂ := .bf16) (φ₃ := .bf16) (M := 100000) (K := 128) (N := 256)
    (V c (Pipeline.arrRef spec4 0)) (V c (Pipeline.arrRef spec4 1)) (V c (Pipeline.arrRef spec4 2))

/-- The finished block of point `t` at `(r, c)` is `G4` at `(t · 5000 + r, c)`. -/
theorem blockval4 (c : Dev nD) (t : Fin cfg4.N) (r : Fin 5000) (cc : Fin 256) (R : Fin 100000)
    (hR : R.val = t.val * 5000 + r.val) :
    k4_pay3 (k4_pay2 k4_pay1 (iblk4 V c 0 t) (iblk4 V c 1 t)) (iblk4 V c 2 t) (ix2 r cc) = G4 V c (ix2 R cc) := by
  rw [pay3_4, pay2_4, pay1_4, zero_add, iblk4_2_apply V c t cc]
  unfold G4
  rw [Cert.Spec.linRelu_apply]
  refine congrArg₂ max (congrArg₂ HAdd.hAdd (Finset.sum_congr rfl fun k _ => ?_) ?_) ?_
  · rw [iblk4_0_apply V c t r k R hR, iblk4_1_apply V c t k cc]
    try rfl
  · rfl
  · rfl

/-- What a point writes back is its block of the array `G4`. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold outsAt4
  dsimp only
  rw [out4_D_eq]
  refine funext fun (j : S5000x256.Idx) => ?_
  obtain ⟨r, cc, rfl⟩ : ∃ (r : Fin 5000) (cc : Fin 256), j = ix2 r cc := ⟨j 0, j 1, eq_ix2 j⟩
  have hN : t.val < 20 := lt_of_lt_of_eq t.isLt (show cfg4.N = 20 from N_4)
  have hr : r.val < 5000 := r.isLt
  rw [View.read_apply]
  obtain ⟨-, -, -, -, -, -, e0, e1⟩ := idx_facts4 t
  have hemb : ((cfg4.win 3).blk t).view.emb (ix2 r cc)
      = (ix2 (⟨t.val * 5000 + r.val, by omega⟩ : Fin 100000) cc : S100000x256.Idx) := by
    funext a; apply Fin.ext
    match a with
    | ⟨0, _⟩ => show win4_3.index t (0 : Fin 2) * 5000 + 1 * r.val = t.val * 5000 + r.val; rw [e0]; omega
    | ⟨1, _⟩ => show win4_3.index t (1 : Fin 2) * 256 + 1 * cc.val = cc.val; rw [e1]; omega
  show k4_pay3 (k4_pay2 k4_pay1 (iblk4 V c 0 t) (iblk4 V c 1 t)) (iblk4 V c 2 t) (ix2 r cc)
    = G4 V c (((cfg4.win 3).blk t).view.emb (ix2 r cc))
  rw [hemb]
  exact blockval4 V c t r cc _ rfl

/-- The blocks the points write back cover the array, so the array ends at `G4`. -/
theorem arr_val4_G (c : Dev nD) : (dat4 V c).arrAt 3 cfg4.N = G4 V c :=
  (dat4 V c).arrAt_eq_of_cover 3 (G4 V c) (fun t _ => flushed4_eq V c t) fun i => by
    have hi0 : ((i : S100000x256.Idx) 0).val < 100000 := ((i : S100000x256.Idx) 0).isLt
    have hi1 : ((i : S100000x256.Idx) 1).val < 256 := ((i : S100000x256.Idx) 1).isLt
    have hN : cfg4.N = 20 := N_4
    obtain ⟨t, ht⟩ : ∃ t : Fin cfg4.N, t.val = ((i : S100000x256.Idx) 0).val / 5000 := ⟨⟨_, by omega⟩, rfl⟩
    obtain ⟨-, -, -, -, -, -, e0, e1⟩ := idx_facts4 t
    refine ⟨t, flush4_3 t, ?_⟩
    show i ∈ ((View.whole main_v90).slice (win4_3.rect t)).set
    rw [View.set_slice_whole, Rect.mem_set_unit]
    intro a
    match a with
    | ⟨0, _⟩ =>
      show win4_3.index t (0 : Fin 2) * 5000 ≤ ((i : S100000x256.Idx) 0).val
        ∧ ((i : S100000x256.Idx) 0).val < win4_3.index t (0 : Fin 2) * 5000 + 5000
      rw [e0]; omega
    | ⟨1, _⟩ =>
      show win4_3.index t (1 : Fin 2) * 256 ≤ ((i : S100000x256.Idx) 1).val
        ∧ ((i : S100000x256.Idx) 1).val < win4_3.index t (1 : Fin 2) * 256 + 256
      rw [e1]; omega

/-- The step's output array after the run: the product of its first two arrays plus the bias row, then the positive part,
    entry by entry. -/
theorem arr_val4 (c : Dev nD) :
    (dat4 V c).arrAt 3 cfg4.N
      = Cert.Spec.linRelu (φ₁ := .bf16) (φ₂ := .bf16) (φ₃ := .bf16) (M := 100000) (K := 128) (N := 256)
          (V c (Pipeline.arrRef spec4 0)) (V c (Pipeline.arrRef spec4 1)) (V c (Pipeline.arrRef spec4 2)) :=
  arr_val4_G V c

end Value

end Cert.KernelIdeal.Hand

end
-- ==== Proof.R5Val.lean ====
import proofs.«157756_j25125558682089_1_alg».proof.Proof.R5Dat
import proofs.«157756_j25125558682089_1_alg».proof.Proof.RegionPayloads
import proofs.«157756_j25125558682089_1_alg».proof.Proof.Spec
import Idealize.ShloMosaic.Lib.Pipeline.Value
import Idealize.ShloMosaic.Lib.ValueIdx

/-!
# Step 5: the array it leaves

Step 5 walks its `100000 × 128` output in 20 blocks of `5000` rows; the contracted axis (`256` positions) is a single
block, so every grid point both clears the accumulator and finishes its output block.

* The stores of one point, read back: the accumulator ends at "cleared accumulator plus the product of the two
  input blocks", and the output block at "that, plus the bias row, then the maximum with zero".  (A store through the
  whole block leaves its payload; a load through the whole block of what such a store left reads that payload.)
* An input block read at a block index is the input array read at the array index the window's index map
  selects: row block `t` of the left operand and of the output starts at row `t · 5000`; the right operand and the bias
  row are single blocks.
* Hence what point `t` writes back is block `t` of the array `(r, c) ↦ max (∑ k, x (r, k) · w (k, c) + b (0, c)) 0`,
  and since the 20 row blocks cover the output array, the array ends holding exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Payloads
open scoped BigOperators

section Pieces
variable {F : FTy → Type} [FloatOps F]

private theorem hz2 : (![0, 0] : Fin 2 → Nat) = fun _ => 0 := funext fun a => by fin_cases a <;> rfl

/-- A load through the whole block of what a list of stores left, whose LAST store went through the whole block,
    reads that store's payload. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

/-- What one point leaves in the accumulator: the cleared accumulator plus the product of the input blocks. -/
theorem sout5_D_eq (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) :
    sout5_D c i arg3 harg3 arg4 harg4 arg5 harg5 arg6 harg6 arg7 harg7 hc0 hc1 x0 x1 x2 = k5_pay2 k5_pay1 x0 x1 := by
  unfold sout5_D
  rw [View.read_writes_eq_canon _ _ _ (scover5_D c i arg3 harg3 arg4 harg4 arg5 harg5 arg6 harg6 arg7 harg7 hc0 hc1 x0 x1 x2)]
  unfold kernelRun5_D
  dsimp only
  sl_unfold_words
  rw [View.canon_cons_unit_zero (S := S5000x128) hz2, View.readCov_unit_zero (S := S5000x128) _ hz2]
  simp only [View.readAt_eq_ld, harg3.read_unread, harg4.read_unread, View.ld_unit_zero (S := S5000x256) hz2, View.ld_unit_zero (S := S256x128) hz2, View.ld_unit_zero (S := S1x128) hz2]

/-- What one point leaves in the output block: the finished block of that accumulator. -/
theorem out5_D_eq (c : Dev nD) (i : grid5.Coords) (arg3 : Memref sig .tc .vmem S5000x256 .bf16) (harg3 : arg3.IsWhole) (arg4 : Memref sig .tc .vmem S256x128 .bf16) (harg4 : arg4.IsWhole) (arg5 : Memref sig .tc .vmem S1x128 .f32) (harg5 : arg5.IsWhole) (arg6 : Memref sig .tc .vmem S5000x128 .f32) (harg6 : arg6.IsWhole) (arg7 : Memref sig .tc .vmem S5000x128 .f32) (harg7 : arg7.IsWhole) (hc0 : cond5_0 i) (hc1 : cond5_1 i)
    (x0 : Vec F S5000x256 .bf16) (x1 : Vec F S256x128 .bf16) (x2 : Vec F S1x128 .f32) :
    out5_D c i arg3 harg3 arg4 harg4 arg5 harg5 arg6 harg6 arg7 harg7 hc0 hc1 x0 x1 x2 = k5_pay3 (k5_pay2 k5_pay1 x0 x1) x2 := by
  unfold out5_D
  rw [View.read_writes_eq_canon _ _ _ (cover5_D c i arg3 harg3 arg4 harg4 arg5 harg5 arg6 harg6 arg7 harg7 hc0 hc1 x0 x1 x2)]
  unfold kernelRun5_D
  dsimp only
  sl_unfold_words
  rw [View.canon_unit_zero (S := S5000x128) hz2, readCov_cons_unit_zero (S := S5000x128) _ hz2, View.readCov_unit_zero (S := S5000x128) _ hz2]
  simp only [View.readAt_eq_ld, harg3.read_unread, harg4.read_unread, harg5.read_unread, View.ld_unit_zero (S := S5000x256) hz2, View.ld_unit_zero (S := S256x128) hz2, View.ld_unit_zero (S := S1x128) hz2]

end Pieces

section Value
variable (V : (c : Dev nD) → (b : Ref sig .tc) → Buf (Elt Ideal) ((c : Thread nD τ).loc b))

/-- The index maps over the grid: the left operand's and the output's row block is the point; every other block
    index is zero. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The left operand's block at point `t`, at `(r, k)`, is the array at `(t · 5000 + r, k)`. -/
theorem iblk5_0_apply (c : Dev nD) (t : Fin cfg5.N) (r : Fin 5000) (k : Fin 256) (R : Fin 100000)
    (hR : R.val = t.val * 5000 + r.val) :
    (iblk5 V c 0 t : Vec Ideal S5000x256 .bf16) (ix2 r k)
      = (V c (Pipeline.arrRef spec5 0) : FVec Ideal S100000x256 .bf16) (ix2 R k) := by
  obtain ⟨e0, e1, -⟩ := idx_facts5 t
  unfold iblk5
  rw [View.read_apply]
  show V c (Pipeline.arrRef spec5 0) _ = V c (Pipeline.arrRef spec5 0) _
  congr 1
  funext a; apply Fin.ext
  match a with
  | ⟨0, _⟩ => show win5_0.index t (0 : Fin 2) * 5000 + 1 * r.val = R.val; rw [e0, hR]; omega
  | ⟨1, _⟩ => show win5_0.index t (1 : Fin 2) * 256 + 1 * k.val = k.val; rw [e1]; omega

/-- The right operand's block is the whole array. -/
theorem iblk5_1_apply (c : Dev nD) (t : Fin cfg5.N) (k : Fin 256) (cc : Fin 128) :
    (iblk5 V c 1 t : Vec Ideal S256x128 .bf16) (ix2 k cc)
      = (V c (Pipeline.arrRef spec5 1) : FVec Ideal S256x128 .bf16) (ix2 k cc) := by
  obtain ⟨-, -, e0, e1, -⟩ := idx_facts5 t
  unfold iblk5
  rw [View.read_apply]
  show V c (Pipeline.arrRef spec5 1) _ = V c (Pipeline.arrRef spec5 1) _
  congr 1
  funext a; apply Fin.ext
  match a with
  | ⟨0, _⟩ => show win5_1.index t (0 : Fin 2) * 256 + 1 * k.val = k.val; rw [e0]; omega
  | ⟨1, _⟩ => show win5_1.index t (1 : Fin 2) * 128 + 1 * cc.val = cc.val; rw [e1]; omega

/-- The bias block is the whole bias row. -/
theorem iblk5_2_apply (c : Dev nD) (t : Fin cfg5.N) (cc : Fin 128) :
    (iblk5 V c 2 t : Vec Ideal S1x128 .f32) (ix2 (0 : Fin 1) cc)
      = (V c (Pipeline.arrRef spec5 2) : FVec Ideal S1x128 .f32) (ix2 (0 : Fin 1) cc) := by
  obtain ⟨-, -, -, -, e0, e1, -⟩ := idx_facts5 t
  unfold iblk5
  rw [View.read_apply]
  show V c (Pipeline.arrRef spec5 2) _ = V c (Pipeline.arrRef spec5 2) _
  congr 1
  funext a; apply Fin.ext
  match a with
  | ⟨0, _⟩ => show win5_2.index t (0 : Fin 2) * 1 + 1 * 0 = 0; rw [e0]
  | ⟨1, _⟩ => show win5_2.index t (1 : Fin 2) * 128 + 1 * cc.val = cc.val; rw [e1]; omega

/-- The array the step leaves: the product plus the bias row, then the positive part. -/
def G5 (c : Dev nD) : FVec Ideal S100000x128 .f32 :=
  Cert.Spec.linRelu (φ₁ := .bf16) (φ₂ := .bf16) (φ₃ := .f32) (M := 100000) (K := 256) (N := 128)
    (V c (Pipeline.arrRef spec5 0)) (V c (Pipeline.arrRef spec5 1)) (V c (Pipeline.arrRef spec5 2))

/-- The finished block of point `t` at `(r, c)` is `G5` at `(t · 5000 + r, c)`. -/
theorem blockval5 (c : Dev nD) (t : Fin cfg5.N) (r : Fin 5000) (cc : Fin 128) (R : Fin 100000)
    (hR : R.val = t.val * 5000 + r.val) :
    k5_pay3 (k5_pay2 k5_pay1 (iblk5 V c 0 t) (iblk5 V c 1 t)) (iblk5 V c 2 t) (ix2 r cc) = G5 V c (ix2 R cc) := by
  rw [pay3_5, pay2_5, pay1_5, zero_add, iblk5_2_apply V c t cc]
  unfold G5
  rw [Cert.Spec.linRelu_apply]
  refine congrArg₂ max (congrArg₂ HAdd.hAdd (Finset.sum_congr rfl fun k _ => ?_) ?_) ?_
  · rw [iblk5_0_apply V c t r k R hR, iblk5_1_apply V c t k cc]
    try rfl
  · rfl
  · rfl

/-- What a point writes back is its block of the array `G5`. -/
theorem flushed5_eq (c : Dev nD) (t : Fin cfg5.N) :
    (dat5 V c).flushed 3 t = ((cfg5.win 3).blk t).view.read (Elt Ideal) (G5 V c) := by
  show (cfg5.win 3).cut (grid5.coords t) ((dat5 V c).after 3 t) = _
  rw [after5_3]
  unfold outsAt5
  dsimp only
  rw [out5_D_eq]
  refine funext fun (j : S5000x128.Idx) => ?_
  obtain ⟨r, cc, rfl⟩ : ∃ (r : Fin 5000) (cc : Fin 128), j = ix2 r cc := ⟨j 0, j 1, eq_ix2 j⟩
  have hN : t.val < 20 := lt_of_lt_of_eq t.isLt (show cfg5.N = 20 from N_5)
  have hr : r.val < 5000 := r.isLt
  rw [View.read_apply]
  obtain ⟨-, -, -, -, -, -, e0, e1⟩ := idx_facts5 t
  have hemb : ((cfg5.win 3).blk t).view.emb (ix2 r cc)
      = (ix2 (⟨t.val * 5000 + r.val, by omega⟩ : Fin 100000) cc : S100000x128.Idx) := by
    funext a; apply Fin.ext
    match a with
    | ⟨0, _⟩ => show win5_3.index t (0 : Fin 2) * 5000 + 1 * r.val = t.val * 5000 + r.val; rw [e0]; omega
    | ⟨1, _⟩ => show win5_3.index t (1 : Fin 2) * 128 + 1 * cc.val = cc.val; rw [e1]; omega
  show k5_pay3 (k5_pay2 k5_pay1 (iblk5 V c 0 t) (iblk5 V c 1 t)) (iblk5 V c 2 t) (ix2 r cc)
    = G5 V c (((cfg5.win 3).blk t).view.emb (ix2 r cc))
  rw [hemb]
  exact blockval5 V c t r cc _ rfl

/-- The blocks the points write back cover the array, so the array ends at `G5`. -/
theorem arr_val5_G (c : Dev nD) : (dat5 V c).arrAt 3 cfg5.N = G5 V c :=
  (dat5 V c).arrAt_eq_of_cover 3 (G5 V c) (fun t _ => flushed5_eq V c t) fun i => by
    have hi0 : ((i : S100000x128.Idx) 0).val < 100000 := ((i : S100000x128.Idx) 0).isLt
    have hi1 : ((i : S100000x128.Idx) 1).val < 128 := ((i : S100000x128.Idx) 1).isLt
    have hN : cfg5.N = 20 := N_5
    obtain ⟨t, ht⟩ : ∃ t : Fin cfg5.N, t.val = ((i : S100000x128.Idx) 0).val / 5000 := ⟨⟨_, by omega⟩, rfl⟩
    obtain ⟨-, -, -, -, -, -, e0, e1⟩ := idx_facts5 t
    refine ⟨t, flush5_3 t, ?_⟩
    show i ∈ ((View.whole main_v118).slice (win5_3.rect t)).set
    rw [View.set_slice_whole, Rect.mem_set_unit]
    intro a
    match a with
    | ⟨0, _⟩ =>
      show win5_3.index t (0 : Fin 2) * 5000 ≤ ((i : S100000x128.Idx) 0).val
        ∧ ((i : S100000x128.Idx) 0).val < win5_3.index t (0 : Fin 2) * 5000 + 5000
      rw [e0]; omega
    | ⟨1, _⟩ =>
      show win5_3.index t (1 : Fin 2) * 128 ≤ ((i : S100000x128.Idx) 1).val
        ∧ ((i : S100000x128.Idx) 1).val < win5_3.index t (1 : Fin 2) * 128 + 128
      rw [e1]; omega

/-- The step's output array after the run: the product of its first two arrays plus the bias row, then the positive part,
    entry by entry. -/
theorem arr_val5 (c : Dev nD) :
    (dat5 V c).arrAt 3 cfg5.N
      = Cert.Spec.linRelu (φ₁ := .bf16) (φ₂ := .bf16) (φ₃ := .f32) (M := 100000) (K := 256) (N := 128)
          (V c (Pipeline.arrRef spec5 0)) (V c (Pipeline.arrRef spec5 1)) (V c (Pipeline.arrRef spec5 2)) :=
  arr_val5_G V c

end Value

end Cert.KernelIdeal.Hand

end
-- ==== Proof.PreFacts.lean ====
import proofs.«157756_j25125558682089_1_alg».proof.Defs
import proofs.«157756_j25125558682089_1_alg».proof.Proof.Gen.Pre_finite_inputs
import Idealize.ShloMosaic.Lib.ReduceAll
import Idealize.ShloMosaic.Lib.IdealHost

/-!
# What the precondition says

The precondition is a conjunction of twenty-five array predicates, each an "all" over one
argument array: for every float argument `x`, `|x| < +∞` at every index, and for the two
variance arrays `v ≥ 0` at every index.  Each "all" is a reduction by `and` of an array of
one-bit words down to a single word, and the conjunction is a chain of `and`s of those words;
the precondition states that the final word is `1`.

Read back on the extended reals:

* a word `a and b` is `1` exactly when both are, so every reduction's result is `1`;
* a reduction by `and` that is `1` met only `1`s, so the compared elements satisfy the
  comparison at every index;
* `|x| = max x (-x)` is below `+∞` exactly when `x` is neither infinity, that is, when `x`
  is a real number; and `x ≥ 0` against the pattern of zero is `0 ≤ x`.

The first part of the file proves these facts for an array of any shape; the second part applies
them to the twenty-five conjuncts.
-/

noncomputable section

namespace Cert.PreFacts

open Idealize.ShloMosaic

/-! ## Facts generic in the shape -/

/-- The shape of a scalar: rank zero. -/
abbrev S0 : Shape := ⟨0, ![]⟩

/-- A scalar has exactly one index. -/
instance : Subsingleton S0.Idx := ⟨fun a b => funext fun d => d.elim0⟩

/-- The single-precision pattern `0x7F800000` denotes `+∞`. -/
theorem ofBits_inf_f32 : Ideal.ofBits .f32 0x7F800000#32 = ⊤ := by simp [Ideal.ofBits, Ideal.ieee]

/-- A one-bit word made from a Boolean is `1` exactly when the Boolean is true. -/
theorem ofBool_eq_one (b : Bool) : BitVec.ofBool b = 1#1 ↔ b = true := by cases b <;> decide

/-- `|x| < +∞` says that `x` is a real number: at either infinity `max x (-x) = +∞`. -/
theorem real_of_abs_lt_top (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- `x ≥ 0` as a comparison word is the order's `0 ≤ x`. -/
theorem nonneg_of_ge_zero (x : EReal) (h : Ideal.cmp .oge x 0 = 1#1) : 0 ≤ x := by
  unfold Ideal.cmp at h
  rw [ofBool_eq_one] at h
  simpa using h

/-- "all (|x| < +∞)" over an array of any shape: every element is a real number. -/
theorem finite_of_all {s : Shape} {axes : List (Fin s.rank)} (x : FVec Ideal s .f32)
    (hb : S0.BroadcastsInDim s (![] : Fin 0 → Fin s.rank)) (hr : s.ReducesTo axes S0) (hu : 0 < S0.numel)
    (init : IVec S0 1) (j : S0.Idx)
    (e : Host.reduce IntOp.andi (cmpf .olt (Host.absf x) (broadcastInDim s ![] hb (constant S0 .f32 0x7F800000#32)))
          init hr hu j = 1#1) :
    ∀ i, ∃ r : ℝ, x i = r := by
  intro i
  have h := Host.reduce_andi_all _ init hr hu j e i
  apply real_of_abs_lt_top
  rw [← ofBits_inf_f32]
  exact h

/-- "all (x ≥ 0)" over an array of any shape: every element is at least zero. -/
theorem nonneg_of_all {s : Shape} {axes : List (Fin s.rank)} (x : FVec Ideal s .f32)
    (hb : S0.BroadcastsInDim s (![] : Fin 0 → Fin s.rank)) (hr : s.ReducesTo axes S0) (hu : 0 < S0.numel)
    (init : IVec S0 1) (j : S0.Idx)
    (e : Host.reduce IntOp.andi (cmpf .oge x (broadcastInDim s ![] hb (constant S0 .f32 0x00000000#32)))
          init hr hu j = 1#1) :
    ∀ i, (0 : EReal) ≤ x i := by
  intro i
  have h := Host.reduce_andi_all _ init hr hu j e i
  apply nonneg_of_ge_zero
  rw [← Ideal.ofBits_zero_f32]
  exact h

/-! ## The twenty-five conjuncts -/

open Cert.Pre_finite_inputs in
/-- The precondition decoded: every float argument is real at every index, and the two variance arrays are
    nowhere negative. -/
theorem finite_of_pre [Cert.Pre_finite_inputs.Facts]
    (a0 : FVec Ideal S1024x9577 .f32) (a1 a2 : IVec S800000 32) (a3 : IVec S100000 32)
    (a4 : FVec Ideal S9577x2048 .f32) (a5 a6 a7 a8 a9 : FVec Ideal S2048 .f32)
    (a10 : FVec Ideal S2048x512 .f32) (a11 a12 a13 a14 a15 : FVec Ideal S512 .f32)
    (a16 : FVec Ideal S512x128 .f32) (a17 : FVec Ideal S128 .f32) (a18 : FVec Ideal S1x128 .f32)
    (a19 : FVec Ideal S128 .f32) (a20 : FVec Ideal S128x256 .f32) (a21 : FVec Ideal S256 .f32)
    (a22 : FVec Ideal S256x128 .f32) (a23 : FVec Ideal S128 .f32) (a24 : FVec Ideal S256x1 .f32)
    (a25 : FVec Ideal S1 .f32)
    (h : Cert.Pre_finite_inputs.fn (F := Ideal) a0 a1 a2 a3 a4 a5 a6 a7 a8 a9 a10 a11 a12 a13 a14 a15 a16 a17 a18 a19 a20 a21 a22 a23 a24 a25 = fun _ => 1#1) :
    (∀ i, ∃ r : ℝ, a0 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) ∧
      (∀ i, ∃ r : ℝ, a21 i = (r : EReal)) ∧
      (∀ i, ∃ r : ℝ, a22 i = (r : EReal)) ∧
      (∀ i, ∃ r : ℝ, a23 i = (r : EReal)) ∧
      (∀ i, ∃ r : ℝ, a24 i = (r : EReal)) ∧
      (∀ i, ∃ r : ℝ, a25 i = (r : EReal)) ∧
      (∀ i, (0 : EReal) ≤ a9 i) ∧ (∀ i, (0 : EReal) ≤ a15 i) := by
  have e := congrFun h ValueIdx.ix0
  dsimp only [fn, fn_part1, fn_part2, fn_part3, fn_part4, fn_part5, fn_part6, fn_part7] at e
  simp only [andi, IntOp.andi_eq_one] at e
  obtain ⟨⟨⟨⟨⟨⟨⟨⟨⟨⟨⟨⟨⟨⟨⟨⟨⟨⟨⟨⟨⟨⟨⟨⟨h0, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, n9⟩, n15⟩ := e
  exact ⟨finite_of_all a0 _ _ _ _ _ h0,
    finite_of_all a4 _ _ _ _ _ h4,
    finite_of_all a5 _ _ _ _ _ h5,
    finite_of_all a6 _ _ _ _ _ h6,
    finite_of_all a7 _ _ _ _ _ h7,
    finite_of_all a8 _ _ _ _ _ h8,
    finite_of_all a9 _ _ _ _ _ h9,
    finite_of_all a10 _ _ _ _ _ h10,
    finite_of_all a11 _ _ _ _ _ h11,
    finite_of_all a12 _ _ _ _ _ h12,
    finite_of_all a13 _ _ _ _ _ h13,
    finite_of_all a14 _ _ _ _ _ h14,
    finite_of_all a15 _ _ _ _ _ h15,
    finite_of_all a16 _ _ _ _ _ h16,
    finite_of_all a17 _ _ _ _ _ h17,
    finite_of_all a18 _ _ _ _ _ h18,
    finite_of_all a19 _ _ _ _ _ h19,
    finite_of_all a20 _ _ _ _ _ h20,
    finite_of_all a21 _ _ _ _ _ h21,
    finite_of_all a22 _ _ _ _ _ h22,
    finite_of_all a23 _ _ _ _ _ h23,
    finite_of_all a24 _ _ _ _ _ h24,
    finite_of_all a25 _ _ _ _ _ h25,
    nonneg_of_all a9 _ _ _ _ _ n9, nonneg_of_all a15 _ _ _ _ _ n15⟩

/-- The same, read off the precondition of the idealized kernel at a device: every float argument array the
    launch memory holds is real everywhere, and the two variance arrays are nowhere negative. -/
theorem finite_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
      (∀ i, ∃ r : ℝ, m ((c.tc : Thread Cert.KernelIdeal.nD Cert.KernelIdeal.τ).loc Cert.KernelIdeal.main_arg4) i = (r : EReal)) ∧
      (∀ i, ∃ r : ℝ, m ((c.tc : Thread Cert.KernelIdeal.nD Cert.KernelIdeal.τ).loc Cert.KernelIdeal.main_arg5) i = (r : EReal)) ∧
      (∀ i, ∃ r : ℝ, m ((c.tc : Thread Cert.KernelIdeal.nD Cert.KernelIdeal.τ).loc Cert.KernelIdeal.main_arg6) i = (r : EReal)) ∧
      (∀ i, ∃ r : ℝ, m ((c.tc : Thread Cert.KernelIdeal.nD Cert.KernelIdeal.τ).loc Cert.KernelIdeal.main_arg7) i = (r : EReal)) ∧
      (∀ i, ∃ r : ℝ, m ((c.tc : Thread Cert.KernelIdeal.nD Cert.KernelIdeal.τ).loc Cert.KernelIdeal.main_arg8) i = (r : EReal)) ∧
      (∀ i, ∃ r : ℝ, m ((c.tc : Thread Cert.KernelIdeal.nD Cert.KernelIdeal.τ).loc Cert.KernelIdeal.main_arg9) i = (r : EReal)) ∧
      (∀ i, ∃ r : ℝ, m ((c.tc : Thread Cert.KernelIdeal.nD Cert.KernelIdeal.τ).loc Cert.KernelIdeal.main_arg10) i = (r : EReal)) ∧
      (∀ i, ∃ r : ℝ, m ((c.tc : Thread Cert.KernelIdeal.nD Cert.KernelIdeal.τ).loc Cert.KernelIdeal.main_arg11) i = (r : EReal)) ∧
      (∀ i, ∃ r : ℝ, m ((c.tc : Thread Cert.KernelIdeal.nD Cert.KernelIdeal.τ).loc Cert.KernelIdeal.main_arg12) i = (r : EReal)) ∧
      (∀ i, ∃ r : ℝ, m ((c.tc : Thread Cert.KernelIdeal.nD Cert.KernelIdeal.τ).loc Cert.KernelIdeal.main_arg13) i = (r : EReal)) ∧
      (∀ i, ∃ r : ℝ, m ((c.tc : Thread Cert.KernelIdeal.nD Cert.KernelIdeal.τ).loc Cert.KernelIdeal.main_arg14) i = (r : EReal)) ∧
      (∀ i, ∃ r : ℝ, m ((c.tc : Thread Cert.KernelIdeal.nD Cert.KernelIdeal.τ).loc Cert.KernelIdeal.main_arg15) i = (r : EReal)) ∧
      (∀ i, ∃ r : ℝ, m ((c.tc : Thread Cert.KernelIdeal.nD Cert.KernelIdeal.τ).loc Cert.KernelIdeal.main_arg16) i = (r : EReal)) ∧
      (∀ i, ∃ r : ℝ, m ((c.tc : Thread Cert.KernelIdeal.nD Cert.KernelIdeal.τ).loc Cert.KernelIdeal.main_arg17) i = (r : EReal)) ∧
      (∀ i, ∃ r : ℝ, m ((c.tc : Thread Cert.KernelIdeal.nD Cert.KernelIdeal.τ).loc Cert.KernelIdeal.main_arg18) i = (r : EReal)) ∧
      (∀ i, ∃ r : ℝ, m ((c.tc : Thread Cert.KernelIdeal.nD Cert.KernelIdeal.τ).loc Cert.KernelIdeal.main_arg19) i = (r : EReal)) ∧
      (∀ i, ∃ r : ℝ, m ((c.tc : Thread Cert.KernelIdeal.nD Cert.KernelIdeal.τ).loc Cert.KernelIdeal.main_arg20) i = (r : EReal)) ∧
      (∀ i, ∃ r : ℝ, m ((c.tc : Thread Cert.KernelIdeal.nD Cert.KernelIdeal.τ).loc Cert.KernelIdeal.main_arg21) i = (r : EReal)) ∧
      (∀ i, ∃ r : ℝ, m ((c.tc : Thread Cert.KernelIdeal.nD Cert.KernelIdeal.τ).loc Cert.KernelIdeal.main_arg22) i = (r : EReal)) ∧
      (∀ i, ∃ r : ℝ, m ((c.tc : Thread Cert.KernelIdeal.nD Cert.KernelIdeal.τ).loc Cert.KernelIdeal.main_arg23) i = (r : EReal)) ∧
      (∀ i, ∃ r : ℝ, m ((c.tc : Thread Cert.KernelIdeal.nD Cert.KernelIdeal.τ).loc Cert.KernelIdeal.main_arg24) i = (r : EReal)) ∧
      (∀ i, ∃ r : ℝ, m ((c.tc : Thread Cert.KernelIdeal.nD Cert.KernelIdeal.τ).loc Cert.KernelIdeal.main_arg25) i = (r : EReal)) ∧
      (∀ i, (0 : EReal) ≤ m ((c.tc : Thread Cert.KernelIdeal.nD Cert.KernelIdeal.τ).loc Cert.KernelIdeal.main_arg9) i) ∧ (∀ i, (0 : EReal) ≤ m ((c.tc : Thread Cert.KernelIdeal.nD Cert.KernelIdeal.τ).loc Cert.KernelIdeal.main_arg15) i) :=
  finite_of_pre _ _ _ _ _ _ _ _ _ _ _ _ _ _ _ _ _ _ _ _ _ _ _ _ _ _ (h c)

end Cert.PreFacts

end
-- ==== Proof.DescHost.lean ====
/-
  The operands of the three descriptor-branch products, as the host operations leave them.

  Before the first product the host program folds the first normalisation into `W1` and `b1` and pads the contracted
  axis from 9577 to 9600; before the second it folds the second normalisation into `W2` and `b2`; before the third it
  only changes float formats and makes `b3` a one-row matrix. Each lemma here states the contents of one operand buffer
  at the moment its product starts, as the host operations' composed term over the program's arguments; a product's
  output buffer, once written, is not touched by the host operations that follow it.
-/
import proofs.«157756_j25125558682089_1_alg».proof.Proof.Gen.KernelIdeal.Regions
import Idealize.ShloMosaic.PureOps.Ideal.Laws

noncomputable section

namespace Cert.DescBranch

open Idealize.ShloMosaic Idealize.ShloMosaic.TcCoe Idealize.ShloMosaic.StableHlo Cert.KernelIdeal Cert.KernelIdeal.Gen

variable (m : (ℓ : Loc nD τ sig) → Buf (Elt Ideal) ℓ) (outs : Outs (F := Ideal)) (c : Dev nD)

/-- The program's arguments on core `c`, at their tensor types. -/
abbrev a0 : FVec Ideal S1024x9577 .f32 := V0 m c main_arg0
abbrev a4 : FVec Ideal S9577x2048 .f32 := V0 m c main_arg4
abbrev a5 : FVec Ideal S2048 .f32 := V0 m c main_arg5
abbrev a6 : FVec Ideal S2048 .f32 := V0 m c main_arg6
abbrev a7 : FVec Ideal S2048 .f32 := V0 m c main_arg7
abbrev a8 : FVec Ideal S2048 .f32 := V0 m c main_arg8
abbrev a9 : FVec Ideal S2048 .f32 := V0 m c main_arg9
abbrev a10 : FVec Ideal S2048x512 .f32 := V0 m c main_arg10
abbrev a11 : FVec Ideal S512 .f32 := V0 m c main_arg11
abbrev a12 : FVec Ideal S512 .f32 := V0 m c main_arg12
abbrev a13 : FVec Ideal S512 .f32 := V0 m c main_arg13
abbrev a14 : FVec Ideal S512 .f32 := V0 m c main_arg14
abbrev a15 : FVec Ideal S512 .f32 := V0 m c main_arg15
abbrev a16 : FVec Ideal S512x128 .f32 := V0 m c main_arg16
abbrev a17 : FVec Ideal S128 .f32 := V0 m c main_arg17

/-- The per-column factor `g · 1/√(v + ε)` of the first normalisation. -/
abbrev scale1 : FVec Ideal S2048 .f32 :=
  mulf (a6 m c) (Host.rsqrt (addf (a9 m c) (broadcastInDim S2048 ![] bcast_S_S2048 (constant (F := Ideal) S_ .f32 0x3727C5AC#32))))

/-- The per-column factor of the second normalisation. -/
abbrev scale2 : FVec Ideal S512 .f32 :=
  mulf (a12 m c) (Host.rsqrt (addf (a15 m c) (broadcastInDim S512 ![] bcast_S_S512 (constant (F := Ideal) S_ .f32 0x3727C5AC#32))))

/-- The padding value: the integer zero as a float. -/
abbrev zeroPad : FVec Ideal S_ .f32 := sitofp (F := Ideal) .f32 (constantI S_ 32 0#32)

/-- The left operand of the first product: the descriptors, zero-padded to 9600 columns. -/
theorem v22_eq : (V5 m c main_v22 : FVec Ideal S1024x9600 .bf16)
    = truncf .bf16 (pad S1024x9600 ![0, 0] ![0, 23] ![0, 0] (a0 m c) zeroPad pads_S1024x9577_S1024x9600_000_0230 h_S_) bitsLt_bf16_f32 := by
  dsimp only [V5, V4, V3, V2, V1, V0, hostOps0_4, hostOps0_3, hostOps0_2, hostOps0_1, hostOps0]
  after_results
  rfl

/-- The right operand of the first product: `W1` with column `c` scaled, zero-padded to 9600 rows. -/
theorem v23_eq : (V5 m c main_v23 : FVec Ideal S9600x2048 .bf16)
    = truncf .bf16 (pad S9600x2048 ![0, 0] ![23, 0] ![0, 0]
        (mulf (a4 m c) (broadcastInDim S9577x2048 ![0, 1] bcast_S1x2048_S9577x2048_0_1
          (broadcastInDim S1x2048 ![1] bcast_S2048_S1x2048_1 (scale1 m c))))
        zeroPad pads_S9577x2048_S9600x2048_0230_000 h_S_) bitsLt_bf16_f32 := by
  dsimp only [V5, V4, V3, V2, V1, V0, hostOps0_4, hostOps0_3, hostOps0_2, hostOps0_1, hostOps0]
  after_results
  rfl

/-- The bias row of the first product: `(b1 − m1) · scale1 + be1` as a one-row matrix. -/
theorem v24_eq : (V5 m c main_v24 : FVec Ideal S1x2048 .f32)
    = shapeCast S1x2048 (addf (mulf (subf (a5 m c) (a8 m c)) (scale1 m c)) (a7 m c)) shapeCasts_S2048_S1x2048 := by
  dsimp only [V5, V4, V3, V2, V1, V0, hostOps0_4, hostOps0_3, hostOps0_2, hostOps0_1, hostOps0]
  after_results
  rfl

/-- `W2` with column `c` scaled, as the host operations before the first product leave it. -/
theorem v16_at5 : (V5 m c main_v16 : FVec Ideal S2048x512 .f32)
    = mulf (a10 m c) (broadcastInDim S2048x512 ![0, 1] bcast_S1x512_S2048x512_0_1
        (broadcastInDim S1x512 ![1] bcast_S512_S1x512_1 (scale2 m c))) := by
  dsimp only [V5, V4, V3, V2, V1, V0, hostOps0_4, hostOps0_3, hostOps0_2, hostOps0_1, hostOps0]
  after_results_simp

/-- The folded second bias, as the host operations before the first product leave it. -/
theorem v19_at5 : (V5 m c main_v19 : FVec Ideal S512 .f32)
    = addf (mulf (subf (a11 m c) (a14 m c)) (scale2 m c)) (a13 m c) := by
  dsimp only [V5, V4, V3, V2, V1, V0, hostOps0_4, hostOps0_3, hostOps0_2, hostOps0_1, hostOps0]
  after_results_simp

/-- Reads a buffer through the host operations and the products before it: a host operation's own result buffer holds
    its function's value, any other buffer holds what was there before, and so does a buffer other than the one a product
    has just written. -/
macro "host_results" : tactic =>
  `(tactic| (simp only [after_cons, after_nil]
             repeat (first
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide)
               | (rw [Function.update_of_ne]; rotate_left; decide))))

/-- The first product's output is still in place when the second product starts. -/
theorem v25_at7 : (V7 m outs c main_v25 : FVec Ideal S1024x2048 .bf16) = outs 6 main_v25 c := by
  dsimp only [V7, V6, hostOps1]
  after_results
  exact Function.update_self _ _ _

/-- The right operand of the second product: `W2` with column `c` scaled. -/
theorem v26_eq : (V7 m outs c main_v26 : FVec Ideal S2048x512 .bf16)
    = truncf .bf16 (mulf (a10 m c) (broadcastInDim S2048x512 ![0, 1] bcast_S1x512_S2048x512_0_1
        (broadcastInDim S1x512 ![1] bcast_S512_S1x512_1 (scale2 m c)))) bitsLt_bf16_f32 := by
  rw [← v16_at5 m c]
  dsimp only [V7, V6, hostOps1]
  generalize V5 m c = W
  host_results
  try rfl

/-- The bias row of the second product: `(b2 − m2) · scale2 + be2` as a one-row matrix. -/
theorem v27_eq : (V7 m outs c main_v27 : FVec Ideal S1x512 .f32)
    = shapeCast S1x512 (addf (mulf (subf (a11 m c) (a14 m c)) (scale2 m c)) (a13 m c)) shapeCasts_S512_S1x512 := by
  rw [← v19_at5 m c]
  dsimp only [V7, V6, hostOps1]
  generalize V5 m c = W
  host_results
  try rfl

/-- The second product's output is still in place when the third product starts. -/
theorem v28_at9 : (V9 m outs c main_v28 : FVec Ideal S1024x512 .bf16) = outs 8 main_v28 c := by
  dsimp only [V9, V8, hostOps2]
  after_results
  exact Function.update_self _ _ _

/-- The right operand of the third product: `W3`. -/
theorem v29_eq : (V9 m outs c main_v29 : FVec Ideal S512x128 .bf16) = truncf .bf16 (a16 m c) bitsLt_bf16_f32 := by
  dsimp only [V9, V8, V7, V6, V5, V4, V3, V2, V1, V0, hostOps2, hostOps1, hostOps0_4, hostOps0_3, hostOps0_2, hostOps0_1,
    hostOps0]
  host_results

/-- The bias row of the third product: `b3` as a one-row matrix. -/
theorem v30_eq : (V9 m outs c main_v30 : FVec Ideal S1x128 .f32) = shapeCast S1x128 (a17 m c) shapeCasts_S128_S1x128 := by
  dsimp only [V9, V8, V7, V6, V5, V4, V3, V2, V1, V0, hostOps2, hostOps1, hostOps0_4, hostOps0_3, hostOps0_2, hostOps0_1,
    hostOps0]
  host_results
  rfl

/-- The third product's output is the branch's result. -/
theorem v31_at10 : (V10 m outs c main_v31 : FVec Ideal S1024x128 .f32) = outs 10 main_v31 c :=
  Function.update_self _ _ _

end Cert.DescBranch

end
-- ==== Proof.DescLayout.lean ====
/-
  Layout operations of the descriptor branch, read at an index.

  The folded weights and biases reach the matrix products through a few re-indexing operations, none of which
  computes anything:

  * a zero padding of the contracted axis — columns of the left operand, rows of the right operand: inside the
    original extent the padded array is the original, outside it is the padding value;
  * a vector of per-column factors copied into every row of a matrix (a vector made a one-row matrix, the row then
    copied);
  * a vector made a one-row matrix (the bias row).

  Nothing here depends on the element type.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.DescBranch

open Idealize.ShloMosaic Idealize.ShloMosaic.ValueIdx

variable {α : Type}

/-- Columns padded on the right: entry `(r, k)` of the padded array is entry `(r, k)` of the original for
    `k < K`, and the padding value beyond. -/
theorem pad_cols_apply {M K Kp P : Nat} (x : (⟨2, ![M, K]⟩ : Shape).Idx → α) {u : Shape} (v : u.Idx → α)
    (h : (⟨2, ![M, K]⟩ : Shape).Pads (![0, 0] : Fin 2 → Nat) ![0, P] ![0, 0] ⟨2, ![M, Kp]⟩) (hu : 0 < u.numel)
    (r : Fin M) (k : Fin Kp) :
    pad ⟨2, ![M, Kp]⟩ ![0, 0] ![0, P] ![0, 0] x v h hu (ix2 r k)
      = if hk : k.val < K then x (ix2 r (⟨k.val, hk⟩ : Fin K)) else v (Shape.Idx.first hu) := by
  by_cases hk : k.val < K
  · rw [dif_pos hk]
    exact pad_apply_of_inside _ _ _ x v h hu _ (ix2 r (⟨k.val, hk⟩ : Fin K)) (by
      intro a
      match a with
      | ⟨0, _⟩ => show r.val = 0 + r.val * (0 + 1); omega
      | ⟨1, _⟩ => show k.val = 0 + k.val * (0 + 1); omega)
  · rw [dif_neg hk]
    exact pad_apply_of_not_inside _ _ _ x v h hu _ (1 : Fin 2) (by
      intro hin
      have e : (k.val - 0) / (0 + 1) < K := hin.2.2
      omega)

/-- Rows padded at the bottom: entry `(k, c)` of the padded array is entry `(k, c)` of the original for
    `k < K`, and the padding value beyond. -/
theorem pad_rows_apply {K Kp N P : Nat} (x : (⟨2, ![K, N]⟩ : Shape).Idx → α) {u : Shape} (v : u.Idx → α)
    (h : (⟨2, ![K, N]⟩ : Shape).Pads (![0, 0] : Fin 2 → Nat) ![P, 0] ![0, 0] ⟨2, ![Kp, N]⟩) (hu : 0 < u.numel)
    (k : Fin Kp) (c : Fin N) :
    pad ⟨2, ![Kp, N]⟩ ![0, 0] ![P, 0] ![0, 0] x v h hu (ix2 k c)
      = if hk : k.val < K then x (ix2 (⟨k.val, hk⟩ : Fin K) c) else v (Shape.Idx.first hu) := by
  by_cases hk : k.val < K
  · rw [dif_pos hk]
    exact pad_apply_of_inside _ _ _ x v h hu _ (ix2 (⟨k.val, hk⟩ : Fin K) c) (by
      intro a
      match a with
      | ⟨0, _⟩ => show k.val = 0 + k.val * (0 + 1); omega
      | ⟨1, _⟩ => show c.val = 0 + c.val * (0 + 1); omega)
  · rw [dif_neg hk]
    exact pad_apply_of_not_inside _ _ _ x v h hu _ (0 : Fin 2) (by
      intro hin
      have e : (k.val - 0) / (0 + 1) < K := hin.2.2
      omega)

/-- A vector made a one-row matrix and the row copied into `K` rows: entry `(k, c)` is the vector's entry `c`. -/
theorem everyRow_apply {K N : Nat} (x : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![K, N]⟩ ![0, 1]) (k : Fin K) (c : Fin N) :
    broadcastInDim ⟨2, ![K, N]⟩ ![0, 1] h2 (broadcastInDim ⟨2, ![1, N]⟩ ![1] h1 x) (ix2 k c) = x (ix1 c) := by
  refine (broadcastInDim_apply _ h2 _ (ix2 k c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else k.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- The integer zero converted to a float is the extended real zero. -/
theorem sitofp_zero_apply {u : Shape} (i : u.Idx) :
    sitofp (F := Ideal) .f32 (constantI u 32 0#32) i = (0 : EReal) := by
  show (((0#32 : BitVec 32).toInt : ℝ) : EReal) = 0
  simp

/-- The variance floor `ε` (the single-precision number nearest to `10⁻⁵`) is a positive real. -/
theorem eps_real : ∃ e : ℝ, 0 < e ∧ Ideal.ofBits .f32 0x3727C5AC#32 = (e : EReal) := by
  refine ⟨_, ?_, by simp [Ideal.ofBits, Ideal.ieee]; rfl⟩
  positivity

end Cert.DescBranch

end
-- ==== Proof.DescRead.lean ====
/-
  The folded operands read entry by entry, on the extended reals.

  On the extended reals a change of float format is the identity and every elementwise operation is the exact one, so
  the host program's composed terms for the operands of the descriptor-branch products read, at an entry:

  * the per-column factor: `g c · 1/√(v c + ε)`;
  * the padded left operand: the original entry inside the original extent, zero beyond;
  * the folded, padded right operand: `W (k, c) · factor c` inside, zero beyond;
  * the folded right operand without padding: `W (k, c) · factor c`;
  * the folded bias row: `(b c − mu c) · factor c + be c`;
  * a vector made a one-row matrix: its entry `c`.
-/
import proofs.«157756_j25125558682089_1_alg».proof.Proof.DescLayout

noncomputable section

namespace Cert.DescBranch

open Idealize.ShloMosaic Idealize.ShloMosaic.ValueIdx

variable {M K Kp N P : Nat}

/-- The per-column factor at column `i`. -/
theorem scale_apply {s : Shape} (g v : FVec Ideal s .f32)
    (h0 : (⟨0, ![]⟩ : Shape).BroadcastsInDim s (![] : Fin 0 → Fin s.rank)) (w : BitVec 32) (i : s.Idx) :
    mulf g (Host.rsqrt (addf v (broadcastInDim s ![] h0 (constant (F := Ideal) ⟨0, ![]⟩ .f32 w)))) i
      = g i * Ideal.rsqrt (v i + Ideal.ofBits .f32 w) := by
  show g i * Ideal.rsqrt (v i + broadcastInDim s ![] h0 (constant (F := Ideal) ⟨0, ![]⟩ .f32 w) i) = _
  rw [broadcastInDim_apply _ h0 _ i ix0 (fun a => a.elim0)]
  rfl

/-- The left operand padded with zero columns, at `(r, k)`. -/
theorem padCols_apply (x : FVec Ideal ⟨2, ![M, K]⟩ .f32) {u : Shape} (z : FVec Ideal u .f32) (hz : ∀ i, z i = 0)
    (hP : (⟨2, ![M, K]⟩ : Shape).Pads (![0, 0] : Fin 2 → Nat) ![0, P] ![0, 0] ⟨2, ![M, Kp]⟩) (hU : 0 < u.numel)
    (hlt : FTy.bits .bf16 < FTy.bits .f32) (r : Fin M) (k : Fin Kp) :
    truncf .bf16 (pad ⟨2, ![M, Kp]⟩ ![0, 0] ![0, P] ![0, 0] x z hP hU) hlt (ix2 r k)
      = if hk : k.val < K then x (ix2 r (⟨k.val, hk⟩ : Fin K)) else 0 := by
  show pad ⟨2, ![M, Kp]⟩ ![0, 0] ![0, P] ![0, 0] x z hP hU (ix2 r k) = _
  refine (pad_cols_apply x z hP hU r k).trans ?_
  by_cases hk : k.val < K
  · rw [dif_pos hk, dif_pos hk]
  · rw [dif_neg hk, dif_neg hk, hz]

/-- The right operand with column `c` scaled by `s c`, padded with zero rows, at `(k, c)`. -/
theorem foldedPadRows_apply (W : FVec Ideal ⟨2, ![K, N]⟩ .f32) (s : FVec Ideal ⟨1, ![N]⟩ .f32) {u : Shape}
    (z : FVec Ideal u .f32) (hz : ∀ i, z i = 0)
    (h1 : (⟨1, ![N]⟩ : Shape).BroadcastsInDim ⟨2, ![1, N]⟩ ![1])
    (h2 : (⟨2, ![1, N]⟩ : Shape).BroadcastsInDim ⟨2, ![K, N]⟩ ![0, 1])
    (hP : (⟨2, ![K, N]⟩ : Shape).Pads (![0, 0] : Fin 2 → Nat) ![P, 0] ![0, 0] ⟨2, ![Kp, N]⟩) (hU : 0 < u.numel)
    (hlt : FTy.bits .bf16 < FTy.bits .f32) (k : Fin Kp) (c : Fin N) :
    truncf .bf16 (pad ⟨2, ![Kp, N]⟩ ![0, 0] ![P, 0] ![0, 0]
        (mulf W (broadcastInDim ⟨2, ![K, N]⟩ ![0, 1] h2 (broadcastInDim ⟨2, ![1, N]⟩ ![1] h1 s))) z hP hU) hlt (ix2 k c)
      = if hk : k.val < K then W (ix2 (⟨k.val, hk⟩ : Fin K) c) * s (ix1 c) else 0 := by
  show pad ⟨2, ![Kp, N]⟩ ![0, 0] ![P, 0] ![0, 0]
        (mulf W (broadcastInDim ⟨2, ![K, N]⟩ ![0, 1] h2 (broadcastInDim ⟨2, ![1, N]⟩ ![1] h1 s))) z hP hU (ix2 k c) = _
  refine (pad_rows_apply _ z hP hU k c).trans ?_
  by_cases hk : k.val < K
  · rw [dif_pos hk, dif_pos hk]
    show W (ix2 (⟨k.val, hk⟩ : Fin K) c)
        * broadcastInDim ⟨2, ![K, N]⟩ ![0, 1] h2 (broadcastInDim ⟨2, ![1, N]⟩ ![1] h1 s) (ix2 (⟨k.val, hk⟩ : Fin K) c) = _
    rw [everyRow_apply s h1 h2]
  · rw [dif_neg hk, dif_neg hk, hz]

/-- The right operand with column `c` scaled by `s c`, at `(k, c)`. -/
theorem folded_apply (W : FVec Ideal ⟨2, ![K, N]⟩ .f32) (s : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![K, N]⟩ ![0, 1])
    (hlt : FTy.bits .bf16 < FTy.bits .f32) (k : Fin K) (c : Fin N) :
    truncf .bf16 (mulf W (broadcastInDim ⟨2, ![K, N]⟩ ![0, 1] h2 (broadcastInDim ⟨2, ![1, N]⟩ ![1] h1 s))) hlt (ix2 k c)
      = W (ix2 k c) * s (ix1 c) := by
  show W (ix2 k c) * broadcastInDim ⟨2, ![K, N]⟩ ![0, 1] h2 (broadcastInDim ⟨2, ![1, N]⟩ ![1] h1 s) (ix2 k c) = _
  rw [everyRow_apply s h1 h2]

/-- The folded bias as a one-row matrix, at column `c`. -/
theorem foldedBias_apply (b mu s be : FVec Ideal ⟨1, ![N]⟩ .f32)
    (hc : (⟨1, ![N]⟩ : Shape).ShapeCasts ⟨2, ![1, N]⟩) (c : Fin N) :
    shapeCast ⟨2, ![1, N]⟩ (addf (mulf (subf b mu) s) be) hc (ix2 (0 : Fin 1) c)
      = (b (ix1 c) - mu (ix1 c)) * s (ix1 c) + be (ix1 c) :=
  (shapeCast_a_1a_apply _ hc (0 : Fin 1) c).trans rfl

/-- A vector made a one-row matrix, at column `c`. -/
theorem row_apply {φ : FTy} (b : FVec Ideal ⟨1, ![N]⟩ φ) (hc : (⟨1, ![N]⟩ : Shape).ShapeCasts ⟨2, ![1, N]⟩) (c : Fin N) :
    shapeCast ⟨2, ![1, N]⟩ b hc (ix2 (0 : Fin 1) c) = b (ix1 c) :=
  shapeCast_a_1a_apply b hc (0 : Fin 1) c

end Cert.DescBranch

end
-- ==== Proof.LibBnFold.lean ====
import Mathlib.Data.EReal.Inv
import Mathlib.Algebra.BigOperators.Fin
import Idealize.ShloMosaic.PureOps.Ideal

/-!
# Folding a batch normalisation into the affine layer before it

A batch-normalised affine layer computes, for each output feature,

  `(((∑ k, x k * w k) + b) - m) * s * g + be`

where `m` is the running mean, `s = 1 / √(v + ε)` the reciprocal standard deviation,
`g` the scale and `be` the shift.  The same number is obtained from an affine layer whose
weights and bias have absorbed the normalisation,

  `(∑ k, x k * (w k * (g * s))) + ((b - m) * (g * s) + be)`.

On the real numbers this is distributivity.  On the extended reals `EReal` multiplication
does not distribute over addition in general, so the identity is proved here for operands
that are (coercions of) real numbers, by moving every coercion to the outside and arguing in
`ℝ`.  The file also records

* that `1 / √(v + ε)` is a (positive) real when `v ≥ 0` and `ε > 0`;
* that a finite sum whose terms vanish from index `n` on equals the sum of its first `n`
  terms (zero padding of a contracted axis changes nothing);
* closure of "is a real number" under sum, difference, product, finite sums and
  `max · 0`, so that the output of one layer can feed the next.
-/

namespace Cert.BnFold

open Idealize.ShloMosaic
open scoped BigOperators

/-! ### Coercion of a finite sum -/

/-- The coercion `ℝ → EReal` commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-! ### The reciprocal square root of a positive real is a positive real -/

/-- `rsqrt` of a positive real is the real `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- For `v ≥ 0` and `ε > 0`, `rsqrt (v + ε)` is a real number. -/
theorem rsqrt_pos_real {v eps : ℝ} (hv : 0 ≤ v) (he : 0 < eps) :
    ∃ s : ℝ, Ideal.rsqrt ((v : EReal) + (eps : EReal)) = (s : EReal) := by
  have hpos : 0 < v + eps := by linarith
  exact ⟨(Real.sqrt (v + eps))⁻¹, by rw [← EReal.coe_add, rsqrt_coe_of_pos hpos]⟩

/-- The same, with the value named and its positivity recorded. -/
theorem rsqrt_pos_real' {v eps : ℝ} (hv : 0 ≤ v) (he : 0 < eps) :
    ∃ s : ℝ, 0 < s ∧ Ideal.rsqrt ((v : EReal) + (eps : EReal)) = (s : EReal) := by
  have hpos : 0 < v + eps := by linarith
  exact ⟨(Real.sqrt (v + eps))⁻¹, inv_pos.mpr (Real.sqrt_pos.mpr hpos),
    by rw [← EReal.coe_add, rsqrt_coe_of_pos hpos]⟩

/-- The form used on extended reals: `V` is a real that is `≥ 0`, `E` a positive real. -/
theorem rsqrt_real_of_nonneg {V E : EReal} (hV : ∃ r : ℝ, V = r) (hV0 : 0 ≤ V)
    (hE : ∃ e : ℝ, 0 < e ∧ E = e) : ∃ s : ℝ, Ideal.rsqrt (V + E) = (s : EReal) := by
  obtain ⟨v, rfl⟩ := hV
  obtain ⟨e, he, rfl⟩ := hE
  exact rsqrt_pos_real (EReal.coe_nonneg.mp hV0) he

/-! ### The fold identity -/

/-- Folding the normalisation into the weights and the bias, for real operands. -/
theorem fold_eq {ι : Type*} [Fintype ι] (x w : ι → ℝ) (b m g be s : ℝ) :
    (∑ k, (x k : EReal) * ((w k : EReal) * ((g : EReal) * (s : EReal))))
        + ((((b : EReal) - (m : EReal)) * ((g : EReal) * (s : EReal))) + (be : EReal))
      = (((((∑ k, (x k : EReal) * (w k : EReal)) + (b : EReal)) - (m : EReal)) * (s : EReal))
          * (g : EReal)) + (be : EReal) := by
  have h : ∑ k, x k * (w k * (g * s)) = (∑ k, x k * w k) * (g * s) := by
    rw [Finset.sum_mul]; exact Finset.sum_congr rfl (fun k _ => by ring)
  simp only [← EReal.coe_mul, ← coe_sum, ← EReal.coe_add, ← EReal.coe_sub]
  rw [h]
  congr 1
  ring

/-- The fold identity for extended reals each of which is known to be a real number. -/
theorem fold_eq_of_real {ι : Type*} [Fintype ι] (X W : ι → EReal) (b m g be s : EReal)
    (hX : ∀ k, ∃ r : ℝ, X k = r) (hW : ∀ k, ∃ r : ℝ, W k = r)
    (hb : ∃ r : ℝ, b = r) (hm : ∃ r : ℝ, m = r) (hg : ∃ r : ℝ, g = r)
    (hbe : ∃ r : ℝ, be = r) (hs : ∃ r : ℝ, s = r) :
    (∑ k, X k * (W k * (g * s))) + (((b - m) * (g * s)) + be)
      = (((((∑ k, X k * W k) + b) - m) * s) * g) + be := by
  choose x hx using hX
  choose w hw using hW
  obtain ⟨b, rfl⟩ := hb
  obtain ⟨m, rfl⟩ := hm
  obtain ⟨g, rfl⟩ := hg
  obtain ⟨be, rfl⟩ := hbe
  obtain ⟨s, rfl⟩ := hs
  obtain rfl : X = fun k => (x k : EReal) := funext hx
  obtain rfl : W = fun k => (w k : EReal) := funext hw
  exact fold_eq x w b m g be s

/-! ### Zero padding of the contracted axis -/

/-- A sum over `Fin N` whose terms vanish from index `n` on is the sum of the first `n` terms. -/
theorem sum_pad {M : Type*} [AddCommMonoid M] {n N : ℕ} (h : n ≤ N) (f : Fin N → M)
    (hf : ∀ k : Fin N, n ≤ k.val → f k = 0) :
    ∑ k : Fin N, f k = ∑ k : Fin n, f (Fin.castLE h k) := by
  obtain ⟨d, rfl⟩ := Nat.exists_eq_add_of_le h
  rw [Fin.sum_univ_add]
  have hz : ∑ i : Fin d, f (Fin.natAdd n i) = 0 :=
    Finset.sum_eq_zero (fun i _ => hf _ (by simp))
  rw [hz, add_zero]
  rfl

/-! ### Real numbers are closed under the operations of a layer -/

theorem exists_real_add {a b : EReal} (ha : ∃ r : ℝ, a = r) (hb : ∃ r : ℝ, b = r) :
    ∃ r : ℝ, a + b = r := by
  obtain ⟨x, rfl⟩ := ha; obtain ⟨y, rfl⟩ := hb
  exact ⟨x + y, (EReal.coe_add x y).symm⟩

theorem exists_real_sub {a b : EReal} (ha : ∃ r : ℝ, a = r) (hb : ∃ r : ℝ, b = r) :
    ∃ r : ℝ, a - b = r := by
  obtain ⟨x, rfl⟩ := ha; obtain ⟨y, rfl⟩ := hb
  exact ⟨x - y, (EReal.coe_sub x y).symm⟩

theorem exists_real_mul {a b : EReal} (ha : ∃ r : ℝ, a = r) (hb : ∃ r : ℝ, b = r) :
    ∃ r : ℝ, a * b = r := by
  obtain ⟨x, rfl⟩ := ha; obtain ⟨y, rfl⟩ := hb
  exact ⟨x * y, (EReal.coe_mul x y).symm⟩

theorem exists_real_sum {ι : Type*} (t : Finset ι) (f : ι → EReal)
    (hf : ∀ k ∈ t, ∃ r : ℝ, f k = r) : ∃ r : ℝ, ∑ k ∈ t, f k = r := by
  classical
  induction t using Finset.induction_on with
  | empty => exact ⟨0, by simp⟩
  | insert a t ha ih =>
    rw [Finset.sum_insert ha]
    exact exists_real_add (hf a (Finset.mem_insert_self a t))
      (ih (fun k hk => hf k (Finset.mem_insert_of_mem hk)))

/-- The sum over a whole finite type. -/
theorem exists_real_sum_univ {ι : Type*} [Fintype ι] (f : ι → EReal)
    (hf : ∀ k, ∃ r : ℝ, f k = r) : ∃ r : ℝ, ∑ k, f k = r :=
  exists_real_sum Finset.univ f (fun k _ => hf k)

/-- The coercion commutes with `max`. -/
theorem coe_max (x y : ℝ) : ((max x y : ℝ) : EReal) = max (x : EReal) (y : EReal) :=
  EReal.coe_strictMono.monotone.map_max

theorem exists_real_max {a b : EReal} (ha : ∃ r : ℝ, a = r) (hb : ∃ r : ℝ, b = r) :
    ∃ r : ℝ, max a b = r := by
  obtain ⟨x, rfl⟩ := ha; obtain ⟨y, rfl⟩ := hb
  exact ⟨max x y, (coe_max x y).symm⟩

theorem exists_real_max_zero {a : EReal} (ha : ∃ r : ℝ, a = r) : ∃ r : ℝ, max a 0 = r :=
  exists_real_max ha ⟨0, rfl⟩

theorem exists_real_zero_max {a : EReal} (ha : ∃ r : ℝ, a = r) : ∃ r : ℝ, max 0 a = r :=
  exists_real_max ⟨0, rfl⟩ ha

end Cert.BnFold
-- ==== Proof.DescLaw.lean ====
/-
  The descriptor branch as mathematics: a batch-normalised dense layer, and the same layer with the normalisation
  folded into its weights.

  For an `M × K` array `x`, a `K × N` weight array `W` and per-column vectors `b` (bias), `g` (scale), `be`
  (shift), `mu` (running mean), `v` (running variance), the normalised layer with positive part is

    `bnRelu x W b g be mu v ε (r, c) = max (((((∑ k, x (r, k) · W (k, c)) + b c) − mu c) · s c) · g c + be c) 0`,
    `s c = 1 / √(v c + ε)`.

  The folded layer multiplies column `c` of `W` by `g c · s c`, replaces the bias by `(b c − mu c) · (g c · s c) + be c`,
  pads the contracted axis with zeros up to `Kp ≥ K`, and then computes `max (∑ k, xp (r, k) · wp (k, c) + bf c) 0`.
  The two agree when every entry involved is a real number: the zero entries contribute nothing to the sum, and on
  the reals the rest is distributivity (on the extended reals multiplication does not distribute over addition at the
  infinities, hence the hypothesis). The result of a layer with real inputs is again real, so the layers chain.
-/
import proofs.«157756_j25125558682089_1_alg».proof.Proof.Spec
import proofs.«157756_j25125558682089_1_alg».proof.Proof.LibBnFold

noncomputable section

open scoped BigOperators

namespace Cert.DescBranch

open Idealize.ShloMosaic Idealize.ShloMosaic.ValueIdx Idealize.ShloMosaic.PlainProduct

variable {φ₁ φ₂ φ₃ φ₄ φ₅ : FTy} {M K Kp N : Nat}

/-- The batch-normalised dense layer followed by the positive part, entry by entry. -/
def bnRelu (x : FVec Ideal ⟨2, ![M, K]⟩ φ₁) (W : FVec Ideal ⟨2, ![K, N]⟩ φ₂) (b g be mu v : FVec Ideal ⟨1, ![N]⟩ .f32)
    (eps : EReal) : FVec Ideal ⟨2, ![M, N]⟩ φ₃ :=
  fun i => max ((((((∑ k : Fin K, x (ix2 (n0 := M) (n1 := K) (i 0) k) * W (ix2 (n0 := K) (n1 := N) k (i 1)))
      + b (ix1 (n := N) (i 1))) - mu (ix1 (n := N) (i 1))) * Ideal.rsqrt (v (ix1 (n := N) (i 1)) + eps)) * g (ix1 (n := N) (i 1)))
      + be (ix1 (n := N) (i 1))) (Ideal.ofBits .f32 0x00000000#32)

/-- The plain dense layer: `∑ k, x (r, k) · W (k, c) + b c`. -/
def dense (x : FVec Ideal ⟨2, ![M, K]⟩ φ₁) (W : FVec Ideal ⟨2, ![K, N]⟩ φ₂) (b : FVec Ideal ⟨1, ![N]⟩ .f32) :
    FVec Ideal ⟨2, ![M, N]⟩ φ₃ :=
  fun i => (∑ k : Fin K, x (ix2 (n0 := M) (n1 := K) (i 0) k) * W (ix2 (n0 := K) (n1 := N) k (i 1))) + b (ix1 (n := N) (i 1))

/-- The reciprocal standard deviation `1 / √(v + ε)` is a real number when `v` is a non-negative real and `ε` a
    positive real. -/
theorem rsqrt_real (v : FVec Ideal ⟨1, ![N]⟩ .f32) (eps : EReal) (hv : ∀ i, ∃ r : ℝ, v i = (r : EReal)) (hv0 : ∀ i, 0 ≤ v i)
    (heps : ∃ e : ℝ, 0 < e ∧ eps = (e : EReal)) (i : (⟨1, ![N]⟩ : Shape).Idx) :
    ∃ r : ℝ, Ideal.rsqrt (v i + eps) = (r : EReal) :=
  Cert.BnFold.rsqrt_real_of_nonneg (hv i) (hv0 i) heps

/-- The folded, zero-padded layer equals the normalised layer at every entry, for real operands. -/
theorem linRelu_fold_apply (hK : K ≤ Kp)
    (x : FVec Ideal ⟨2, ![M, K]⟩ φ₁) (W : FVec Ideal ⟨2, ![K, N]⟩ φ₂) (b g be mu v : FVec Ideal ⟨1, ![N]⟩ .f32) (eps : EReal)
    (xp : FVec Ideal ⟨2, ![M, Kp]⟩ φ₃) (wp : FVec Ideal ⟨2, ![Kp, N]⟩ φ₄) (bf : FVec Ideal ⟨2, ![1, N]⟩ .f32)
    (s : FVec Ideal ⟨1, ![N]⟩ .f32)
    (hsc : ∀ c : Fin N, s (ix1 c) = g (ix1 c) * Ideal.rsqrt (v (ix1 c) + eps))
    (hxp : ∀ (r : Fin M) (k : Fin Kp), xp (ix2 r k) = if hk : k.val < K then x (ix2 r (⟨k.val, hk⟩ : Fin K)) else 0)
    (hwp : ∀ (k : Fin Kp) (c : Fin N), wp (ix2 k c)
      = if hk : k.val < K then W (ix2 (⟨k.val, hk⟩ : Fin K) c) * s (ix1 c) else 0)
    (hbf : ∀ c : Fin N, bf (ix2 (0 : Fin 1) c) = (b (ix1 c) - mu (ix1 c)) * s (ix1 c) + be (ix1 c))
    (hx : ∀ i, ∃ r : ℝ, x i = (r : EReal)) (hW : ∀ i, ∃ r : ℝ, W i = (r : EReal))
    (hb : ∀ i, ∃ r : ℝ, b i = (r : EReal)) (hg : ∀ i, ∃ r : ℝ, g i = (r : EReal))
    (hbe : ∀ i, ∃ r : ℝ, be i = (r : EReal)) (hmu : ∀ i, ∃ r : ℝ, mu i = (r : EReal))
    (hs : ∀ i, ∃ r : ℝ, Ideal.rsqrt (v i + eps) = (r : EReal))
    (p : Fin M) (q : Fin N) :
    (Cert.Spec.linRelu xp wp bf : FVec Ideal ⟨2, ![M, N]⟩ φ₅) (ix2 p q)
      = (bnRelu x W b g be mu v eps : FVec Ideal ⟨2, ![M, N]⟩ φ₅) (ix2 p q) := by
  have hsum : (∑ k : Fin Kp, xp (ix2 p k) * wp (ix2 k q))
      = ∑ k : Fin K, x (ix2 p k) * (W (ix2 k q) * (g (ix1 q) * Ideal.rsqrt (v (ix1 q) + eps))) := by
    refine (Cert.BnFold.sum_pad hK (fun k : Fin Kp => xp (ix2 p k) * wp (ix2 k q)) (fun k hk => ?_)).trans
      (Finset.sum_congr rfl fun k _ => ?_)
    · show xp (ix2 p k) * wp (ix2 k q) = 0
      rw [hxp, dif_neg (by omega), zero_mul]
    · show xp (ix2 p (Fin.castLE hK k)) * wp (ix2 (Fin.castLE hK k) q) = _
      rw [hxp, hwp, dif_pos (show (Fin.castLE hK k).val < K from k.isLt),
        dif_pos (show (Fin.castLE hK k).val < K from k.isLt), hsc]
      rfl
  show max ((∑ k : Fin Kp, xp (ix2 p k) * wp (ix2 k q)) + bf (ix2 (0 : Fin 1) q)) (Ideal.ofBits .f32 0x00000000#32)
    = max ((((((∑ k : Fin K, x (ix2 p k) * W (ix2 k q)) + b (ix1 q)) - mu (ix1 q)) * Ideal.rsqrt (v (ix1 q) + eps)) * g (ix1 q))
      + be (ix1 q)) (Ideal.ofBits .f32 0x00000000#32)
  rw [hsum, hbf, hsc]
  exact congrArg (fun t => max t (Ideal.ofBits .f32 0x00000000#32))
    (Cert.BnFold.fold_eq_of_real (fun k : Fin K => x (ix2 p k)) (fun k : Fin K => W (ix2 k q)) (b (ix1 q)) (mu (ix1 q)) (g (ix1 q))
      (be (ix1 q)) (Ideal.rsqrt (v (ix1 q) + eps)) (fun k => hx _) (fun k => hW _) (hb _) (hmu _) (hg _) (hbe _) (hs _))

/-- The same without padding: the folded layer on the original contracted axis. -/
theorem linRelu_fold_apply'
    (x : FVec Ideal ⟨2, ![M, K]⟩ φ₁) (W : FVec Ideal ⟨2, ![K, N]⟩ φ₂) (b g be mu v : FVec Ideal ⟨1, ![N]⟩ .f32) (eps : EReal)
    (wf : FVec Ideal ⟨2, ![K, N]⟩ φ₄) (bf : FVec Ideal ⟨2, ![1, N]⟩ .f32)
    (s : FVec Ideal ⟨1, ![N]⟩ .f32)
    (hsc : ∀ c : Fin N, s (ix1 c) = g (ix1 c) * Ideal.rsqrt (v (ix1 c) + eps))
    (hwf : ∀ (k : Fin K) (c : Fin N), wf (ix2 k c) = W (ix2 k c) * s (ix1 c))
    (hbf : ∀ c : Fin N, bf (ix2 (0 : Fin 1) c) = (b (ix1 c) - mu (ix1 c)) * s (ix1 c) + be (ix1 c))
    (hx : ∀ i, ∃ r : ℝ, x i = (r : EReal)) (hW : ∀ i, ∃ r : ℝ, W i = (r : EReal))
    (hb : ∀ i, ∃ r : ℝ, b i = (r : EReal)) (hg : ∀ i, ∃ r : ℝ, g i = (r : EReal))
    (hbe : ∀ i, ∃ r : ℝ, be i = (r : EReal)) (hmu : ∀ i, ∃ r : ℝ, mu i = (r : EReal))
    (hs : ∀ i, ∃ r : ℝ, Ideal.rsqrt (v i + eps) = (r : EReal))
    (p : Fin M) (q : Fin N) :
    (Cert.Spec.linRelu x wf bf : FVec Ideal ⟨2, ![M, N]⟩ φ₅) (ix2 p q)
      = (bnRelu x W b g be mu v eps : FVec Ideal ⟨2, ![M, N]⟩ φ₅) (ix2 p q) :=
  linRelu_fold_apply (le_refl K) x W b g be mu v eps x wf bf s hsc
    (fun r k => by rw [dif_pos k.isLt])
    (fun k c => by rw [dif_pos k.isLt]; exact hwf k c)
    hbf hx hW hb hg hbe hmu hs p q

/-- A normalised layer with real operands has real entries. -/
theorem bnRelu_real (x : FVec Ideal ⟨2, ![M, K]⟩ φ₁) (W : FVec Ideal ⟨2, ![K, N]⟩ φ₂) (b g be mu v : FVec Ideal ⟨1, ![N]⟩ .f32)
    (eps : EReal)
    (hx : ∀ i, ∃ r : ℝ, x i = (r : EReal)) (hW : ∀ i, ∃ r : ℝ, W i = (r : EReal))
    (hb : ∀ i, ∃ r : ℝ, b i = (r : EReal)) (hg : ∀ i, ∃ r : ℝ, g i = (r : EReal))
    (hbe : ∀ i, ∃ r : ℝ, be i = (r : EReal)) (hmu : ∀ i, ∃ r : ℝ, mu i = (r : EReal))
    (hs : ∀ i, ∃ r : ℝ, Ideal.rsqrt (v i + eps) = (r : EReal)) (i : (⟨2, ![M, N]⟩ : Shape).Idx) :
    ∃ r : ℝ, (bnRelu x W b g be mu v eps : FVec Ideal ⟨2, ![M, N]⟩ φ₃) i = (r : EReal) :=
  Cert.BnFold.exists_real_max
    (Cert.BnFold.exists_real_add
      (Cert.BnFold.exists_real_mul
        (Cert.BnFold.exists_real_mul
          (Cert.BnFold.exists_real_sub
            (Cert.BnFold.exists_real_add
              (Cert.BnFold.exists_real_sum_univ _ fun k => Cert.BnFold.exists_real_mul (hx _) (hW _)) (hb _))
            (hmu _))
          (hs _))
        (hg _))
      (hbe _))
    ⟨0, Ideal.ofBits_zero_f32⟩

/-- The third layer: the kernel's `lin` with the bias as a one-row matrix is the plain dense layer. -/
theorem lin_dense_apply (x : FVec Ideal ⟨2, ![M, K]⟩ φ₁) (W : FVec Ideal ⟨2, ![K, N]⟩ φ₂) (b : FVec Ideal ⟨1, ![N]⟩ .f32)
    (wf : FVec Ideal ⟨2, ![K, N]⟩ φ₄) (bf : FVec Ideal ⟨2, ![1, N]⟩ .f32)
    (hwf : ∀ (k : Fin K) (c : Fin N), wf (ix2 k c) = W (ix2 k c))
    (hbf : ∀ c : Fin N, bf (ix2 (0 : Fin 1) c) = b (ix1 c)) (p : Fin M) (q : Fin N) :
    (Cert.Spec.lin x wf bf : FVec Ideal ⟨2, ![M, N]⟩ φ₅) (ix2 p q) = (dense x W b : FVec Ideal ⟨2, ![M, N]⟩ φ₅) (ix2 p q) := by
  show (∑ k : Fin K, x (ix2 p k) * wf (ix2 k q)) + bf (ix2 (0 : Fin 1) q) = (∑ k : Fin K, x (ix2 p k) * W (ix2 k q)) + b (ix1 q)
  rw [hbf, Finset.sum_congr rfl fun k _ => congrArg (fun t => x (ix2 p k) * t) (hwf k q)]

end Cert.DescBranch

end
-- ==== Proof.DescRefLayer.lean ====
/-
  The reference's layers, as its host operations spell them, read entry by entry.

  The reference computes a batch-normalised layer with whole-array operations: a general dot product with the plain
  dimension numbers, then each per-column vector (bias, running mean, reciprocal standard deviation, scale, shift) copied
  into every row and combined elementwise, then the elementwise maximum with a zero array. Read at an entry `(r, c)`
  this is `bnRelu` of the same arrays; the plain layer (a dot product plus a bias row copied into every row) is `dense`.
  Nothing here needs the entries to be finite.
-/
import proofs.«157756_j25125558682089_1_alg».proof.Proof.DescLayout
import proofs.«157756_j25125558682089_1_alg».proof.Proof.DescLaw

noncomputable section

open scoped BigOperators

namespace Cert.DescBranch

open Idealize.ShloMosaic Idealize.ShloMosaic.ValueIdx Idealize.ShloMosaic.PlainProduct

variable {M K N : Nat}

/-- The reciprocal standard deviation at column `i`. -/
theorem rsqrtEps_apply {s : Shape} (v : FVec Ideal s .f32)
    (h0 : (⟨0, ![]⟩ : Shape).BroadcastsInDim s (![] : Fin 0 → Fin s.rank)) (w : BitVec 32) (i : s.Idx) :
    Host.rsqrt (addf v (broadcastInDim s ![] h0 (constant (F := Ideal) ⟨0, ![]⟩ .f32 w))) i
      = Ideal.rsqrt (v i + Ideal.ofBits .f32 w) := by
  show Ideal.rsqrt (v i + broadcastInDim s ![] h0 (constant (F := Ideal) ⟨0, ![]⟩ .f32 w) i) = _
  rw [broadcastInDim_apply _ h0 _ i ix0 (fun a => a.elim0)]
  rfl

/-- The reference's batch-normalised layer at entry `(p, q)`. -/
theorem refLayer_apply (x : FVec Ideal ⟨2, ![M, K]⟩ .f32) (W : FVec Ideal ⟨2, ![K, N]⟩ .f32)
    (b g be mu v : FVec Ideal ⟨1, ![N]⟩ .f32)
    (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨1, ![N]⟩ (![] : Fin 0 → Fin 1))
    (hz : (⟨0, ![]⟩ : Shape).BroadcastsInDim ⟨2, ![M, N]⟩ (![] : Fin 0 → Fin 2)) (w : BitVec 32)
    (p : Fin M) (q : Fin N) :
    maximumf
        (addf
          (mulf
            (mulf
              (subf
                (addf (Host.dotGeneral (F := Ideal) D none x W)
                  (broadcastInDim ⟨2, ![M, N]⟩ ![0, 1] h2 (broadcastInDim ⟨2, ![1, N]⟩ ![1] h1 b)))
                (broadcastInDim ⟨2, ![M, N]⟩ ![0, 1] h2 (broadcastInDim ⟨2, ![1, N]⟩ ![1] h1 mu)))
              (broadcastInDim ⟨2, ![M, N]⟩ ![0, 1] h2 (broadcastInDim ⟨2, ![1, N]⟩ ![1] h1
                (Host.rsqrt (addf v (broadcastInDim ⟨1, ![N]⟩ ![] h0 (constant (F := Ideal) ⟨0, ![]⟩ .f32 w)))))))
            (broadcastInDim ⟨2, ![M, N]⟩ ![0, 1] h2 (broadcastInDim ⟨2, ![1, N]⟩ ![1] h1 g)))
          (broadcastInDim ⟨2, ![M, N]⟩ ![0, 1] h2 (broadcastInDim ⟨2, ![1, N]⟩ ![1] h1 be)))
        (broadcastInDim ⟨2, ![M, N]⟩ ![] hz (constant (F := Ideal) ⟨0, ![]⟩ .f32 0x00000000#32)) (ix2 p q)
      = (bnRelu x W b g be mu v (Ideal.ofBits .f32 w) : FVec Ideal ⟨2, ![M, N]⟩ .f32) (ix2 p q) := by
  subst hD
  show max
      (((((FloatOps.dotGeneral (DotDims.plain M K N) none .single x W (ix2 p q)
        + broadcastInDim ⟨2, ![M, N]⟩ ![0, 1] h2 (broadcastInDim ⟨2, ![1, N]⟩ ![1] h1 b) (ix2 p q))
        - broadcastInDim ⟨2, ![M, N]⟩ ![0, 1] h2 (broadcastInDim ⟨2, ![1, N]⟩ ![1] h1 mu) (ix2 p q))
        * broadcastInDim ⟨2, ![M, N]⟩ ![0, 1] h2 (broadcastInDim ⟨2, ![1, N]⟩ ![1] h1
            (Host.rsqrt (addf v (broadcastInDim ⟨1, ![N]⟩ ![] h0 (constant (F := Ideal) ⟨0, ![]⟩ .f32 w))))) (ix2 p q))
        * broadcastInDim ⟨2, ![M, N]⟩ ![0, 1] h2 (broadcastInDim ⟨2, ![1, N]⟩ ![1] h1 g) (ix2 p q))
        + broadcastInDim ⟨2, ![M, N]⟩ ![0, 1] h2 (broadcastInDim ⟨2, ![1, N]⟩ ![1] h1 be) (ix2 p q))
      (broadcastInDim ⟨2, ![M, N]⟩ ![] hz (constant (F := Ideal) ⟨0, ![]⟩ .f32 0x00000000#32) (ix2 p q))
    = max ((((((∑ k : Fin K, x (ix2 p k) * W (ix2 k q)) + b (ix1 q)) - mu (ix1 q)) * Ideal.rsqrt (v (ix1 q) + Ideal.ofBits .f32 w))
        * g (ix1 q)) + be (ix1 q)) (Ideal.ofBits .f32 0x00000000#32)
  rw [everyRow_apply b h1 h2, everyRow_apply mu h1 h2, everyRow_apply _ h1 h2, everyRow_apply g h1 h2,
    everyRow_apply be h1 h2, rsqrtEps_apply v h0 w, dotGeneral_plain none .single x W,
    broadcastInDim_apply _ hz _ (ix2 p q) ix0 (fun a => a.elim0)]
  rfl

/-- The reference's plain layer at entry `(p, q)`. -/
theorem refDense_apply (x : FVec Ideal ⟨2, ![M, K]⟩ .f32) (W : FVec Ideal ⟨2, ![K, N]⟩ .f32) (b : FVec Ideal ⟨1, ![N]⟩ .f32)
    (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) D none x W)
        (broadcastInDim ⟨2, ![M, N]⟩ ![0, 1] h2 (broadcastInDim ⟨2, ![1, N]⟩ ![1] h1 b)) (ix2 p q)
      = (dense x W b : FVec Ideal ⟨2, ![M, N]⟩ .f32) (ix2 p q) := by
  subst hD
  show FloatOps.dotGeneral (DotDims.plain M K N) none .single x W (ix2 p q)
      + broadcastInDim ⟨2, ![M, N]⟩ ![0, 1] h2 (broadcastInDim ⟨2, ![1, N]⟩ ![1] h1 b) (ix2 p q)
    = (∑ k : Fin K, x (ix2 p k) * W (ix2 k q)) + b (ix1 q)
  rw [everyRow_apply b h1 h2, dotGeneral_plain none .single x W]
  rfl

end Cert.DescBranch

end
-- ==== Proof.DescRef.lean ====
/-
  The reference's descriptor branch is the three layers of its arguments.

  `refDs` is the reference program's term for the descriptor branch's result, spelt with the program's own operations:
  two batch-normalised layers with positive part (`refL1`, `refL2`), then a plain dense layer. Read entry by entry the
  three are `bnRelu`, `bnRelu` and `dense`; no finiteness is needed on this side.
-/
import proofs.«157756_j25125558682089_1_alg».proof.Proof.Gen.ReferenceIdeal
import proofs.«157756_j25125558682089_1_alg».proof.Proof.DescRefLayer

noncomputable section

namespace Cert.DescBranch

open Cert.ReferenceIdeal Cert.ReferenceIdeal.Gen Idealize.ShloMosaic Idealize.ShloMosaic.ValueIdx

/-- The reference's first batch-normalised layer, in the reference program's operations. -/
def refL1 (x0 : FVec Ideal S1024x9577 .f32) (x4 : FVec Ideal S9577x2048 .f32) (x5 x6 x7 x8 x9 : FVec Ideal S2048 .f32) :
    FVec Ideal S1024x2048 .f32 :=
  maximumf (addf (mulf (mulf (subf (addf (Host.dotGeneral (F := Ideal) dot_S1024x9577_S9577x2048_S1024x2048_1_0_0_1_n_n none x0 x4) (broadcastInDim S1024x2048 ![0, 1] bcast_S1x2048_S1024x2048_0_1 (broadcastInDim S1x2048 ![1] bcast_S2048_S1x2048_1 x5))) (broadcastInDim S1024x2048 ![0, 1] bcast_S1x2048_S1024x2048_0_1 (broadcastInDim S1x2048 ![1] bcast_S2048_S1x2048_1 x8))) (broadcastInDim S1024x2048 ![0, 1] bcast_S1x2048_S1024x2048_0_1 (broadcastInDim S1x2048 ![1] bcast_S2048_S1x2048_1 (Host.rsqrt (addf x9 (broadcastInDim S2048 ![] bcast_S_S2048 (constant (F := Ideal) S_ .f32 0x3727C5AC#32))))))) (broadcastInDim S1024x2048 ![0, 1] bcast_S1x2048_S1024x2048_0_1 (broadcastInDim S1x2048 ![1] bcast_S2048_S1x2048_1 x6))) (broadcastInDim S1024x2048 ![0, 1] bcast_S1x2048_S1024x2048_0_1 (broadcastInDim S1x2048 ![1] bcast_S2048_S1x2048_1 x7))) (broadcastInDim S1024x2048 ![] bcast_S_S1024x2048 (constant (F := Ideal) S_ .f32 0x00000000#32))

/-- The reference's second batch-normalised layer of an array `h`, in the reference program's operations. -/
def refL2 (h : FVec Ideal S1024x2048 .f32) (x10 : FVec Ideal S2048x512 .f32) (x11 x12 x13 x14 x15 : FVec Ideal S512 .f32) :
    FVec Ideal S1024x512 .f32 :=
  maximumf (addf (mulf (mulf (subf (addf (Host.dotGeneral (F := Ideal) dot_S1024x2048_S2048x512_S1024x512_1_0_0_1_n_n none h x10) (broadcastInDim S1024x512 ![0, 1] bcast_S1x512_S1024x512_0_1 (broadcastInDim S1x512 ![1] bcast_S512_S1x512_1 x11))) (broadcastInDim S1024x512 ![0, 1] bcast_S1x512_S1024x512_0_1 (broadcastInDim S1x512 ![1] bcast_S512_S1x512_1 x14))) (broadcastInDim S1024x512 ![0, 1] bcast_S1x512_S1024x512_0_1 (broadcastInDim S1x512 ![1] bcast_S512_S1x512_1 (Host.rsqrt (addf x15 (broadcastInDim S512 ![] bcast_S_S512 (constant (F := Ideal) S_ .f32 0x3727C5AC#32))))))) (broadcastInDim S1024x512 ![0, 1] bcast_S1x512_S1024x512_0_1 (broadcastInDim S1x512 ![1] bcast_S512_S1x512_1 x12))) (broadcastInDim S1024x512 ![0, 1] bcast_S1x512_S1024x512_0_1 (broadcastInDim S1x512 ![1] bcast_S512_S1x512_1 x13))) (broadcastInDim S1024x512 ![] bcast_S_S1024x512 (constant (F := Ideal) S_ .f32 0x00000000#32))

/-- The reference's descriptor-branch result, in the reference program's operations. -/
def refDs (x0 : FVec Ideal S1024x9577 .f32) (x4 : FVec Ideal S9577x2048 .f32) (x5 x6 x7 x8 x9 : FVec Ideal S2048 .f32)
    (x10 : FVec Ideal S2048x512 .f32) (x11 x12 x13 x14 x15 : FVec Ideal S512 .f32) (x16 : FVec Ideal S512x128 .f32)
    (x17 : FVec Ideal S128 .f32) : FVec Ideal S1024x128 .f32 :=
  addf (Host.dotGeneral (F := Ideal) dot_S1024x512_S512x128_S1024x128_1_0_0_1_n_n none (refL2 (refL1 x0 x4 x5 x6 x7 x8 x9) x10 x11 x12 x13 x14 x15) x16) (broadcastInDim S1024x128 ![0, 1] bcast_S1x128_S1024x128_0_1 (broadcastInDim S1x128 ![1] bcast_S128_S1x128_1 x17))

/-- `refDs` written out: the reference program's composed term for the branch. -/
theorem refDs_spelt (x0 : FVec Ideal S1024x9577 .f32) (x4 : FVec Ideal S9577x2048 .f32) (x5 x6 x7 x8 x9 : FVec Ideal S2048 .f32)
    (x10 : FVec Ideal S2048x512 .f32) (x11 x12 x13 x14 x15 : FVec Ideal S512 .f32) (x16 : FVec Ideal S512x128 .f32)
    (x17 : FVec Ideal S128 .f32) :
    refDs x0 x4 x5 x6 x7 x8 x9 x10 x11 x12 x13 x14 x15 x16 x17
      = addf (Host.dotGeneral (F := Ideal) dot_S1024x512_S512x128_S1024x128_1_0_0_1_n_n none (maximumf (addf (mulf (mulf (subf (addf (Host.dotGeneral (F := Ideal) dot_S1024x2048_S2048x512_S1024x512_1_0_0_1_n_n none (maximumf (addf (mulf (mulf (subf (addf (Host.dotGeneral (F := Ideal) dot_S1024x9577_S9577x2048_S1024x2048_1_0_0_1_n_n none x0 x4) (broadcastInDim S1024x2048 ![0, 1] bcast_S1x2048_S1024x2048_0_1 (broadcastInDim S1x2048 ![1] bcast_S2048_S1x2048_1 x5))) (broadcastInDim S1024x2048 ![0, 1] bcast_S1x2048_S1024x2048_0_1 (broadcastInDim S1x2048 ![1] bcast_S2048_S1x2048_1 x8))) (broadcastInDim S1024x2048 ![0, 1] bcast_S1x2048_S1024x2048_0_1 (broadcastInDim S1x2048 ![1] bcast_S2048_S1x2048_1 (Host.rsqrt (addf x9 (broadcastInDim S2048 ![] bcast_S_S2048 (constant (F := Ideal) S_ .f32 0x3727C5AC#32))))))) (broadcastInDim S1024x2048 ![0, 1] bcast_S1x2048_S1024x2048_0_1 (broadcastInDim S1x2048 ![1] bcast_S2048_S1x2048_1 x6))) (broadcastInDim S1024x2048 ![0, 1] bcast_S1x2048_S1024x2048_0_1 (broadcastInDim S1x2048 ![1] bcast_S2048_S1x2048_1 x7))) (broadcastInDim S1024x2048 ![] bcast_S_S1024x2048 (constant (F := Ideal) S_ .f32 0x00000000#32))) x10) (broadcastInDim S1024x512 ![0, 1] bcast_S1x512_S1024x512_0_1 (broadcastInDim S1x512 ![1] bcast_S512_S1x512_1 x11))) (broadcastInDim S1024x512 ![0, 1] bcast_S1x512_S1024x512_0_1 (broadcastInDim S1x512 ![1] bcast_S512_S1x512_1 x14))) (broadcastInDim S1024x512 ![0, 1] bcast_S1x512_S1024x512_0_1 (broadcastInDim S1x512 ![1] bcast_S512_S1x512_1 (Host.rsqrt (addf x15 (broadcastInDim S512 ![] bcast_S_S512 (constant (F := Ideal) S_ .f32 0x3727C5AC#32))))))) (broadcastInDim S1024x512 ![0, 1] bcast_S1x512_S1024x512_0_1 (broadcastInDim S1x512 ![1] bcast_S512_S1x512_1 x12))) (broadcastInDim S1024x512 ![0, 1] bcast_S1x512_S1024x512_0_1 (broadcastInDim S1x512 ![1] bcast_S512_S1x512_1 x13))) (broadcastInDim S1024x512 ![] bcast_S_S1024x512 (constant (F := Ideal) S_ .f32 0x00000000#32))) x16) (broadcastInDim S1024x128 ![0, 1] bcast_S1x128_S1024x128_0_1 (broadcastInDim S1x128 ![1] bcast_S128_S1x128_1 x17)) := rfl

/-- The reference's first layer is the batch-normalised layer of its arguments. -/
theorem refL1_eq (x0 : FVec Ideal S1024x9577 .f32) (x4 : FVec Ideal S9577x2048 .f32) (x5 x6 x7 x8 x9 : FVec Ideal S2048 .f32) :
    refL1 x0 x4 x5 x6 x7 x8 x9 = bnRelu x0 x4 x5 x6 x7 x8 x9 (Ideal.ofBits .f32 0x3727C5AC#32) := by
  funext i
  obtain ⟨p, q, rfl⟩ : ∃ (p : Fin 1024) (q : Fin 2048), i = ix2 p q := ⟨i 0, i 1, eq_ix2 i⟩
  unfold refL1
  exact refLayer_apply x0 x4 x5 x6 x7 x8 x9 _ rfl _ _ _ _ _ p q

/-- The reference's second layer is the batch-normalised layer of its operands. -/
theorem refL2_eq (h : FVec Ideal S1024x2048 .f32) (x10 : FVec Ideal S2048x512 .f32) (x11 x12 x13 x14 x15 : FVec Ideal S512 .f32) :
    refL2 h x10 x11 x12 x13 x14 x15 = bnRelu h x10 x11 x12 x13 x14 x15 (Ideal.ofBits .f32 0x3727C5AC#32) := by
  funext i
  obtain ⟨p, q, rfl⟩ : ∃ (p : Fin 1024) (q : Fin 512), i = ix2 p q := ⟨i 0, i 1, eq_ix2 i⟩
  unfold refL2
  exact refLayer_apply h x10 x11 x12 x13 x14 x15 _ rfl _ _ _ _ _ p q

/-- The reference's descriptor branch is the three layers of its arguments. -/
theorem refDs_eq (x0 : FVec Ideal S1024x9577 .f32) (x4 : FVec Ideal S9577x2048 .f32) (x5 x6 x7 x8 x9 : FVec Ideal S2048 .f32)
    (x10 : FVec Ideal S2048x512 .f32) (x11 x12 x13 x14 x15 : FVec Ideal S512 .f32) (x16 : FVec Ideal S512x128 .f32)
    (x17 : FVec Ideal S128 .f32) :
    refDs x0 x4 x5 x6 x7 x8 x9 x10 x11 x12 x13 x14 x15 x16 x17
      = dense (bnRelu (bnRelu x0 x4 x5 x6 x7 x8 x9 (Ideal.ofBits .f32 0x3727C5AC#32) : FVec Ideal S1024x2048 .f32)
          x10 x11 x12 x13 x14 x15 (Ideal.ofBits .f32 0x3727C5AC#32) : FVec Ideal S1024x512 .f32) x16 x17 := by
  funext i
  obtain ⟨p, q, rfl⟩ : ∃ (p : Fin 1024) (q : Fin 128), i = ix2 p q := ⟨i 0, i 1, eq_ix2 i⟩
  unfold refDs
  rw [refL1_eq, refL2_eq]
  exact refDense_apply _ x16 x17 _ rfl _ _ p q

end Cert.DescBranch

end
-- ==== Proof.DescBranch.lean ====
/-
  The descriptor branch of the kernel program computes the reference's descriptor branch.

  The kernel program runs three products. The first takes the descriptors zero-padded from 9577 to 9600 columns, `W1`
  with each column scaled by `g1 · 1/√(v1 + ε)` and zero-padded to 9600 rows, and the bias `(b1 − m1) · g1/√(v1 + ε) + be1`;
  its result is `max (x · w + bias) 0`. With real arguments and `v1 ≥ 0` this is the batch-normalised first layer
  `H1 = max ((((desc · W1 + b1) − m1) · 1/√(v1 + ε)) · g1 + be1) 0`: the zero entries add nothing to the sums and the rest is
  distributivity on the reals. `H1` has real entries, so the same argument (without padding) makes the second product the
  batch-normalised second layer `H2`; the third product is the plain dense layer `H2 · W3 + b3`.
-/
import proofs.«157756_j25125558682089_1_alg».proof.Proof.DescHost
import proofs.«157756_j25125558682089_1_alg».proof.Proof.DescRead
import proofs.«157756_j25125558682089_1_alg».proof.Proof.DescLaw
import proofs.«157756_j25125558682089_1_alg».proof.Proof.DescRef

noncomputable section

namespace Cert.DescBranch

open Idealize.ShloMosaic Idealize.ShloMosaic.TcCoe Idealize.ShloMosaic.ValueIdx Cert.KernelIdeal Cert.KernelIdeal.Gen

variable (m : (ℓ : Loc nD τ sig) → Buf (Elt Ideal) ℓ) (outs : Outs (F := Ideal)) (c : Dev nD)

/-- The variance floor `ε`. -/
abbrev eps : EReal := Ideal.ofBits .f32 0x3727C5AC#32

/-- The first batch-normalised layer of the arguments. -/
abbrev H1 : FVec Ideal S1024x2048 .f32 :=
  bnRelu (a0 m c) (a4 m c) (a5 m c) (a6 m c) (a7 m c) (a8 m c) (a9 m c) eps

/-- The second batch-normalised layer. -/
abbrev H2 : FVec Ideal S1024x512 .f32 :=
  bnRelu (H1 m c) (a10 m c) (a11 m c) (a12 m c) (a13 m c) (a14 m c) (a15 m c) eps

/-- The branch's result: the third, plain, layer. -/
abbrev DsH : FVec Ideal S1024x128 .f32 := dense (H2 m c) (a16 m c) (a17 m c)

/-- The first product computes the first normalised layer. -/
theorem layer1
    (h0 : outs 6 main_v25 c
      = Cert.Spec.linRelu (φ₁ := .bf16) (φ₂ := .bf16) (φ₃ := .bf16) (V5 m c main_v22) (V5 m c main_v23) (V5 m c main_v24))
    (r0 : ∀ i, ∃ r : ℝ, a0 m c i = (r : EReal)) (r4 : ∀ i, ∃ r : ℝ, a4 m c i = (r : EReal))
    (r5 : ∀ i, ∃ r : ℝ, a5 m c i = (r : EReal)) (r6 : ∀ i, ∃ r : ℝ, a6 m c i = (r : EReal))
    (r7 : ∀ i, ∃ r : ℝ, a7 m c i = (r : EReal)) (r8 : ∀ i, ∃ r : ℝ, a8 m c i = (r : EReal))
    (r9 : ∀ i, ∃ r : ℝ, a9 m c i = (r : EReal)) (n9 : ∀ i, 0 ≤ a9 m c i) :
    (outs 6 main_v25 c : FVec Ideal S1024x2048 .bf16) = H1 m c := by
  rw [h0, v22_eq, v23_eq, v24_eq]
  funext i
  obtain ⟨p, q, rfl⟩ : ∃ (p : Fin 1024) (q : Fin 2048), i = ix2 p q := ⟨i 0, i 1, eq_ix2 i⟩
  exact linRelu_fold_apply (K := 9577) (Kp := 9600) (by decide)
    (a0 m c) (a4 m c) (a5 m c) (a6 m c) (a7 m c) (a8 m c) (a9 m c) eps _ _ _ (scale1 m c)
    (fun c' => scale_apply (a6 m c) (a9 m c) bcast_S_S2048 _ (ix1 c'))
    (fun r k => padCols_apply (a0 m c) (zeroPad) (fun j => sitofp_zero_apply j) _ _ _ r k)
    (fun k c' => foldedPadRows_apply (a4 m c) (scale1 m c) (zeroPad) (fun j => sitofp_zero_apply j) _ _ _ _ _ k c')
    (fun c' => foldedBias_apply (a5 m c) (a8 m c) (scale1 m c) (a7 m c) _ c')
    r0 r4 r5 r6 r7 r8 (rsqrt_real (a9 m c) eps r9 n9 eps_real) p q

/-- The first normalised layer has real entries. -/
theorem H1_real
    (r0 : ∀ i, ∃ r : ℝ, a0 m c i = (r : EReal)) (r4 : ∀ i, ∃ r : ℝ, a4 m c i = (r : EReal))
    (r5 : ∀ i, ∃ r : ℝ, a5 m c i = (r : EReal)) (r6 : ∀ i, ∃ r : ℝ, a6 m c i = (r : EReal))
    (r7 : ∀ i, ∃ r : ℝ, a7 m c i = (r : EReal)) (r8 : ∀ i, ∃ r : ℝ, a8 m c i = (r : EReal))
    (r9 : ∀ i, ∃ r : ℝ, a9 m c i = (r : EReal)) (n9 : ∀ i, 0 ≤ a9 m c i) (i : S1024x2048.Idx) :
    ∃ r : ℝ, H1 m c i = (r : EReal) :=
  bnRelu_real (a0 m c) (a4 m c) (a5 m c) (a6 m c) (a7 m c) (a8 m c) (a9 m c) eps r0 r4 r5 r6 r7 r8
    (rsqrt_real (a9 m c) eps r9 n9 eps_real) i

/-- The second product computes the second normalised layer of whatever real array the first left. -/
theorem layer2 (x : FVec Ideal S1024x2048 .f32) (hx : ∀ i, ∃ r : ℝ, x i = (r : EReal))
    (h25 : (V7 m outs c main_v25 : FVec Ideal S1024x2048 .bf16) = x)
    (h1 : outs 8 main_v28 c
      = Cert.Spec.linRelu (φ₁ := .bf16) (φ₂ := .bf16) (φ₃ := .bf16) (V7 m outs c main_v25) (V7 m outs c main_v26) (V7 m outs c main_v27))
    (r10 : ∀ i, ∃ r : ℝ, a10 m c i = (r : EReal)) (r11 : ∀ i, ∃ r : ℝ, a11 m c i = (r : EReal))
    (r12 : ∀ i, ∃ r : ℝ, a12 m c i = (r : EReal)) (r13 : ∀ i, ∃ r : ℝ, a13 m c i = (r : EReal))
    (r14 : ∀ i, ∃ r : ℝ, a14 m c i = (r : EReal)) (r15 : ∀ i, ∃ r : ℝ, a15 m c i = (r : EReal))
    (n15 : ∀ i, 0 ≤ a15 m c i) :
    (outs 8 main_v28 c : FVec Ideal S1024x512 .bf16)
      = (bnRelu x (a10 m c) (a11 m c) (a12 m c) (a13 m c) (a14 m c) (a15 m c) eps : FVec Ideal S1024x512 .f32) := by
  rw [h1, h25, v26_eq, v27_eq]
  funext i
  obtain ⟨p, q, rfl⟩ : ∃ (p : Fin 1024) (q : Fin 512), i = ix2 p q := ⟨i 0, i 1, eq_ix2 i⟩
  exact linRelu_fold_apply' x (a10 m c) (a11 m c) (a12 m c) (a13 m c) (a14 m c) (a15 m c) eps _ _ (scale2 m c)
    (fun c' => scale_apply (a12 m c) (a15 m c) bcast_S_S512 _ (ix1 c'))
    (fun k c' => folded_apply (a10 m c) (scale2 m c) _ _ _ k c')
    (fun c' => foldedBias_apply (a11 m c) (a14 m c) (scale2 m c) (a13 m c) _ c')
    hx r10 r11 r12 r13 r14 (rsqrt_real (a15 m c) eps r15 n15 eps_real) p q

/-- The third product computes the plain dense layer of whatever array the second left. -/
theorem layer3 (x : FVec Ideal S1024x512 .f32)
    (h28 : (V9 m outs c main_v28 : FVec Ideal S1024x512 .bf16) = x)
    (h2 : outs 10 main_v31 c
      = Cert.Spec.lin (φ₁ := .bf16) (φ₂ := .bf16) (φ₃ := .f32) (V9 m outs c main_v28) (V9 m outs c main_v29) (V9 m outs c main_v30)) :
    (outs 10 main_v31 c : FVec Ideal S1024x128 .f32) = (dense x (a16 m c) (a17 m c) : FVec Ideal S1024x128 .f32) := by
  rw [h2, h28, v29_eq, v30_eq]
  funext i
  obtain ⟨p, q, rfl⟩ : ∃ (p : Fin 1024) (q : Fin 128), i = ix2 p q := ⟨i 0, i 1, eq_ix2 i⟩
  exact lin_dense_apply x (a16 m c) (a17 m c) _ _ (fun k c' => rfl) (fun c' => row_apply (a17 m c) _ c') p q

/-- The kernel program's descriptor branch is the three layers of its arguments, for real arguments and non-negative
    variances. -/
theorem ds_h_kernel
    (h0 : outs 6 main_v25 c
      = Cert.Spec.linRelu (φ₁ := .bf16) (φ₂ := .bf16) (φ₃ := .bf16) (V5 m c main_v22) (V5 m c main_v23) (V5 m c main_v24))
    (h1 : outs 8 main_v28 c
      = Cert.Spec.linRelu (φ₁ := .bf16) (φ₂ := .bf16) (φ₃ := .bf16) (V7 m outs c main_v25) (V7 m outs c main_v26) (V7 m outs c main_v27))
    (h2 : outs 10 main_v31 c
      = Cert.Spec.lin (φ₁ := .bf16) (φ₂ := .bf16) (φ₃ := .f32) (V9 m outs c main_v28) (V9 m outs c main_v29) (V9 m outs c main_v30))
    (r0 : ∀ i, ∃ r : ℝ, a0 m c i = (r : EReal)) (r4 : ∀ i, ∃ r : ℝ, a4 m c i = (r : EReal))
    (r5 : ∀ i, ∃ r : ℝ, a5 m c i = (r : EReal)) (r6 : ∀ i, ∃ r : ℝ, a6 m c i = (r : EReal))
    (r7 : ∀ i, ∃ r : ℝ, a7 m c i = (r : EReal)) (r8 : ∀ i, ∃ r : ℝ, a8 m c i = (r : EReal))
    (r9 : ∀ i, ∃ r : ℝ, a9 m c i = (r : EReal)) (n9 : ∀ i, 0 ≤ a9 m c i)
    (r10 : ∀ i, ∃ r : ℝ, a10 m c i = (r : EReal)) (r11 : ∀ i, ∃ r : ℝ, a11 m c i = (r : EReal))
    (r12 : ∀ i, ∃ r : ℝ, a12 m c i = (r : EReal)) (r13 : ∀ i, ∃ r : ℝ, a13 m c i = (r : EReal))
    (r14 : ∀ i, ∃ r : ℝ, a14 m c i = (r : EReal)) (r15 : ∀ i, ∃ r : ℝ, a15 m c i = (r : EReal))
    (n15 : ∀ i, 0 ≤ a15 m c i) :
    (V10 m outs c main_v31 : FVec Ideal S1024x128 .f32) = DsH m c := by
  have e1 : (V7 m outs c main_v25 : FVec Ideal S1024x2048 .bf16) = H1 m c :=
    (v25_at7 m outs c).trans (layer1 m outs c h0 r0 r4 r5 r6 r7 r8 r9 n9)
  have e2 : (V9 m outs c main_v28 : FVec Ideal S1024x512 .bf16) = H2 m c :=
    (v28_at9 m outs c).trans
      (layer2 m outs c (H1 m c) (H1_real m c r0 r4 r5 r6 r7 r8 r9 n9) e1 h1 r10 r11 r12 r13 r14 r15 n15)
  exact (v31_at10 m outs c).trans (layer3 m outs c (H2 m c) e2 h2)

/-- The kernel program's descriptor branch is the reference's: the buffer the third product leaves holds the reference
    program's descriptor-branch term of the same arguments, for real arguments and non-negative variances. -/
theorem ds_h
    (h0 : outs 6 main_v25 c
      = Cert.Spec.linRelu (φ₁ := .bf16) (φ₂ := .bf16) (φ₃ := .bf16) (V5 m c main_v22) (V5 m c main_v23) (V5 m c main_v24))
    (h1 : outs 8 main_v28 c
      = Cert.Spec.linRelu (φ₁ := .bf16) (φ₂ := .bf16) (φ₃ := .bf16) (V7 m outs c main_v25) (V7 m outs c main_v26) (V7 m outs c main_v27))
    (h2 : outs 10 main_v31 c
      = Cert.Spec.lin (φ₁ := .bf16) (φ₂ := .bf16) (φ₃ := .f32) (V9 m outs c main_v28) (V9 m outs c main_v29) (V9 m outs c main_v30))
    (r0 : ∀ i, ∃ r : ℝ, a0 m c i = (r : EReal)) (r4 : ∀ i, ∃ r : ℝ, a4 m c i = (r : EReal))
    (r5 : ∀ i, ∃ r : ℝ, a5 m c i = (r : EReal)) (r6 : ∀ i, ∃ r : ℝ, a6 m c i = (r : EReal))
    (r7 : ∀ i, ∃ r : ℝ, a7 m c i = (r : EReal)) (r8 : ∀ i, ∃ r : ℝ, a8 m c i = (r : EReal))
    (r9 : ∀ i, ∃ r : ℝ, a9 m c i = (r : EReal)) (n9 : ∀ i, 0 ≤ a9 m c i)
    (r10 : ∀ i, ∃ r : ℝ, a10 m c i = (r : EReal)) (r11 : ∀ i, ∃ r : ℝ, a11 m c i = (r : EReal))
    (r12 : ∀ i, ∃ r : ℝ, a12 m c i = (r : EReal)) (r13 : ∀ i, ∃ r : ℝ, a13 m c i = (r : EReal))
    (r14 : ∀ i, ∃ r : ℝ, a14 m c i = (r : EReal)) (r15 : ∀ i, ∃ r : ℝ, a15 m c i = (r : EReal))
    (n15 : ∀ i, 0 ≤ a15 m c i) :
    (V10 m outs c main_v31 : FVec Ideal S1024x128 .f32)
      = refDs (a0 m c) (a4 m c) (a5 m c) (a6 m c) (a7 m c) (a8 m c) (a9 m c) (a10 m c) (a11 m c) (a12 m c) (a13 m c) (a14 m c)
          (a15 m c) (a16 m c) (a17 m c) :=
  (ds_h_kernel m outs c h0 h1 h2 r0 r4 r5 r6 r7 r8 r9 n9 r10 r11 r12 r13 r14 r15 n15).trans
    (refDs_eq (a0 m c) (a4 m c) (a5 m c) (a6 m c) (a7 m c) (a8 m c) (a9 m c) (a10 m c) (a11 m c) (a12 m c) (a13 m c) (a14 m c)
      (a15 m c) (a16 m c) (a17 m c)).symm

end Cert.DescBranch

end
-- ==== Proof.GraphDefs.lean ====
/-
  The graph branch and the readout as pure functions of whole arrays of extended reals, spelt with the host operations
  of the reference program, in the order in which that program composes them.

  * `degree dst`: the number of edges that end at each node, as a sum of ones scattered over the edge targets.
  * `agg1`, `agg128`, `agg256` (one per feature width): the mean of a node's in-neighbours' features — the features
    gathered at the edge sources (an index below zero wraps around once), summed over the edges into their targets,
    divided by `max (degree, 1)` — where the node has an in-neighbour, and the node's own feature where it has none.
  * `hostLayer1/2/3`: `max (a · w + b, 0)`, the bias repeated down the rows.
  * `readout`: the per-graph mean of the node features (sum over the nodes of each graph divided by
    `max (count, 1)`), joined column-wise with the descriptor branch's output, times the readout weights, plus the bias.
  * `graphResult`: the three layers on the degree column, then the readout.
  Nothing is computed here; these are names for compositions, so that two programs applying the same operations to
  equal arrays can be compared by comparing the arrays going in.
-/
import proofs.«157756_j25125558682089_1_alg».proof.Proof.Gen.ReferenceIdeal
import Idealize.ShloMosaic.PureOps.Ideal.Laws

noncomputable section

namespace Cert.GraphBranch

open Idealize.ShloMosaic Cert.ReferenceIdeal Cert.ReferenceIdeal.Facts₀

variable {F : FTy → Type} [FloatOps F]

/-- An array of floats of shape `s` (extended reals, where floats are read as such). -/
abbrev F32 (F : FTy → Type) (s : Shape) : Type := (⟨s, .f32⟩ : BufTy).Contents (Elt F)
/-- An array of 32-bit integers of shape `s`. -/
abbrev I32 (F : FTy → Type) (s : Shape) : Type := (⟨s, .i32⟩ : BufTy).Contents (Elt F)

/-- The zero scalar and the one scalar. -/
abbrev zero0 : F32 F S_ := constant (F := F) S_ .f32 0x00000000#32
abbrev one0 : F32 F S_ := constant (F := F) S_ .f32 0x3F800000#32

/-- In-degree: ones summed over the edges into their target nodes. -/
def degree (dst : I32 F S800000) : F32 F S100000 :=
  Host.scatterAdd (F := F) scatter_S100000_S800000x1_S800000_n_0_0_1
    (broadcastInDim S100000 ![] bcast_S_S100000 zero0)
    (broadcastInDim S800000x1 ![0] bcast_S800000_S800000x1_0 dst)
    (broadcastInDim S800000 ![] bcast_S_S800000 one0)

/-- The degree as a column. -/
def degreeCol (dst : I32 F S800000) : F32 F S100000x1 :=
  broadcastInDim S100000x1 ![0] bcast_S100000_S100000x1_0 (degree dst)

/-- The edge sources as gather indices: a negative index has the node count added once. -/
def srcIdx (src : I32 F S800000) : I32 F S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- "The node has an in-neighbour", as a column of truth values. -/
def hasNbr (dst : I32 F S800000) : (⟨S100000x1, .i1⟩ : BufTy).Contents (Elt F) :=
  broadcastInDim S100000x1 ![0] bcast_S100000_S100000x1_0
    (cmpf .ogt (degree dst) (broadcastInDim S100000 ![] bcast_S_S100000 zero0))

/-- `max (degree, 1)` as a column. -/
def degClamp (dst : I32 F S800000) : F32 F S100000x1 :=
  broadcastInDim S100000x1 ![0] bcast_S100000_S100000x1_0
    (maximumf (degree dst) (broadcastInDim S100000 ![] bcast_S_S100000 one0))

/-- The in-neighbours' features summed into each node and divided by `max (degree, 1)`, one column. -/
def nbrMean1 (h : F32 F S100000x1) (src dst : I32 F S800000) : F32 F S100000x1 :=
  Host.divf (F := F)
    (Host.scatterAdd (F := F) scatter_S100000x1_S800000x1_S800000x1_1_0_0_1
      (broadcastInDim S100000x1 ![] bcast_S_S100000x1 zero0)
      (broadcastInDim S800000x1 ![0] bcast_S800000_S800000x1_0 dst)
      (Host.gather gather_S100000x1_S800000x1_S800000x1_1_0_n_n_0_1_11 h (srcIdx src)))
    (degClamp dst)

/-- Mean over in-neighbours of a one-column feature, the node's own feature where it has none. -/
def agg1 (h : F32 F S100000x1) (src dst : I32 F S800000) : F32 F S100000x1 :=
  select (hasNbr dst) (nbrMean1 h src dst) h

/-- The same sum and division for 128 columns. -/
def nbrMean128 (h : F32 F S100000x128) (src dst : I32 F S800000) : F32 F S100000x128 :=
  Host.divf (F := F)
    (Host.scatterAdd (F := F) scatter_S100000x128_S800000x1_S800000x128_1_0_0_1
      (broadcastInDim S100000x128 ![] bcast_S_S100000x128 zero0)
      (broadcastInDim S800000x1 ![0] bcast_S800000_S800000x1_0 dst)
      (Host.gather gather_S100000x128_S800000x1_S800000x128_1_0_n_n_0_1_1128 h (srcIdx src)))
    (broadcastInDim S100000x128 ![0, 1] bcast_S100000x1_S100000x128_0_1 (degClamp dst))

/-- The same mean for 128 columns. -/
def agg128 (h : F32 F S100000x128) (src dst : I32 F S800000) : F32 F S100000x128 :=
  select (broadcastInDim S100000x128 ![0, 1] bcast_S100000x1_S100000x128_0_1 (hasNbr dst)) (nbrMean128 h src dst) h

/-- The same sum and division for 256 columns. -/
def nbrMean256 (h : F32 F S100000x256) (src dst : I32 F S800000) : F32 F S100000x256 :=
  Host.divf (F := F)
    (Host.scatterAdd (F := F) scatter_S100000x256_S800000x1_S800000x256_1_0_0_1
      (broadcastInDim S100000x256 ![] bcast_S_S100000x256 zero0)
      (broadcastInDim S800000x1 ![0] bcast_S800000_S800000x1_0 dst)
      (Host.gather gather_S100000x256_S800000x1_S800000x256_1_0_n_n_0_1_1256 h (srcIdx src)))
    (broadcastInDim S100000x256 ![0, 1] bcast_S100000x1_S100000x256_0_1 (degClamp dst))

/-- The same mean for 256 columns. -/
def agg256 (h : F32 F S100000x256) (src dst : I32 F S800000) : F32 F S100000x256 :=
  select (broadcastInDim S100000x256 ![0, 1] bcast_S100000x1_S100000x256_0_1 (hasNbr dst)) (nbrMean256 h src dst) h

/-- First layer: `max (a · w + b, 0)` from one column to 128. -/
def hostLayer1 (a : F32 F S100000x1) (w : F32 F S1x128) (b : F32 F S128) : F32 F S100000x128 :=
  maximumf
    (addf (Host.dotGeneral (F := F) dot_S100000x1_S1x128_S100000x128_1_0_0_1_n_n none a w)
      (broadcastInDim S100000x128 ![0, 1] bcast_S1x128_S100000x128_0_1 (broadcastInDim S1x128 ![1] bcast_S128_S1x128_1 b)))
    (broadcastInDim S100000x128 ![] bcast_S_S100000x128 zero0)

/-- Second layer: from 128 columns to 256. -/
def hostLayer2 (a : F32 F S100000x128) (w : F32 F S128x256) (b : F32 F S256) : F32 F S100000x256 :=
  maximumf
    (addf (Host.dotGeneral (F := F) dot_S100000x128_S128x256_S100000x256_1_0_0_1_n_n none a w)
      (broadcastInDim S100000x256 ![0, 1] bcast_S1x256_S100000x256_0_1 (broadcastInDim S1x256 ![1] bcast_S256_S1x256_1 b)))
    (broadcastInDim S100000x256 ![] bcast_S_S100000x256 zero0)

/-- Third layer: from 256 columns to 128. -/
def hostLayer3 (a : F32 F S100000x256) (w : F32 F S256x128) (b : F32 F S128) : F32 F S100000x128 :=
  maximumf
    (addf (Host.dotGeneral (F := F) dot_S100000x256_S256x128_S100000x128_1_0_0_1_n_n none a w)
      (broadcastInDim S100000x128 ![0, 1] bcast_S1x128_S100000x128_0_1 (broadcastInDim S1x128 ![1] bcast_S128_S1x128_1 b)))
    (broadcastInDim S100000x128 ![] bcast_S_S100000x128 zero0)

/-- Per-graph mean of the node features. -/
def graphMean (g : F32 F S100000x128) (ng : I32 F S100000) : F32 F S1024x128 :=
  Host.divf (F := F)
    (Host.scatterAdd (F := F) scatter_S1024x128_S100000x1_S100000x128_1_0_0_1
      (broadcastInDim S1024x128 ![] bcast_S_S1024x128 zero0)
      (broadcastInDim S100000x1 ![0] bcast_S100000_S100000x1_0 ng) g)
    (broadcastInDim S1024x128 ![0, 1] bcast_S1024x1_S1024x128_0_1
      (broadcastInDim S1024x1 ![0] bcast_S1024_S1024x1_0
        (maximumf
          (Host.scatterAdd (F := F) scatter_S1024_S100000x1_S100000_n_0_0_1
            (broadcastInDim S1024 ![] bcast_S_S1024 zero0)
            (broadcastInDim S100000x1 ![0] bcast_S100000_S100000x1_0 ng)
            (broadcastInDim S100000 ![] bcast_S_S100000 one0))
          (broadcastInDim S1024 ![] bcast_S_S1024 one0))))

/-- The readout: the graph means beside the descriptor features, times the readout weights, plus the bias. -/
def readout (g : F32 F S100000x128) (ng : I32 F S100000) (ds : F32 F S1024x128) (wr : F32 F S256x1) (br : F32 F S1) : F32 F S1024x1 :=
  addf
    (Host.dotGeneral (F := F) dot_S1024x256_S256x1_S1024x1_1_0_0_1_n_n none
      (concatenate S1024x256 1 [⟨S1024x128, graphMean g ng⟩, ⟨S1024x128, ds⟩] concatenates_S1024x128_S1024x128_S1024x256_d1) wr)
    (broadcastInDim S1024x1 ![0, 1] bcast_S1x1_S1024x1_0_1 (broadcastInDim S1x1 ![1] bcast_S1_S1x1_1 br))

/-- The node features after the three layers. -/
def nodeFeatures (src dst : I32 F S800000) (w1 : F32 F S1x128) (b1 : F32 F S128) (w2 : F32 F S128x256) (b2 : F32 F S256)
    (w3 : F32 F S256x128) (b3 : F32 F S128) : F32 F S100000x128 :=
  hostLayer3 (agg256 (hostLayer2 (agg128 (hostLayer1 (agg1 (degreeCol dst) src dst) w1 b1) src dst) w2 b2) src dst) w3 b3

/-- The whole graph branch and readout, as a function of the arguments it reads and of the descriptor features. -/
def graphResult (src dst : I32 F S800000) (ng : I32 F S100000) (w1 : F32 F S1x128) (b1 : F32 F S128) (w2 : F32 F S128x256)
    (b2 : F32 F S256) (w3 : F32 F S256x128) (b3 : F32 F S128) (wr : F32 F S256x1) (br : F32 F S1) (ds : F32 F S1024x128) : F32 F S1024x1 :=
  readout (nodeFeatures src dst w1 b1 w2 b2 w3 b3) ng ds wr br

end Cert.GraphBranch

end
-- ==== Proof.GraphLayer.lean ====
/-
  A layer of the graph branch written two ways gives the same array of extended reals.

  The host spelling is `max (a · w + b', 0)`: the general dot product with the plain dimension numbers, the bias vector
  `b` laid out as one row and repeated down the rows, the maximum against a broadcast zero. The kernel regions' map
  `linRelu a w B` is `max (∑ k, a (r, k) · w (k, c) + B (0, c), 0)` with the bias given as a `1 × N` row `B`.
  When `B (0, c) = b c` the two are equal entry by entry: the dot product is the same finite sum, both biases read
  `b c`, and both maxima are against the zero word. No entry needs to be finite.
-/
import proofs.«157756_j25125558682089_1_alg».proof.Proof.GraphDefs
import proofs.«157756_j25125558682089_1_alg».proof.Proof.Spec
import Idealize.ShloMosaic.Lib.Pipeline.Value

noncomputable section

open scoped BigOperators

namespace Cert.GraphBranch

open Idealize.ShloMosaic Idealize.ShloMosaic.ValueIdx Idealize.ShloMosaic.PlainProduct
open Cert.ReferenceIdeal Cert.ReferenceIdeal.Facts₀

/-- First layer (one column to 128). -/
theorem hostLayer1_eq (a : F32 Ideal S100000x1) (w : F32 Ideal S1x128) (b : F32 Ideal S128) (B : FVec Ideal S1x128 .f32)
    (hB : ∀ j : Fin 128, B (ix2 (n0 := 1) (n1 := 128) (0 : Fin 1) j) = b (ix1 (n := 128) j)) :
    Cert.Spec.linRelu (φ₁ := .bf16) (φ₂ := .bf16) (φ₃ := .bf16) a w B = hostLayer1 (F := Ideal) a w b := by
  funext i
  have hdot : Host.dotGeneral (F := Ideal) (φ₁ := .f32) (φ₂ := .f32) dot_S100000x1_S1x128_S100000x128_1_0_0_1_n_n none a w = rowsByCols (φ₁ := .f32) (φ₂ := .f32) a w := by
    simp only [Host.dotGeneral]
    exact dotGeneral_plain none _ a w
  have hbias : broadcastInDim S100000x128 ![0, 1] bcast_S1x128_S100000x128_0_1 (broadcastInDim S1x128 ![1] bcast_S128_S1x128_1 b) i
      = b (ix1 (n := 128) (i 1)) := by
    refine (broadcastInDim_apply _ bcast_S1x128_S100000x128_0_1 _ i (ix2 (n0 := 1) (n1 := 128) (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans ?_
    exact broadcastInDim_apply _ bcast_S128_S1x128_1 b _ (ix1 (n := 128) (i 1)) (fun a => match a with
      | ⟨0, _⟩ => by show (i 1).val = if (128 : Nat) = 1 then 0 else (i 1).val; rw [if_neg (by decide)])
  have hzero : broadcastInDim S100000x128 ![] bcast_S_S100000x128 (zero0 (F := Ideal)) i = Ideal.ofBits .f32 0x00000000#32 :=
    broadcastInDim_apply _ bcast_S_S100000x128 (zero0 (F := Ideal)) i (fun a => a.elim0) (fun a => a.elim0)
  rw [Cert.Spec.linRelu_apply, hB (i 1)]
  show _ = max (Host.dotGeneral (F := Ideal) (φ₁ := .f32) (φ₂ := .f32) dot_S100000x1_S1x128_S100000x128_1_0_0_1_n_n none a w i
      + broadcastInDim S100000x128 ![0, 1] bcast_S1x128_S100000x128_0_1 (broadcastInDim S1x128 ![1] bcast_S128_S1x128_1 b) i)
      (broadcastInDim S100000x128 ![] bcast_S_S100000x128 (zero0 (F := Ideal)) i)
  rw [hdot, hbias, hzero]
  rfl

/-- Second layer (128 columns to 256). -/
theorem hostLayer2_eq (a : F32 Ideal S100000x128) (w : F32 Ideal S128x256) (b : F32 Ideal S256) (B : FVec Ideal S1x256 .f32)
    (hB : ∀ j : Fin 256, B (ix2 (n0 := 1) (n1 := 256) (0 : Fin 1) j) = b (ix1 (n := 256) j)) :
    Cert.Spec.linRelu (φ₁ := .bf16) (φ₂ := .bf16) (φ₃ := .bf16) a w B = hostLayer2 (F := Ideal) a w b := by
  funext i
  have hdot : Host.dotGeneral (F := Ideal) (φ₁ := .f32) (φ₂ := .f32) dot_S100000x128_S128x256_S100000x256_1_0_0_1_n_n none a w = rowsByCols (φ₁ := .f32) (φ₂ := .f32) a w := by
    simp only [Host.dotGeneral]
    exact dotGeneral_plain none _ a w
  have hbias : broadcastInDim S100000x256 ![0, 1] bcast_S1x256_S100000x256_0_1 (broadcastInDim S1x256 ![1] bcast_S256_S1x256_1 b) i
      = b (ix1 (n := 256) (i 1)) := by
    refine (broadcastInDim_apply _ bcast_S1x256_S100000x256_0_1 _ i (ix2 (n0 := 1) (n1 := 256) (0 : Fin 1) (i 1)) (fun a => match a with
      | ⟨0, _⟩ => by show 0 = if (1 : Nat) = 1 then 0 else (i 0).val; rw [if_pos rfl]
      | ⟨1, _⟩ => by show (i 1).val = if (256 : Nat) = 1 then 0 else (i 1).val; rw [if_neg (by decide)])).trans ?_
    exact broadcastInDim_apply _ bcast_S256_S1x256_1 b _ (ix1 (n := 256) (i 1)) (fun a => match a with
      | ⟨0, _⟩ => by show (i 1).val = if (256 : Nat) = 1 then 0 else (i 1).val; rw [if_neg (by decide)])
  have hzero : broadcastInDim S100000x256 ![] bcast_S_S100000x256 (zero0 (F := Ideal)) i = Ideal.ofBits .f32 0x00000000#32 :=
    broadcastInDim_apply _ bcast_S_S100000x256 (zero0 (F := Ideal)) i (fun a => a.elim0) (fun a => a.elim0)
  rw [Cert.Spec.linRelu_apply, hB (i 1)]
  show _ = max (Host.dotGeneral (F := Ideal) (φ₁ := .f32) (φ₂ := .f32) dot_S100000x128_S128x256_S100000x256_1_0_0_1_n_n none a w i
      + broadcastInDim S100000x256 ![0, 1] bcast_S1x256_S100000x256_0_1 (broadcastInDim S1x256 ![1] bcast_S256_S1x256_1 b) i)
      (broadcastInDim S100000x256 ![] bcast_S_S100000x256 (zero0 (F := Ideal)) i)
  rw [hdot, hbias, hzero]
  rfl

/-- Third layer (256 columns to 128). -/
theorem hostLayer3_eq (a : F32 Ideal S100000x256) (w : F32 Ideal S256x128) (b : F32 Ideal S128) (B : FVec Ideal S1x128 .f32)
    (hB : ∀ j : Fin 128, B (ix2 (n0 := 1) (n1 := 128) (0 : Fin 1) j) = b (ix1 (n := 128) j)) :
    Cert.Spec.linRelu (φ₁ := .bf16) (φ₂ := .bf16) (φ₃ := .f32) a w B = hostLayer3 (F := Ideal) a w b := by
  funext i
  have hdot : Host.dotGeneral (F := Ideal) (φ₁ := .f32) (φ₂ := .f32) dot_S100000x256_S256x128_S100000x128_1_0_0_1_n_n none a w = rowsByCols (φ₁ := .f32) (φ₂ := .f32) a w := by
    simp only [Host.dotGeneral]
    exact dotGeneral_plain none _ a w
  have hbias : broadcastInDim S100000x128 ![0, 1] bcast_S1x128_S100000x128_0_1 (broadcastInDim S1x128 ![1] bcast_S128_S1x128_1 b) i
      = b (ix1 (n := 128) (i 1)) := by
    refine (broadcastInDim_apply _ bcast_S1x128_S100000x128_0_1 _ i (ix2 (n0 := 1) (n1 := 128) (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans ?_
    exact broadcastInDim_apply _ bcast_S128_S1x128_1 b _ (ix1 (n := 128) (i 1)) (fun a => match a with
      | ⟨0, _⟩ => by show (i 1).val = if (128 : Nat) = 1 then 0 else (i 1).val; rw [if_neg (by decide)])
  have hzero : broadcastInDim S100000x128 ![] bcast_S_S100000x128 (zero0 (F := Ideal)) i = Ideal.ofBits .f32 0x00000000#32 :=
    broadcastInDim_apply _ bcast_S_S100000x128 (zero0 (F := Ideal)) i (fun a => a.elim0) (fun a => a.elim0)
  rw [Cert.Spec.linRelu_apply, hB (i 1)]
  show _ = max (Host.dotGeneral (F := Ideal) (φ₁ := .f32) (φ₂ := .f32) dot_S100000x256_S256x128_S100000x128_1_0_0_1_n_n none a w i
      + broadcastInDim S100000x128 ![0, 1] bcast_S1x128_S100000x128_0_1 (broadcastInDim S1x128 ![1] bcast_S128_S1x128_1 b) i)
      (broadcastInDim S100000x128 ![] bcast_S_S100000x128 (zero0 (F := Ideal)) i)
  rw [hdot, hbias, hzero]
  rfl

end Cert.GraphBranch

end
-- ==== Proof.GraphArgs.lean ====
/-
  The argument arrays the graph branch reads stay as launched all the way through the program.

  No host operation writes an argument array and no kernel region may change one, so between any two items of the
  program core `c` still holds, in each of these arrays, what the launch memory held. The same goes for the descriptor
  features once the third region has written them: none of the later host operations or regions writes that buffer.
-/
import proofs.«157756_j25125558682089_1_alg».proof.Proof.Gen.KernelIdeal.Regions

set_option maxRecDepth 8192

noncomputable section

namespace Cert.GraphBranch

open Idealize.ShloMosaic Idealize.ShloMosaic.TcCoe
open Cert.KernelIdeal Cert.KernelIdeal.Gen

variable {F : FTy → Type} [FloatOps F]
variable (m : (ℓ : Loc nD τ sig) → Buf (Elt F) ℓ) (outs : Outs (F := F)) (c : Dev nD)

/-- The arguments the graph branch and the readout read: edge sources and targets, the nodes' graphs, the three layers'
    weights and biases, the readout's weights and bias. -/
abbrev gArgs : List (Ref sig .tc) :=
  [main_arg1, main_arg2, main_arg3, main_arg18, main_arg19, main_arg20, main_arg21, main_arg22, main_arg23, main_arg24, main_arg25]

theorem V1_args (r : Ref sig .tc) (hr : r ∈ gArgs) : V1 m c r = V0 m c r :=
  V1_of m c r ((by decide : ∀ r ∈ gArgs, r ∉ hostOps0_W) r hr)
theorem V2_args (r : Ref sig .tc) (hr : r ∈ gArgs) : V2 m c r = V0 m c r :=
  (V2_of m c r ((by decide : ∀ r ∈ gArgs, r ∉ hostOps0_1_W) r hr)).trans (V1_args m c r hr)
theorem V3_args (r : Ref sig .tc) (hr : r ∈ gArgs) : V3 m c r = V0 m c r :=
  (V3_of m c r ((by decide : ∀ r ∈ gArgs, r ∉ hostOps0_2_W) r hr)).trans (V2_args m c r hr)
theorem V4_args (r : Ref sig .tc) (hr : r ∈ gArgs) : V4 m c r = V0 m c r :=
  (V4_of m c r ((by decide : ∀ r ∈ gArgs, r ∉ hostOps0_3_W) r hr)).trans (V3_args m c r hr)
theorem V5_args (r : Ref sig .tc) (hr : r ∈ gArgs) : V5 m c r = V0 m c r :=
  (V5_of m c r ((by decide : ∀ r ∈ gArgs, r ∉ hostOps0_4_W) r hr)).trans (V4_args m c r hr)
theorem V6_args (r : Ref sig .tc) (hr : r ∈ gArgs) : V6 m outs c r = V0 m c r :=
  (V6_of m outs c r ((by decide : ∀ r ∈ gArgs, r ∉ ([main_v25] : List (Ref sig .tc))) r hr)).trans (V5_args m c r hr)
theorem V7_args (r : Ref sig .tc) (hr : r ∈ gArgs) : V7 m outs c r = V0 m c r :=
  (V7_of m outs c r ((by decide : ∀ r ∈ gArgs, r ∉ hostOps1_W) r hr)).trans (V6_args m outs c r hr)
theorem V8_args (r : Ref sig .tc) (hr : r ∈ gArgs) : V8 m outs c r = V0 m c r :=
  (V8_of m outs c r ((by decide : ∀ r ∈ gArgs, r ∉ ([main_v28] : List (Ref sig .tc))) r hr)).trans (V7_args m outs c r hr)
theorem V9_args (r : Ref sig .tc) (hr : r ∈ gArgs) : V9 m outs c r = V0 m c r :=
  (V9_of m outs c r ((by decide : ∀ r ∈ gArgs, r ∉ hostOps2_W) r hr)).trans (V8_args m outs c r hr)
theorem V10_args (r : Ref sig .tc) (hr : r ∈ gArgs) : V10 m outs c r = V0 m c r :=
  (V10_of m outs c r ((by decide : ∀ r ∈ gArgs, r ∉ ([main_v31] : List (Ref sig .tc))) r hr)).trans (V9_args m outs c r hr)
theorem V11_args (r : Ref sig .tc) (hr : r ∈ gArgs) : V11 m outs c r = V0 m c r :=
  (V11_of m outs c r ((by decide : ∀ r ∈ gArgs, r ∉ hostOps3_W) r hr)).trans (V10_args m outs c r hr)
theorem V12_args (r : Ref sig .tc) (hr : r ∈ gArgs) : V12 m outs c r = V0 m c r :=
  (V12_of m outs c r ((by decide : ∀ r ∈ gArgs, r ∉ hostOps3_1_W) r hr)).trans (V11_args m outs c r hr)
theorem V13_args (r : Ref sig .tc) (hr : r ∈ gArgs) : V13 m outs c r = V0 m c r :=
  (V13_of m outs c r ((by decide : ∀ r ∈ gArgs, r ∉ hostOps3_2_W) r hr)).trans (V12_args m outs c r hr)
theorem V14_args (r : Ref sig .tc) (hr : r ∈ gArgs) : V14 m outs c r = V0 m c r :=
  (V14_of m outs c r ((by decide : ∀ r ∈ gArgs, r ∉ ([main_v62] : List (Ref sig .tc))) r hr)).trans (V13_args m outs c r hr)
theorem V15_args (r : Ref sig .tc) (hr : r ∈ gArgs) : V15 m outs c r = V0 m c r :=
  (V15_of m outs c r ((by decide : ∀ r ∈ gArgs, r ∉ hostOps4_W) r hr)).trans (V14_args m outs c r hr)
theorem V16_args (r : Ref sig .tc) (hr : r ∈ gArgs) : V16 m outs c r = V0 m c r :=
  (V16_of m outs c r ((by decide : ∀ r ∈ gArgs, r ∉ hostOps4_1_W) r hr)).trans (V15_args m outs c r hr)
theorem V17_args (r : Ref sig .tc) (hr : r ∈ gArgs) : V17 m outs c r = V0 m c r :=
  (V17_of m outs c r ((by decide : ∀ r ∈ gArgs, r ∉ hostOps4_2_W) r hr)).trans (V16_args m outs c r hr)
theorem V18_args (r : Ref sig .tc) (hr : r ∈ gArgs) : V18 m outs c r = V0 m c r :=
  (V18_of m outs c r ((by decide : ∀ r ∈ gArgs, r ∉ ([main_v90] : List (Ref sig .tc))) r hr)).trans (V17_args m outs c r hr)
theorem V19_args (r : Ref sig .tc) (hr : r ∈ gArgs) : V19 m outs c r = V0 m c r :=
  (V19_of m outs c r ((by decide : ∀ r ∈ gArgs, r ∉ hostOps5_W) r hr)).trans (V18_args m outs c r hr)
theorem V20_args (r : Ref sig .tc) (hr : r ∈ gArgs) : V20 m outs c r = V0 m c r :=
  (V20_of m outs c r ((by decide : ∀ r ∈ gArgs, r ∉ hostOps5_1_W) r hr)).trans (V19_args m outs c r hr)
theorem V21_args (r : Ref sig .tc) (hr : r ∈ gArgs) : V21 m outs c r = V0 m c r :=
  (V21_of m outs c r ((by decide : ∀ r ∈ gArgs, r ∉ hostOps5_2_W) r hr)).trans (V20_args m outs c r hr)
theorem V22_args (r : Ref sig .tc) (hr : r ∈ gArgs) : V22 m outs c r = V0 m c r :=
  (V22_of m outs c r ((by decide : ∀ r ∈ gArgs, r ∉ ([main_v118] : List (Ref sig .tc))) r hr)).trans (V21_args m outs c r hr)

/-- The descriptor features reach the readout as the third region left them. -/
theorem V22_ds : V22 m outs c main_v31 = V10 m outs c main_v31 :=
  (V22_of m outs c main_v31 (by decide)).trans <| (V21_of m outs c main_v31 (by decide)).trans <|
  (V20_of m outs c main_v31 (by decide)).trans <| (V19_of m outs c main_v31 (by decide)).trans <|
  (V18_of m outs c main_v31 (by decide)).trans <| (V17_of m outs c main_v31 (by decide)).trans <|
  (V16_of m outs c main_v31 (by decide)).trans <| (V15_of m outs c main_v31 (by decide)).trans <|
  (V14_of m outs c main_v31 (by decide)).trans <| (V13_of m outs c main_v31 (by decide)).trans <|
  (V12_of m outs c main_v31 (by decide)).trans <| (V11_of m outs c main_v31 (by decide))

end Cert.GraphBranch

end
-- ==== Proof.GraphStretch1.lean ====
/-
  The host operations before the first graph layer's region, read as the pure functions they are.

  From any contents `V` of the buffers, the first stretch computes the degree column, the "has an in-neighbour" column
  and the neighbours' mean of the degree column, reading only the edge sources and targets; the second selects between
  the mean and the degree column; the third changes float formats (the identity on extended reals) and lays the bias
  out as a row. Composed, the region's left operand is `agg1` of the degree column, its right operand the weights as
  given, its bias the bias vector as a `1 × 128` row.
-/
import proofs.«157756_j25125558682089_1_alg».proof.Proof.Gen.KernelIdeal.Regions
import proofs.«157756_j25125558682089_1_alg».proof.Proof.GraphDefs
import Idealize.ShloMosaic.Lib.StableHlo.Run

noncomputable section

namespace Cert.GraphBranch

open Idealize.ShloMosaic Idealize.ShloMosaic.TcCoe Idealize.ShloMosaic.StableHlo
open Cert.KernelIdeal Cert.KernelIdeal.Gen

-- the buffers' contents before the stretch: any valuation
variable (V : Valuation τ sig (Elt Ideal))

set_option maxHeartbeats 1000000 in
theorem s3_hasNbr : StableHlo.after hostOps3 V main_v53 = hasNbr (F := Ideal) (V main_arg2) := by
  after_results_simp
  first | done | rfl

set_option maxHeartbeats 1000000 in
theorem s3_mean : StableHlo.after hostOps3 V main_v57
    = nbrMean1 (F := Ideal) (degreeCol (F := Ideal) (V main_arg2)) (V main_arg1) (V main_arg2) := by
  after_results_simp
  first | done | rfl

set_option maxHeartbeats 1000000 in
theorem s3_deg : StableHlo.after hostOps3 V main_v36 = degreeCol (F := Ideal) (V main_arg2) := by
  after_results_simp
  first | done | rfl

theorem s3_1_sel : StableHlo.after hostOps3_1 V main_v58 = select (V main_v53) (V main_v57) (V main_v36) := by
  after_results_simp
  first | done | rfl

theorem s3_2_x : StableHlo.after hostOps3_2 V main_v60 = V main_v58 := by
  after_results_simp
  first | done | rfl

theorem s3_2_w : StableHlo.after hostOps3_2 V main_v59 = V main_arg18 := by
  after_results_simp
  first | done | rfl

theorem s3_2_b : StableHlo.after hostOps3_2 V main_v61 = shapeCast S1x128 (V main_arg19) shapeCasts_S128_S1x128 := by
  after_results_simp
  first | done | rfl

/-- The first graph region's left operand is the neighbours' mean of the degree column. -/
theorem layer1_x : StableHlo.after hostOps3_2 (StableHlo.after hostOps3_1 (StableHlo.after hostOps3 V)) main_v60
    = agg1 (F := Ideal) (degreeCol (F := Ideal) (V main_arg2)) (V main_arg1) (V main_arg2) := by
  rw [s3_2_x, s3_1_sel, s3_hasNbr, s3_mean, s3_deg]
  rfl

/-- Its right operand is the first layer's weights. -/
theorem layer1_w : StableHlo.after hostOps3_2 (StableHlo.after hostOps3_1 (StableHlo.after hostOps3 V)) main_v59 = V main_arg18 := by
  rw [s3_2_w]
  exact (StableHlo.after_of_writes_sub hostOps3_1 _ hostOps3_1_writes (by decide)).trans
    (StableHlo.after_of_writes_sub hostOps3 _ hostOps3_writes (by decide))

/-- Its bias row is the first layer's bias vector laid out as one row. -/
theorem layer1_b : StableHlo.after hostOps3_2 (StableHlo.after hostOps3_1 (StableHlo.after hostOps3 V)) main_v61
    = shapeCast S1x128 (V main_arg19) shapeCasts_S128_S1x128 := by
  rw [s3_2_b]
  exact congrArg (fun x => shapeCast S1x128 x shapeCasts_S128_S1x128)
    ((StableHlo.after_of_writes_sub hostOps3_1 _ hostOps3_1_writes (by decide)).trans
      (StableHlo.after_of_writes_sub hostOps3 _ hostOps3_writes (by decide)))

end Cert.GraphBranch

end
-- ==== Proof.GraphStretch2.lean ====
/-
  The host operations between the first and the second graph layer's regions, read as the pure functions they are.

  From any contents `V` of the buffers, with `h` the first region's output: the first stretch changes `h`'s float format
  (the identity on extended reals) and computes the "has an in-neighbour" column and the neighbours' mean of `h`; the
  second repeats the column across the 128 features and selects between the mean and `h`; the third changes float formats
  and lays the bias out as a row. Composed, the second region's left operand is `agg128 h`.
-/
import proofs.«157756_j25125558682089_1_alg».proof.Proof.Gen.KernelIdeal.Regions
import proofs.«157756_j25125558682089_1_alg».proof.Proof.GraphDefs
import Idealize.ShloMosaic.Lib.StableHlo.Run

noncomputable section

namespace Cert.GraphBranch

open Idealize.ShloMosaic Idealize.ShloMosaic.TcCoe Idealize.ShloMosaic.StableHlo
open Cert.KernelIdeal Cert.KernelIdeal.Gen

-- the buffers' contents before the stretch: any valuation
variable (V : Valuation τ sig (Elt Ideal))

set_option maxHeartbeats 1000000 in
theorem s4_hasNbr : StableHlo.after hostOps4 V main_v80 = hasNbr (F := Ideal) (V main_arg2) := by
  after_results_simp
  first | done | rfl

set_option maxHeartbeats 1000000 in
theorem s4_mean : StableHlo.after hostOps4 V main_v85
    = nbrMean128 (F := Ideal) (V main_v62) (V main_arg1) (V main_arg2) := by
  after_results_simp
  first | done | rfl

set_option maxHeartbeats 1000000 in
theorem s4_self : StableHlo.after hostOps4 V main_v63 = V main_v62 := by
  after_results_simp
  first | done | rfl

theorem s4_1_sel : StableHlo.after hostOps4_1 V main_v86
    = select (broadcastInDim Cert.ReferenceIdeal.S100000x128 ![0, 1] Cert.ReferenceIdeal.Facts₀.bcast_S100000x1_S100000x128_0_1 (V main_v80))
        (V main_v85) (V main_v63) := by
  after_results_simp
  first | done | rfl

theorem s4_2_x : StableHlo.after hostOps4_2 V main_v88 = V main_v86 := by
  after_results_simp
  first | done | rfl

theorem s4_2_w : StableHlo.after hostOps4_2 V main_v87 = V main_arg20 := by
  after_results_simp
  first | done | rfl

theorem s4_2_b : StableHlo.after hostOps4_2 V main_v89 = shapeCast S1x256 (V main_arg21) shapeCasts_S256_S1x256 := by
  after_results_simp
  first | done | rfl

/-- The second graph region's left operand is the neighbours' mean of the first region's output. -/
theorem layer2_x : StableHlo.after hostOps4_2 (StableHlo.after hostOps4_1 (StableHlo.after hostOps4 V)) main_v88
    = agg128 (F := Ideal) (V main_v62) (V main_arg1) (V main_arg2) := by
  rw [s4_2_x, s4_1_sel, s4_hasNbr, s4_mean, s4_self]
  rfl

/-- Its right operand is the second layer's weights. -/
theorem layer2_w : StableHlo.after hostOps4_2 (StableHlo.after hostOps4_1 (StableHlo.after hostOps4 V)) main_v87 = V main_arg20 := by
  rw [s4_2_w]
  exact (StableHlo.after_of_writes_sub hostOps4_1 _ hostOps4_1_writes (by decide)).trans
    (StableHlo.after_of_writes_sub hostOps4 _ hostOps4_writes (by decide))

/-- Its bias row is the second layer's bias vector laid out as one row. -/
theorem layer2_b : StableHlo.after hostOps4_2 (StableHlo.after hostOps4_1 (StableHlo.after hostOps4 V)) main_v89
    = shapeCast S1x256 (V main_arg21) shapeCasts_S256_S1x256 := by
  rw [s4_2_b]
  exact congrArg (fun x => shapeCast S1x256 x shapeCasts_S256_S1x256)
    ((StableHlo.after_of_writes_sub hostOps4_1 _ hostOps4_1_writes (by decide)).trans
      (StableHlo.after_of_writes_sub hostOps4 _ hostOps4_writes (by decide)))

end Cert.GraphBranch

end
-- ==== Proof.GraphStretch3.lean ====
/-
  The host operations between the second and the third graph layer's regions, read as the pure functions they are.

  The same three stretches as before the second region, 256 features wide: with `h` the second region's output, the
  third region's left operand is `agg256 h`, its right operand the third layer's weights, its bias the bias vector as a
  `1 × 128` row.
-/
import proofs.«157756_j25125558682089_1_alg».proof.Proof.Gen.KernelIdeal.Regions
import proofs.«157756_j25125558682089_1_alg».proof.Proof.GraphDefs
import Idealize.ShloMosaic.Lib.StableHlo.Run

noncomputable section

namespace Cert.GraphBranch

open Idealize.ShloMosaic Idealize.ShloMosaic.TcCoe Idealize.ShloMosaic.StableHlo
open Cert.KernelIdeal Cert.KernelIdeal.Gen

-- the buffers' contents before the stretch: any valuation
variable (V : Valuation τ sig (Elt Ideal))

set_option maxHeartbeats 1000000 in
theorem s5_hasNbr : StableHlo.after hostOps5 V main_v108 = hasNbr (F := Ideal) (V main_arg2) := by
  after_results_simp
  first | done | rfl

set_option maxHeartbeats 1000000 in
theorem s5_mean : StableHlo.after hostOps5 V main_v113
    = nbrMean256 (F := Ideal) (V main_v90) (V main_arg1) (V main_arg2) := by
  after_results_simp
  first | done | rfl

set_option maxHeartbeats 1000000 in
theorem s5_self : StableHlo.after hostOps5 V main_v91 = V main_v90 := by
  after_results_simp
  first | done | rfl

theorem s5_1_sel : StableHlo.after hostOps5_1 V main_v114
    = select (broadcastInDim Cert.ReferenceIdeal.S100000x256 ![0, 1] Cert.ReferenceIdeal.Facts₀.bcast_S100000x1_S100000x256_0_1 (V main_v108))
        (V main_v113) (V main_v91) := by
  after_results_simp
  first | done | rfl

theorem s5_2_x : StableHlo.after hostOps5_2 V main_v116 = V main_v114 := by
  after_results_simp
  first | done | rfl

theorem s5_2_w : StableHlo.after hostOps5_2 V main_v115 = V main_arg22 := by
  after_results_simp
  first | done | rfl

theorem s5_2_b : StableHlo.after hostOps5_2 V main_v117 = shapeCast S1x128 (V main_arg23) shapeCasts_S128_S1x128 := by
  after_results_simp
  first | done | rfl

/-- The third graph region's left operand is the neighbours' mean of the second region's output. -/
theorem layer3_x : StableHlo.after hostOps5_2 (StableHlo.after hostOps5_1 (StableHlo.after hostOps5 V)) main_v116
    = agg256 (F := Ideal) (V main_v90) (V main_arg1) (V main_arg2) := by
  rw [s5_2_x, s5_1_sel, s5_hasNbr, s5_mean, s5_self]
  rfl

/-- Its right operand is the third layer's weights. -/
theorem layer3_w : StableHlo.after hostOps5_2 (StableHlo.after hostOps5_1 (StableHlo.after hostOps5 V)) main_v115 = V main_arg22 := by
  rw [s5_2_w]
  exact (StableHlo.after_of_writes_sub hostOps5_1 _ hostOps5_1_writes (by decide)).trans
    (StableHlo.after_of_writes_sub hostOps5 _ hostOps5_writes (by decide))

/-- Its bias row is the third layer's bias vector laid out as one row. -/
theorem layer3_b : StableHlo.after hostOps5_2 (StableHlo.after hostOps5_1 (StableHlo.after hostOps5 V)) main_v117
    = shapeCast S1x128 (V main_arg23) shapeCasts_S128_S1x128 := by
  rw [s5_2_b]
  exact congrArg (fun x => shapeCast S1x128 x shapeCasts_S128_S1x128)
    ((StableHlo.after_of_writes_sub hostOps5_1 _ hostOps5_1_writes (by decide)).trans
      (StableHlo.after_of_writes_sub hostOps5 _ hostOps5_writes (by decide)))

end Cert.GraphBranch

end
-- ==== Proof.GraphStretch6.lean ====
/-
  The host operations after the last region, read as the pure function they are.

  From any contents `V` of the buffers, the last stretch sums the third graph region's output over the nodes of each
  graph, divides by `max (count, 1)`, joins the result column-wise with the descriptor features, multiplies by the
  readout weights and adds the bias: the program's result is `readout` of those buffers.
-/
import proofs.«157756_j25125558682089_1_alg».proof.Proof.Gen.KernelIdeal.Regions
import proofs.«157756_j25125558682089_1_alg».proof.Proof.GraphDefs
import Idealize.ShloMosaic.Lib.StableHlo.Run

noncomputable section

namespace Cert.GraphBranch

open Idealize.ShloMosaic Idealize.ShloMosaic.TcCoe Idealize.ShloMosaic.StableHlo
open Cert.KernelIdeal Cert.KernelIdeal.Gen

-- the buffers' contents before the stretch: any valuation
variable (V : Valuation τ sig (Elt Ideal))

set_option maxHeartbeats 2000000 in
theorem s6_result : StableHlo.after hostOps6 V main_v135
    = readout (F := Ideal) (V main_v118) (V main_arg3) (V main_v31) (V main_arg24) (V main_arg25) := by
  after_results_simp
  first | done | rfl

end Cert.GraphBranch

end
-- ==== Proof.GraphChain.lean ====
/-
  The kernel program's result is the graph branch and readout applied to the launch contents of its arguments.

  Core `c`'s buffers between the program's items are the launch contents, then each host stretch applied, then each
  region's output written. Given that each of the three graph regions leaves `max (x · w + b, 0)` of its three operands
  in its output, the chain is: the first region's left operand is the neighbours' mean of the degree column, so its
  output is the first layer's features; the second region's left operand is the neighbours' mean of those, and so on;
  the last stretch is the readout of the third region's output and of the descriptor features. Along the way the
  argument arrays are read as launched, because nothing writes them. No arithmetic law is used: equal arrays go into
  equal functions.
-/
import proofs.«157756_j25125558682089_1_alg».proof.Proof.GraphLayer
import proofs.«157756_j25125558682089_1_alg».proof.Proof.GraphArgs
import proofs.«157756_j25125558682089_1_alg».proof.Proof.GraphStretch1
import proofs.«157756_j25125558682089_1_alg».proof.Proof.GraphStretch2
import proofs.«157756_j25125558682089_1_alg».proof.Proof.GraphStretch3
import proofs.«157756_j25125558682089_1_alg».proof.Proof.GraphStretch6
import Idealize.ShloMosaic.Lib.ValueLayout

noncomputable section

namespace Cert.GraphBranch

open Idealize.ShloMosaic Idealize.ShloMosaic.ValueIdx Idealize.ShloMosaic.TcCoe
open Cert.KernelIdeal Cert.KernelIdeal.Gen

variable (m : (ℓ : Loc nD τ sig) → Buf (Elt Ideal) ℓ) (outs : Outs (F := Ideal)) (c : Dev nD)

/-- The first graph layer's features, from the launch contents. -/
abbrev feat1 : F32 Ideal Cert.ReferenceIdeal.S100000x128 :=
  hostLayer1 (F := Ideal) (agg1 (F := Ideal) (degreeCol (F := Ideal) (V0 m c main_arg2)) (V0 m c main_arg1) (V0 m c main_arg2))
    (V0 m c main_arg18) (V0 m c main_arg19)

/-- The second graph layer's features. -/
abbrev feat2 : F32 Ideal Cert.ReferenceIdeal.S100000x256 :=
  hostLayer2 (F := Ideal) (agg128 (F := Ideal) (feat1 m c) (V0 m c main_arg1) (V0 m c main_arg2)) (V0 m c main_arg20) (V0 m c main_arg21)

/-- The third graph layer's features. -/
abbrev feat3 : F32 Ideal Cert.ReferenceIdeal.S100000x128 :=
  hostLayer3 (F := Ideal) (agg256 (F := Ideal) (feat2 m c) (V0 m c main_arg1) (V0 m c main_arg2)) (V0 m c main_arg22) (V0 m c main_arg23)

/-- The first graph region's output is the first layer's features. -/
theorem out1
    (h3 : outs 14 main_v62 c = Cert.Spec.linRelu (φ₁ := .bf16) (φ₂ := .bf16) (φ₃ := .bf16)
      (V13 m outs c main_v60) (V13 m outs c main_v59) (V13 m outs c main_v61)) :
    V14 m outs c main_v62 = feat1 m c := by
  have e : V14 m outs c main_v62 = outs 14 main_v62 c := Function.update_self ..
  have ex : V13 m outs c main_v60 = _ := layer1_x (V10 m outs c)
  have ew : V13 m outs c main_v59 = _ := layer1_w (V10 m outs c)
  have eb : V13 m outs c main_v61 = _ := layer1_b (V10 m outs c)
  rw [e, h3, ex, ew, eb, V10_args m outs c main_arg1 (by decide), V10_args m outs c main_arg2 (by decide),
    V10_args m outs c main_arg18 (by decide), V10_args m outs c main_arg19 (by decide)]
  exact hostLayer1_eq _ _ _ _ (fun j => shapeCast_a_1a_apply _ _ 0 j)

/-- The second graph region's output is the second layer's features. -/
theorem out2 (e1 : V14 m outs c main_v62 = feat1 m c)
    (h4 : outs 18 main_v90 c = Cert.Spec.linRelu (φ₁ := .bf16) (φ₂ := .bf16) (φ₃ := .bf16)
      (V17 m outs c main_v88) (V17 m outs c main_v87) (V17 m outs c main_v89)) :
    V18 m outs c main_v90 = feat2 m c := by
  have e : V18 m outs c main_v90 = outs 18 main_v90 c := Function.update_self ..
  have ex : V17 m outs c main_v88 = _ := layer2_x (V14 m outs c)
  have ew : V17 m outs c main_v87 = _ := layer2_w (V14 m outs c)
  have eb : V17 m outs c main_v89 = _ := layer2_b (V14 m outs c)
  rw [e, h4, ex, ew, eb, e1, V14_args m outs c main_arg1 (by decide), V14_args m outs c main_arg2 (by decide),
    V14_args m outs c main_arg20 (by decide), V14_args m outs c main_arg21 (by decide)]
  exact hostLayer2_eq _ _ _ _ (fun j => shapeCast_a_1a_apply _ _ 0 j)

/-- The third graph region's output is the third layer's features. -/
theorem out3 (e2 : V18 m outs c main_v90 = feat2 m c)
    (h5 : outs 22 main_v118 c = Cert.Spec.linRelu (φ₁ := .bf16) (φ₂ := .bf16) (φ₃ := .f32)
      (V21 m outs c main_v116) (V21 m outs c main_v115) (V21 m outs c main_v117)) :
    V22 m outs c main_v118 = feat3 m c := by
  have e : V22 m outs c main_v118 = outs 22 main_v118 c := Function.update_self ..
  have ex : V21 m outs c main_v116 = _ := layer3_x (V18 m outs c)
  have ew : V21 m outs c main_v115 = _ := layer3_w (V18 m outs c)
  have eb : V21 m outs c main_v117 = _ := layer3_b (V18 m outs c)
  rw [e, h5, ex, ew, eb, e2, V18_args m outs c main_arg1 (by decide), V18_args m outs c main_arg2 (by decide),
    V18_args m outs c main_arg22 (by decide), V18_args m outs c main_arg23 (by decide)]
  exact hostLayer3_eq _ _ _ _ (fun j => shapeCast_a_1a_apply _ _ 0 j)

/-- The kernel program's result, from the launch contents of the arguments and the descriptor features `ds`. -/
theorem kernel_result (ds : F32 Ideal Cert.ReferenceIdeal.S1024x128)
    (h3 : outs 14 main_v62 c = Cert.Spec.linRelu (φ₁ := .bf16) (φ₂ := .bf16) (φ₃ := .bf16)
      (V13 m outs c main_v60) (V13 m outs c main_v59) (V13 m outs c main_v61))
    (h4 : outs 18 main_v90 c = Cert.Spec.linRelu (φ₁ := .bf16) (φ₂ := .bf16) (φ₃ := .bf16)
      (V17 m outs c main_v88) (V17 m outs c main_v87) (V17 m outs c main_v89))
    (h5 : outs 22 main_v118 c = Cert.Spec.linRelu (φ₁ := .bf16) (φ₂ := .bf16) (φ₃ := .f32)
      (V21 m outs c main_v116) (V21 m outs c main_v115) (V21 m outs c main_v117))
    (hds : V10 m outs c main_v31 = ds) :
    V23 m outs c main_v135
      = graphResult (F := Ideal) (V0 m c main_arg1) (V0 m c main_arg2) (V0 m c main_arg3) (V0 m c main_arg18) (V0 m c main_arg19)
          (V0 m c main_arg20) (V0 m c main_arg21) (V0 m c main_arg22) (V0 m c main_arg23) (V0 m c main_arg24) (V0 m c main_arg25) ds := by
  have e3 := out3 m outs c (out2 m outs c (out1 m outs c h3) h4) h5
  have er : V23 m outs c main_v135 = _ := s6_result (V22 m outs c)
  rw [er, e3, V22_ds m outs c, hds, V22_args m outs c main_arg3 (by decide), V22_args m outs c main_arg24 (by decide),
    V22_args m outs c main_arg25 (by decide)]
  rfl

end Cert.GraphBranch

end
-- ==== Proof.RefDs.lean ====
/-
  The descriptor branch of the reference program as a pure function of the arrays it reads, spelt with the host
  operations of that program in the order in which it composes them.

  * `refH1 x w b g be mu v`: `max ((((x · w + b) − mu) · rsqrt (v + ε)) · g + be, 0)`, every vector laid out as one row and
    repeated down the rows — the first dense layer with its batch normalisation (in inference mode) and the positive part;
    `ε` is the float literal `0x3727C5AC`.
  * `refH2`: the same for the second layer.
  * `refDs`: the third dense layer, `h2 · w3 + b3`, on top of the two.
  Nothing is computed here; these are names for compositions.
-/
import proofs.«157756_j25125558682089_1_alg».proof.Proof.Gen.ReferenceIdeal
import Idealize.ShloMosaic.PureOps.Ideal.Laws

noncomputable section

namespace Cert.RefDs

open Idealize.ShloMosaic Cert.ReferenceIdeal Cert.ReferenceIdeal.Facts₀

variable {F : FTy → Type} [FloatOps F]

/-- An array of floats of shape `s`. -/
abbrev A (F : FTy → Type) (s : Shape) : Type := (⟨s, .f32⟩ : BufTy).Contents (Elt F)

/-- First dense layer, batch normalisation, positive part. -/
def refH1 (a0 : A F S1024x9577) (a4 : A F S9577x2048) (a5 a6 a7 a8 a9 : A F S2048) : A F S1024x2048 :=
  maximumf
    (addf
      (mulf
        (mulf
          (subf
            (addf (Host.dotGeneral dot_S1024x9577_S9577x2048_S1024x2048_1_0_0_1_n_n none a0 a4)
              (broadcastInDim S1024x2048 ![0, 1] bcast_S1x2048_S1024x2048_0_1 (broadcastInDim S1x2048 ![1] bcast_S2048_S1x2048_1 a5)))
            (broadcastInDim S1024x2048 ![0, 1] bcast_S1x2048_S1024x2048_0_1 (broadcastInDim S1x2048 ![1] bcast_S2048_S1x2048_1 a8)))
          (broadcastInDim S1024x2048 ![0, 1] bcast_S1x2048_S1024x2048_0_1 (broadcastInDim S1x2048 ![1] bcast_S2048_S1x2048_1
            (Host.rsqrt (addf a9 (broadcastInDim S2048 ![] bcast_S_S2048 (constant S_ .f32 0x3727C5AC#32)))))))
        (broadcastInDim S1024x2048 ![0, 1] bcast_S1x2048_S1024x2048_0_1 (broadcastInDim S1x2048 ![1] bcast_S2048_S1x2048_1 a6)))
      (broadcastInDim S1024x2048 ![0, 1] bcast_S1x2048_S1024x2048_0_1 (broadcastInDim S1x2048 ![1] bcast_S2048_S1x2048_1 a7)))
    (broadcastInDim S1024x2048 ![] bcast_S_S1024x2048 (constant S_ .f32 0x00000000#32))

/-- Second dense layer, batch normalisation, positive part. -/
def refH2 (h1 : A F S1024x2048) (a10 : A F S2048x512) (a11 a12 a13 a14 a15 : A F S512) : A F S1024x512 :=
  maximumf
    (addf
      (mulf
        (mulf
          (subf
            (addf (Host.dotGeneral dot_S1024x2048_S2048x512_S1024x512_1_0_0_1_n_n none h1 a10)
              (broadcastInDim S1024x512 ![0, 1] bcast_S1x512_S1024x512_0_1 (broadcastInDim S1x512 ![1] bcast_S512_S1x512_1 a11)))
            (broadcastInDim S1024x512 ![0, 1] bcast_S1x512_S1024x512_0_1 (broadcastInDim S1x512 ![1] bcast_S512_S1x512_1 a14)))
          (broadcastInDim S1024x512 ![0, 1] bcast_S1x512_S1024x512_0_1 (broadcastInDim S1x512 ![1] bcast_S512_S1x512_1
            (Host.rsqrt (addf a15 (broadcastInDim S512 ![] bcast_S_S512 (constant S_ .f32 0x3727C5AC#32)))))))
        (broadcastInDim S1024x512 ![0, 1] bcast_S1x512_S1024x512_0_1 (broadcastInDim S1x512 ![1] bcast_S512_S1x512_1 a12)))
      (broadcastInDim S1024x512 ![0, 1] bcast_S1x512_S1024x512_0_1 (broadcastInDim S1x512 ![1] bcast_S512_S1x512_1 a13)))
    (broadcastInDim S1024x512 ![] bcast_S_S1024x512 (constant S_ .f32 0x00000000#32))

/-- The descriptor features: the third dense layer on top of the two. -/
def refDs (a0 : A F S1024x9577) (a4 : A F S9577x2048) (a5 a6 a7 a8 a9 : A F S2048) (a10 : A F S2048x512)
    (a11 a12 a13 a14 a15 : A F S512) (a16 : A F S512x128) (a17 : A F S128) : A F S1024x128 :=
  addf
    (Host.dotGeneral dot_S1024x512_S512x128_S1024x128_1_0_0_1_n_n none
      (refH2 (refH1 a0 a4 a5 a6 a7 a8 a9) a10 a11 a12 a13 a14 a15) a16)
    (broadcastInDim S1024x128 ![0, 1] bcast_S1x128_S1024x128_0_1 (broadcastInDim S1x128 ![1] bcast_S128_S1x128_1 a17))

end Cert.RefDs

end
-- ==== Proof.GraphRef.lean ====
/-
  The reference program's result is the graph branch and readout applied to the launch contents of its arguments and
  to its own descriptor features.

  The reference's run ends with its result buffer at the composed term of its host operations over the argument
  arrays. That term is, operation for operation, the composition that `graphResult` and `refDs` name: unfolding the
  names on both sides leaves the same term.
-/
import proofs.«157756_j25125558682089_1_alg».proof.Proof.RefRun
import proofs.«157756_j25125558682089_1_alg».proof.Proof.GraphDefs
import proofs.«157756_j25125558682089_1_alg».proof.Proof.RefDs

noncomputable section

namespace Cert.GraphBranch

open Idealize.ShloMosaic Idealize.ShloMosaic.TcCoe
open Cert.ReferenceIdeal

set_option maxRecDepth 8192 in
set_option maxHeartbeats 2000000 in
/-- The reference's result term is `graphResult` of its arguments and of `refDs` of its arguments. -/
theorem ref_result (m' : (ℓ : Loc nD τ sig) → Buf (Elt Ideal) ℓ) (c : Dev nD) :
    Cert.ReferenceIdeal.ValueP.res_main_v148 (F := Ideal) m' c
      = graphResult (F := Ideal) (m' ((c.tc : Thread nD τ).loc main_arg1)) (m' ((c.tc : Thread nD τ).loc main_arg2)) (m' ((c.tc : Thread nD τ).loc main_arg3)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25))
          (Cert.RefDs.refDs (F := Ideal) (m' ((c.tc : Thread nD τ).loc main_arg0)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17))) := by
  unfold Cert.ReferenceIdeal.ValueP.res_main_v148 graphResult nodeFeatures readout graphMean hostLayer3 hostLayer2 hostLayer1
    agg256 agg128 agg1 nbrMean256 nbrMean128 nbrMean1 hasNbr degClamp degreeCol degree srcIdx
    Cert.RefDs.refDs Cert.RefDs.refH2 Cert.RefDs.refH1
  rfl

end Cert.GraphBranch

end
-- ==== Proof.GraphBranch.lean ====
/-
  The two programs' results agree, given the descriptor features agree.

  Run from memories that agree on the argument arrays, the kernel program ends with `graphResult` of its arguments and
  of whatever its third region left as descriptor features, and the reference ends with `graphResult` of its arguments
  and of its own descriptor features `refDs`. So if the kernel's descriptor features are the reference's, the results
  are equal.
-/
import proofs.«157756_j25125558682089_1_alg».proof.Proof.GraphChain
import proofs.«157756_j25125558682089_1_alg».proof.Proof.GraphRef

noncomputable section

namespace Cert.GraphBranch

open Idealize.ShloMosaic Idealize.ShloMosaic.TcCoe
open Cert.KernelIdeal.Gen

/-- Equal arguments and equal descriptor features give equal results. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Outs (F := Ideal)) (c : Dev Cert.KernelIdeal.nD)
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h3 : outs 14 Cert.KernelIdeal.main_v62 c = Cert.Spec.linRelu (φ₁ := .bf16) (φ₂ := .bf16) (φ₃ := .bf16)
      (V13 m outs c Cert.KernelIdeal.main_v60) (V13 m outs c Cert.KernelIdeal.main_v59) (V13 m outs c Cert.KernelIdeal.main_v61))
    (h4 : outs 18 Cert.KernelIdeal.main_v90 c = Cert.Spec.linRelu (φ₁ := .bf16) (φ₂ := .bf16) (φ₃ := .bf16)
      (V17 m outs c Cert.KernelIdeal.main_v88) (V17 m outs c Cert.KernelIdeal.main_v87) (V17 m outs c Cert.KernelIdeal.main_v89))
    (h5 : outs 22 Cert.KernelIdeal.main_v118 c = Cert.Spec.linRelu (φ₁ := .bf16) (φ₂ := .bf16) (φ₃ := .f32)
      (V21 m outs c Cert.KernelIdeal.main_v116) (V21 m outs c Cert.KernelIdeal.main_v115) (V21 m outs c Cert.KernelIdeal.main_v117))
    (hds : V10 m outs c Cert.KernelIdeal.main_v31
      = Cert.RefDs.refDs (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))) :
    V23 m outs c Cert.KernelIdeal.main_v135 = Cert.ReferenceIdeal.ValueP.res_main_v148 (F := Ideal) m' c := by
  rw [ref_result m' c, a1, a2, a3, a18, a19, a20, a21, a22, a23, a24, a25]
  exact kernel_result m outs c _ h3 h4 h5 hds

end Cert.GraphBranch

end
-- ==== Proof.Bridge.lean ====
/-
  The two idealized programs end with equal results.

  Each region's output array is the dense map of its three operand arrays as the region finds them (the value of a
  region, read off its run); with these six equations the kernel program's descriptor branch is the reference's
  descriptor-branch term of the same arguments (the normalisation folded into the weights is the normalisation applied
  afterwards, all entries being real under the precondition), and its graph branch and readout are the reference's, the
  same host operations applied to equal arrays.  The memories of the two programs agree on the arguments, so the
  reference's result term, a function of the arguments only, is the kernel program's final buffer.
-/
import proofs.«157756_j25125558682089_1_alg».proof.Defs
import proofs.«157756_j25125558682089_1_alg».proof.Proof.Regs
import proofs.«157756_j25125558682089_1_alg».proof.Proof.R0Val
import proofs.«157756_j25125558682089_1_alg».proof.Proof.R1Val
import proofs.«157756_j25125558682089_1_alg».proof.Proof.R2Val
import proofs.«157756_j25125558682089_1_alg».proof.Proof.R3Val
import proofs.«157756_j25125558682089_1_alg».proof.Proof.R4Val
import proofs.«157756_j25125558682089_1_alg».proof.Proof.R5Val
import proofs.«157756_j25125558682089_1_alg».proof.Proof.PreFacts
import proofs.«157756_j25125558682089_1_alg».proof.Proof.DescBranch
import proofs.«157756_j25125558682089_1_alg».proof.Proof.GraphBranch

noncomputable section

namespace Cert.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-! ## The six regions' outputs -/

theorem h0 : outsF m 6 main_v25 c
    = Cert.Spec.linRelu (φ₁ := .bf16) (φ₂ := .bf16) (φ₃ := .bf16) (M := 1024) (K := 9600) (N := 2048) (V5 m c main_v22) (V5 m c main_v23) (V5 m c main_v24) :=
  (outsF_6 m c).trans (arr_val0 (Vin0 m) c)

theorem h1 : outsF m 8 main_v28 c
    = Cert.Spec.linRelu (φ₁ := .bf16) (φ₂ := .bf16) (φ₃ := .bf16) (M := 1024) (K := 2048) (N := 512) (V7 m (outsF m) c main_v25) (V7 m (outsF m) c main_v26) (V7 m (outsF m) c main_v27) := by
  rw [V7_stage m c]; exact (outsF_8 m c).trans (arr_val1 (Vin1 m) c)

theorem h2 : outsF m 10 main_v31 c
    = Cert.Spec.lin (φ₁ := .bf16) (φ₂ := .bf16) (φ₃ := .f32) (M := 1024) (K := 512) (N := 128) (V9 m (outsF m) c main_v28) (V9 m (outsF m) c main_v29) (V9 m (outsF m) c main_v30) := by
  rw [V9_stage m c]; exact (outsF_10 m c).trans (arr_val2 (Vin2 m) c)

theorem h3 : outsF m 14 main_v62 c
    = Cert.Spec.linRelu (φ₁ := .bf16) (φ₂ := .bf16) (φ₃ := .bf16) (M := 100000) (K := 1) (N := 128) (V13 m (outsF m) c main_v60) (V13 m (outsF m) c main_v59) (V13 m (outsF m) c main_v61) := by
  rw [V13_stage m c]; exact (outsF_14 m c).trans (arr_val3 (Vin3 m) c)

theorem h4 : outsF m 18 main_v90 c
    = Cert.Spec.linRelu (φ₁ := .bf16) (φ₂ := .bf16) (φ₃ := .bf16) (M := 100000) (K := 128) (N := 256) (V17 m (outsF m) c main_v88) (V17 m (outsF m) c main_v87) (V17 m (outsF m) c main_v89) := by
  rw [V17_stage m c]; exact (outsF_18 m c).trans (arr_val4 (Vin4 m) c)

theorem h5 : outsF m 22 main_v118 c
    = Cert.Spec.linRelu (φ₁ := .bf16) (φ₂ := .bf16) (φ₃ := .f32) (M := 100000) (K := 256) (N := 128) (V21 m (outsF m) c main_v116) (V21 m (outsF m) c main_v115) (V21 m (outsF m) c main_v117) := by
  rw [V21_stage m c]; exact (outsF_22 m c).trans (arr_val5 (Vin5 m) c)

/-! ## The result -/

/-- Under the precondition, from memories that agree on the arguments, the reference's result term is the kernel
    program's final buffer. -/
theorem result_eq (m' : (ℓ : Loc Cert.ReferenceIdeal.nD Cert.ReferenceIdeal.τ Cert.ReferenceIdeal.sig) → Buf (Elt Ideal) ℓ)
    (hpre : Cert.Pre_KernelIdeal m)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)
      ∧ m' ((c.tc : Thread Cert.ReferenceIdeal.nD Cert.ReferenceIdeal.τ).loc Cert.ReferenceIdeal.main_arg22) = m ((c.tc : Thread nD τ).loc main_arg22)
      ∧ m' ((c.tc : Thread Cert.ReferenceIdeal.nD Cert.ReferenceIdeal.τ).loc Cert.ReferenceIdeal.main_arg23) = m ((c.tc : Thread nD τ).loc main_arg23)
      ∧ m' ((c.tc : Thread Cert.ReferenceIdeal.nD Cert.ReferenceIdeal.τ).loc Cert.ReferenceIdeal.main_arg24) = m ((c.tc : Thread nD τ).loc main_arg24)
      ∧ m' ((c.tc : Thread Cert.ReferenceIdeal.nD Cert.ReferenceIdeal.τ).loc Cert.ReferenceIdeal.main_arg25) = m ((c.tc : Thread nD τ).loc main_arg25)) :
    Cert.ReferenceIdeal.ValueP.res_main_v148 (F := Ideal) m' c = V23 m (outsF m) c main_v135 := by
  obtain ⟨r0, r4, r5, r6, r7, r8, r9, r10, r11, r12, r13, r14, r15, r16, r17, r18, r19, r20, r21, r22, r23, r24, r25, n9, n15⟩ :=
    Cert.PreFacts.finite_of_Pre_KernelIdeal m hpre c
  have hds := Cert.DescBranch.ds_h m (outsF m) c (h0 m c) (h1 m c) (h2 m c) r0 r4 r5 r6 r7 r8 r9 n9 r10 r11 r12 r13 r14 r15 n15
  obtain ⟨e0, e1, e2, e3, e4, e5, e6, e7, e8, e9, e10, e11, e12, e13, e14, e15, e16, e17, e18, e19, e20, e21, e22, e23, e24, e25⟩ := hag
  have hds' : V10 m (outsF m) c main_v31
      = Cert.RefDs.refDs (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) := by
    rw [e0, e4, e5, e6, e7, e8, e9, e10, e11, e12, e13, e14, e15, e16, e17]
    exact hds
  exact (Cert.GraphBranch.results_agree m m' (outsF m) c e1 e2 e3 e18 e19 e20 e21 e22 e23 e24 e25 (h3 m c) (h4 m c) (h5 m c) hds').symm

end Cert.Bridge

end
-- ==== Proof.lean ====
/-
  The certificate's proof: the three frames, the (empty) ledger, and the equality of the two idealized programs' results.

  The kernel program computes a model with two branches.  The descriptor branch is three dense layers
  "rows of x times columns of w, plus a bias row" (the first two followed by the positive part), each computed by a
  tiled kernel that accumulates the product block by block along the contracted axis; the batch normalisation of the
  reference is folded into the first two layers' weights and biases beforehand (scale = g · rsqrt(v + ε),
  w' = w · scale, b' = (b − mean) · scale + β).  The graph branch aggregates node features along edges with host
  operations (gather, scatter-add, divide, select) and applies the same tiled kernel after each aggregation; the readout
  averages per graph, joins the two branches and applies one last dense layer on the host.  The reference computes the
  same with plain host operations and the normalisation unfolded.

  Every weakly fair execution of either kernel program terminates with the argument arrays unchanged: the six regions are
  segments of @main's run (their proof data and body obligations are proved region by region), the host stretches between
  them are the generated segments.  On the extended reals the two programs agree because every entry is a real number
  under the precondition (every float input finite, both variances nonnegative, so v + ε > 0 and its inverse square root
  is a positive real): sums of products of reals may be regrouped and a common factor moved across a sum, which is all the
  folding needs; the rest of the two programs is the same operations applied to equal arrays.
-/
import proofs.«157756_j25125558682089_1_alg».proof.Defs
import proofs.«157756_j25125558682089_1_alg».proof.Proof.Gen.Kernel
import proofs.«157756_j25125558682089_1_alg».proof.Proof.Gen.KernelIdeal
import proofs.«157756_j25125558682089_1_alg».proof.Proof.Gen.ReferenceIdeal
import proofs.«157756_j25125558682089_1_alg».proof.Proof.Gen.Pre_finite_inputs
import proofs.«157756_j25125558682089_1_alg».proof.Proof.Regs
import proofs.«157756_j25125558682089_1_alg».proof.Proof.BRegs
import proofs.«157756_j25125558682089_1_alg».proof.Proof.RefRun
import proofs.«157756_j25125558682089_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end with its arguments unchanged. -/
theorem frame_p : Cert.frame_Kernel :=
  fun m ρ _ => Cert.Kernel.Hand.frame (F := Bits) m ρ

/-- So does its idealization. -/
theorem frame_pi : Cert.frame_KernelIdeal :=
  fun m ρ _ => Cert.KernelIdeal.Hand.frame (F := Ideal) m ρ

/-- The reference's frame is its run with the result dropped. -/
theorem frame_ri : Cert.frame_ReferenceIdeal :=
  fun m ρ _ => (θ_run Cert.ReferenceIdeal.defs _ _).mono (fun _ h c => (h c).2) (Cert.ReferenceIdeal.ValueP.run (F := Ideal) m ρ)

/-- The ideal pass rewrote nothing: the ledger is empty. -/
theorem preserves : Cert.preserves_Kernel_KernelIdeal := trivial

/-- Both idealized programs end, the kernel program's result buffer at the contents the host stretches and the regions
    leave in it, the reference's at its result term; the two are equal under the precondition. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m c m' hpre (hagree c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
